-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v62)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v62) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v51) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x4x512x512 : Shape := ⟨4, ![8, 4, 512, 512]⟩
abbrev S4x512x512x3 : Shape := ⟨4, ![4, 512, 512, 3]⟩
abbrev S_ : Shape := ⟨0, ![]⟩

class Facts : Prop where
  bcast_S_S8x4x512x512 : S_.BroadcastsInDim S8x4x512x512 (![] : Fin 0 → Fin S8x4x512x512.rank)
  reducesTo_S8x4x512x512_S_d0_1_2_3 : S8x4x512x512.ReducesTo [0, 1, 2, 3] S_
  h_S_ : 0 < S_.numel
  bcast_S_S4x512x512x3 : S_.BroadcastsInDim S4x512x512x3 (![] : Fin 0 → Fin S4x512x512x3.rank)
  reducesTo_S4x512x512x3_S_d0_1_2_3 : S4x512x512x3.ReducesTo [0, 1, 2, 3] S_

variable [Facts]

def fn {F : FTy → Type} [FloatOps F] (main_arg0 : FVec F S8x4x512x512 .f32) (main_arg1 : IVec S4x512x512x3 32) (main_arg2 : FVec F S4x512x512x3 .f32) : IVec S_ 1 :=
  let main_v0 : FVec F S8x4x512x512 .f32 := Host.absf main_arg0
  let main_cst : FVec F S_ .f32 := constant S_ .f32 0x7F800000#32
  let main_v1 : FVec F S8x4x512x512 .f32 := broadcastInDim S8x4x512x512 ![] bcast_S_S8x4x512x512 main_cst
  let main_v2 : IVec S8x4x512x512 1 := cmpf .olt main_v0 main_v1
  let main_c : IVec S_ 1 := constantI S_ 1 1#1
  let main_v3 : IVec S_ 1 := (fun x v => Host.reduce IntOp.andi x v reducesTo_S8x4x512x512_S_d0_1_2_3 h_S_) main_v2 main_c
  let main_v4 : FVec F S4x512x512x3 .f32 := Host.absf main_arg2
  let main_cst_0 : FVec F S_ .f32 := constant S_ .f32 0x7F800000#32
  let main_v5 : FVec F S4x512x512x3 .f32 := broadcastInDim S4x512x512x3 ![] bcast_S_S4x512x512x3 main_cst_0
  let main_v6 : IVec S4x512x512x3 1 := cmpf .olt main_v4 main_v5
  let main_c_1 : IVec S_ 1 := constantI S_ 1 1#1
  let main_v7 : IVec S_ 1 := (fun x v => Host.reduce IntOp.andi x v reducesTo_S4x512x512x3_S_d0_1_2_3 h_S_) main_v6 main_c_1
  let main_v8 : IVec S_ 1 := andi main_v3 main_v7
  main_v8
-- ==== Kernel.lean ====
abbrev S8x4x512x512 : Shape := ⟨4, ![8, 4, 512, 512]⟩
abbrev S4x512x512x3 : Shape := ⟨4, ![4, 512, 512, 3]⟩
abbrev S3x4x512x512 : Shape := ⟨4, ![3, 4, 512, 512]⟩
abbrev S4x512x512 : Shape := ⟨3, ![4, 512, 512]⟩
abbrev S1x1x512x512 : Shape := ⟨4, ![1, 1, 512, 512]⟩
abbrev S3x1x512x512 : Shape := ⟨4, ![3, 1, 512, 512]⟩
abbrev S1x512x512 : Shape := ⟨3, ![1, 512, 512]⟩
abbrev S512x512 : Shape := ⟨2, ![512, 512]⟩
abbrev S1048576 : Shape := ⟨1, ![1048576]⟩
abbrev S8x1048576 : Shape := ⟨2, ![8, 1048576]⟩
abbrev S_ : Shape := ⟨0, ![]⟩
abbrev S8x6890 : Shape := ⟨2, ![8, 6890]⟩
abbrev S1048576x1 : Shape := ⟨2, ![1048576, 1]⟩

abbrev nBuf : Space → Nat
  | .hbm => 90
  | .vmem => 20
  | .smem => 0
  | _ => 0

abbrev bufTy : (tb : Table) → Fin (tcTables nBuf tb) → BufTy
  | .hbm, ⟨0, _⟩ => ⟨S8x4x512x512, .f32⟩
  | .hbm, ⟨1, _⟩ => ⟨S4x512x512x3, .i32⟩
  | .hbm, ⟨2, _⟩ => ⟨S4x512x512x3, .f32⟩
  | .hbm, ⟨3, _⟩ => ⟨S3x4x512x512, .i32⟩
  | .hbm, ⟨4, _⟩ => ⟨S3x4x512x512, .f32⟩
  | .hbm, ⟨5, _⟩ => ⟨S8x4x512x512, .f32⟩
  | .hbm, ⟨6, _⟩ => ⟨S8x4x512x512, .f32⟩
  | .hbm, ⟨7, _⟩ => ⟨S8x4x512x512, .f32⟩
  | .hbm, ⟨8, _⟩ => ⟨S8x4x512x512, .f32⟩
  | .hbm, ⟨9, _⟩ => ⟨S4x512x512, .i32⟩
  | .hbm, ⟨10, _⟩ => ⟨S4x512x512, .i32⟩
  | .hbm, ⟨11, _⟩ => ⟨S4x512x512, .i32⟩
  | .hbm, ⟨12, _⟩ => ⟨S1048576, .i32⟩
  | .hbm, ⟨13, _⟩ => ⟨S1048576, .i32⟩
  | .hbm, ⟨14, _⟩ => ⟨S1048576, .i32⟩
  | .hbm, ⟨15, _⟩ => ⟨S8x1048576, .f32⟩
  | .hbm, ⟨16, _⟩ => ⟨S8x1048576, .f32⟩
  | .hbm, ⟨17, _⟩ => ⟨S8x1048576, .f32⟩
  | .hbm, ⟨18, _⟩ => ⟨S8x1048576, .f32⟩
  | .hbm, ⟨19, _⟩ => ⟨S_, .f32⟩
  | .hbm, ⟨20, _⟩ => ⟨S8x6890, .f32⟩
  | .hbm, ⟨21, _⟩ => ⟨S_, .i32⟩
  | .hbm, ⟨22, _⟩ => ⟨S1048576, .i32⟩
  | .hbm, ⟨23, _⟩ => ⟨S1048576, .i1⟩
  | .hbm, ⟨24, _⟩ => ⟨S_, .i32⟩
  | .hbm, ⟨25, _⟩ => ⟨S1048576, .i32⟩
  | .hbm, ⟨26, _⟩ => ⟨S1048576, .i32⟩
  | .hbm, ⟨27, _⟩ => ⟨S1048576, .i32⟩
  | .hbm, ⟨28, _⟩ => ⟨S1048576x1, .i32⟩
  | .hbm, ⟨29, _⟩ => ⟨S8x6890, .f32⟩
  | .hbm, ⟨30, _⟩ => ⟨S_, .i32⟩
  | .hbm, ⟨31, _⟩ => ⟨S1048576, .i32⟩
  | .hbm, ⟨32, _⟩ => ⟨S1048576, .i1⟩
  | .hbm, ⟨33, _⟩ => ⟨S_, .i32⟩
  | .hbm, ⟨34, _⟩ => ⟨S1048576, .i32⟩
  | .hbm, ⟨35, _⟩ => ⟨S1048576, .i32⟩
  | .hbm, ⟨36, _⟩ => ⟨S1048576, .i32⟩
  | .hbm, ⟨37, _⟩ => ⟨S1048576x1, .i32⟩
  | .hbm, ⟨38, _⟩ => ⟨S8x6890, .f32⟩
  | .hbm, ⟨39, _⟩ => ⟨S_, .i32⟩
  | .hbm, ⟨40, _⟩ => ⟨S1048576, .i32⟩
  | .hbm, ⟨41, _⟩ => ⟨S1048576, .i1⟩
  | .hbm, ⟨42, _⟩ => ⟨S_, .i32⟩
  | .hbm, ⟨43, _⟩ => ⟨S1048576, .i32⟩
  | .hbm, ⟨44, _⟩ => ⟨S1048576, .i32⟩
  | .hbm, ⟨45, _⟩ => ⟨S1048576, .i32⟩
  | .hbm, ⟨46, _⟩ => ⟨S1048576x1, .i32⟩
  | .hbm, ⟨47, _⟩ => ⟨S8x6890, .f32⟩
  | .hbm, ⟨48, _⟩ => ⟨S_, .i32⟩
  | .hbm, ⟨49, _⟩ => ⟨S1048576, .i32⟩
  | .hbm, ⟨50, _⟩ => ⟨S1048576, .i1⟩
  | .hbm, ⟨51, _⟩ => ⟨S_, .i32⟩
  | .hbm, ⟨52, _⟩ => ⟨S1048576, .i32⟩
  | .hbm, ⟨53, _⟩ => ⟨S1048576, .i32⟩
  | .hbm, ⟨54, _⟩ => ⟨S1048576, .i32⟩
  | .hbm, ⟨55, _⟩ => ⟨S1048576x1, .i32⟩
  | .hbm, ⟨56, _⟩ => ⟨S8x6890, .f32⟩
  | .hbm, ⟨57, _⟩ => ⟨S_, .i32⟩
  | .hbm, ⟨58, _⟩ => ⟨S1048576, .i32⟩
  | .hbm, ⟨59, _⟩ => ⟨S1048576, .i1⟩
  | .hbm, ⟨60, _⟩ => ⟨S_, .i32⟩
  | .hbm, ⟨61, _⟩ => ⟨S1048576, .i32⟩
  | .hbm, ⟨62, _⟩ => ⟨S1048576, .i32⟩
  | .hbm, ⟨63, _⟩ => ⟨S1048576, .i32⟩
  | .hbm, ⟨64, _⟩ => ⟨S1048576x1, .i32⟩
  | .hbm, ⟨65, _⟩ => ⟨S8x6890, .f32⟩
  | .hbm, ⟨66, _⟩ => ⟨S_, .i32⟩
  | .hbm, ⟨67, _⟩ => ⟨S1048576, .i32⟩
  | .hbm, ⟨68, _⟩ => ⟨S1048576, .i1⟩
  | .hbm, ⟨69, _⟩ => ⟨S_, .i32⟩
  | .hbm, ⟨70, _⟩ => ⟨S1048576, .i32⟩
  | .hbm, ⟨71, _⟩ => ⟨S1048576, .i32⟩
  | .hbm, ⟨72, _⟩ => ⟨S1048576, .i32⟩
  | .hbm, ⟨73, _⟩ => ⟨S1048576x1, .i32⟩
  | .hbm, ⟨74, _⟩ => ⟨S8x6890, .f32⟩
  | .hbm, ⟨75, _⟩ => ⟨S_, .f32⟩
  | .hbm, ⟨76, _⟩ => ⟨S8x6890, .f32⟩
  | .hbm, ⟨77, _⟩ => ⟨S8x6890, .i1⟩
  | .hbm, ⟨78, _⟩ => ⟨S_, .f32⟩
  | .hbm, ⟨79, _⟩ => ⟨S8x6890, .f32⟩
  | .hbm, ⟨80, _⟩ => ⟨S8x6890, .f32⟩
  | .hbm, ⟨81, _⟩ => ⟨S_, .f32⟩
  | .hbm, ⟨82, _⟩ => ⟨S8x6890, .f32⟩
  | .hbm, ⟨83, _⟩ => ⟨S8x6890, .i1⟩
  | .hbm, ⟨84, _⟩ => ⟨S8x6890, .f32⟩
  | .hbm, ⟨85, _⟩ => ⟨S8x6890, .f32⟩
  | .hbm, ⟨86, _⟩ => ⟨S_, .f32⟩
  | .hbm, ⟨87, _⟩ => ⟨S8x6890, .f32⟩
  | .hbm, ⟨88, _⟩ => ⟨S8x6890, .i1⟩
  | .hbm, ⟨89, _⟩ => ⟨S8x6890, .f32⟩
  | .local _ .vmem, ⟨0, _⟩ => ⟨S1x1x512x512, .f32⟩
  | .local _ .vmem, ⟨1, _⟩ => ⟨S1x1x512x512, .f32⟩
  | .local _ .vmem, ⟨2, _⟩ => ⟨S3x1x512x512, .i32⟩
  | .local _ .vmem, ⟨3, _⟩ => ⟨S3x1x512x512, .i32⟩
  | .local _ .vmem, ⟨4, _⟩ => ⟨S3x1x512x512, .f32⟩
  | .local _ .vmem, ⟨5, _⟩ => ⟨S3x1x512x512, .f32⟩
  | .local _ .vmem, ⟨6, _⟩ => ⟨S1x1x512x512, .f32⟩
  | .local _ .vmem, ⟨7, _⟩ => ⟨S1x1x512x512, .f32⟩
  | .local _ .vmem, ⟨8, _⟩ => ⟨S1x1x512x512, .f32⟩
  | .local _ .vmem, ⟨9, _⟩ => ⟨S1x1x512x512, .f32⟩
  | .local _ .vmem, ⟨10, _⟩ => ⟨S1x1x512x512, .f32⟩
  | .local _ .vmem, ⟨11, _⟩ => ⟨S1x1x512x512, .f32⟩
  | .local _ .vmem, ⟨12, _⟩ => ⟨S1x1x512x512, .f32⟩
  | .local _ .vmem, ⟨13, _⟩ => ⟨S1x1x512x512, .f32⟩
  | .local _ .vmem, ⟨14, _⟩ => ⟨S1x512x512, .i32⟩
  | .local _ .vmem, ⟨15, _⟩ => ⟨S1x512x512, .i32⟩
  | .local _ .vmem, ⟨16, _⟩ => ⟨S1x512x512, .i32⟩
  | .local _ .vmem, ⟨17, _⟩ => ⟨S1x512x512, .i32⟩
  | .local _ .vmem, ⟨18, _⟩ => ⟨S1x512x512, .i32⟩
  | .local _ .vmem, ⟨19, _⟩ => ⟨S1x512x512, .i32⟩
  | _, _ => ⟨S8x4x512x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2_0 : Ref sig .tc := ⟨.hbm, 5, rfl⟩
abbrev main_v2_1 : Ref sig .tc := ⟨.hbm, 6, rfl⟩
abbrev main_v2_2 : Ref sig .tc := ⟨.hbm, 7, rfl⟩
abbrev main_v2_3 : Ref sig .tc := ⟨.hbm, 8, rfl⟩
abbrev main_v2_4 : Ref sig .tc := ⟨.hbm, 9, rfl⟩
abbrev main_v2_5 : Ref sig .tc := ⟨.hbm, 10, rfl⟩
abbrev main_v2_6 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst : Ref sig .tc := ⟨.hbm, 19, rfl⟩
abbrev main_v10 : Ref sig .tc := ⟨.hbm, 20, rfl⟩
abbrev main_c : Ref sig .tc := ⟨.hbm, 21, rfl⟩
abbrev main_v11 : Ref sig .tc := ⟨.hbm, 22, rfl⟩
abbrev main_v12 : Ref sig .tc := ⟨.hbm, 23, rfl⟩
abbrev main_c_0 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_c_1 : Ref sig .tc := ⟨.hbm, 30, rfl⟩
abbrev main_v18 : Ref sig .tc := ⟨.hbm, 31, rfl⟩
abbrev main_v19 : Ref sig .tc := ⟨.hbm, 32, rfl⟩
abbrev main_c_2 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_c_3 : Ref sig .tc := ⟨.hbm, 39, rfl⟩
abbrev main_v25 : Ref sig .tc := ⟨.hbm, 40, rfl⟩
abbrev main_v26 : Ref sig .tc := ⟨.hbm, 41, rfl⟩
abbrev main_c_4 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_c_5 : Ref sig .tc := ⟨.hbm, 48, rfl⟩
abbrev main_v32 : Ref sig .tc := ⟨.hbm, 49, rfl⟩
abbrev main_v33 : Ref sig .tc := ⟨.hbm, 50, rfl⟩
abbrev main_c_6 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_c_7 : Ref sig .tc := ⟨.hbm, 57, rfl⟩
abbrev main_v39 : Ref sig .tc := ⟨.hbm, 58, rfl⟩
abbrev main_v40 : Ref sig .tc := ⟨.hbm, 59, rfl⟩
abbrev main_c_8 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_c_9 : Ref sig .tc := ⟨.hbm, 66, rfl⟩
abbrev main_v46 : Ref sig .tc := ⟨.hbm, 67, rfl⟩
abbrev main_v47 : Ref sig .tc := ⟨.hbm, 68, rfl⟩
abbrev main_c_10 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_cst_11 : Ref sig .tc := ⟨.hbm, 75, rfl⟩
abbrev main_v53 : Ref sig .tc := ⟨.hbm, 76, rfl⟩
abbrev main_v54 : Ref sig .tc := ⟨.hbm, 77, rfl⟩
abbrev main_cst_12 : Ref sig .tc := ⟨.hbm, 78, rfl⟩
abbrev main_call0_v0 : Ref sig .tc := ⟨.hbm, 79, rfl⟩
abbrev main_v55 : Ref sig .tc := ⟨.hbm, 80, rfl⟩
abbrev main_cst_13 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_cst_14 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19

abbrev nD : Nat := 1
abbrev τ : Topo := Topo.v7x

variable {F : FTy → Type} [FloatOps F]

abbrev grid0 : Pipeline.Grid := ⟨2, ![4, 8], ![false, false]⟩

def k0_cond1 (i : grid0.Coords) : BitVec 1 :=
  let arg1 : BitVec 32 := BitVec.ofNat 32 (i 1).val
  let c0_i32_45 : BitVec 32 := 0#32
  let v51 : BitVec 1 := Scalar.cmpi .eq arg1 c0_i32_45
  let v52 : BitVec 32 := Scalar.extui v51
  let c0_i32_46 : BitVec 32 := 0#32
  let v53 : BitVec 1 := Scalar.cmpi .ne v52 c0_i32_46
  v53

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, arg0.toNat, c0_i32.toNat, c0_i32_0.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, arg0.toNat, c0_i32.toNat, c0_i32_0.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, arg0.toNat, c0_i32.toNat, c0_i32_0.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, arg0.toNat, c0_i32.toNat, c0_i32_0.toNat]

def cc0_transform_6 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, arg0.toNat, c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1x512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S3x1x512x512 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S3x1x512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1x512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1x512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x1x512x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x512x512 .i32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S1x512x512 .i32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S1x512x512 .i32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

class Facts₀ : Prop where
  transposes_S4x512x512x3_S3x4x512x512_3_0_1_2 : S4x512x512x3.Transposes [3, 0, 1, 2] S3x4x512x512
  inb_S3x1x512x512_S1x1x512x512_0_0_0_0 : ∀ a, (![0, 0, 0, 0] : Fin 4 → Nat) a + S1x1x512x512.size a ≤ S3x1x512x512.size a
  h_S1x1x512x512 : 0 < S1x1x512x512.numel
  shapeCasts_S1x1x512x512_S512x512 : S1x1x512x512.ShapeCasts S512x512
  inb_S3x1x512x512_S1x1x512x512_1_0_0_0 : ∀ a, (![1, 0, 0, 0] : Fin 4 → Nat) a + S1x1x512x512.size a ≤ S3x1x512x512.size a
  inb_S3x1x512x512_S1x1x512x512_2_0_0_0 : ∀ a, (![2, 0, 0, 0] : Fin 4 → Nat) a + S1x1x512x512.size a ≤ S3x1x512x512.size a
  inb_S1x1x512x512_S1x1x512x512_0_0_0_0 : ∀ a, (![0, 0, 0, 0] : Fin 4 → Nat) a + S1x1x512x512.size a ≤ S1x1x512x512.size a
  natLt_1_32 : 1 < 32
  shapeCasts_S512x512_S1x1x512x512 : S512x512.ShapeCasts S1x1x512x512
  inb_S1x512x512_S1x512x512_0_0_0 : ∀ a, (![0, 0, 0] : Fin 3 → Nat) a + S1x512x512.size a ≤ S1x512x512.size a
  h_S1x512x512 : 0 < S1x512x512.numel
  shapeCasts_S1x512x512_S512x512 : S1x512x512.ShapeCasts S512x512
  shapeCasts_S512x512_S1x512x512 : S512x512.ShapeCasts S1x512x512
  shapeCasts_S4x512x512_S1048576 : S4x512x512.ShapeCasts S1048576
  shapeCasts_S8x4x512x512_S8x1048576 : S8x4x512x512.ShapeCasts S8x1048576
  bcast_S_S8x6890 : S_.BroadcastsInDim S8x6890 (![] : Fin 0 → Fin S8x6890.rank)
  bcast_S_S1048576 : S_.BroadcastsInDim S1048576 (![] : Fin 0 → Fin S1048576.rank)
  bcast_S1048576_S1048576x1_0 : S1048576.BroadcastsInDim S1048576x1 (![0] : Fin 1 → Fin S1048576x1.rank)
  scatter_S8x6890_S1048576x1_S8x1048576_0_1_1_1_wf : ScatterDims.WF S8x6890 S1048576x1 S8x1048576 [0] [1] [1] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1x512x512.size a ≤ S8x4x512x512.size a
  hwx0_0 : ∀ i : grid0.Coords, EltTy.bits .f32 = 32 ∨ (Rect.block (s := S8x4x512x512) S1x1x512x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S3x1x512x512.size a ≤ S3x4x512x512.size a
  hwx0_1 : ∀ i : grid0.Coords, EltTy.bits .i32 = 32 ∨ (Rect.block (s := S3x4x512x512) S3x1x512x512.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S3x1x512x512.size a ≤ S3x4x512x512.size a
  hwx0_2 : ∀ i : grid0.Coords, EltTy.bits .f32 = 32 ∨ (Rect.block (s := S3x4x512x512) S3x1x512x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x512x512.size a ≤ S8x4x512x512.size a
  hwx0_3 : ∀ i : grid0.Coords, EltTy.bits .f32 = 32 ∨ (Rect.block (s := S8x4x512x512) S1x1x512x512.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1x512x512.size a ≤ S8x4x512x512.size a
  hwx0_4 : ∀ i : grid0.Coords, EltTy.bits .f32 = 32 ∨ (Rect.block (s := S8x4x512x512) S1x1x512x512.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x1x512x512.size a ≤ S8x4x512x512.size a
  hwx0_5 : ∀ i : grid0.Coords, EltTy.bits .f32 = 32 ∨ (Rect.block (s := S8x4x512x512) S1x1x512x512.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x1x512x512.size a ≤ S8x4x512x512.size a
  hwx0_6 : ∀ i : grid0.Coords, EltTy.bits .f32 = 32 ∨ (Rect.block (s := S8x4x512x512) S1x1x512x512.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1x512x512.size a ≤ S4x512x512.size a
  hwx0_7 : ∀ i : grid0.Coords, EltTy.bits .i32 = 32 ∨ (Rect.block (s := S4x512x512) S1x512x512.size (cc0_transform_7 i) (hinb0_7 i)).WholeWords (EltTy.packing .i32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S1x512x512.size a ≤ S4x512x512.size a
  hwx0_8 : ∀ i : grid0.Coords, EltTy.bits .i32 = 32 ∨ (Rect.block (s := S4x512x512) S1x512x512.size (cc0_transform_8 i) (hinb0_8 i)).WholeWords (EltTy.packing .i32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S1x512x512.size a ≤ S4x512x512.size a
  hwx0_9 : ∀ i : grid0.Coords, EltTy.bits .i32 = 32 ∨ (Rect.block (s := S4x512x512) S1x512x512.size (cc0_transform_9 i) (hinb0_9 i)).WholeWords (EltTy.packing .i32)

variable [Facts₀]

def scatter_S8x6890_S1048576x1_S8x1048576_0_1_1_1 : ScatterDims S8x6890 S1048576x1 S8x1048576 where
  updateWindowDims := [0]
  insertedWindowDims := [1]
  scatterDimsToOperandDims := [1]
  indexVectorDim := 1
  wf := scatter_S8x6890_S1048576x1_S8x1048576_0_1_1_1_wf

abbrev win0_0 : Pipeline.Window sig grid0 :=
  Pipeline.Window.ofSpec (Memref.whole main_arg0) S1x1x512x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S3x1x512x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S3x1x512x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v2_0) S1x1x512x512.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v2_1) S1x1x512x512.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v2_2) S1x1x512x512.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v2_3) S1x1x512x512.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v2_4) S1x512x512.size cc0_transform_7 reads0_7 true false 2 stage0_7 sem0_7
    hrank0 hreads0_7 hinb0_7 nbuf0_7 (Memref.isWhole_whole _) hwx0_7 hstage0_7

abbrev win0_8 : Pipeline.Window sig grid0 :=
  Pipeline.Window.ofSpec (Memref.whole main_v2_5) S1x512x512.size cc0_transform_8 reads0_8 true false 2 stage0_8 sem0_8
    hrank0 hreads0_8 hinb0_8 nbuf0_8 (Memref.isWhole_whole _) hwx0_8 hstage0_8

abbrev win0_9 : Pipeline.Window sig grid0 :=
  Pipeline.Window.ofSpec (Memref.whole main_v2_6) S1x512x512.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

abbrev idle0 : Fin 10 → grid0.Coords → Bool := fun | 0 => fun _ => false | 1 => fun _ => false | 2 => fun _ => false | 3 => fun _ => false | 4 => fun _ => false | 5 => fun _ => false | 6 => fun _ => false | 7 => fun i => !(k0_cond1 i == 1#1) | 8 => fun i => !(k0_cond1 i == 1#1) | 9 => fun i => !(k0_cond1 i == 1#1) | ⟨_ + 10, h⟩ => absurd h (Nat.not_lt.2 (Nat.le_add_left _ _))

class Facts : Prop extends Facts₀ where

variable [Facts]
-- ==== ReferenceIdeal.lean ====
abbrev S8x4x512x512 : Shape := ⟨4, ![8, 4, 512, 512]⟩
abbrev S4x512x512x3 : Shape := ⟨4, ![4, 512, 512, 3]⟩
abbrev S_ : Shape := ⟨0, ![]⟩
abbrev S4x512x512 : Shape := ⟨3, ![4, 512, 512]⟩
abbrev S1x4x512x512 : Shape := ⟨4, ![1, 4, 512, 512]⟩
abbrev S1x4x512x512x3 : Shape := ⟨5, ![1, 4, 512, 512, 3]⟩
abbrev S8x4x512x512x1 : Shape := ⟨5, ![8, 4, 512, 512, 1]⟩
abbrev S8x4x512x512x3 : Shape := ⟨5, ![8, 4, 512, 512, 3]⟩
abbrev S4x512x512x1 : Shape := ⟨4, ![4, 512, 512, 1]⟩
abbrev S3145728 : Shape := ⟨1, ![3145728]⟩
abbrev S8x3145728 : Shape := ⟨2, ![8, 3145728]⟩
abbrev S6890 : Shape := ⟨1, ![6890]⟩
abbrev S3145728x1 : Shape := ⟨2, ![3145728, 1]⟩
abbrev S8x6890 : Shape := ⟨2, ![8, 6890]⟩

abbrev nBuf : Space → Nat
  | .hbm => 74
  | .vmem => 0
  | .smem => 0
  | _ => 0

abbrev bufTy : (tb : Table) → Fin (tcTables nBuf tb) → BufTy
  | .hbm, ⟨0, _⟩ => ⟨S8x4x512x512, .f32⟩
  | .hbm, ⟨1, _⟩ => ⟨S4x512x512x3, .i32⟩
  | .hbm, ⟨2, _⟩ => ⟨S4x512x512x3, .f32⟩
  | .hbm, ⟨3, _⟩ => ⟨S_, .i32⟩
  | .hbm, ⟨4, _⟩ => ⟨S4x512x512x3, .i32⟩
  | .hbm, ⟨5, _⟩ => ⟨S4x512x512x3, .i1⟩
  | .hbm, ⟨6, _⟩ => ⟨S_, .i32⟩
  | .hbm, ⟨7, _⟩ => ⟨S4x512x512x3, .i32⟩
  | .hbm, ⟨8, _⟩ => ⟨S4x512x512x3, .i1⟩
  | .hbm, ⟨9, _⟩ => ⟨S4x512x512x3, .i1⟩
  | .hbm, ⟨10, _⟩ => ⟨S_, .i1⟩
  | .hbm, ⟨11, _⟩ => ⟨S4x512x512, .i1⟩
  | .hbm, ⟨12, _⟩ => ⟨S_, .f32⟩
  | .hbm, ⟨13, _⟩ => ⟨S8x4x512x512, .f32⟩
  | .hbm, ⟨14, _⟩ => ⟨S8x4x512x512, .i1⟩
  | .hbm, ⟨15, _⟩ => ⟨S1x4x512x512, .i1⟩
  | .hbm, ⟨16, _⟩ => ⟨S8x4x512x512, .i1⟩
  | .hbm, ⟨17, _⟩ => ⟨S8x4x512x512, .i1⟩
  | .hbm, ⟨18, _⟩ => ⟨S8x4x512x512, .f32⟩
  | .hbm, ⟨19, _⟩ => ⟨S1x4x512x512x3, .f32⟩
  | .hbm, ⟨20, _⟩ => ⟨S8x4x512x512x1, .f32⟩
  | .hbm, ⟨21, _⟩ => ⟨S8x4x512x512x3, .f32⟩
  | .hbm, ⟨22, _⟩ => ⟨S8x4x512x512x3, .f32⟩
  | .hbm, ⟨23, _⟩ => ⟨S8x4x512x512x3, .f32⟩
  | .hbm, ⟨24, _⟩ => ⟨S8x4x512x512x1, .f32⟩
  | .hbm, ⟨25, _⟩ => ⟨S8x4x512x512x3, .f32⟩
  | .hbm, ⟨26, _⟩ => ⟨S4x512x512x1, .i1⟩
  | .hbm, ⟨27, _⟩ => ⟨S_, .i32⟩
  | .hbm, ⟨28, _⟩ => ⟨S_, .i32⟩
  | .hbm, ⟨29, _⟩ => ⟨S4x512x512x3, .i1⟩
  | .hbm, ⟨30, _⟩ => ⟨S4x512x512x3, .i32⟩
  | .hbm, ⟨31, _⟩ => ⟨S4x512x512x3, .i32⟩
  | .hbm, ⟨32, _⟩ => ⟨S3145728, .i32⟩
  | .hbm, ⟨33, _⟩ => ⟨S8x3145728, .f32⟩
  | .hbm, ⟨34, _⟩ => ⟨S8x3145728, .f32⟩
  | .hbm, ⟨35, _⟩ => ⟨S_, .f32⟩
  | .hbm, ⟨36, _⟩ => ⟨S6890, .f32⟩
  | .hbm, ⟨37, _⟩ => ⟨S_, .i32⟩
  | .hbm, ⟨38, _⟩ => ⟨S3145728, .i32⟩
  | .hbm, ⟨39, _⟩ => ⟨S3145728, .i1⟩
  | .hbm, ⟨40, _⟩ => ⟨S_, .i32⟩
  | .hbm, ⟨41, _⟩ => ⟨S3145728, .i32⟩
  | .hbm, ⟨42, _⟩ => ⟨S3145728, .i32⟩
  | .hbm, ⟨43, _⟩ => ⟨S3145728, .i32⟩
  | .hbm, ⟨44, _⟩ => ⟨S3145728x1, .i32⟩
  | .hbm, ⟨45, _⟩ => ⟨S8x6890, .f32⟩
  | .hbm, ⟨46, _⟩ => ⟨S8x6890, .f32⟩
  | .hbm, ⟨47, _⟩ => ⟨S_, .f32⟩
  | .hbm, ⟨48, _⟩ => ⟨S6890, .f32⟩
  | .hbm, ⟨49, _⟩ => ⟨S_, .i32⟩
  | .hbm, ⟨50, _⟩ => ⟨S3145728, .i32⟩
  | .hbm, ⟨51, _⟩ => ⟨S3145728, .i1⟩
  | .hbm, ⟨52, _⟩ => ⟨S_, .i32⟩
  | .hbm, ⟨53, _⟩ => ⟨S3145728, .i32⟩
  | .hbm, ⟨54, _⟩ => ⟨S3145728, .i32⟩
  | .hbm, ⟨55, _⟩ => ⟨S3145728, .i32⟩
  | .hbm, ⟨56, _⟩ => ⟨S3145728x1, .i32⟩
  | .hbm, ⟨57, _⟩ => ⟨S8x6890, .f32⟩
  | .hbm, ⟨58, _⟩ => ⟨S8x6890, .f32⟩
  | .hbm, ⟨59, _⟩ => ⟨S_, .f32⟩
  | .hbm, ⟨60, _⟩ => ⟨S8x6890, .f32⟩
  | .hbm, ⟨61, _⟩ => ⟨S8x6890, .i1⟩
  | .hbm, ⟨62, _⟩ => ⟨S_, .f32⟩
  | .hbm, ⟨63, _⟩ => ⟨S8x6890, .f32⟩
  | .hbm, ⟨64, _⟩ => ⟨S8x6890, .f32⟩
  | .hbm, ⟨65, _⟩ => ⟨S_, .f32⟩
  | .hbm, ⟨66, _⟩ => ⟨S8x6890, .f32⟩
  | .hbm, ⟨67, _⟩ => ⟨S8x6890, .i1⟩
  | .hbm, ⟨68, _⟩ => ⟨S8x6890, .f32⟩
  | .hbm, ⟨69, _⟩ => ⟨S8x6890, .f32⟩
  | .hbm, ⟨70, _⟩ => ⟨S_, .f32⟩
  | .hbm, ⟨71, _⟩ => ⟨S8x6890, .f32⟩
  | .hbm, ⟨72, _⟩ => ⟨S8x6890, .i1⟩
  | .hbm, ⟨73, _⟩ => ⟨S8x6890, .f32⟩
  | _, _ => ⟨S8x4x512x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_v0 : Ref sig .tc := ⟨.hbm, 4, rfl⟩
abbrev main_v1 : Ref sig .tc := ⟨.hbm, 5, rfl⟩
abbrev main_c_0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_c_1 : Ref sig .tc := ⟨.hbm, 10, rfl⟩
abbrev main_v5 : Ref sig .tc := ⟨.hbm, 11, rfl⟩
abbrev main_cst : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_c_2 : Ref sig .tc := ⟨.hbm, 27, rfl⟩
abbrev main_call0_v0 : Ref sig .tc := ⟨.hbm, 28, rfl⟩
abbrev main_call0_v1 : Ref sig .tc := ⟨.hbm, 29, rfl⟩
abbrev main_call0_v2 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_cst_3 : Ref sig .tc := ⟨.hbm, 35, rfl⟩
abbrev main_v24 : Ref sig .tc := ⟨.hbm, 36, rfl⟩
abbrev main_c_4 : Ref sig .tc := ⟨.hbm, 37, rfl⟩
abbrev main_v25 : Ref sig .tc := ⟨.hbm, 38, rfl⟩
abbrev main_v26 : Ref sig .tc := ⟨.hbm, 39, rfl⟩
abbrev main_c_5 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_cst_6 : Ref sig .tc := ⟨.hbm, 47, rfl⟩
abbrev main_v33 : Ref sig .tc := ⟨.hbm, 48, rfl⟩
abbrev main_c_7 : Ref sig .tc := ⟨.hbm, 49, rfl⟩
abbrev main_v34 : Ref sig .tc := ⟨.hbm, 50, rfl⟩
abbrev main_v35 : Ref sig .tc := ⟨.hbm, 51, rfl⟩
abbrev main_c_8 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_cst_9 : Ref sig .tc := ⟨.hbm, 59, rfl⟩
abbrev main_v42 : Ref sig .tc := ⟨.hbm, 60, rfl⟩
abbrev main_v43 : Ref sig .tc := ⟨.hbm, 61, rfl⟩
abbrev main_cst_10 : Ref sig .tc := ⟨.hbm, 62, rfl⟩
abbrev main_call1_v0 : Ref sig .tc := ⟨.hbm, 63, rfl⟩
abbrev main_v44 : Ref sig .tc := ⟨.hbm, 64, rfl⟩
abbrev main_cst_11 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_cst_12 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩

abbrev nD : Nat := 1
abbrev τ : Topo := Topo.v7x

variable {F : FTy → Type} [FloatOps F]

class Facts₀ : Prop where
  bcast_S_S4x512x512x3 : S_.BroadcastsInDim S4x512x512x3 (![] : Fin 0 → Fin S4x512x512x3.rank)
  reducesTo_S4x512x512x3_S4x512x512_d3 : S4x512x512x3.ReducesTo [3] S4x512x512
  h_S_ : 0 < S_.numel
  bcast_S_S8x4x512x512 : S_.BroadcastsInDim S8x4x512x512 (![] : Fin 0 → Fin S8x4x512x512.rank)
  bcast_S4x512x512_S1x4x512x512_1_2_3 : S4x512x512.BroadcastsInDim S1x4x512x512 (![1, 2, 3] : Fin 3 → Fin S1x4x512x512.rank)
  bcast_S1x4x512x512_S8x4x512x512_0_1_2_3 : S1x4x512x512.BroadcastsInDim S8x4x512x512 (![0, 1, 2, 3] : Fin 4 → Fin S8x4x512x512.rank)
  bcast_S4x512x512x3_S1x4x512x512x3_1_2_3_4 : S4x512x512x3.BroadcastsInDim S1x4x512x512x3 (![1, 2, 3, 4] : Fin 4 → Fin S1x4x512x512x3.rank)
  bcast_S8x4x512x512_S8x4x512x512x1_0_1_2_3 : S8x4x512x512.BroadcastsInDim S8x4x512x512x1 (![0, 1, 2, 3] : Fin 4 → Fin S8x4x512x512x1.rank)
  bcast_S1x4x512x512x3_S8x4x512x512x3_0_1_2_3_4 : S1x4x512x512x3.BroadcastsInDim S8x4x512x512x3 (![0, 1, 2, 3, 4] : Fin 5 → Fin S8x4x512x512x3.rank)
  bcast_S8x4x512x512x1_S8x4x512x512x3_0_1_2_3_4 : S8x4x512x512x1.BroadcastsInDim S8x4x512x512x3 (![0, 1, 2, 3, 4] : Fin 5 → Fin S8x4x512x512x3.rank)
  bcast_S4x512x512_S4x512x512x1_0_1_2 : S4x512x512.BroadcastsInDim S4x512x512x1 (![0, 1, 2] : Fin 3 → Fin S4x512x512x1.rank)
  bcast_S4x512x512x1_S4x512x512x3_0_1_2_3 : S4x512x512x1.BroadcastsInDim S4x512x512x3 (![0, 1, 2, 3] : Fin 4 → Fin S4x512x512x3.rank)
  shapeCasts_S4x512x512x3_S3145728 : S4x512x512x3.ShapeCasts S3145728
  shapeCasts_S8x4x512x512x3_S8x3145728 : S8x4x512x512x3.ShapeCasts S8x3145728
  bcast_S_S6890 : S_.BroadcastsInDim S6890 (![] : Fin 0 → Fin S6890.rank)
  bcast_S_S3145728 : S_.BroadcastsInDim S3145728 (![] : Fin 0 → Fin S3145728.rank)
  bcast_S3145728_S3145728x1_0 : S3145728.BroadcastsInDim S3145728x1 (![0] : Fin 1 → Fin S3145728x1.rank)
  bcast_S6890_S8x6890_1 : S6890.BroadcastsInDim S8x6890 (![1] : Fin 1 → Fin S8x6890.rank)
  bcast_S_S8x6890 : S_.BroadcastsInDim S8x6890 (![] : Fin 0 → Fin S8x6890.rank)
  scatter_S8x6890_S3145728x1_S8x3145728_0_1_1_1_wf : ScatterDims.WF S8x6890 S3145728x1 S8x3145728 [0] [1] [1] 1

variable [Facts₀]

def scatter_S8x6890_S3145728x1_S8x3145728_0_1_1_1 : ScatterDims S8x6890 S3145728x1 S8x3145728 where
  updateWindowDims := [0]
  insertedWindowDims := [1]
  scatterDimsToOperandDims := [1]
  indexVectorDim := 1
  wf := scatter_S8x6890_S3145728x1_S8x3145728_0_1_1_1_wf

class Facts : Prop extends Facts₀ where

variable [Facts]
-- ==== Proof.KernelCond.lean ====
import proofs.«153110_j51737176048098_1_alg».proof.Proof.Gen.Kernel.Launch
import proofs.«153110_j51737176048098_1_alg».proof.Proof.Gen.Kernel.Skeleton
import proofs.«153110_j51737176048098_1_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! ## The body's one branch

The body stores the three clamped index blocks only where the second grid coordinate (the batch index, the
fastest axis) is zero. Over the 4 × 8 grid, enumerated row-major, these are the points whose position is a
multiple of eight. -/

/-- The branch condition as the kernel computes it from the grid coordinates. -/
abbrev cond0_0 (i : grid0.Coords) : Prop := k0_cond1 i = 1#1

/-- It holds exactly at the first point of each group of eight (batch index zero). -/
theorem hcond0_0 : ∀ t : Fin cfg0.N, cond0_0 (grid0.coords t) ↔ t.val % 8 = 0 :=
  (by decide +kernel : ∀ t : Fin grid0.N, cond0_0 (grid0.coords t) ↔ t.val % 8 = 0)

end Cert.Kernel.Hand

end
-- ==== Proof.KernelRunA.lean ====
import proofs.«153110_j51737176048098_1_alg».proof.Proof.KernelCond

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The body where the batch index is zero: on whole staging buffers — the three inputs' at given contents, the
    seven outputs' at anything — it runs to its end, leaves the inputs as they were and each output's buffer with
    the pieces its one store wrote. -/
noncomputable def kernelRun0_A (c : Dev nD) (i : grid0.Coords) (arg2 : Memref sig .tc .vmem S1x1x512x512 .f32) (harg2 : arg2.IsWhole) (arg3 : Memref sig .tc .vmem S3x1x512x512 .i32) (harg3 : arg3.IsWhole) (arg4 : Memref sig .tc .vmem S3x1x512x512 .f32) (harg4 : arg4.IsWhole) (arg5 : Memref sig .tc .vmem S1x1x512x512 .f32) (harg5 : arg5.IsWhole) (arg6 : Memref sig .tc .vmem S1x1x512x512 .f32) (harg6 : arg6.IsWhole) (arg7 : Memref sig .tc .vmem S1x1x512x512 .f32) (harg7 : arg7.IsWhole) (arg8 : Memref sig .tc .vmem S1x1x512x512 .f32) (harg8 : arg8.IsWhole) (arg9 : Memref sig .tc .vmem S1x512x512 .i32) (harg9 : arg9.IsWhole) (arg10 : Memref sig .tc .vmem S1x512x512 .i32) (harg10 : arg10.IsWhole) (arg11 : Memref sig .tc .vmem S1x512x512 .i32) (harg11 : arg11.IsWhole) (hc0 : cond0_0 i)
    (x0 : Vec F S1x1x512x512 .f32) (x1 : Vec F S3x1x512x512 .i32) (x2 : Vec F S3x1x512x512 .f32) :
    Σ' (L3 : List (View.Piece (Elt F) S1x1x512x512 .f32)) (L4 : List (View.Piece (Elt F) S1x1x512x512 .f32)) (L5 : List (View.Piece (Elt F) S1x1x512x512 .f32)) (L6 : List (View.Piece (Elt F) S1x1x512x512 .f32)) (L7 : List (View.Piece (Elt F) S1x512x512 .i32)) (L8 : List (View.Piece (Elt F) S1x512x512 .i32)), { L9 : List (View.Piece (Elt F) S1x512x512 .i32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d)
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f L5) ∗ (∃ f, arg8.view.loc (c : Thread nD τ) ↦[arg8.view.set]{fullShare} arg8.view.writes (Elt F) f L6) ∗ (∃ f, arg9.view.loc (c : Thread nD τ) ↦[arg9.view.set]{fullShare} arg9.view.writes (Elt F) f L7) ∗ (∃ f, arg10.view.loc (c : Thread nD τ) ↦[arg10.view.set]{fullShare} arg10.view.writes (Elt F) f L8) ∗ (∃ f, arg11.view.loc (c : Thread nD τ) ↦[arg11.view.set]{fullShare} arg11.view.writes (Elt F) f L9)) -∗ K ⟨⟩))
          ⊢ wp frame (wpE (defs₀ (F := F)) Variants.none c none) E (cc0__prep_kernel i arg2 harg2 arg3 harg3 arg4 harg4 arg5 harg5 arg6 harg6 arg7 harg7 arg8 harg8 arg9 harg9 arg10 harg10 arg11 harg11) K } := by
  refine ⟨?_, ?_, ?_, ?_, ?_, ?_, ?_, fun E K => ?run⟩
  case run =>
    simp only [cc0__prep_kernel_eq_skeleton]; unfold cc0__prep_kernel_skel
    simp only [k0_part1_eq_skeleton]
    unfold owns
    iintro ⟨⟨%f0, %hf0, H0⟩, ⟨%f1, %hf1, H1⟩, ⟨%f2, %hf2, H2⟩, ⟨%d3, %f3, -, H3⟩, ⟨%d4, %f4, -, H4⟩, ⟨%d5, %f5, -, H5⟩, ⟨%d6, %f6, -, H6⟩, ⟨%d7, %f7, -, H7⟩, ⟨%d8, %f8, -, H8⟩, ⟨%d9, %f9, -, H9⟩, Hk⟩
    obtain rfl := harg2.eq_unread hf0; obtain rfl := harg3.eq_unread hf1; obtain rfl := harg4.eq_unread hf2
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    isplitl [H4]; · iexists _; iexact H4
    isplitl [H5]; · iexists _; iexact H5
    isplitl [H6]; · iexists _; iexact H6
    isplitl [H7]; · iexists _; iexact H7
    isplitl [H8]; · iexists _; iexact H8
    iexists _; iexact H9

end Cert.Kernel.Hand

end
-- ==== Proof.KernelRunB.lean ====
import proofs.«153110_j51737176048098_1_alg».proof.Proof.KernelRunA

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The body where the batch index is not zero: it stores the mask and the three weighted blocks, and does not touch
    the three index buffers, which it hands back at the contents it was given. -/
noncomputable def kernelRun0_B (c : Dev nD) (i : grid0.Coords) (arg2 : Memref sig .tc .vmem S1x1x512x512 .f32) (harg2 : arg2.IsWhole) (arg3 : Memref sig .tc .vmem S3x1x512x512 .i32) (harg3 : arg3.IsWhole) (arg4 : Memref sig .tc .vmem S3x1x512x512 .f32) (harg4 : arg4.IsWhole) (arg5 : Memref sig .tc .vmem S1x1x512x512 .f32) (harg5 : arg5.IsWhole) (arg6 : Memref sig .tc .vmem S1x1x512x512 .f32) (harg6 : arg6.IsWhole) (arg7 : Memref sig .tc .vmem S1x1x512x512 .f32) (harg7 : arg7.IsWhole) (arg8 : Memref sig .tc .vmem S1x1x512x512 .f32) (harg8 : arg8.IsWhole) (arg9 : Memref sig .tc .vmem S1x512x512 .i32) (harg9 : arg9.IsWhole) (arg10 : Memref sig .tc .vmem S1x512x512 .i32) (harg10 : arg10.IsWhole) (arg11 : Memref sig .tc .vmem S1x512x512 .i32) (harg11 : arg11.IsWhole) (hc0 : ¬cond0_0 i)
    (x0 : Vec F S1x1x512x512 .f32) (x1 : Vec F S3x1x512x512 .i32) (x2 : Vec F S3x1x512x512 .f32) :
    Σ' (L3 : List (View.Piece (Elt F) S1x1x512x512 .f32)) (L4 : List (View.Piece (Elt F) S1x1x512x512 .f32)) (L5 : List (View.Piece (Elt F) S1x1x512x512 .f32)), { L6 : List (View.Piece (Elt F) S1x1x512x512 .f32) //
      ∀ (xi7 xi8 xi9 : Vec F S1x512x512 .i32) (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ owns (c : Thread nD τ) arg9 fullShare xi7 ∗ owns (c : Thread nD τ) arg10 fullShare xi8 ∗ owns (c : Thread nD τ) arg11 fullShare xi9
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f L5) ∗ (∃ f, arg8.view.loc (c : Thread nD τ) ↦[arg8.view.set]{fullShare} arg8.view.writes (Elt F) f L6) ∗ owns (c : Thread nD τ) arg9 fullShare xi7 ∗ owns (c : Thread nD τ) arg10 fullShare xi8 ∗ owns (c : Thread nD τ) arg11 fullShare xi9) -∗ K ⟨⟩))
          ⊢ wp frame (wpE (defs₀ (F := F)) Variants.none c none) E (cc0__prep_kernel i arg2 harg2 arg3 harg3 arg4 harg4 arg5 harg5 arg6 harg6 arg7 harg7 arg8 harg8 arg9 harg9 arg10 harg10 arg11 harg11) K } := by
  refine ⟨?_, ?_, ?_, ?_, fun xi7 xi8 xi9 E K => ?run⟩
  case run =>
    simp only [cc0__prep_kernel_eq_skeleton]; unfold cc0__prep_kernel_skel
    simp only [k0_part1_eq_skeleton]
    unfold owns
    iintro ⟨⟨%f0, %hf0, H0⟩, ⟨%f1, %hf1, H1⟩, ⟨%f2, %hf2, H2⟩, ⟨%d3, %f3, -, H3⟩, ⟨%d4, %f4, -, H4⟩, ⟨%d5, %f5, -, H5⟩, ⟨%d6, %f6, -, H6⟩, ⟨%f7, %hf7, H7⟩, ⟨%f8, %hf8, H8⟩, ⟨%f9, %hf9, H9⟩, Hk⟩
    obtain rfl := harg2.eq_unread hf0; obtain rfl := harg3.eq_unread hf1; obtain rfl := harg4.eq_unread hf2
    obtain rfl := harg9.eq_unread hf7; obtain rfl := harg10.eq_unread hf8; obtain rfl := harg11.eq_unread hf9
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    isplitl [H4]; · iexists _; iexact H4
    isplitl [H5]; · iexists _; iexact H5
    isplitl [H6]; · iexists _; iexact H6
    isplitl [H7]
    · iexists _; isplitr; · ipureintro; exact harg9.read_unread _
      iexact H7
    isplitl [H8]
    · iexists _; isplitr; · ipureintro; exact harg10.read_unread _
      iexact H8
    iexists _; isplitr; · ipureintro; exact harg11.read_unread _
    iexact H9

end Cert.Kernel.Hand

end
-- ==== Proof.KernelHost.lean ====
import proofs.«153110_j51737176048098_1_alg».proof.Proof.KernelCond

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The host program around the region

Before the region the host transposes the index map and the weight map so that the coordinate axis of extent
three leads; after it come the reshapes, the six accumulating scatters, the guarded quotient and the final
threshold: seventy-eight lines in five stretches, none of which writes an array the region stages. -/

/-- The TensorCore buffers when the region is entered: the launch contents after the two transposes. -/
abbrev V0 (c : Dev nD) : Valuation τ sig (Elt F) := StableHlo.after (List.flatten [hostOps0]) (fun b => m (c, b))
/-- The same read at a TensorCore reference. -/
abbrev V (c : Dev nD) (b : Ref sig .tc) : Buf (Elt F) ((c : Thread nD τ).loc b) := V0 m c (Proc.devRef .tc b)

/-- The stretches of host lines after the region, in order. -/
abbrev tailOps : List (List (HloOp τ sig (Elt F))) := [hostOps1, hostOps1_1, hostOps1_2, hostOps1_3, hostOps1_4]

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
theorem hostOps1_1_fresh : (hostOps1_1 : List (HloOp τ sig (Elt F))).Forall fun op => op.fresh = ∅ := by
  simp only [List.Forall]; repeat' constructor
theorem hostOps1_2_fresh : (hostOps1_2 : List (HloOp τ sig (Elt F))).Forall fun op => op.fresh = ∅ := by
  simp only [List.Forall]; repeat' constructor
theorem hostOps1_3_fresh : (hostOps1_3 : List (HloOp τ sig (Elt F))).Forall fun op => op.fresh = ∅ := by
  simp only [List.Forall]; repeat' constructor
theorem hostOps1_4_fresh : (hostOps1_4 : List (HloOp τ sig (Elt F))).Forall fun op => op.fresh = ∅ := by
  simp only [List.Forall]; repeat' constructor

/-- The entry function is: the transposes, the region, then the later stretches. -/
theorem hmain (𝒱₀ : Variants) : Pipeline.HMainK (Ix := Unit) (Name := ℕ) (U := UR sig nD τ) (Lvl := ℕ) cfgs 0 defs₀ 𝒱₀ m (main (F := F)) (V m)
      (fun _ => Pipeline.chain ((tailOps (F := F)).map StableHlo.seq)) :=
  Pipeline.hmain_around cfgs 0 defs₀ 𝒱₀ m main [hostOps0] tailOps (by simp only [List.Forall]; exact hostOps0_sub)
    (by simp only [List.Forall]; exact hostOps0_fresh) main_chain

/-- The later lines touch unscoped TensorCore buffers only. -/
theorem sfx_sub : ∀ ops ∈ (tailOps : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [tailOps, List.mem_cons, List.mem_nil_iff, or_false] at hops
  rcases hops with rfl | rfl | rfl | rfl | rfl
  · exact Pipeline.sub_ucRefs op ((List.forall_iff_forall_mem.mp hostOps1_sub) op hop)
  · exact Pipeline.sub_ucRefs op ((List.forall_iff_forall_mem.mp hostOps1_1_sub) op hop)
  · exact Pipeline.sub_ucRefs op ((List.forall_iff_forall_mem.mp hostOps1_2_sub) op hop)
  · exact Pipeline.sub_ucRefs op ((List.forall_iff_forall_mem.mp hostOps1_3_sub) op hop)
  · exact Pipeline.sub_ucRefs op ((List.forall_iff_forall_mem.mp hostOps1_4_sub) op hop)

/-- They allocate nothing. -/
theorem sfx_fresh : ∀ ops ∈ (tailOps : List (List (HloOp τ sig (Elt F)))), ∀ op ∈ ops, op.fresh = ∅ := by
  intro ops hops op hop
  simp only [tailOps, List.mem_cons, List.mem_nil_iff, or_false] at hops
  rcases hops with rfl | rfl | rfl | rfl | rfl
  · exact (List.forall_iff_forall_mem.mp hostOps1_fresh) op hop
  · exact (List.forall_iff_forall_mem.mp hostOps1_1_fresh) op hop
  · exact (List.forall_iff_forall_mem.mp hostOps1_2_fresh) op hop
  · exact (List.forall_iff_forall_mem.mp hostOps1_3_fresh) op hop
  · exact (List.forall_iff_forall_mem.mp hostOps1_4_fresh) op hop

set_option maxHeartbeats 16000000 in
theorem hostOps1_keeps : (hostOps1 : List (HloOp τ sig (Elt F))).Forall fun op => ∀ w, Proc.devRef .tc (Pipeline.arrRef spec0 w) ∉ op.writes := by
  simp only [List.Forall]
  repeat' apply And.intro
  all_goals intro w; fin_cases w <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)
theorem hostOps1_1_keeps : (hostOps1_1 : List (HloOp τ sig (Elt F))).Forall fun op => ∀ w, Proc.devRef .tc (Pipeline.arrRef spec0 w) ∉ op.writes := by
  simp only [List.Forall]
  repeat' apply And.intro
  all_goals intro w; fin_cases w <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)
theorem hostOps1_2_keeps : (hostOps1_2 : List (HloOp τ sig (Elt F))).Forall fun op => ∀ w, Proc.devRef .tc (Pipeline.arrRef spec0 w) ∉ op.writes := by
  simp only [List.Forall]
  repeat' apply And.intro
  all_goals intro w; fin_cases w <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)
theorem hostOps1_3_keeps : (hostOps1_3 : List (HloOp τ sig (Elt F))).Forall fun op => ∀ w, Proc.devRef .tc (Pipeline.arrRef spec0 w) ∉ op.writes := by
  simp only [List.Forall]
  repeat' apply And.intro
  all_goals intro w; fin_cases w <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)
theorem hostOps1_4_keeps : (hostOps1_4 : List (HloOp τ sig (Elt F))).Forall fun op => ∀ w, Proc.devRef .tc (Pipeline.arrRef spec0 w) ∉ op.writes := by
  simp only [List.Forall]
  repeat' apply And.intro
  all_goals intro w; fin_cases w <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)

/-- And each writes only its own result buffer, which is no array the region stages. -/
theorem sfx_keeps : ∀ ops ∈ (tailOps : List (List (HloOp τ sig (Elt F)))), ∀ op ∈ ops,
    ∀ w, Proc.devRef .tc (Pipeline.arrRef spec0 w) ∉ op.writes := by
  intro ops hops op hop
  simp only [tailOps, List.mem_cons, List.mem_nil_iff, or_false] at hops
  rcases hops with rfl | rfl | rfl | rfl | rfl
  · exact (List.forall_iff_forall_mem.mp hostOps1_keeps) op hop
  · exact (List.forall_iff_forall_mem.mp hostOps1_1_keeps) op hop
  · exact (List.forall_iff_forall_mem.mp hostOps1_2_keeps) op hop
  · exact (List.forall_iff_forall_mem.mp hostOps1_3_keeps) op hop
  · exact (List.forall_iff_forall_mem.mp hostOps1_4_keeps) op hop

/-- No host line before the region writes argument 0: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps1, hostOps1_1, hostOps1_2, hostOps1_3, hostOps1_4, tailOps, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- No host line before the region writes argument 1: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps1, hostOps1_1, hostOps1_2, hostOps1_3, hostOps1_4, tailOps, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- No host line before the region writes argument 2: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, hostOps1, hostOps1_1, hostOps1_2, hostOps1_3, hostOps1_4, tailOps, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- No host line after the region writes argument 1, and it is no array of the pipeline: it ends as launched. -/
theorem W_main_arg1 (dats : (p : Fin _) → (c : Dev nD) → Dat τ (Elt F) Unit ℕ (UR sig nD τ) ℕ (cfgs p) c) (c : Dev nD) :
    Pipeline.afterTail₀ cfgs dats 0 (V0 m) tailOps c main_arg1 = m ((c : Thread nD τ).loc main_arg1) := by
  unfold Pipeline.afterTail₀
  rw [StableHlo.after_of_forall_not_mem (b := Proc.devRef .tc main_arg1) _ _ (List.forall_iff_forall_mem.mp (by
    simp only [hostOps0, hostOps1, hostOps1_1, hostOps1_2, hostOps1_3, hostOps1_4, tailOps, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide))),
    Pipeline.withArrays_of_ne _ c (V0 m c) _ main_arg1 (by exact (by decide : ∀ w, Pipeline.arrRef spec0 w ≠ main_arg1))]
  exact V_main_arg1 m c

/-- No host line after the region writes argument 2, and it is no array of the pipeline: it ends as launched. -/
theorem W_main_arg2 (dats : (p : Fin _) → (c : Dev nD) → Dat τ (Elt F) Unit ℕ (UR sig nD τ) ℕ (cfgs p) c) (c : Dev nD) :
    Pipeline.afterTail₀ cfgs dats 0 (V0 m) tailOps c main_arg2 = m ((c : Thread nD τ).loc main_arg2) := by
  unfold Pipeline.afterTail₀
  rw [StableHlo.after_of_forall_not_mem (b := Proc.devRef .tc main_arg2) _ _ (List.forall_iff_forall_mem.mp (by
    simp only [hostOps0, hostOps1, hostOps1_1, hostOps1_2, hostOps1_3, hostOps1_4, tailOps, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide))),
    Pipeline.withArrays_of_ne _ c (V0 m c) _ main_arg2 (by exact (by decide : ∀ w, Pipeline.arrRef spec0 w ≠ main_arg2))]
  exact V_main_arg2 m c

end Cert.Kernel.Hand

end
-- ==== Proof.KernelFrame.lean ====
import proofs.«153110_j51737176048098_1_alg».proof.Proof.KernelRunB
import proofs.«153110_j51737176048098_1_alg».proof.Proof.KernelHost

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The windows' blocks and staging buffers -/

/-- A window's block at a grid point, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! Each input's current staging buffer holds its block at every point, fetched there or not: the two maps are
fetched once per group of eight points and their block index does not move within a group. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

abbrev ms0_0 (t : Fin cfg0.N) : Memref sig .tc .vmem S1x1x512x512 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S3x1x512x512 .i32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S3x1x512x512 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x1x512x512 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x1x512x512 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x1x512x512 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x1x512x512 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1x512x512 .i32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S1x512x512 .i32 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S1x512x512 .i32 := win0_9.stage (cfg0.slots t 9)
abbrev hs0_9 (t : Fin cfg0.N) : (ms0_9 t).IsWhole := hstage0_9 ((cfg0.slots t 9).cast nbuf0_9)
abbrev VO0_3 : View sig .tc .vmem S1x1x512x512 .f32 := (Memref.whole cc0_stg3_0 : Memref sig .tc .vmem S1x1x512x512 .f32).view
abbrev VO0_4 : View sig .tc .vmem S1x1x512x512 .f32 := (Memref.whole cc0_stg4_0 : Memref sig .tc .vmem S1x1x512x512 .f32).view
abbrev VO0_5 : View sig .tc .vmem S1x1x512x512 .f32 := (Memref.whole cc0_stg5_0 : Memref sig .tc .vmem S1x1x512x512 .f32).view
abbrev VO0_6 : View sig .tc .vmem S1x1x512x512 .f32 := (Memref.whole cc0_stg6_0 : Memref sig .tc .vmem S1x1x512x512 .f32).view
abbrev VO0_7 : View sig .tc .vmem S1x512x512 .i32 := (Memref.whole cc0_stg7_0 : Memref sig .tc .vmem S1x512x512 .i32).view
abbrev VO0_8 : View sig .tc .vmem S1x512x512 .i32 := (Memref.whole cc0_stg8_0 : Memref sig .tc .vmem S1x512x512 .i32).view
abbrev VO0_9 : View sig .tc .vmem S1x512x512 .i32 := (Memref.whole cc0_stg9_0 : Memref sig .tc .vmem S1x512x512 .i32).view

theorem liveAt0_0 : ∀ t : Fin cfg0.N, cfg0.idle 0 (grid0.coords t) = false := fun _ => rfl
theorem liveAt0_1 : ∀ t : Fin cfg0.N, cfg0.idle 1 (grid0.coords t) = false := fun _ => rfl
theorem liveAt0_2 : ∀ t : Fin cfg0.N, cfg0.idle 2 (grid0.coords t) = false := fun _ => rfl
theorem liveAt0_3 : ∀ t : Fin cfg0.N, cfg0.idle 3 (grid0.coords t) = false := fun _ => rfl
theorem liveAt0_4 : ∀ t : Fin cfg0.N, cfg0.idle 4 (grid0.coords t) = false := fun _ => rfl
theorem liveAt0_5 : ∀ t : Fin cfg0.N, cfg0.idle 5 (grid0.coords t) = false := fun _ => rfl
theorem liveAt0_6 : ∀ t : Fin cfg0.N, cfg0.idle 6 (grid0.coords t) = false := fun _ => rfl
theorem liveAt0_7_A : ∀ t : Fin cfg0.N, cond0_0 (grid0.coords t) → cfg0.idle 7 (grid0.coords t) = false := by decide +kernel
theorem idleAt0_7_B : ∀ t : Fin cfg0.N, ¬cond0_0 (grid0.coords t) → cfg0.idle 7 (grid0.coords t) = true := by decide +kernel
theorem liveAt0_8_A : ∀ t : Fin cfg0.N, cond0_0 (grid0.coords t) → cfg0.idle 8 (grid0.coords t) = false := by decide +kernel
theorem idleAt0_8_B : ∀ t : Fin cfg0.N, ¬cond0_0 (grid0.coords t) → cfg0.idle 8 (grid0.coords t) = true := by decide +kernel
theorem liveAt0_9_A : ∀ t : Fin cfg0.N, cond0_0 (grid0.coords t) → cfg0.idle 9 (grid0.coords t) = false := by decide +kernel
theorem idleAt0_9_B : ∀ t : Fin cfg0.N, ¬cond0_0 (grid0.coords t) → cfg0.idle 9 (grid0.coords t) = true := by decide +kernel

/-! ## What each case leaves in the outputs' buffers -/
theorem cover0_A_3 (c : Dev nD) (i : grid0.Coords) (arg2 : Memref sig .tc .vmem S1x1x512x512 .f32) (harg2 : arg2.IsWhole) (arg3 : Memref sig .tc .vmem S3x1x512x512 .i32) (harg3 : arg3.IsWhole) (arg4 : Memref sig .tc .vmem S3x1x512x512 .f32) (harg4 : arg4.IsWhole) (arg5 : Memref sig .tc .vmem S1x1x512x512 .f32) (harg5 : arg5.IsWhole) (arg6 : Memref sig .tc .vmem S1x1x512x512 .f32) (harg6 : arg6.IsWhole) (arg7 : Memref sig .tc .vmem S1x1x512x512 .f32) (harg7 : arg7.IsWhole) (arg8 : Memref sig .tc .vmem S1x1x512x512 .f32) (harg8 : arg8.IsWhole) (arg9 : Memref sig .tc .vmem S1x512x512 .i32) (harg9 : arg9.IsWhole) (arg10 : Memref sig .tc .vmem S1x512x512 .i32) (harg10 : arg10.IsWhole) (arg11 : Memref sig .tc .vmem S1x512x512 .i32) (harg11 : arg11.IsWhole) (hc0 : cond0_0 i) (x0 : Vec F S1x1x512x512 .f32) (x1 : Vec F S3x1x512x512 .i32) (x2 : Vec F S3x1x512x512 .f32) (y : S1x1x512x512.Idx) :
    ∃ pc ∈ (kernelRun0_A c i arg2 harg2 arg3 harg3 arg4 harg4 arg5 harg5 arg6 harg6 arg7 harg7 arg8 harg8 arg9 harg9 arg10 harg10 arg11 harg11 hc0 x0 x1 x2).1, y ∈ pc.1.set :=
  View.cover_of_tiledL (kernelRun0_A c i arg2 harg2 arg3 harg3 arg4 harg4 arg5 harg5 arg6 harg6 arg7 harg7 arg8 harg8 arg9 harg9 arg10 harg10 arg11 harg11 hc0 x0 x1 x2).1 S1x1x512x512.size (by sl_kernel_rfl) y
def out0_A_3 (c : Dev nD) (i : grid0.Coords) (arg2 : Memref sig .tc .vmem S1x1x512x512 .f32) (harg2 : arg2.IsWhole) (arg3 : Memref sig .tc .vmem S3x1x512x512 .i32) (harg3 : arg3.IsWhole) (arg4 : Memref sig .tc .vmem S3x1x512x512 .f32) (harg4 : arg4.IsWhole) (arg5 : Memref sig .tc .vmem S1x1x512x512 .f32) (harg5 : arg5.IsWhole) (arg6 : Memref sig .tc .vmem S1x1x512x512 .f32) (harg6 : arg6.IsWhole) (arg7 : Memref sig .tc .vmem S1x1x512x512 .f32) (harg7 : arg7.IsWhole) (arg8 : Memref sig .tc .vmem S1x1x512x512 .f32) (harg8 : arg8.IsWhole) (arg9 : Memref sig .tc .vmem S1x512x512 .i32) (harg9 : arg9.IsWhole) (arg10 : Memref sig .tc .vmem S1x512x512 .i32) (harg10 : arg10.IsWhole) (arg11 : Memref sig .tc .vmem S1x512x512 .i32) (harg11 : arg11.IsWhole) (hc0 : cond0_0 i) (x0 : Vec F S1x1x512x512 .f32) (x1 : Vec F S3x1x512x512 .i32) (x2 : Vec F S3x1x512x512 .f32) : Vec F S1x1x512x512 .f32 :=
  VO0_3.read (Elt F) (VO0_3.writes (Elt F) VO0_3.junk (kernelRun0_A c i arg2 harg2 arg3 harg3 arg4 harg4 arg5 harg5 arg6 harg6 arg7 harg7 arg8 harg8 arg9 harg9 arg10 harg10 arg11 harg11 hc0 x0 x1 x2).1)
theorem cover0_A_4 (c : Dev nD) (i : grid0.Coords) (arg2 : Memref sig .tc .vmem S1x1x512x512 .f32) (harg2 : arg2.IsWhole) (arg3 : Memref sig .tc .vmem S3x1x512x512 .i32) (harg3 : arg3.IsWhole) (arg4 : Memref sig .tc .vmem S3x1x512x512 .f32) (harg4 : arg4.IsWhole) (arg5 : Memref sig .tc .vmem S1x1x512x512 .f32) (harg5 : arg5.IsWhole) (arg6 : Memref sig .tc .vmem S1x1x512x512 .f32) (harg6 : arg6.IsWhole) (arg7 : Memref sig .tc .vmem S1x1x512x512 .f32) (harg7 : arg7.IsWhole) (arg8 : Memref sig .tc .vmem S1x1x512x512 .f32) (harg8 : arg8.IsWhole) (arg9 : Memref sig .tc .vmem S1x512x512 .i32) (harg9 : arg9.IsWhole) (arg10 : Memref sig .tc .vmem S1x512x512 .i32) (harg10 : arg10.IsWhole) (arg11 : Memref sig .tc .vmem S1x512x512 .i32) (harg11 : arg11.IsWhole) (hc0 : cond0_0 i) (x0 : Vec F S1x1x512x512 .f32) (x1 : Vec F S3x1x512x512 .i32) (x2 : Vec F S3x1x512x512 .f32) (y : S1x1x512x512.Idx) :
    ∃ pc ∈ (kernelRun0_A c i arg2 harg2 arg3 harg3 arg4 harg4 arg5 harg5 arg6 harg6 arg7 harg7 arg8 harg8 arg9 harg9 arg10 harg10 arg11 harg11 hc0 x0 x1 x2).2.1, y ∈ pc.1.set :=
  View.cover_of_tiledL (kernelRun0_A c i arg2 harg2 arg3 harg3 arg4 harg4 arg5 harg5 arg6 harg6 arg7 harg7 arg8 harg8 arg9 harg9 arg10 harg10 arg11 harg11 hc0 x0 x1 x2).2.1 S1x1x512x512.size (by sl_kernel_rfl) y
def out0_A_4 (c : Dev nD) (i : grid0.Coords) (arg2 : Memref sig .tc .vmem S1x1x512x512 .f32) (harg2 : arg2.IsWhole) (arg3 : Memref sig .tc .vmem S3x1x512x512 .i32) (harg3 : arg3.IsWhole) (arg4 : Memref sig .tc .vmem S3x1x512x512 .f32) (harg4 : arg4.IsWhole) (arg5 : Memref sig .tc .vmem S1x1x512x512 .f32) (harg5 : arg5.IsWhole) (arg6 : Memref sig .tc .vmem S1x1x512x512 .f32) (harg6 : arg6.IsWhole) (arg7 : Memref sig .tc .vmem S1x1x512x512 .f32) (harg7 : arg7.IsWhole) (arg8 : Memref sig .tc .vmem S1x1x512x512 .f32) (harg8 : arg8.IsWhole) (arg9 : Memref sig .tc .vmem S1x512x512 .i32) (harg9 : arg9.IsWhole) (arg10 : Memref sig .tc .vmem S1x512x512 .i32) (harg10 : arg10.IsWhole) (arg11 : Memref sig .tc .vmem S1x512x512 .i32) (harg11 : arg11.IsWhole) (hc0 : cond0_0 i) (x0 : Vec F S1x1x512x512 .f32) (x1 : Vec F S3x1x512x512 .i32) (x2 : Vec F S3x1x512x512 .f32) : Vec F S1x1x512x512 .f32 :=
  VO0_4.read (Elt F) (VO0_4.writes (Elt F) VO0_4.junk (kernelRun0_A c i arg2 harg2 arg3 harg3 arg4 harg4 arg5 harg5 arg6 harg6 arg7 harg7 arg8 harg8 arg9 harg9 arg10 harg10 arg11 harg11 hc0 x0 x1 x2).2.1)
theorem cover0_A_5 (c : Dev nD) (i : grid0.Coords) (arg2 : Memref sig .tc .vmem S1x1x512x512 .f32) (harg2 : arg2.IsWhole) (arg3 : Memref sig .tc .vmem S3x1x512x512 .i32) (harg3 : arg3.IsWhole) (arg4 : Memref sig .tc .vmem S3x1x512x512 .f32) (harg4 : arg4.IsWhole) (arg5 : Memref sig .tc .vmem S1x1x512x512 .f32) (harg5 : arg5.IsWhole) (arg6 : Memref sig .tc .vmem S1x1x512x512 .f32) (harg6 : arg6.IsWhole) (arg7 : Memref sig .tc .vmem S1x1x512x512 .f32) (harg7 : arg7.IsWhole) (arg8 : Memref sig .tc .vmem S1x1x512x512 .f32) (harg8 : arg8.IsWhole) (arg9 : Memref sig .tc .vmem S1x512x512 .i32) (harg9 : arg9.IsWhole) (arg10 : Memref sig .tc .vmem S1x512x512 .i32) (harg10 : arg10.IsWhole) (arg11 : Memref sig .tc .vmem S1x512x512 .i32) (harg11 : arg11.IsWhole) (hc0 : cond0_0 i) (x0 : Vec F S1x1x512x512 .f32) (x1 : Vec F S3x1x512x512 .i32) (x2 : Vec F S3x1x512x512 .f32) (y : S1x1x512x512.Idx) :
    ∃ pc ∈ (kernelRun0_A c i arg2 harg2 arg3 harg3 arg4 harg4 arg5 harg5 arg6 harg6 arg7 harg7 arg8 harg8 arg9 harg9 arg10 harg10 arg11 harg11 hc0 x0 x1 x2).2.2.1, y ∈ pc.1.set :=
  View.cover_of_tiledL (kernelRun0_A c i arg2 harg2 arg3 harg3 arg4 harg4 arg5 harg5 arg6 harg6 arg7 harg7 arg8 harg8 arg9 harg9 arg10 harg10 arg11 harg11 hc0 x0 x1 x2).2.2.1 S1x1x512x512.size (by sl_kernel_rfl) y
def out0_A_5 (c : Dev nD) (i : grid0.Coords) (arg2 : Memref sig .tc .vmem S1x1x512x512 .f32) (harg2 : arg2.IsWhole) (arg3 : Memref sig .tc .vmem S3x1x512x512 .i32) (harg3 : arg3.IsWhole) (arg4 : Memref sig .tc .vmem S3x1x512x512 .f32) (harg4 : arg4.IsWhole) (arg5 : Memref sig .tc .vmem S1x1x512x512 .f32) (harg5 : arg5.IsWhole) (arg6 : Memref sig .tc .vmem S1x1x512x512 .f32) (harg6 : arg6.IsWhole) (arg7 : Memref sig .tc .vmem S1x1x512x512 .f32) (harg7 : arg7.IsWhole) (arg8 : Memref sig .tc .vmem S1x1x512x512 .f32) (harg8 : arg8.IsWhole) (arg9 : Memref sig .tc .vmem S1x512x512 .i32) (harg9 : arg9.IsWhole) (arg10 : Memref sig .tc .vmem S1x512x512 .i32) (harg10 : arg10.IsWhole) (arg11 : Memref sig .tc .vmem S1x512x512 .i32) (harg11 : arg11.IsWhole) (hc0 : cond0_0 i) (x0 : Vec F S1x1x512x512 .f32) (x1 : Vec F S3x1x512x512 .i32) (x2 : Vec F S3x1x512x512 .f32) : Vec F S1x1x512x512 .f32 :=
  VO0_5.read (Elt F) (VO0_5.writes (Elt F) VO0_5.junk (kernelRun0_A c i arg2 harg2 arg3 harg3 arg4 harg4 arg5 harg5 arg6 harg6 arg7 harg7 arg8 harg8 arg9 harg9 arg10 harg10 arg11 harg11 hc0 x0 x1 x2).2.2.1)
theorem cover0_A_6 (c : Dev nD) (i : grid0.Coords) (arg2 : Memref sig .tc .vmem S1x1x512x512 .f32) (harg2 : arg2.IsWhole) (arg3 : Memref sig .tc .vmem S3x1x512x512 .i32) (harg3 : arg3.IsWhole) (arg4 : Memref sig .tc .vmem S3x1x512x512 .f32) (harg4 : arg4.IsWhole) (arg5 : Memref sig .tc .vmem S1x1x512x512 .f32) (harg5 : arg5.IsWhole) (arg6 : Memref sig .tc .vmem S1x1x512x512 .f32) (harg6 : arg6.IsWhole) (arg7 : Memref sig .tc .vmem S1x1x512x512 .f32) (harg7 : arg7.IsWhole) (arg8 : Memref sig .tc .vmem S1x1x512x512 .f32) (harg8 : arg8.IsWhole) (arg9 : Memref sig .tc .vmem S1x512x512 .i32) (harg9 : arg9.IsWhole) (arg10 : Memref sig .tc .vmem S1x512x512 .i32) (harg10 : arg10.IsWhole) (arg11 : Memref sig .tc .vmem S1x512x512 .i32) (harg11 : arg11.IsWhole) (hc0 : cond0_0 i) (x0 : Vec F S1x1x512x512 .f32) (x1 : Vec F S3x1x512x512 .i32) (x2 : Vec F S3x1x512x512 .f32) (y : S1x1x512x512.Idx) :
    ∃ pc ∈ (kernelRun0_A c i arg2 harg2 arg3 harg3 arg4 harg4 arg5 harg5 arg6 harg6 arg7 harg7 arg8 harg8 arg9 harg9 arg10 harg10 arg11 harg11 hc0 x0 x1 x2).2.2.2.1, y ∈ pc.1.set :=
  View.cover_of_tiledL (kernelRun0_A c i arg2 harg2 arg3 harg3 arg4 harg4 arg5 harg5 arg6 harg6 arg7 harg7 arg8 harg8 arg9 harg9 arg10 harg10 arg11 harg11 hc0 x0 x1 x2).2.2.2.1 S1x1x512x512.size (by sl_kernel_rfl) y
def out0_A_6 (c : Dev nD) (i : grid0.Coords) (arg2 : Memref sig .tc .vmem S1x1x512x512 .f32) (harg2 : arg2.IsWhole) (arg3 : Memref sig .tc .vmem S3x1x512x512 .i32) (harg3 : arg3.IsWhole) (arg4 : Memref sig .tc .vmem S3x1x512x512 .f32) (harg4 : arg4.IsWhole) (arg5 : Memref sig .tc .vmem S1x1x512x512 .f32) (harg5 : arg5.IsWhole) (arg6 : Memref sig .tc .vmem S1x1x512x512 .f32) (harg6 : arg6.IsWhole) (arg7 : Memref sig .tc .vmem S1x1x512x512 .f32) (harg7 : arg7.IsWhole) (arg8 : Memref sig .tc .vmem S1x1x512x512 .f32) (harg8 : arg8.IsWhole) (arg9 : Memref sig .tc .vmem S1x512x512 .i32) (harg9 : arg9.IsWhole) (arg10 : Memref sig .tc .vmem S1x512x512 .i32) (harg10 : arg10.IsWhole) (arg11 : Memref sig .tc .vmem S1x512x512 .i32) (harg11 : arg11.IsWhole) (hc0 : cond0_0 i) (x0 : Vec F S1x1x512x512 .f32) (x1 : Vec F S3x1x512x512 .i32) (x2 : Vec F S3x1x512x512 .f32) : Vec F S1x1x512x512 .f32 :=
  VO0_6.read (Elt F) (VO0_6.writes (Elt F) VO0_6.junk (kernelRun0_A c i arg2 harg2 arg3 harg3 arg4 harg4 arg5 harg5 arg6 harg6 arg7 harg7 arg8 harg8 arg9 harg9 arg10 harg10 arg11 harg11 hc0 x0 x1 x2).2.2.2.1)
theorem cover0_A_7 (c : Dev nD) (i : grid0.Coords) (arg2 : Memref sig .tc .vmem S1x1x512x512 .f32) (harg2 : arg2.IsWhole) (arg3 : Memref sig .tc .vmem S3x1x512x512 .i32) (harg3 : arg3.IsWhole) (arg4 : Memref sig .tc .vmem S3x1x512x512 .f32) (harg4 : arg4.IsWhole) (arg5 : Memref sig .tc .vmem S1x1x512x512 .f32) (harg5 : arg5.IsWhole) (arg6 : Memref sig .tc .vmem S1x1x512x512 .f32) (harg6 : arg6.IsWhole) (arg7 : Memref sig .tc .vmem S1x1x512x512 .f32) (harg7 : arg7.IsWhole) (arg8 : Memref sig .tc .vmem S1x1x512x512 .f32) (harg8 : arg8.IsWhole) (arg9 : Memref sig .tc .vmem S1x512x512 .i32) (harg9 : arg9.IsWhole) (arg10 : Memref sig .tc .vmem S1x512x512 .i32) (harg10 : arg10.IsWhole) (arg11 : Memref sig .tc .vmem S1x512x512 .i32) (harg11 : arg11.IsWhole) (hc0 : cond0_0 i) (x0 : Vec F S1x1x512x512 .f32) (x1 : Vec F S3x1x512x512 .i32) (x2 : Vec F S3x1x512x512 .f32) (y : S1x512x512.Idx) :
    ∃ pc ∈ (kernelRun0_A c i arg2 harg2 arg3 harg3 arg4 harg4 arg5 harg5 arg6 harg6 arg7 harg7 arg8 harg8 arg9 harg9 arg10 harg10 arg11 harg11 hc0 x0 x1 x2).2.2.2.2.1, y ∈ pc.1.set :=
  View.cover_of_tiledL (kernelRun0_A c i arg2 harg2 arg3 harg3 arg4 harg4 arg5 harg5 arg6 harg6 arg7 harg7 arg8 harg8 arg9 harg9 arg10 harg10 arg11 harg11 hc0 x0 x1 x2).2.2.2.2.1 S1x512x512.size (by sl_kernel_rfl) y
def out0_A_7 (c : Dev nD) (i : grid0.Coords) (arg2 : Memref sig .tc .vmem S1x1x512x512 .f32) (harg2 : arg2.IsWhole) (arg3 : Memref sig .tc .vmem S3x1x512x512 .i32) (harg3 : arg3.IsWhole) (arg4 : Memref sig .tc .vmem S3x1x512x512 .f32) (harg4 : arg4.IsWhole) (arg5 : Memref sig .tc .vmem S1x1x512x512 .f32) (harg5 : arg5.IsWhole) (arg6 : Memref sig .tc .vmem S1x1x512x512 .f32) (harg6 : arg6.IsWhole) (arg7 : Memref sig .tc .vmem S1x1x512x512 .f32) (harg7 : arg7.IsWhole) (arg8 : Memref sig .tc .vmem S1x1x512x512 .f32) (harg8 : arg8.IsWhole) (arg9 : Memref sig .tc .vmem S1x512x512 .i32) (harg9 : arg9.IsWhole) (arg10 : Memref sig .tc .vmem S1x512x512 .i32) (harg10 : arg10.IsWhole) (arg11 : Memref sig .tc .vmem S1x512x512 .i32) (harg11 : arg11.IsWhole) (hc0 : cond0_0 i) (x0 : Vec F S1x1x512x512 .f32) (x1 : Vec F S3x1x512x512 .i32) (x2 : Vec F S3x1x512x512 .f32) : Vec F S1x512x512 .i32 :=
  VO0_7.read (Elt F) (VO0_7.writes (Elt F) VO0_7.junk (kernelRun0_A c i arg2 harg2 arg3 harg3 arg4 harg4 arg5 harg5 arg6 harg6 arg7 harg7 arg8 harg8 arg9 harg9 arg10 harg10 arg11 harg11 hc0 x0 x1 x2).2.2.2.2.1)
theorem cover0_A_8 (c : Dev nD) (i : grid0.Coords) (arg2 : Memref sig .tc .vmem S1x1x512x512 .f32) (harg2 : arg2.IsWhole) (arg3 : Memref sig .tc .vmem S3x1x512x512 .i32) (harg3 : arg3.IsWhole) (arg4 : Memref sig .tc .vmem S3x1x512x512 .f32) (harg4 : arg4.IsWhole) (arg5 : Memref sig .tc .vmem S1x1x512x512 .f32) (harg5 : arg5.IsWhole) (arg6 : Memref sig .tc .vmem S1x1x512x512 .f32) (harg6 : arg6.IsWhole) (arg7 : Memref sig .tc .vmem S1x1x512x512 .f32) (harg7 : arg7.IsWhole) (arg8 : Memref sig .tc .vmem S1x1x512x512 .f32) (harg8 : arg8.IsWhole) (arg9 : Memref sig .tc .vmem S1x512x512 .i32) (harg9 : arg9.IsWhole) (arg10 : Memref sig .tc .vmem S1x512x512 .i32) (harg10 : arg10.IsWhole) (arg11 : Memref sig .tc .vmem S1x512x512 .i32) (harg11 : arg11.IsWhole) (hc0 : cond0_0 i) (x0 : Vec F S1x1x512x512 .f32) (x1 : Vec F S3x1x512x512 .i32) (x2 : Vec F S3x1x512x512 .f32) (y : S1x512x512.Idx) :
    ∃ pc ∈ (kernelRun0_A c i arg2 harg2 arg3 harg3 arg4 harg4 arg5 harg5 arg6 harg6 arg7 harg7 arg8 harg8 arg9 harg9 arg10 harg10 arg11 harg11 hc0 x0 x1 x2).2.2.2.2.2.1, y ∈ pc.1.set :=
  View.cover_of_tiledL (kernelRun0_A c i arg2 harg2 arg3 harg3 arg4 harg4 arg5 harg5 arg6 harg6 arg7 harg7 arg8 harg8 arg9 harg9 arg10 harg10 arg11 harg11 hc0 x0 x1 x2).2.2.2.2.2.1 S1x512x512.size (by sl_kernel_rfl) y
def out0_A_8 (c : Dev nD) (i : grid0.Coords) (arg2 : Memref sig .tc .vmem S1x1x512x512 .f32) (harg2 : arg2.IsWhole) (arg3 : Memref sig .tc .vmem S3x1x512x512 .i32) (harg3 : arg3.IsWhole) (arg4 : Memref sig .tc .vmem S3x1x512x512 .f32) (harg4 : arg4.IsWhole) (arg5 : Memref sig .tc .vmem S1x1x512x512 .f32) (harg5 : arg5.IsWhole) (arg6 : Memref sig .tc .vmem S1x1x512x512 .f32) (harg6 : arg6.IsWhole) (arg7 : Memref sig .tc .vmem S1x1x512x512 .f32) (harg7 : arg7.IsWhole) (arg8 : Memref sig .tc .vmem S1x1x512x512 .f32) (harg8 : arg8.IsWhole) (arg9 : Memref sig .tc .vmem S1x512x512 .i32) (harg9 : arg9.IsWhole) (arg10 : Memref sig .tc .vmem S1x512x512 .i32) (harg10 : arg10.IsWhole) (arg11 : Memref sig .tc .vmem S1x512x512 .i32) (harg11 : arg11.IsWhole) (hc0 : cond0_0 i) (x0 : Vec F S1x1x512x512 .f32) (x1 : Vec F S3x1x512x512 .i32) (x2 : Vec F S3x1x512x512 .f32) : Vec F S1x512x512 .i32 :=
  VO0_8.read (Elt F) (VO0_8.writes (Elt F) VO0_8.junk (kernelRun0_A c i arg2 harg2 arg3 harg3 arg4 harg4 arg5 harg5 arg6 harg6 arg7 harg7 arg8 harg8 arg9 harg9 arg10 harg10 arg11 harg11 hc0 x0 x1 x2).2.2.2.2.2.1)
theorem cover0_A_9 (c : Dev nD) (i : grid0.Coords) (arg2 : Memref sig .tc .vmem S1x1x512x512 .f32) (harg2 : arg2.IsWhole) (arg3 : Memref sig .tc .vmem S3x1x512x512 .i32) (harg3 : arg3.IsWhole) (arg4 : Memref sig .tc .vmem S3x1x512x512 .f32) (harg4 : arg4.IsWhole) (arg5 : Memref sig .tc .vmem S1x1x512x512 .f32) (harg5 : arg5.IsWhole) (arg6 : Memref sig .tc .vmem S1x1x512x512 .f32) (harg6 : arg6.IsWhole) (arg7 : Memref sig .tc .vmem S1x1x512x512 .f32) (harg7 : arg7.IsWhole) (arg8 : Memref sig .tc .vmem S1x1x512x512 .f32) (harg8 : arg8.IsWhole) (arg9 : Memref sig .tc .vmem S1x512x512 .i32) (harg9 : arg9.IsWhole) (arg10 : Memref sig .tc .vmem S1x512x512 .i32) (harg10 : arg10.IsWhole) (arg11 : Memref sig .tc .vmem S1x512x512 .i32) (harg11 : arg11.IsWhole) (hc0 : cond0_0 i) (x0 : Vec F S1x1x512x512 .f32) (x1 : Vec F S3x1x512x512 .i32) (x2 : Vec F S3x1x512x512 .f32) (y : S1x512x512.Idx) :
    ∃ pc ∈ (kernelRun0_A c i arg2 harg2 arg3 harg3 arg4 harg4 arg5 harg5 arg6 harg6 arg7 harg7 arg8 harg8 arg9 harg9 arg10 harg10 arg11 harg11 hc0 x0 x1 x2).2.2.2.2.2.2.1, y ∈ pc.1.set :=
  View.cover_of_tiledL (kernelRun0_A c i arg2 harg2 arg3 harg3 arg4 harg4 arg5 harg5 arg6 harg6 arg7 harg7 arg8 harg8 arg9 harg9 arg10 harg10 arg11 harg11 hc0 x0 x1 x2).2.2.2.2.2.2.1 S1x512x512.size (by sl_kernel_rfl) y
def out0_A_9 (c : Dev nD) (i : grid0.Coords) (arg2 : Memref sig .tc .vmem S1x1x512x512 .f32) (harg2 : arg2.IsWhole) (arg3 : Memref sig .tc .vmem S3x1x512x512 .i32) (harg3 : arg3.IsWhole) (arg4 : Memref sig .tc .vmem S3x1x512x512 .f32) (harg4 : arg4.IsWhole) (arg5 : Memref sig .tc .vmem S1x1x512x512 .f32) (harg5 : arg5.IsWhole) (arg6 : Memref sig .tc .vmem S1x1x512x512 .f32) (harg6 : arg6.IsWhole) (arg7 : Memref sig .tc .vmem S1x1x512x512 .f32) (harg7 : arg7.IsWhole) (arg8 : Memref sig .tc .vmem S1x1x512x512 .f32) (harg8 : arg8.IsWhole) (arg9 : Memref sig .tc .vmem S1x512x512 .i32) (harg9 : arg9.IsWhole) (arg10 : Memref sig .tc .vmem S1x512x512 .i32) (harg10 : arg10.IsWhole) (arg11 : Memref sig .tc .vmem S1x512x512 .i32) (harg11 : arg11.IsWhole) (hc0 : cond0_0 i) (x0 : Vec F S1x1x512x512 .f32) (x1 : Vec F S3x1x512x512 .i32) (x2 : Vec F S3x1x512x512 .f32) : Vec F S1x512x512 .i32 :=
  VO0_9.read (Elt F) (VO0_9.writes (Elt F) VO0_9.junk (kernelRun0_A c i arg2 harg2 arg3 harg3 arg4 harg4 arg5 harg5 arg6 harg6 arg7 harg7 arg8 harg8 arg9 harg9 arg10 harg10 arg11 harg11 hc0 x0 x1 x2).2.2.2.2.2.2.1)
theorem cover0_B_3 (c : Dev nD) (i : grid0.Coords) (arg2 : Memref sig .tc .vmem S1x1x512x512 .f32) (harg2 : arg2.IsWhole) (arg3 : Memref sig .tc .vmem S3x1x512x512 .i32) (harg3 : arg3.IsWhole) (arg4 : Memref sig .tc .vmem S3x1x512x512 .f32) (harg4 : arg4.IsWhole) (arg5 : Memref sig .tc .vmem S1x1x512x512 .f32) (harg5 : arg5.IsWhole) (arg6 : Memref sig .tc .vmem S1x1x512x512 .f32) (harg6 : arg6.IsWhole) (arg7 : Memref sig .tc .vmem S1x1x512x512 .f32) (harg7 : arg7.IsWhole) (arg8 : Memref sig .tc .vmem S1x1x512x512 .f32) (harg8 : arg8.IsWhole) (arg9 : Memref sig .tc .vmem S1x512x512 .i32) (harg9 : arg9.IsWhole) (arg10 : Memref sig .tc .vmem S1x512x512 .i32) (harg10 : arg10.IsWhole) (arg11 : Memref sig .tc .vmem S1x512x512 .i32) (harg11 : arg11.IsWhole) (hc0 : ¬cond0_0 i) (x0 : Vec F S1x1x512x512 .f32) (x1 : Vec F S3x1x512x512 .i32) (x2 : Vec F S3x1x512x512 .f32) (y : S1x1x512x512.Idx) :
    ∃ pc ∈ (kernelRun0_B c i arg2 harg2 arg3 harg3 arg4 harg4 arg5 harg5 arg6 harg6 arg7 harg7 arg8 harg8 arg9 harg9 arg10 harg10 arg11 harg11 hc0 x0 x1 x2).1, y ∈ pc.1.set :=
  View.cover_of_tiledL (kernelRun0_B c i arg2 harg2 arg3 harg3 arg4 harg4 arg5 harg5 arg6 harg6 arg7 harg7 arg8 harg8 arg9 harg9 arg10 harg10 arg11 harg11 hc0 x0 x1 x2).1 S1x1x512x512.size (by sl_kernel_rfl) y
def out0_B_3 (c : Dev nD) (i : grid0.Coords) (arg2 : Memref sig .tc .vmem S1x1x512x512 .f32) (harg2 : arg2.IsWhole) (arg3 : Memref sig .tc .vmem S3x1x512x512 .i32) (harg3 : arg3.IsWhole) (arg4 : Memref sig .tc .vmem S3x1x512x512 .f32) (harg4 : arg4.IsWhole) (arg5 : Memref sig .tc .vmem S1x1x512x512 .f32) (harg5 : arg5.IsWhole) (arg6 : Memref sig .tc .vmem S1x1x512x512 .f32) (harg6 : arg6.IsWhole) (arg7 : Memref sig .tc .vmem S1x1x512x512 .f32) (harg7 : arg7.IsWhole) (arg8 : Memref sig .tc .vmem S1x1x512x512 .f32) (harg8 : arg8.IsWhole) (arg9 : Memref sig .tc .vmem S1x512x512 .i32) (harg9 : arg9.IsWhole) (arg10 : Memref sig .tc .vmem S1x512x512 .i32) (harg10 : arg10.IsWhole) (arg11 : Memref sig .tc .vmem S1x512x512 .i32) (harg11 : arg11.IsWhole) (hc0 : ¬cond0_0 i) (x0 : Vec F S1x1x512x512 .f32) (x1 : Vec F S3x1x512x512 .i32) (x2 : Vec F S3x1x512x512 .f32) : Vec F S1x1x512x512 .f32 :=
  VO0_3.read (Elt F) (VO0_3.writes (Elt F) VO0_3.junk (kernelRun0_B c i arg2 harg2 arg3 harg3 arg4 harg4 arg5 harg5 arg6 harg6 arg7 harg7 arg8 harg8 arg9 harg9 arg10 harg10 arg11 harg11 hc0 x0 x1 x2).1)
theorem cover0_B_4 (c : Dev nD) (i : grid0.Coords) (arg2 : Memref sig .tc .vmem S1x1x512x512 .f32) (harg2 : arg2.IsWhole) (arg3 : Memref sig .tc .vmem S3x1x512x512 .i32) (harg3 : arg3.IsWhole) (arg4 : Memref sig .tc .vmem S3x1x512x512 .f32) (harg4 : arg4.IsWhole) (arg5 : Memref sig .tc .vmem S1x1x512x512 .f32) (harg5 : arg5.IsWhole) (arg6 : Memref sig .tc .vmem S1x1x512x512 .f32) (harg6 : arg6.IsWhole) (arg7 : Memref sig .tc .vmem S1x1x512x512 .f32) (harg7 : arg7.IsWhole) (arg8 : Memref sig .tc .vmem S1x1x512x512 .f32) (harg8 : arg8.IsWhole) (arg9 : Memref sig .tc .vmem S1x512x512 .i32) (harg9 : arg9.IsWhole) (arg10 : Memref sig .tc .vmem S1x512x512 .i32) (harg10 : arg10.IsWhole) (arg11 : Memref sig .tc .vmem S1x512x512 .i32) (harg11 : arg11.IsWhole) (hc0 : ¬cond0_0 i) (x0 : Vec F S1x1x512x512 .f32) (x1 : Vec F S3x1x512x512 .i32) (x2 : Vec F S3x1x512x512 .f32) (y : S1x1x512x512.Idx) :
    ∃ pc ∈ (kernelRun0_B c i arg2 harg2 arg3 harg3 arg4 harg4 arg5 harg5 arg6 harg6 arg7 harg7 arg8 harg8 arg9 harg9 arg10 harg10 arg11 harg11 hc0 x0 x1 x2).2.1, y ∈ pc.1.set :=
  View.cover_of_tiledL (kernelRun0_B c i arg2 harg2 arg3 harg3 arg4 harg4 arg5 harg5 arg6 harg6 arg7 harg7 arg8 harg8 arg9 harg9 arg10 harg10 arg11 harg11 hc0 x0 x1 x2).2.1 S1x1x512x512.size (by sl_kernel_rfl) y
def out0_B_4 (c : Dev nD) (i : grid0.Coords) (arg2 : Memref sig .tc .vmem S1x1x512x512 .f32) (harg2 : arg2.IsWhole) (arg3 : Memref sig .tc .vmem S3x1x512x512 .i32) (harg3 : arg3.IsWhole) (arg4 : Memref sig .tc .vmem S3x1x512x512 .f32) (harg4 : arg4.IsWhole) (arg5 : Memref sig .tc .vmem S1x1x512x512 .f32) (harg5 : arg5.IsWhole) (arg6 : Memref sig .tc .vmem S1x1x512x512 .f32) (harg6 : arg6.IsWhole) (arg7 : Memref sig .tc .vmem S1x1x512x512 .f32) (harg7 : arg7.IsWhole) (arg8 : Memref sig .tc .vmem S1x1x512x512 .f32) (harg8 : arg8.IsWhole) (arg9 : Memref sig .tc .vmem S1x512x512 .i32) (harg9 : arg9.IsWhole) (arg10 : Memref sig .tc .vmem S1x512x512 .i32) (harg10 : arg10.IsWhole) (arg11 : Memref sig .tc .vmem S1x512x512 .i32) (harg11 : arg11.IsWhole) (hc0 : ¬cond0_0 i) (x0 : Vec F S1x1x512x512 .f32) (x1 : Vec F S3x1x512x512 .i32) (x2 : Vec F S3x1x512x512 .f32) : Vec F S1x1x512x512 .f32 :=
  VO0_4.read (Elt F) (VO0_4.writes (Elt F) VO0_4.junk (kernelRun0_B c i arg2 harg2 arg3 harg3 arg4 harg4 arg5 harg5 arg6 harg6 arg7 harg7 arg8 harg8 arg9 harg9 arg10 harg10 arg11 harg11 hc0 x0 x1 x2).2.1)
theorem cover0_B_5 (c : Dev nD) (i : grid0.Coords) (arg2 : Memref sig .tc .vmem S1x1x512x512 .f32) (harg2 : arg2.IsWhole) (arg3 : Memref sig .tc .vmem S3x1x512x512 .i32) (harg3 : arg3.IsWhole) (arg4 : Memref sig .tc .vmem S3x1x512x512 .f32) (harg4 : arg4.IsWhole) (arg5 : Memref sig .tc .vmem S1x1x512x512 .f32) (harg5 : arg5.IsWhole) (arg6 : Memref sig .tc .vmem S1x1x512x512 .f32) (harg6 : arg6.IsWhole) (arg7 : Memref sig .tc .vmem S1x1x512x512 .f32) (harg7 : arg7.IsWhole) (arg8 : Memref sig .tc .vmem S1x1x512x512 .f32) (harg8 : arg8.IsWhole) (arg9 : Memref sig .tc .vmem S1x512x512 .i32) (harg9 : arg9.IsWhole) (arg10 : Memref sig .tc .vmem S1x512x512 .i32) (harg10 : arg10.IsWhole) (arg11 : Memref sig .tc .vmem S1x512x512 .i32) (harg11 : arg11.IsWhole) (hc0 : ¬cond0_0 i) (x0 : Vec F S1x1x512x512 .f32) (x1 : Vec F S3x1x512x512 .i32) (x2 : Vec F S3x1x512x512 .f32) (y : S1x1x512x512.Idx) :
    ∃ pc ∈ (kernelRun0_B c i arg2 harg2 arg3 harg3 arg4 harg4 arg5 harg5 arg6 harg6 arg7 harg7 arg8 harg8 arg9 harg9 arg10 harg10 arg11 harg11 hc0 x0 x1 x2).2.2.1, y ∈ pc.1.set :=
  View.cover_of_tiledL (kernelRun0_B c i arg2 harg2 arg3 harg3 arg4 harg4 arg5 harg5 arg6 harg6 arg7 harg7 arg8 harg8 arg9 harg9 arg10 harg10 arg11 harg11 hc0 x0 x1 x2).2.2.1 S1x1x512x512.size (by sl_kernel_rfl) y
def out0_B_5 (c : Dev nD) (i : grid0.Coords) (arg2 : Memref sig .tc .vmem S1x1x512x512 .f32) (harg2 : arg2.IsWhole) (arg3 : Memref sig .tc .vmem S3x1x512x512 .i32) (harg3 : arg3.IsWhole) (arg4 : Memref sig .tc .vmem S3x1x512x512 .f32) (harg4 : arg4.IsWhole) (arg5 : Memref sig .tc .vmem S1x1x512x512 .f32) (harg5 : arg5.IsWhole) (arg6 : Memref sig .tc .vmem S1x1x512x512 .f32) (harg6 : arg6.IsWhole) (arg7 : Memref sig .tc .vmem S1x1x512x512 .f32) (harg7 : arg7.IsWhole) (arg8 : Memref sig .tc .vmem S1x1x512x512 .f32) (harg8 : arg8.IsWhole) (arg9 : Memref sig .tc .vmem S1x512x512 .i32) (harg9 : arg9.IsWhole) (arg10 : Memref sig .tc .vmem S1x512x512 .i32) (harg10 : arg10.IsWhole) (arg11 : Memref sig .tc .vmem S1x512x512 .i32) (harg11 : arg11.IsWhole) (hc0 : ¬cond0_0 i) (x0 : Vec F S1x1x512x512 .f32) (x1 : Vec F S3x1x512x512 .i32) (x2 : Vec F S3x1x512x512 .f32) : Vec F S1x1x512x512 .f32 :=
  VO0_5.read (Elt F) (VO0_5.writes (Elt F) VO0_5.junk (kernelRun0_B c i arg2 harg2 arg3 harg3 arg4 harg4 arg5 harg5 arg6 harg6 arg7 harg7 arg8 harg8 arg9 harg9 arg10 harg10 arg11 harg11 hc0 x0 x1 x2).2.2.1)
theorem cover0_B_6 (c : Dev nD) (i : grid0.Coords) (arg2 : Memref sig .tc .vmem S1x1x512x512 .f32) (harg2 : arg2.IsWhole) (arg3 : Memref sig .tc .vmem S3x1x512x512 .i32) (harg3 : arg3.IsWhole) (arg4 : Memref sig .tc .vmem S3x1x512x512 .f32) (harg4 : arg4.IsWhole) (arg5 : Memref sig .tc .vmem S1x1x512x512 .f32) (harg5 : arg5.IsWhole) (arg6 : Memref sig .tc .vmem S1x1x512x512 .f32) (harg6 : arg6.IsWhole) (arg7 : Memref sig .tc .vmem S1x1x512x512 .f32) (harg7 : arg7.IsWhole) (arg8 : Memref sig .tc .vmem S1x1x512x512 .f32) (harg8 : arg8.IsWhole) (arg9 : Memref sig .tc .vmem S1x512x512 .i32) (harg9 : arg9.IsWhole) (arg10 : Memref sig .tc .vmem S1x512x512 .i32) (harg10 : arg10.IsWhole) (arg11 : Memref sig .tc .vmem S1x512x512 .i32) (harg11 : arg11.IsWhole) (hc0 : ¬cond0_0 i) (x0 : Vec F S1x1x512x512 .f32) (x1 : Vec F S3x1x512x512 .i32) (x2 : Vec F S3x1x512x512 .f32) (y : S1x1x512x512.Idx) :
    ∃ pc ∈ (kernelRun0_B c i arg2 harg2 arg3 harg3 arg4 harg4 arg5 harg5 arg6 harg6 arg7 harg7 arg8 harg8 arg9 harg9 arg10 harg10 arg11 harg11 hc0 x0 x1 x2).2.2.2.1, y ∈ pc.1.set :=
  View.cover_of_tiledL (kernelRun0_B c i arg2 harg2 arg3 harg3 arg4 harg4 arg5 harg5 arg6 harg6 arg7 harg7 arg8 harg8 arg9 harg9 arg10 harg10 arg11 harg11 hc0 x0 x1 x2).2.2.2.1 S1x1x512x512.size (by sl_kernel_rfl) y
def out0_B_6 (c : Dev nD) (i : grid0.Coords) (arg2 : Memref sig .tc .vmem S1x1x512x512 .f32) (harg2 : arg2.IsWhole) (arg3 : Memref sig .tc .vmem S3x1x512x512 .i32) (harg3 : arg3.IsWhole) (arg4 : Memref sig .tc .vmem S3x1x512x512 .f32) (harg4 : arg4.IsWhole) (arg5 : Memref sig .tc .vmem S1x1x512x512 .f32) (harg5 : arg5.IsWhole) (arg6 : Memref sig .tc .vmem S1x1x512x512 .f32) (harg6 : arg6.IsWhole) (arg7 : Memref sig .tc .vmem S1x1x512x512 .f32) (harg7 : arg7.IsWhole) (arg8 : Memref sig .tc .vmem S1x1x512x512 .f32) (harg8 : arg8.IsWhole) (arg9 : Memref sig .tc .vmem S1x512x512 .i32) (harg9 : arg9.IsWhole) (arg10 : Memref sig .tc .vmem S1x512x512 .i32) (harg10 : arg10.IsWhole) (arg11 : Memref sig .tc .vmem S1x512x512 .i32) (harg11 : arg11.IsWhole) (hc0 : ¬cond0_0 i) (x0 : Vec F S1x1x512x512 .f32) (x1 : Vec F S3x1x512x512 .i32) (x2 : Vec F S3x1x512x512 .f32) : Vec F S1x1x512x512 .f32 :=
  VO0_6.read (Elt F) (VO0_6.writes (Elt F) VO0_6.junk (kernelRun0_B c i arg2 harg2 arg3 harg3 arg4 harg4 arg5 harg5 arg6 harg6 arg7 harg7 arg8 harg8 arg9 harg9 arg10 harg10 arg11 harg11 hc0 x0 x1 x2).2.2.2.1)

/-! ## The first point of a point's group of eight

The index buffers are stored at the first point of each group (batch index zero) and written back at its last
point; in between they are left alone. What they hold throughout the group is what the first point stored. -/

def base (t : Fin cfg0.N) : Fin cfg0.N := ⟨t.val - t.val % 8, lt_of_le_of_lt (Nat.sub_le _ _) t.isLt⟩
theorem base_mod (t : Fin cfg0.N) : (base t).val % 8 = 0 := by unfold base; simp only; omega
theorem base_eq (t : Fin cfg0.N) (h : t.val % 8 = 0) : base t = t := Fin.ext (by unfold base; simp only; omega)
theorem base_pred (t : Fin cfg0.N) (h : t.val % 8 ≠ 0) : base ⟨t.val - 1, Nat.lt_of_le_of_lt (Nat.sub_le _ _) t.isLt⟩ = base t :=
  Fin.ext (by unfold base; simp only; omega)

def aft0_3 (c : Dev nD) (t : Fin cfg0.N) : Vec F S1x1x512x512 .f32 :=
  if h : t.val % 8 = 0 then out0_A_3 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) ((hcond0_0 t).mpr h) (iblk m c 0 t) (iblk m c 1 t) (iblk m c 2 t)
  else out0_B_3 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (fun hc => h ((hcond0_0 t).mp hc)) (iblk m c 0 t) (iblk m c 1 t) (iblk m c 2 t)
def aft0_4 (c : Dev nD) (t : Fin cfg0.N) : Vec F S1x1x512x512 .f32 :=
  if h : t.val % 8 = 0 then out0_A_4 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) ((hcond0_0 t).mpr h) (iblk m c 0 t) (iblk m c 1 t) (iblk m c 2 t)
  else out0_B_4 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (fun hc => h ((hcond0_0 t).mp hc)) (iblk m c 0 t) (iblk m c 1 t) (iblk m c 2 t)
def aft0_5 (c : Dev nD) (t : Fin cfg0.N) : Vec F S1x1x512x512 .f32 :=
  if h : t.val % 8 = 0 then out0_A_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) ((hcond0_0 t).mpr h) (iblk m c 0 t) (iblk m c 1 t) (iblk m c 2 t)
  else out0_B_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (fun hc => h ((hcond0_0 t).mp hc)) (iblk m c 0 t) (iblk m c 1 t) (iblk m c 2 t)
def aft0_6 (c : Dev nD) (t : Fin cfg0.N) : Vec F S1x1x512x512 .f32 :=
  if h : t.val % 8 = 0 then out0_A_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) ((hcond0_0 t).mpr h) (iblk m c 0 t) (iblk m c 1 t) (iblk m c 2 t)
  else out0_B_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (fun hc => h ((hcond0_0 t).mp hc)) (iblk m c 0 t) (iblk m c 1 t) (iblk m c 2 t)
/-- What a storing point (batch index zero) leaves in index buffer 0. -/
def aftAt0_7 (c : Dev nD) (s : Fin cfg0.N) (hs : s.val % 8 = 0) : Vec F S1x512x512 .i32 :=
  out0_A_7 c (grid0.coords s) (ms0_0 s) (hs0_0 s) (ms0_1 s) (hs0_1 s) (ms0_2 s) (hs0_2 s) (ms0_3 s) (hs0_3 s) (ms0_4 s) (hs0_4 s) (ms0_5 s) (hs0_5 s) (ms0_6 s) (hs0_6 s) (ms0_7 s) (hs0_7 s) (ms0_8 s) (hs0_8 s) (ms0_9 s) (hs0_9 s) ((hcond0_0 s).mpr hs) (iblk m c 0 s) (iblk m c 1 s) (iblk m c 2 s)
theorem aftAt0_7_congr (c : Dev nD) (s s' : Fin cfg0.N) (hs : s.val % 8 = 0) (hs' : s'.val % 8 = 0) (h : s = s') :
    aftAt0_7 m c s hs = aftAt0_7 m c s' hs' := by subst h; rfl
def aft0_7 (c : Dev nD) (t : Fin cfg0.N) : Vec F S1x512x512 .i32 := aftAt0_7 m c (base t) (base_mod t)
/-- What a storing point (batch index zero) leaves in index buffer 1. -/
def aftAt0_8 (c : Dev nD) (s : Fin cfg0.N) (hs : s.val % 8 = 0) : Vec F S1x512x512 .i32 :=
  out0_A_8 c (grid0.coords s) (ms0_0 s) (hs0_0 s) (ms0_1 s) (hs0_1 s) (ms0_2 s) (hs0_2 s) (ms0_3 s) (hs0_3 s) (ms0_4 s) (hs0_4 s) (ms0_5 s) (hs0_5 s) (ms0_6 s) (hs0_6 s) (ms0_7 s) (hs0_7 s) (ms0_8 s) (hs0_8 s) (ms0_9 s) (hs0_9 s) ((hcond0_0 s).mpr hs) (iblk m c 0 s) (iblk m c 1 s) (iblk m c 2 s)
theorem aftAt0_8_congr (c : Dev nD) (s s' : Fin cfg0.N) (hs : s.val % 8 = 0) (hs' : s'.val % 8 = 0) (h : s = s') :
    aftAt0_8 m c s hs = aftAt0_8 m c s' hs' := by subst h; rfl
def aft0_8 (c : Dev nD) (t : Fin cfg0.N) : Vec F S1x512x512 .i32 := aftAt0_8 m c (base t) (base_mod t)
/-- What a storing point (batch index zero) leaves in index buffer 2. -/
def aftAt0_9 (c : Dev nD) (s : Fin cfg0.N) (hs : s.val % 8 = 0) : Vec F S1x512x512 .i32 :=
  out0_A_9 c (grid0.coords s) (ms0_0 s) (hs0_0 s) (ms0_1 s) (hs0_1 s) (ms0_2 s) (hs0_2 s) (ms0_3 s) (hs0_3 s) (ms0_4 s) (hs0_4 s) (ms0_5 s) (hs0_5 s) (ms0_6 s) (hs0_6 s) (ms0_7 s) (hs0_7 s) (ms0_8 s) (hs0_8 s) (ms0_9 s) (hs0_9 s) ((hcond0_0 s).mpr hs) (iblk m c 0 s) (iblk m c 1 s) (iblk m c 2 s)
theorem aftAt0_9_congr (c : Dev nD) (s s' : Fin cfg0.N) (hs : s.val % 8 = 0) (hs' : s'.val % 8 = 0) (h : s = s') :
    aftAt0_9 m c s hs = aftAt0_9 m c s' hs' := by subst h; rfl
def aft0_9 (c : Dev nD) (t : Fin cfg0.N) : Vec F S1x512x512 .i32 := aftAt0_9 m c (base t) (base_mod t)

/-! ## The proof data -/

/-- The arrays as the region finds them; after the body each input's buffer at its block, the mask and the three
    weighted outputs at what the point's case stored, the three index outputs at what the group's first point
    stored; the invariant is the same at every point (the core's resources outside the windows, held at some contents);
    nothing is owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => aft0_3 m c t
    | ⟨4, _⟩ => aft0_4 m c t
    | ⟨5, _⟩ => aft0_5 m c t
    | ⟨6, _⟩ => aft0_6 m c t
    | ⟨7, _⟩ => aft0_7 m c t
    | ⟨8, _⟩ => aft0_8 m c t
    | ⟨9, _⟩ => aft0_9 m c t
    | ⟨n + 10, h⟩ => absurd h (Nat.not_lt.2 (Nat.le_add_left _ _))
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = aft0_3 m c t := by dsimp only [dats]
theorem after0_4 (c : Dev nD) (t : Fin cfg0.N) : (dats m 0 c).after 4 t = aft0_4 m c t := by dsimp only [dats]
theorem after0_5 (c : Dev nD) (t : Fin cfg0.N) : (dats m 0 c).after 5 t = aft0_5 m c t := by dsimp only [dats]
theorem after0_6 (c : Dev nD) (t : Fin cfg0.N) : (dats m 0 c).after 6 t = aft0_6 m c t := by dsimp only [dats]
theorem after0_7 (c : Dev nD) (t : Fin cfg0.N) : (dats m 0 c).after 7 t = aft0_7 m c t := by dsimp only [dats]
theorem after0_8 (c : Dev nD) (t : Fin cfg0.N) : (dats m 0 c).after 8 t = aft0_8 m c t := by dsimp only [dats]
theorem after0_9 (c : Dev nD) (t : Fin cfg0.N) : (dats m 0 c).after 9 t = aft0_9 m c t := by dsimp only [dats]
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

/-- Away from the storing point of its group, index buffer 0 still holds what that point stored: nothing
    writes it back or refills it in between. -/
theorem before_idle0_7 (c : Dev nD) : ∀ (n : ℕ) (t : Fin cfg0.N), t.val = n → t.val % 8 ≠ 0 → ∀ d, (dats m 0 c).before 7 t d = (dats m 0 c).after 7 t := by
  intro n
  induction n using Nat.strong_induction_on with
  | _ n ih =>
    intro t htn h8 d
    have ht0 : t.val ≠ 0 := fun h => h8 (by rw [h])
    have hfl : (cfg0.win 7).flush ⟨t.val - 1, Nat.lt_of_le_of_lt (Nat.sub_le _ _) t.isLt⟩ = false := by
      rw [Bool.eq_false_iff]; intro hf
      have := (flush0_7 ⟨t.val - 1, Nat.lt_of_le_of_lt (Nat.sub_le _ _) t.isLt⟩).mp hf
      simp only at this; omega
    rw [(dats m 0 c).before_of_pos 7 t ht0 ((cfg0.win 7).fetch_out rfl t) d, hfl, if_neg Bool.false_ne_true]
    unfold Dat.left
    have hb : base ⟨t.val - 1, Nat.lt_of_le_of_lt (Nat.sub_le _ _) t.isLt⟩ = base t := base_pred t h8
    by_cases hp : (t.val - 1) % 8 = 0
    · rw [liveAt0_7_A ⟨t.val - 1, Nat.lt_of_le_of_lt (Nat.sub_le _ _) t.isLt⟩ ((hcond0_0 _).mpr hp)]
      dsimp only
      unfold Dat.kept
      rw [Pipeline.fill_of_clip_none 7 _ (fun _ => rfl) d ((dats m 0 c).after 7 ⟨t.val - 1, Nat.lt_of_le_of_lt (Nat.sub_le _ _) t.isLt⟩), Window.fill_cut]
      rw [after0_7, after0_7]; unfold aft0_7; exact aftAt0_7_congr m c _ _ _ _ hb
    · rw [idleAt0_7_B ⟨t.val - 1, Nat.lt_of_le_of_lt (Nat.sub_le _ _) t.isLt⟩ (fun hc => hp ((hcond0_0 _).mp hc))]
      dsimp only
      rw [ih (t.val - 1) (by omega) ⟨t.val - 1, Nat.lt_of_le_of_lt (Nat.sub_le _ _) t.isLt⟩ rfl hp d]
      rw [after0_7, after0_7]; unfold aft0_7; exact aftAt0_7_congr m c _ _ _ _ hb

/-- Away from the storing point of its group, index buffer 1 still holds what that point stored: nothing
    writes it back or refills it in between. -/
theorem before_idle0_8 (c : Dev nD) : ∀ (n : ℕ) (t : Fin cfg0.N), t.val = n → t.val % 8 ≠ 0 → ∀ d, (dats m 0 c).before 8 t d = (dats m 0 c).after 8 t := by
  intro n
  induction n using Nat.strong_induction_on with
  | _ n ih =>
    intro t htn h8 d
    have ht0 : t.val ≠ 0 := fun h => h8 (by rw [h])
    have hfl : (cfg0.win 8).flush ⟨t.val - 1, Nat.lt_of_le_of_lt (Nat.sub_le _ _) t.isLt⟩ = false := by
      rw [Bool.eq_false_iff]; intro hf
      have := (flush0_8 ⟨t.val - 1, Nat.lt_of_le_of_lt (Nat.sub_le _ _) t.isLt⟩).mp hf
      simp only at this; omega
    rw [(dats m 0 c).before_of_pos 8 t ht0 ((cfg0.win 8).fetch_out rfl t) d, hfl, if_neg Bool.false_ne_true]
    unfold Dat.left
    have hb : base ⟨t.val - 1, Nat.lt_of_le_of_lt (Nat.sub_le _ _) t.isLt⟩ = base t := base_pred t h8
    by_cases hp : (t.val - 1) % 8 = 0
    · rw [liveAt0_8_A ⟨t.val - 1, Nat.lt_of_le_of_lt (Nat.sub_le _ _) t.isLt⟩ ((hcond0_0 _).mpr hp)]
      dsimp only
      unfold Dat.kept
      rw [Pipeline.fill_of_clip_none 8 _ (fun _ => rfl) d ((dats m 0 c).after 8 ⟨t.val - 1, Nat.lt_of_le_of_lt (Nat.sub_le _ _) t.isLt⟩), Window.fill_cut]
      rw [after0_8, after0_8]; unfold aft0_8; exact aftAt0_8_congr m c _ _ _ _ hb
    · rw [idleAt0_8_B ⟨t.val - 1, Nat.lt_of_le_of_lt (Nat.sub_le _ _) t.isLt⟩ (fun hc => hp ((hcond0_0 _).mp hc))]
      dsimp only
      rw [ih (t.val - 1) (by omega) ⟨t.val - 1, Nat.lt_of_le_of_lt (Nat.sub_le _ _) t.isLt⟩ rfl hp d]
      rw [after0_8, after0_8]; unfold aft0_8; exact aftAt0_8_congr m c _ _ _ _ hb

/-- Away from the storing point of its group, index buffer 2 still holds what that point stored: nothing
    writes it back or refills it in between. -/
theorem before_idle0_9 (c : Dev nD) : ∀ (n : ℕ) (t : Fin cfg0.N), t.val = n → t.val % 8 ≠ 0 → ∀ d, (dats m 0 c).before 9 t d = (dats m 0 c).after 9 t := by
  intro n
  induction n using Nat.strong_induction_on with
  | _ n ih =>
    intro t htn h8 d
    have ht0 : t.val ≠ 0 := fun h => h8 (by rw [h])
    have hfl : (cfg0.win 9).flush ⟨t.val - 1, Nat.lt_of_le_of_lt (Nat.sub_le _ _) t.isLt⟩ = false := by
      rw [Bool.eq_false_iff]; intro hf
      have := (flush0_9 ⟨t.val - 1, Nat.lt_of_le_of_lt (Nat.sub_le _ _) t.isLt⟩).mp hf
      simp only at this; omega
    rw [(dats m 0 c).before_of_pos 9 t ht0 ((cfg0.win 9).fetch_out rfl t) d, hfl, if_neg Bool.false_ne_true]
    unfold Dat.left
    have hb : base ⟨t.val - 1, Nat.lt_of_le_of_lt (Nat.sub_le _ _) t.isLt⟩ = base t := base_pred t h8
    by_cases hp : (t.val - 1) % 8 = 0
    · rw [liveAt0_9_A ⟨t.val - 1, Nat.lt_of_le_of_lt (Nat.sub_le _ _) t.isLt⟩ ((hcond0_0 _).mpr hp)]
      dsimp only
      unfold Dat.kept
      rw [Pipeline.fill_of_clip_none 9 _ (fun _ => rfl) d ((dats m 0 c).after 9 ⟨t.val - 1, Nat.lt_of_le_of_lt (Nat.sub_le _ _) t.isLt⟩), Window.fill_cut]
      rw [after0_9, after0_9]; unfold aft0_9; exact aftAt0_9_congr m c _ _ _ _ hb
    · rw [idleAt0_9_B ⟨t.val - 1, Nat.lt_of_le_of_lt (Nat.sub_le _ _) t.isLt⟩ (fun hc => hp ((hcond0_0 _).mp hc))]
      dsimp only
      rw [ih (t.val - 1) (by omega) ⟨t.val - 1, Nat.lt_of_le_of_lt (Nat.sub_le _ _) t.isLt⟩ rfl hp d]
      rw [after0_9, after0_9]; unfold aft0_9; exact aftAt0_9_congr m c _ _ _ _ hb

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t)

set_option maxHeartbeats 16000000 in
/-- The body at any point: the inputs' buffers hold their blocks; at the first point of a group every output is
    stored; elsewhere the four float outputs are stored and the index buffers are handed back as found, which at the
    group's last point — where they are written back — is what the first point stored. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).owesAt () t.succ = (dats m 0 c).owesAt () t.castSucc from rfl]
  rw [show (dats m 0 c).Φ t.succ = (dats m 0 c).Φ t.castSucc from rfl]
  have hN : t.val < 32 := lt_of_lt_of_eq t.isLt (show cfg0.N = 32 from N_0)
  rw [show (dats m 0 c).leavesExact 0 t = owns (c : Thread nD τ) (ms0_0 t) fullShare ((dats m 0 c).after 0 t) from by
    unfold Dat.leavesExact; rw [liveAt0_0 t], after0_0]
  rw [show (dats m 0 c).leavesExact 1 t = owns (c : Thread nD τ) (ms0_1 t) fullShare ((dats m 0 c).after 1 t) from by
    unfold Dat.leavesExact; rw [liveAt0_1 t], after0_1]
  rw [show (dats m 0 c).leavesExact 2 t = owns (c : Thread nD τ) (ms0_2 t) fullShare ((dats m 0 c).after 2 t) from by
    unfold Dat.leavesExact; rw [liveAt0_2 t], after0_2]
  rw [show (dats m 0 c).leavesExact 3 t = owns (c : Thread nD τ) (ms0_3 t) fullShare ((dats m 0 c).after 3 t) from by
    unfold Dat.leavesExact; rw [liveAt0_3 t], after0_3]
  rw [show (dats m 0 c).leavesExact 4 t = owns (c : Thread nD τ) (ms0_4 t) fullShare ((dats m 0 c).after 4 t) from by
    unfold Dat.leavesExact; rw [liveAt0_4 t], after0_4]
  rw [show (dats m 0 c).leavesExact 5 t = owns (c : Thread nD τ) (ms0_5 t) fullShare ((dats m 0 c).after 5 t) from by
    unfold Dat.leavesExact; rw [liveAt0_5 t], after0_5]
  rw [show (dats m 0 c).leavesExact 6 t = owns (c : Thread nD τ) (ms0_6 t) fullShare ((dats m 0 c).after 6 t) from by
    unfold Dat.leavesExact; rw [liveAt0_6 t], after0_6]
  by_cases h0 : t.val % 8 = 0
  · have hc : cond0_0 (grid0.coords t) := (hcond0_0 t).mpr h0
    rw [show (dats m 0 c).leavesExact 7 t = owns (c : Thread nD τ) (ms0_7 t) fullShare ((dats m 0 c).after 7 t) from by
      unfold Dat.leavesExact; rw [liveAt0_7_A t hc], after0_7]
    rw [show (dats m 0 c).leavesExact 8 t = owns (c : Thread nD τ) (ms0_8 t) fullShare ((dats m 0 c).after 8 t) from by
      unfold Dat.leavesExact; rw [liveAt0_8_A t hc], after0_8]
    rw [show (dats m 0 c).leavesExact 9 t = owns (c : Thread nD τ) (ms0_9 t) fullShare ((dats m 0 c).after 9 t) from by
      unfold Dat.leavesExact; rw [liveAt0_9_A t hc], after0_9]
    rw [show aft0_7 m c t = aftAt0_7 m c t h0 from aftAt0_7_congr m c _ _ _ _ (base_eq t h0),
      show aft0_8 m c t = aftAt0_8 m c t h0 from aftAt0_8_congr m c _ _ _ _ (base_eq t h0),
      show aft0_9 m c t = aftAt0_9 m c t h0 from aftAt0_9_congr m c _ _ _ _ (base_eq t h0)]
    unfold aft0_3 aft0_4 aft0_5 aft0_6 aftAt0_7 aftAt0_8 aftAt0_9
    rw [dif_pos h0, dif_pos h0, dif_pos h0, dif_pos h0]
    unfold out0_A_3 out0_A_4 out0_A_5 out0_A_6 out0_A_7 out0_A_8 out0_A_9
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
    iapply ((kernelRun0_A c (grid0.coords t) _ _ _ _ _ _ _ _ _ _ _ _ _ _ _ _ _ _ _ _ hc (iblk m c 0 t) (iblk m c 1 t) (iblk m c 2 t)).2.2.2.2.2.2.2 Set.univ _)
    isplitl [H0]; · iexact H0
    isplitl [H1]; · iexact H1
    isplitl [H2]; · iexact H2
    isplitl [H3]; · iexists _; iexact H3
    isplitl [H4]; · iexists _; iexact H4
    isplitl [H5]; · iexists _; iexact H5
    isplitl [H6]; · iexists _; iexact H6
    isplitl [H7]; · iexists _; iexact H7
    isplitl [H8]; · iexists _; iexact H8
    isplitl [H9]; · iexists _; iexact H9
    iintro ⟨H0, H1, H2, ⟨%e3, H3⟩, ⟨%e4, H4⟩, ⟨%e5, H5⟩, ⟨%e6, H6⟩, ⟨%e7, H7⟩, ⟨%e8, H8⟩, ⟨%e9, H9⟩⟩
    isplitl [HΦ]; · iexact HΦ
    isplitl [Ho]; · iexact Ho
    isplitl [H0]; · iexact H0
    isplitl [H1]; · iexact H1
    isplitl [H2]; · iexact H2
    isplitl [H3]
    · unfold owns; iexists _; isplitr
      swap; · iexact H3
      ipureintro; exact View.read_writes_of_cover _ _ _ _ _ (cover0_A_3 c _ _ _ _ _ _ _ _ _ _ _ _ _ _ _ _ _ _ _ _ _ _ _ _ _)
    isplitl [H4]
    · unfold owns; iexists _; isplitr
      swap; · iexact H4
      ipureintro; exact View.read_writes_of_cover _ _ _ _ _ (cover0_A_4 c _ _ _ _ _ _ _ _ _ _ _ _ _ _ _ _ _ _ _ _ _ _ _ _ _)
    isplitl [H5]
    · unfold owns; iexists _; isplitr
      swap; · iexact H5
      ipureintro; exact View.read_writes_of_cover _ _ _ _ _ (cover0_A_5 c _ _ _ _ _ _ _ _ _ _ _ _ _ _ _ _ _ _ _ _ _ _ _ _ _)
    isplitl [H6]
    · unfold owns; iexists _; isplitr
      swap; · iexact H6
      ipureintro; exact View.read_writes_of_cover _ _ _ _ _ (cover0_A_6 c _ _ _ _ _ _ _ _ _ _ _ _ _ _ _ _ _ _ _ _ _ _ _ _ _)
    isplitl [H7]
    · unfold owns; iexists _; isplitr
      swap; · iexact H7
      ipureintro; exact View.read_writes_of_cover _ _ _ _ _ (cover0_A_7 c _ _ _ _ _ _ _ _ _ _ _ _ _ _ _ _ _ _ _ _ _ _ _ _ _)
    isplitl [H8]
    · unfold owns; iexists _; isplitr
      swap; · iexact H8
      ipureintro; exact View.read_writes_of_cover _ _ _ _ _ (cover0_A_8 c _ _ _ _ _ _ _ _ _ _ _ _ _ _ _ _ _ _ _ _ _ _ _ _ _)
    unfold owns; iexists _; isplitr
    swap; · iexact H9
    ipureintro; exact View.read_writes_of_cover _ _ _ _ _ (cover0_A_9 c _ _ _ _ _ _ _ _ _ _ _ _ _ _ _ _ _ _ _ _ _ _ _ _ _)
  · have hc : ¬cond0_0 (grid0.coords t) := fun hc => h0 ((hcond0_0 t).mp hc)
    unfold aft0_3 aft0_4 aft0_5 aft0_6
    rw [dif_neg h0, dif_neg h0, dif_neg h0, dif_neg h0]
    unfold out0_B_3 out0_B_4 out0_B_5 out0_B_6
    by_cases h7 : t.val % 8 = 7
    · have hf7 : (cfg0.win 7).flush t = true := (flush0_7 t).mpr h7
      have hf8 : (cfg0.win 8).flush t = true := (flush0_8 t).mpr h7
      have hf9 : (cfg0.win 9).flush t = true := (flush0_9 t).mpr h7
      rw [show (dats m 0 c).leavesExact 7 t = owns (c : Thread nD τ) (ms0_7 t) fullShare ((dats m 0 c).after 7 t) from by
        unfold Dat.leavesExact; rw [idleAt0_7_B t hc, hf7]]
      rw [show (dats m 0 c).leavesExact 8 t = owns (c : Thread nD τ) (ms0_8 t) fullShare ((dats m 0 c).after 8 t) from by
        unfold Dat.leavesExact; rw [idleAt0_8_B t hc, hf8]]
      rw [show (dats m 0 c).leavesExact 9 t = owns (c : Thread nD τ) (ms0_9 t) fullShare ((dats m 0 c).after 9 t) from by
        unfold Dat.leavesExact; rw [idleAt0_9_B t hc, hf9]]
      iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
      rw [before_idle0_7 m c t.val t rfl h0 d7, before_idle0_8 m c t.val t rfl h0 d8, before_idle0_9 m c t.val t rfl h0 d9]
      iapply ((kernelRun0_B c (grid0.coords t) _ _ _ _ _ _ _ _ _ _ _ _ _ _ _ _ _ _ _ _ hc (iblk m c 0 t) (iblk m c 1 t) (iblk m c 2 t)).2.2.2.2 _ _ _ Set.univ _)
      isplitl [H0]; · iexact H0
      isplitl [H1]; · iexact H1
      isplitl [H2]; · iexact H2
      isplitl [H3]; · iexists _; iexact H3
      isplitl [H4]; · iexists _; iexact H4
      isplitl [H5]; · iexists _; iexact H5
      isplitl [H6]; · iexists _; iexact H6
      isplitl [H7]; · iexact H7
      isplitl [H8]; · iexact H8
      isplitl [H9]; · iexact H9
      iintro ⟨H0, H1, H2, ⟨%e3, H3⟩, ⟨%e4, H4⟩, ⟨%e5, H5⟩, ⟨%e6, H6⟩, H7, H8, H9⟩
      isplitl [HΦ]; · iexact HΦ
      isplitl [Ho]; · iexact Ho
      isplitl [H0]; · iexact H0
      isplitl [H1]; · iexact H1
      isplitl [H2]; · iexact H2
      isplitl [H3]
      · unfold owns; iexists _; isplitr
        swap; · iexact H3
        ipureintro; exact View.read_writes_of_cover _ _ _ _ _ (cover0_B_3 c _ _ _ _ _ _ _ _ _ _ _ _ _ _ _ _ _ _ _ _ _ _ _ _ _)
      isplitl [H4]
      · unfold owns; iexists _; isplitr
        swap; · iexact H4
        ipureintro; exact View.read_writes_of_cover _ _ _ _ _ (cover0_B_4 c _ _ _ _ _ _ _ _ _ _ _ _ _ _ _ _ _ _ _ _ _ _ _ _ _)
      isplitl [H5]
      · unfold owns; iexists _; isplitr
        swap; · iexact H5
        ipureintro; exact View.read_writes_of_cover _ _ _ _ _ (cover0_B_5 c _ _ _ _ _ _ _ _ _ _ _ _ _ _ _ _ _ _ _ _ _ _ _ _ _)
      isplitl [H6]
      · unfold owns; iexists _; isplitr
        swap; · iexact H6
        ipureintro; exact View.read_writes_of_cover _ _ _ _ _ (cover0_B_6 c _ _ _ _ _ _ _ _ _ _ _ _ _ _ _ _ _ _ _ _ _ _ _ _ _)
      isplitl [H7]; · iexact H7
      isplitl [H8]; · iexact H8
      iexact H9
    · have hf7 : (cfg0.win 7).flush t = false := by rw [Bool.eq_false_iff]; exact fun hf => h7 ((flush0_7 t).mp hf)
      have hf8 : (cfg0.win 8).flush t = false := by rw [Bool.eq_false_iff]; exact fun hf => h7 ((flush0_8 t).mp hf)
      have hf9 : (cfg0.win 9).flush t = false := by rw [Bool.eq_false_iff]; exact fun hf => h7 ((flush0_9 t).mp hf)
      rw [Dat.leavesExact_idle (dats m 0 c) 7 t (idleAt0_7_B t hc) hf7, Dat.leavesExact_idle (dats m 0 c) 8 t (idleAt0_8_B t hc) hf8,
        Dat.leavesExact_idle (dats m 0 c) 9 t (idleAt0_9_B t hc) hf9]
      iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
      iapply ((kernelRun0_B c (grid0.coords t) _ _ _ _ _ _ _ _ _ _ _ _ _ _ _ _ _ _ _ _ hc (iblk m c 0 t) (iblk m c 1 t) (iblk m c 2 t)).2.2.2.2 _ _ _ Set.univ _)
      isplitl [H0]; · iexact H0
      isplitl [H1]; · iexact H1
      isplitl [H2]; · iexact H2
      isplitl [H3]; · iexists _; iexact H3
      isplitl [H4]; · iexists _; iexact H4
      isplitl [H5]; · iexists _; iexact H5
      isplitl [H6]; · iexists _; iexact H6
      isplitl [H7]; · iexact H7
      isplitl [H8]; · iexact H8
      isplitl [H9]; · iexact H9
      iintro ⟨H0, H1, H2, ⟨%e3, H3⟩, ⟨%e4, H4⟩, ⟨%e5, H5⟩, ⟨%e6, H6⟩, H7, H8, H9⟩
      isplitl [HΦ]; · iexact HΦ
      isplitl [Ho]; · iexact Ho
      isplitl [H0]; · iexact H0
      isplitl [H1]; · iexact H1
      isplitl [H2]; · iexact H2
      isplitl [H3]
      · unfold owns; iexists _; isplitr
        swap; · iexact H3
        ipureintro; exact View.read_writes_of_cover _ _ _ _ _ (cover0_B_3 c _ _ _ _ _ _ _ _ _ _ _ _ _ _ _ _ _ _ _ _ _ _ _ _ _)
      isplitl [H4]
      · unfold owns; iexists _; isplitr
        swap; · iexact H4
        ipureintro; exact View.read_writes_of_cover _ _ _ _ _ (cover0_B_4 c _ _ _ _ _ _ _ _ _ _ _ _ _ _ _ _ _ _ _ _ _ _ _ _ _)
      isplitl [H5]
      · unfold owns; iexists _; isplitr
        swap; · iexact H5
        ipureintro; exact View.read_writes_of_cover _ _ _ _ _ (cover0_B_5 c _ _ _ _ _ _ _ _ _ _ _ _ _ _ _ _ _ _ _ _ _ _ _ _ _)
      isplitl [H6]
      · unfold owns; iexists _; isplitr
        swap; · iexact H6
        ipureintro; exact View.read_writes_of_cover _ _ _ _ _ (cover0_B_6 c _ _ _ _ _ _ _ _ _ _ _ _ _ _ _ _ _ _ _ _ _ _ _ _ _)
      isplitl [H7]; · iexists _; iexact H7
      isplitl [H8]; · iexists _; iexact H8
      iexists _; iexact H9

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- Every weakly fair execution of the entry function terminates without a fault; every array of the pipeline ends at
    what the library computes from the proof data, every other unscoped buffer as the later host lines leave it. -/
theorem run_main : θ_run defs (onTc (τ := τ) (main (F := F))) (s₀ m ρ) (Pipeline.FramePost cfgs (dats m) 0 (Pipeline.afterTail₀ cfgs (dats m) 0 (V0 m) tailOps)) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := tailOps) (hsub := sfx_sub) (hfresh := sfx_fresh) (hkeep := sfx_keeps)
    (hmain := hmain m Variants.none) (hA := A_eq m) (hΦ := fun _ _ => rfl)

/-- The three argument arrays end as launched: the first is a staged input, which no write-back touches; the other
    two are staged by no window and written by no host line. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨((h c).1 0).trans (((dats m 0 c).arrAt_in 0 rfl _).trans ((A_eq m c 0).trans (V_main_arg0 m c))),
    ((h c).2 main_arg1 (Pipeline.mem_restRefs_of main_arg1 (by decide) (by decide))).trans (W_main_arg1 m (dats m) c),
    ((h c).2 main_arg2 (Pipeline.mem_restRefs_of main_arg2 (by decide) (by decide))).trans (W_main_arg2 m (dats m) c)⟩) (run_main m ρ)

end Cert.Kernel.Hand

end
-- ==== Proof.KernelIdealCond.lean ====
import proofs.«153110_j51737176048098_1_alg».proof.Proof.Gen.KernelIdeal.Launch
import proofs.«153110_j51737176048098_1_alg».proof.Proof.Gen.KernelIdeal.Skeleton
import proofs.«153110_j51737176048098_1_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! ## The body's one branch

The body stores the three clamped index blocks only where the second grid coordinate (the batch index, the
fastest axis) is zero. Over the 4 × 8 grid, enumerated row-major, these are the points whose position is a
multiple of eight. -/

/-- The branch condition as the kernel computes it from the grid coordinates. -/
abbrev cond0_0 (i : grid0.Coords) : Prop := k0_cond1 i = 1#1

/-- It holds exactly at the first point of each group of eight (batch index zero). -/
theorem hcond0_0 : ∀ t : Fin cfg0.N, cond0_0 (grid0.coords t) ↔ t.val % 8 = 0 :=
  (by decide +kernel : ∀ t : Fin grid0.N, cond0_0 (grid0.coords t) ↔ t.val % 8 = 0)

end Cert.KernelIdeal.Hand

end
-- ==== Proof.KernelIdealRunA.lean ====
import proofs.«153110_j51737176048098_1_alg».proof.Proof.KernelIdealCond

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The body where the batch index is zero: on whole staging buffers — the three inputs' at given contents, the
    seven outputs' at anything — it runs to its end, leaves the inputs as they were and each output's buffer with
    the pieces its one store wrote. -/
noncomputable def kernelRun0_A (c : Dev nD) (i : grid0.Coords) (arg2 : Memref sig .tc .vmem S1x1x512x512 .f32) (harg2 : arg2.IsWhole) (arg3 : Memref sig .tc .vmem S3x1x512x512 .i32) (harg3 : arg3.IsWhole) (arg4 : Memref sig .tc .vmem S3x1x512x512 .f32) (harg4 : arg4.IsWhole) (arg5 : Memref sig .tc .vmem S1x1x512x512 .f32) (harg5 : arg5.IsWhole) (arg6 : Memref sig .tc .vmem S1x1x512x512 .f32) (harg6 : arg6.IsWhole) (arg7 : Memref sig .tc .vmem S1x1x512x512 .f32) (harg7 : arg7.IsWhole) (arg8 : Memref sig .tc .vmem S1x1x512x512 .f32) (harg8 : arg8.IsWhole) (arg9 : Memref sig .tc .vmem S1x512x512 .i32) (harg9 : arg9.IsWhole) (arg10 : Memref sig .tc .vmem S1x512x512 .i32) (harg10 : arg10.IsWhole) (arg11 : Memref sig .tc .vmem S1x512x512 .i32) (harg11 : arg11.IsWhole) (hc0 : cond0_0 i)
    (x0 : Vec F S1x1x512x512 .f32) (x1 : Vec F S3x1x512x512 .i32) (x2 : Vec F S3x1x512x512 .f32) :
    Σ' (L3 : List (View.Piece (Elt F) S1x1x512x512 .f32)) (L4 : List (View.Piece (Elt F) S1x1x512x512 .f32)) (L5 : List (View.Piece (Elt F) S1x1x512x512 .f32)) (L6 : List (View.Piece (Elt F) S1x1x512x512 .f32)) (L7 : List (View.Piece (Elt F) S1x512x512 .i32)) (L8 : List (View.Piece (Elt F) S1x512x512 .i32)), { L9 : List (View.Piece (Elt F) S1x512x512 .i32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d)
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f L5) ∗ (∃ f, arg8.view.loc (c : Thread nD τ) ↦[arg8.view.set]{fullShare} arg8.view.writes (Elt F) f L6) ∗ (∃ f, arg9.view.loc (c : Thread nD τ) ↦[arg9.view.set]{fullShare} arg9.view.writes (Elt F) f L7) ∗ (∃ f, arg10.view.loc (c : Thread nD τ) ↦[arg10.view.set]{fullShare} arg10.view.writes (Elt F) f L8) ∗ (∃ f, arg11.view.loc (c : Thread nD τ) ↦[arg11.view.set]{fullShare} arg11.view.writes (Elt F) f L9)) -∗ K ⟨⟩))
          ⊢ wp frame (wpE (defs₀ (F := F)) Variants.none c none) E (cc0__prep_kernel i arg2 harg2 arg3 harg3 arg4 harg4 arg5 harg5 arg6 harg6 arg7 harg7 arg8 harg8 arg9 harg9 arg10 harg10 arg11 harg11) K } := by
  refine ⟨?_, ?_, ?_, ?_, ?_, ?_, ?_, fun E K => ?run⟩
  case run =>
    simp only [cc0__prep_kernel_eq_skeleton]; unfold cc0__prep_kernel_skel
    simp only [k0_part1_eq_skeleton]
    unfold owns
    iintro ⟨⟨%f0, %hf0, H0⟩, ⟨%f1, %hf1, H1⟩, ⟨%f2, %hf2, H2⟩, ⟨%d3, %f3, -, H3⟩, ⟨%d4, %f4, -, H4⟩, ⟨%d5, %f5, -, H5⟩, ⟨%d6, %f6, -, H6⟩, ⟨%d7, %f7, -, H7⟩, ⟨%d8, %f8, -, H8⟩, ⟨%d9, %f9, -, H9⟩, Hk⟩
    obtain rfl := harg2.eq_unread hf0; obtain rfl := harg3.eq_unread hf1; obtain rfl := harg4.eq_unread hf2
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    isplitl [H4]; · iexists _; iexact H4
    isplitl [H5]; · iexists _; iexact H5
    isplitl [H6]; · iexists _; iexact H6
    isplitl [H7]; · iexists _; iexact H7
    isplitl [H8]; · iexists _; iexact H8
    iexists _; iexact H9

end Cert.KernelIdeal.Hand

end
-- ==== Proof.KernelIdealRunB.lean ====
import proofs.«153110_j51737176048098_1_alg».proof.Proof.KernelIdealRunA

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The body where the batch index is not zero: it stores the mask and the three weighted blocks, and does not touch
    the three index buffers, which it hands back at the contents it was given. -/
noncomputable def kernelRun0_B (c : Dev nD) (i : grid0.Coords) (arg2 : Memref sig .tc .vmem S1x1x512x512 .f32) (harg2 : arg2.IsWhole) (arg3 : Memref sig .tc .vmem S3x1x512x512 .i32) (harg3 : arg3.IsWhole) (arg4 : Memref sig .tc .vmem S3x1x512x512 .f32) (harg4 : arg4.IsWhole) (arg5 : Memref sig .tc .vmem S1x1x512x512 .f32) (harg5 : arg5.IsWhole) (arg6 : Memref sig .tc .vmem S1x1x512x512 .f32) (harg6 : arg6.IsWhole) (arg7 : Memref sig .tc .vmem S1x1x512x512 .f32) (harg7 : arg7.IsWhole) (arg8 : Memref sig .tc .vmem S1x1x512x512 .f32) (harg8 : arg8.IsWhole) (arg9 : Memref sig .tc .vmem S1x512x512 .i32) (harg9 : arg9.IsWhole) (arg10 : Memref sig .tc .vmem S1x512x512 .i32) (harg10 : arg10.IsWhole) (arg11 : Memref sig .tc .vmem S1x512x512 .i32) (harg11 : arg11.IsWhole) (hc0 : ¬cond0_0 i)
    (x0 : Vec F S1x1x512x512 .f32) (x1 : Vec F S3x1x512x512 .i32) (x2 : Vec F S3x1x512x512 .f32) :
    Σ' (L3 : List (View.Piece (Elt F) S1x1x512x512 .f32)) (L4 : List (View.Piece (Elt F) S1x1x512x512 .f32)) (L5 : List (View.Piece (Elt F) S1x1x512x512 .f32)), { L6 : List (View.Piece (Elt F) S1x1x512x512 .f32) //
      ∀ (xi7 xi8 xi9 : Vec F S1x512x512 .i32) (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ owns (c : Thread nD τ) arg9 fullShare xi7 ∗ owns (c : Thread nD τ) arg10 fullShare xi8 ∗ owns (c : Thread nD τ) arg11 fullShare xi9
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f L5) ∗ (∃ f, arg8.view.loc (c : Thread nD τ) ↦[arg8.view.set]{fullShare} arg8.view.writes (Elt F) f L6) ∗ owns (c : Thread nD τ) arg9 fullShare xi7 ∗ owns (c : Thread nD τ) arg10 fullShare xi8 ∗ owns (c : Thread nD τ) arg11 fullShare xi9) -∗ K ⟨⟩))
          ⊢ wp frame (wpE (defs₀ (F := F)) Variants.none c none) E (cc0__prep_kernel i arg2 harg2 arg3 harg3 arg4 harg4 arg5 harg5 arg6 harg6 arg7 harg7 arg8 harg8 arg9 harg9 arg10 harg10 arg11 harg11) K } := by
  refine ⟨?_, ?_, ?_, ?_, fun xi7 xi8 xi9 E K => ?run⟩
  case run =>
    simp only [cc0__prep_kernel_eq_skeleton]; unfold cc0__prep_kernel_skel
    simp only [k0_part1_eq_skeleton]
    unfold owns
    iintro ⟨⟨%f0, %hf0, H0⟩, ⟨%f1, %hf1, H1⟩, ⟨%f2, %hf2, H2⟩, ⟨%d3, %f3, -, H3⟩, ⟨%d4, %f4, -, H4⟩, ⟨%d5, %f5, -, H5⟩, ⟨%d6, %f6, -, H6⟩, ⟨%f7, %hf7, H7⟩, ⟨%f8, %hf8, H8⟩, ⟨%f9, %hf9, H9⟩, Hk⟩
    obtain rfl := harg2.eq_unread hf0; obtain rfl := harg3.eq_unread hf1; obtain rfl := harg4.eq_unread hf2
    obtain rfl := harg9.eq_unread hf7; obtain rfl := harg10.eq_unread hf8; obtain rfl := harg11.eq_unread hf9
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    isplitl [H4]; · iexists _; iexact H4
    isplitl [H5]; · iexists _; iexact H5
    isplitl [H6]; · iexists _; iexact H6
    isplitl [H7]
    · iexists _; isplitr; · ipureintro; exact harg9.read_unread _
      iexact H7
    isplitl [H8]
    · iexists _; isplitr; · ipureintro; exact harg10.read_unread _
      iexact H8
    iexists _; isplitr; · ipureintro; exact harg11.read_unread _
    iexact H9

end Cert.KernelIdeal.Hand

end
-- ==== Proof.KernelIdealHost.lean ====
import proofs.«153110_j51737176048098_1_alg».proof.Proof.KernelIdealCond

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The host program around the region

Before the region the host transposes the index map and the weight map so that the coordinate axis of extent
three leads; after it come the reshapes, the six accumulating scatters, the guarded quotient and the final
threshold: seventy-eight lines in five stretches, none of which writes an array the region stages. -/

/-- The TensorCore buffers when the region is entered: the launch contents after the two transposes. -/
abbrev V0 (c : Dev nD) : Valuation τ sig (Elt F) := StableHlo.after (List.flatten [hostOps0]) (fun b => m (c, b))
/-- The same read at a TensorCore reference. -/
abbrev V (c : Dev nD) (b : Ref sig .tc) : Buf (Elt F) ((c : Thread nD τ).loc b) := V0 m c (Proc.devRef .tc b)

/-- The stretches of host lines after the region, in order. -/
abbrev tailOps : List (List (HloOp τ sig (Elt F))) := [hostOps1, hostOps1_1, hostOps1_2, hostOps1_3, hostOps1_4]

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
theorem hostOps1_1_fresh : (hostOps1_1 : List (HloOp τ sig (Elt F))).Forall fun op => op.fresh = ∅ := by
  simp only [List.Forall]; repeat' constructor
theorem hostOps1_2_fresh : (hostOps1_2 : List (HloOp τ sig (Elt F))).Forall fun op => op.fresh = ∅ := by
  simp only [List.Forall]; repeat' constructor
theorem hostOps1_3_fresh : (hostOps1_3 : List (HloOp τ sig (Elt F))).Forall fun op => op.fresh = ∅ := by
  simp only [List.Forall]; repeat' constructor
theorem hostOps1_4_fresh : (hostOps1_4 : List (HloOp τ sig (Elt F))).Forall fun op => op.fresh = ∅ := by
  simp only [List.Forall]; repeat' constructor

/-- The entry function is: the transposes, the region, then the later stretches. -/
theorem hmain (𝒱₀ : Variants) : Pipeline.HMainK (Ix := Unit) (Name := ℕ) (U := UR sig nD τ) (Lvl := ℕ) cfgs 0 defs₀ 𝒱₀ m (main (F := F)) (V m)
      (fun _ => Pipeline.chain ((tailOps (F := F)).map StableHlo.seq)) :=
  Pipeline.hmain_around cfgs 0 defs₀ 𝒱₀ m main [hostOps0] tailOps (by simp only [List.Forall]; exact hostOps0_sub)
    (by simp only [List.Forall]; exact hostOps0_fresh) main_chain

/-- The later lines touch unscoped TensorCore buffers only. -/
theorem sfx_sub : ∀ ops ∈ (tailOps : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [tailOps, List.mem_cons, List.mem_nil_iff, or_false] at hops
  rcases hops with rfl | rfl | rfl | rfl | rfl
  · exact Pipeline.sub_ucRefs op ((List.forall_iff_forall_mem.mp hostOps1_sub) op hop)
  · exact Pipeline.sub_ucRefs op ((List.forall_iff_forall_mem.mp hostOps1_1_sub) op hop)
  · exact Pipeline.sub_ucRefs op ((List.forall_iff_forall_mem.mp hostOps1_2_sub) op hop)
  · exact Pipeline.sub_ucRefs op ((List.forall_iff_forall_mem.mp hostOps1_3_sub) op hop)
  · exact Pipeline.sub_ucRefs op ((List.forall_iff_forall_mem.mp hostOps1_4_sub) op hop)

/-- They allocate nothing. -/
theorem sfx_fresh : ∀ ops ∈ (tailOps : List (List (HloOp τ sig (Elt F)))), ∀ op ∈ ops, op.fresh = ∅ := by
  intro ops hops op hop
  simp only [tailOps, List.mem_cons, List.mem_nil_iff, or_false] at hops
  rcases hops with rfl | rfl | rfl | rfl | rfl
  · exact (List.forall_iff_forall_mem.mp hostOps1_fresh) op hop
  · exact (List.forall_iff_forall_mem.mp hostOps1_1_fresh) op hop
  · exact (List.forall_iff_forall_mem.mp hostOps1_2_fresh) op hop
  · exact (List.forall_iff_forall_mem.mp hostOps1_3_fresh) op hop
  · exact (List.forall_iff_forall_mem.mp hostOps1_4_fresh) op hop

set_option maxHeartbeats 16000000 in
theorem hostOps1_keeps : (hostOps1 : List (HloOp τ sig (Elt F))).Forall fun op => ∀ w, Proc.devRef .tc (Pipeline.arrRef spec0 w) ∉ op.writes := by
  simp only [List.Forall]
  repeat' apply And.intro
  all_goals intro w; fin_cases w <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)
theorem hostOps1_1_keeps : (hostOps1_1 : List (HloOp τ sig (Elt F))).Forall fun op => ∀ w, Proc.devRef .tc (Pipeline.arrRef spec0 w) ∉ op.writes := by
  simp only [List.Forall]
  repeat' apply And.intro
  all_goals intro w; fin_cases w <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)
theorem hostOps1_2_keeps : (hostOps1_2 : List (HloOp τ sig (Elt F))).Forall fun op => ∀ w, Proc.devRef .tc (Pipeline.arrRef spec0 w) ∉ op.writes := by
  simp only [List.Forall]
  repeat' apply And.intro
  all_goals intro w; fin_cases w <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)
theorem hostOps1_3_keeps : (hostOps1_3 : List (HloOp τ sig (Elt F))).Forall fun op => ∀ w, Proc.devRef .tc (Pipeline.arrRef spec0 w) ∉ op.writes := by
  simp only [List.Forall]
  repeat' apply And.intro
  all_goals intro w; fin_cases w <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)
theorem hostOps1_4_keeps : (hostOps1_4 : List (HloOp τ sig (Elt F))).Forall fun op => ∀ w, Proc.devRef .tc (Pipeline.arrRef spec0 w) ∉ op.writes := by
  simp only [List.Forall]
  repeat' apply And.intro
  all_goals intro w; fin_cases w <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)

/-- And each writes only its own result buffer, which is no array the region stages. -/
theorem sfx_keeps : ∀ ops ∈ (tailOps : List (List (HloOp τ sig (Elt F)))), ∀ op ∈ ops,
    ∀ w, Proc.devRef .tc (Pipeline.arrRef spec0 w) ∉ op.writes := by
  intro ops hops op hop
  simp only [tailOps, List.mem_cons, List.mem_nil_iff, or_false] at hops
  rcases hops with rfl | rfl | rfl | rfl | rfl
  · exact (List.forall_iff_forall_mem.mp hostOps1_keeps) op hop
  · exact (List.forall_iff_forall_mem.mp hostOps1_1_keeps) op hop
  · exact (List.forall_iff_forall_mem.mp hostOps1_2_keeps) op hop
  · exact (List.forall_iff_forall_mem.mp hostOps1_3_keeps) op hop
  · exact (List.forall_iff_forall_mem.mp hostOps1_4_keeps) op hop

/-- No host line before the region writes argument 0: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps1, hostOps1_1, hostOps1_2, hostOps1_3, hostOps1_4, tailOps, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- No host line before the region writes argument 1: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps1, hostOps1_1, hostOps1_2, hostOps1_3, hostOps1_4, tailOps, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- No host line before the region writes argument 2: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, hostOps1, hostOps1_1, hostOps1_2, hostOps1_3, hostOps1_4, tailOps, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- No host line after the region writes argument 1, and it is no array of the pipeline: it ends as launched. -/
theorem W_main_arg1 (dats : (p : Fin _) → (c : Dev nD) → Dat τ (Elt F) Unit ℕ (UR sig nD τ) ℕ (cfgs p) c) (c : Dev nD) :
    Pipeline.afterTail₀ cfgs dats 0 (V0 m) tailOps c main_arg1 = m ((c : Thread nD τ).loc main_arg1) := by
  unfold Pipeline.afterTail₀
  rw [StableHlo.after_of_forall_not_mem (b := Proc.devRef .tc main_arg1) _ _ (List.forall_iff_forall_mem.mp (by
    simp only [hostOps0, hostOps1, hostOps1_1, hostOps1_2, hostOps1_3, hostOps1_4, tailOps, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide))),
    Pipeline.withArrays_of_ne _ c (V0 m c) _ main_arg1 (by exact (by decide : ∀ w, Pipeline.arrRef spec0 w ≠ main_arg1))]
  exact V_main_arg1 m c

/-- No host line after the region writes argument 2, and it is no array of the pipeline: it ends as launched. -/
theorem W_main_arg2 (dats : (p : Fin _) → (c : Dev nD) → Dat τ (Elt F) Unit ℕ (UR sig nD τ) ℕ (cfgs p) c) (c : Dev nD) :
    Pipeline.afterTail₀ cfgs dats 0 (V0 m) tailOps c main_arg2 = m ((c : Thread nD τ).loc main_arg2) := by
  unfold Pipeline.afterTail₀
  rw [StableHlo.after_of_forall_not_mem (b := Proc.devRef .tc main_arg2) _ _ (List.forall_iff_forall_mem.mp (by
    simp only [hostOps0, hostOps1, hostOps1_1, hostOps1_2, hostOps1_3, hostOps1_4, tailOps, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide))),
    Pipeline.withArrays_of_ne _ c (V0 m c) _ main_arg2 (by exact (by decide : ∀ w, Pipeline.arrRef spec0 w ≠ main_arg2))]
  exact V_main_arg2 m c

end Cert.KernelIdeal.Hand

end
-- ==== Proof.KernelIdealFrame.lean ====
import proofs.«153110_j51737176048098_1_alg».proof.Proof.KernelIdealRunB
import proofs.«153110_j51737176048098_1_alg».proof.Proof.KernelIdealHost

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The windows' blocks and staging buffers -/

/-- A window's block at a grid point, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! Each input's current staging buffer holds its block at every point, fetched there or not: the two maps are
fetched once per group of eight points and their block index does not move within a group. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

abbrev ms0_0 (t : Fin cfg0.N) : Memref sig .tc .vmem S1x1x512x512 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S3x1x512x512 .i32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S3x1x512x512 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x1x512x512 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x1x512x512 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x1x512x512 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x1x512x512 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1x512x512 .i32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S1x512x512 .i32 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S1x512x512 .i32 := win0_9.stage (cfg0.slots t 9)
abbrev hs0_9 (t : Fin cfg0.N) : (ms0_9 t).IsWhole := hstage0_9 ((cfg0.slots t 9).cast nbuf0_9)
abbrev VO0_3 : View sig .tc .vmem S1x1x512x512 .f32 := (Memref.whole cc0_stg3_0 : Memref sig .tc .vmem S1x1x512x512 .f32).view
abbrev VO0_4 : View sig .tc .vmem S1x1x512x512 .f32 := (Memref.whole cc0_stg4_0 : Memref sig .tc .vmem S1x1x512x512 .f32).view
abbrev VO0_5 : View sig .tc .vmem S1x1x512x512 .f32 := (Memref.whole cc0_stg5_0 : Memref sig .tc .vmem S1x1x512x512 .f32).view
abbrev VO0_6 : View sig .tc .vmem S1x1x512x512 .f32 := (Memref.whole cc0_stg6_0 : Memref sig .tc .vmem S1x1x512x512 .f32).view
abbrev VO0_7 : View sig .tc .vmem S1x512x512 .i32 := (Memref.whole cc0_stg7_0 : Memref sig .tc .vmem S1x512x512 .i32).view
abbrev VO0_8 : View sig .tc .vmem S1x512x512 .i32 := (Memref.whole cc0_stg8_0 : Memref sig .tc .vmem S1x512x512 .i32).view
abbrev VO0_9 : View sig .tc .vmem S1x512x512 .i32 := (Memref.whole cc0_stg9_0 : Memref sig .tc .vmem S1x512x512 .i32).view

theorem liveAt0_0 : ∀ t : Fin cfg0.N, cfg0.idle 0 (grid0.coords t) = false := fun _ => rfl
theorem liveAt0_1 : ∀ t : Fin cfg0.N, cfg0.idle 1 (grid0.coords t) = false := fun _ => rfl
theorem liveAt0_2 : ∀ t : Fin cfg0.N, cfg0.idle 2 (grid0.coords t) = false := fun _ => rfl
theorem liveAt0_3 : ∀ t : Fin cfg0.N, cfg0.idle 3 (grid0.coords t) = false := fun _ => rfl
theorem liveAt0_4 : ∀ t : Fin cfg0.N, cfg0.idle 4 (grid0.coords t) = false := fun _ => rfl
theorem liveAt0_5 : ∀ t : Fin cfg0.N, cfg0.idle 5 (grid0.coords t) = false := fun _ => rfl
theorem liveAt0_6 : ∀ t : Fin cfg0.N, cfg0.idle 6 (grid0.coords t) = false := fun _ => rfl
theorem liveAt0_7_A : ∀ t : Fin cfg0.N, cond0_0 (grid0.coords t) → cfg0.idle 7 (grid0.coords t) = false := by decide +kernel
theorem idleAt0_7_B : ∀ t : Fin cfg0.N, ¬cond0_0 (grid0.coords t) → cfg0.idle 7 (grid0.coords t) = true := by decide +kernel
theorem liveAt0_8_A : ∀ t : Fin cfg0.N, cond0_0 (grid0.coords t) → cfg0.idle 8 (grid0.coords t) = false := by decide +kernel
theorem idleAt0_8_B : ∀ t : Fin cfg0.N, ¬cond0_0 (grid0.coords t) → cfg0.idle 8 (grid0.coords t) = true := by decide +kernel
theorem liveAt0_9_A : ∀ t : Fin cfg0.N, cond0_0 (grid0.coords t) → cfg0.idle 9 (grid0.coords t) = false := by decide +kernel
theorem idleAt0_9_B : ∀ t : Fin cfg0.N, ¬cond0_0 (grid0.coords t) → cfg0.idle 9 (grid0.coords t) = true := by decide +kernel

/-! ## What each case leaves in the outputs' buffers -/
theorem cover0_A_3 (c : Dev nD) (i : grid0.Coords) (arg2 : Memref sig .tc .vmem S1x1x512x512 .f32) (harg2 : arg2.IsWhole) (arg3 : Memref sig .tc .vmem S3x1x512x512 .i32) (harg3 : arg3.IsWhole) (arg4 : Memref sig .tc .vmem S3x1x512x512 .f32) (harg4 : arg4.IsWhole) (arg5 : Memref sig .tc .vmem S1x1x512x512 .f32) (harg5 : arg5.IsWhole) (arg6 : Memref sig .tc .vmem S1x1x512x512 .f32) (harg6 : arg6.IsWhole) (arg7 : Memref sig .tc .vmem S1x1x512x512 .f32) (harg7 : arg7.IsWhole) (arg8 : Memref sig .tc .vmem S1x1x512x512 .f32) (harg8 : arg8.IsWhole) (arg9 : Memref sig .tc .vmem S1x512x512 .i32) (harg9 : arg9.IsWhole) (arg10 : Memref sig .tc .vmem S1x512x512 .i32) (harg10 : arg10.IsWhole) (arg11 : Memref sig .tc .vmem S1x512x512 .i32) (harg11 : arg11.IsWhole) (hc0 : cond0_0 i) (x0 : Vec F S1x1x512x512 .f32) (x1 : Vec F S3x1x512x512 .i32) (x2 : Vec F S3x1x512x512 .f32) (y : S1x1x512x512.Idx) :
    ∃ pc ∈ (kernelRun0_A c i arg2 harg2 arg3 harg3 arg4 harg4 arg5 harg5 arg6 harg6 arg7 harg7 arg8 harg8 arg9 harg9 arg10 harg10 arg11 harg11 hc0 x0 x1 x2).1, y ∈ pc.1.set :=
  View.cover_of_tiledL (kernelRun0_A c i arg2 harg2 arg3 harg3 arg4 harg4 arg5 harg5 arg6 harg6 arg7 harg7 arg8 harg8 arg9 harg9 arg10 harg10 arg11 harg11 hc0 x0 x1 x2).1 S1x1x512x512.size (by sl_kernel_rfl) y
def out0_A_3 (c : Dev nD) (i : grid0.Coords) (arg2 : Memref sig .tc .vmem S1x1x512x512 .f32) (harg2 : arg2.IsWhole) (arg3 : Memref sig .tc .vmem S3x1x512x512 .i32) (harg3 : arg3.IsWhole) (arg4 : Memref sig .tc .vmem S3x1x512x512 .f32) (harg4 : arg4.IsWhole) (arg5 : Memref sig .tc .vmem S1x1x512x512 .f32) (harg5 : arg5.IsWhole) (arg6 : Memref sig .tc .vmem S1x1x512x512 .f32) (harg6 : arg6.IsWhole) (arg7 : Memref sig .tc .vmem S1x1x512x512 .f32) (harg7 : arg7.IsWhole) (arg8 : Memref sig .tc .vmem S1x1x512x512 .f32) (harg8 : arg8.IsWhole) (arg9 : Memref sig .tc .vmem S1x512x512 .i32) (harg9 : arg9.IsWhole) (arg10 : Memref sig .tc .vmem S1x512x512 .i32) (harg10 : arg10.IsWhole) (arg11 : Memref sig .tc .vmem S1x512x512 .i32) (harg11 : arg11.IsWhole) (hc0 : cond0_0 i) (x0 : Vec F S1x1x512x512 .f32) (x1 : Vec F S3x1x512x512 .i32) (x2 : Vec F S3x1x512x512 .f32) : Vec F S1x1x512x512 .f32 :=
  VO0_3.read (Elt F) (VO0_3.writes (Elt F) VO0_3.junk (kernelRun0_A c i arg2 harg2 arg3 harg3 arg4 harg4 arg5 harg5 arg6 harg6 arg7 harg7 arg8 harg8 arg9 harg9 arg10 harg10 arg11 harg11 hc0 x0 x1 x2).1)
theorem cover0_A_4 (c : Dev nD) (i : grid0.Coords) (arg2 : Memref sig .tc .vmem S1x1x512x512 .f32) (harg2 : arg2.IsWhole) (arg3 : Memref sig .tc .vmem S3x1x512x512 .i32) (harg3 : arg3.IsWhole) (arg4 : Memref sig .tc .vmem S3x1x512x512 .f32) (harg4 : arg4.IsWhole) (arg5 : Memref sig .tc .vmem S1x1x512x512 .f32) (harg5 : arg5.IsWhole) (arg6 : Memref sig .tc .vmem S1x1x512x512 .f32) (harg6 : arg6.IsWhole) (arg7 : Memref sig .tc .vmem S1x1x512x512 .f32) (harg7 : arg7.IsWhole) (arg8 : Memref sig .tc .vmem S1x1x512x512 .f32) (harg8 : arg8.IsWhole) (arg9 : Memref sig .tc .vmem S1x512x512 .i32) (harg9 : arg9.IsWhole) (arg10 : Memref sig .tc .vmem S1x512x512 .i32) (harg10 : arg10.IsWhole) (arg11 : Memref sig .tc .vmem S1x512x512 .i32) (harg11 : arg11.IsWhole) (hc0 : cond0_0 i) (x0 : Vec F S1x1x512x512 .f32) (x1 : Vec F S3x1x512x512 .i32) (x2 : Vec F S3x1x512x512 .f32) (y : S1x1x512x512.Idx) :
    ∃ pc ∈ (kernelRun0_A c i arg2 harg2 arg3 harg3 arg4 harg4 arg5 harg5 arg6 harg6 arg7 harg7 arg8 harg8 arg9 harg9 arg10 harg10 arg11 harg11 hc0 x0 x1 x2).2.1, y ∈ pc.1.set :=
  View.cover_of_tiledL (kernelRun0_A c i arg2 harg2 arg3 harg3 arg4 harg4 arg5 harg5 arg6 harg6 arg7 harg7 arg8 harg8 arg9 harg9 arg10 harg10 arg11 harg11 hc0 x0 x1 x2).2.1 S1x1x512x512.size (by sl_kernel_rfl) y
def out0_A_4 (c : Dev nD) (i : grid0.Coords) (arg2 : Memref sig .tc .vmem S1x1x512x512 .f32) (harg2 : arg2.IsWhole) (arg3 : Memref sig .tc .vmem S3x1x512x512 .i32) (harg3 : arg3.IsWhole) (arg4 : Memref sig .tc .vmem S3x1x512x512 .f32) (harg4 : arg4.IsWhole) (arg5 : Memref sig .tc .vmem S1x1x512x512 .f32) (harg5 : arg5.IsWhole) (arg6 : Memref sig .tc .vmem S1x1x512x512 .f32) (harg6 : arg6.IsWhole) (arg7 : Memref sig .tc .vmem S1x1x512x512 .f32) (harg7 : arg7.IsWhole) (arg8 : Memref sig .tc .vmem S1x1x512x512 .f32) (harg8 : arg8.IsWhole) (arg9 : Memref sig .tc .vmem S1x512x512 .i32) (harg9 : arg9.IsWhole) (arg10 : Memref sig .tc .vmem S1x512x512 .i32) (harg10 : arg10.IsWhole) (arg11 : Memref sig .tc .vmem S1x512x512 .i32) (harg11 : arg11.IsWhole) (hc0 : cond0_0 i) (x0 : Vec F S1x1x512x512 .f32) (x1 : Vec F S3x1x512x512 .i32) (x2 : Vec F S3x1x512x512 .f32) : Vec F S1x1x512x512 .f32 :=
  VO0_4.read (Elt F) (VO0_4.writes (Elt F) VO0_4.junk (kernelRun0_A c i arg2 harg2 arg3 harg3 arg4 harg4 arg5 harg5 arg6 harg6 arg7 harg7 arg8 harg8 arg9 harg9 arg10 harg10 arg11 harg11 hc0 x0 x1 x2).2.1)
theorem cover0_A_5 (c : Dev nD) (i : grid0.Coords) (arg2 : Memref sig .tc .vmem S1x1x512x512 .f32) (harg2 : arg2.IsWhole) (arg3 : Memref sig .tc .vmem S3x1x512x512 .i32) (harg3 : arg3.IsWhole) (arg4 : Memref sig .tc .vmem S3x1x512x512 .f32) (harg4 : arg4.IsWhole) (arg5 : Memref sig .tc .vmem S1x1x512x512 .f32) (harg5 : arg5.IsWhole) (arg6 : Memref sig .tc .vmem S1x1x512x512 .f32) (harg6 : arg6.IsWhole) (arg7 : Memref sig .tc .vmem S1x1x512x512 .f32) (harg7 : arg7.IsWhole) (arg8 : Memref sig .tc .vmem S1x1x512x512 .f32) (harg8 : arg8.IsWhole) (arg9 : Memref sig .tc .vmem S1x512x512 .i32) (harg9 : arg9.IsWhole) (arg10 : Memref sig .tc .vmem S1x512x512 .i32) (harg10 : arg10.IsWhole) (arg11 : Memref sig .tc .vmem S1x512x512 .i32) (harg11 : arg11.IsWhole) (hc0 : cond0_0 i) (x0 : Vec F S1x1x512x512 .f32) (x1 : Vec F S3x1x512x512 .i32) (x2 : Vec F S3x1x512x512 .f32) (y : S1x1x512x512.Idx) :
    ∃ pc ∈ (kernelRun0_A c i arg2 harg2 arg3 harg3 arg4 harg4 arg5 harg5 arg6 harg6 arg7 harg7 arg8 harg8 arg9 harg9 arg10 harg10 arg11 harg11 hc0 x0 x1 x2).2.2.1, y ∈ pc.1.set :=
  View.cover_of_tiledL (kernelRun0_A c i arg2 harg2 arg3 harg3 arg4 harg4 arg5 harg5 arg6 harg6 arg7 harg7 arg8 harg8 arg9 harg9 arg10 harg10 arg11 harg11 hc0 x0 x1 x2).2.2.1 S1x1x512x512.size (by sl_kernel_rfl) y
def out0_A_5 (c : Dev nD) (i : grid0.Coords) (arg2 : Memref sig .tc .vmem S1x1x512x512 .f32) (harg2 : arg2.IsWhole) (arg3 : Memref sig .tc .vmem S3x1x512x512 .i32) (harg3 : arg3.IsWhole) (arg4 : Memref sig .tc .vmem S3x1x512x512 .f32) (harg4 : arg4.IsWhole) (arg5 : Memref sig .tc .vmem S1x1x512x512 .f32) (harg5 : arg5.IsWhole) (arg6 : Memref sig .tc .vmem S1x1x512x512 .f32) (harg6 : arg6.IsWhole) (arg7 : Memref sig .tc .vmem S1x1x512x512 .f32) (harg7 : arg7.IsWhole) (arg8 : Memref sig .tc .vmem S1x1x512x512 .f32) (harg8 : arg8.IsWhole) (arg9 : Memref sig .tc .vmem S1x512x512 .i32) (harg9 : arg9.IsWhole) (arg10 : Memref sig .tc .vmem S1x512x512 .i32) (harg10 : arg10.IsWhole) (arg11 : Memref sig .tc .vmem S1x512x512 .i32) (harg11 : arg11.IsWhole) (hc0 : cond0_0 i) (x0 : Vec F S1x1x512x512 .f32) (x1 : Vec F S3x1x512x512 .i32) (x2 : Vec F S3x1x512x512 .f32) : Vec F S1x1x512x512 .f32 :=
  VO0_5.read (Elt F) (VO0_5.writes (Elt F) VO0_5.junk (kernelRun0_A c i arg2 harg2 arg3 harg3 arg4 harg4 arg5 harg5 arg6 harg6 arg7 harg7 arg8 harg8 arg9 harg9 arg10 harg10 arg11 harg11 hc0 x0 x1 x2).2.2.1)
theorem cover0_A_6 (c : Dev nD) (i : grid0.Coords) (arg2 : Memref sig .tc .vmem S1x1x512x512 .f32) (harg2 : arg2.IsWhole) (arg3 : Memref sig .tc .vmem S3x1x512x512 .i32) (harg3 : arg3.IsWhole) (arg4 : Memref sig .tc .vmem S3x1x512x512 .f32) (harg4 : arg4.IsWhole) (arg5 : Memref sig .tc .vmem S1x1x512x512 .f32) (harg5 : arg5.IsWhole) (arg6 : Memref sig .tc .vmem S1x1x512x512 .f32) (harg6 : arg6.IsWhole) (arg7 : Memref sig .tc .vmem S1x1x512x512 .f32) (harg7 : arg7.IsWhole) (arg8 : Memref sig .tc .vmem S1x1x512x512 .f32) (harg8 : arg8.IsWhole) (arg9 : Memref sig .tc .vmem S1x512x512 .i32) (harg9 : arg9.IsWhole) (arg10 : Memref sig .tc .vmem S1x512x512 .i32) (harg10 : arg10.IsWhole) (arg11 : Memref sig .tc .vmem S1x512x512 .i32) (harg11 : arg11.IsWhole) (hc0 : cond0_0 i) (x0 : Vec F S1x1x512x512 .f32) (x1 : Vec F S3x1x512x512 .i32) (x2 : Vec F S3x1x512x512 .f32) (y : S1x1x512x512.Idx) :
    ∃ pc ∈ (kernelRun0_A c i arg2 harg2 arg3 harg3 arg4 harg4 arg5 harg5 arg6 harg6 arg7 harg7 arg8 harg8 arg9 harg9 arg10 harg10 arg11 harg11 hc0 x0 x1 x2).2.2.2.1, y ∈ pc.1.set :=
  View.cover_of_tiledL (kernelRun0_A c i arg2 harg2 arg3 harg3 arg4 harg4 arg5 harg5 arg6 harg6 arg7 harg7 arg8 harg8 arg9 harg9 arg10 harg10 arg11 harg11 hc0 x0 x1 x2).2.2.2.1 S1x1x512x512.size (by sl_kernel_rfl) y
def out0_A_6 (c : Dev nD) (i : grid0.Coords) (arg2 : Memref sig .tc .vmem S1x1x512x512 .f32) (harg2 : arg2.IsWhole) (arg3 : Memref sig .tc .vmem S3x1x512x512 .i32) (harg3 : arg3.IsWhole) (arg4 : Memref sig .tc .vmem S3x1x512x512 .f32) (harg4 : arg4.IsWhole) (arg5 : Memref sig .tc .vmem S1x1x512x512 .f32) (harg5 : arg5.IsWhole) (arg6 : Memref sig .tc .vmem S1x1x512x512 .f32) (harg6 : arg6.IsWhole) (arg7 : Memref sig .tc .vmem S1x1x512x512 .f32) (harg7 : arg7.IsWhole) (arg8 : Memref sig .tc .vmem S1x1x512x512 .f32) (harg8 : arg8.IsWhole) (arg9 : Memref sig .tc .vmem S1x512x512 .i32) (harg9 : arg9.IsWhole) (arg10 : Memref sig .tc .vmem S1x512x512 .i32) (harg10 : arg10.IsWhole) (arg11 : Memref sig .tc .vmem S1x512x512 .i32) (harg11 : arg11.IsWhole) (hc0 : cond0_0 i) (x0 : Vec F S1x1x512x512 .f32) (x1 : Vec F S3x1x512x512 .i32) (x2 : Vec F S3x1x512x512 .f32) : Vec F S1x1x512x512 .f32 :=
  VO0_6.read (Elt F) (VO0_6.writes (Elt F) VO0_6.junk (kernelRun0_A c i arg2 harg2 arg3 harg3 arg4 harg4 arg5 harg5 arg6 harg6 arg7 harg7 arg8 harg8 arg9 harg9 arg10 harg10 arg11 harg11 hc0 x0 x1 x2).2.2.2.1)
theorem cover0_A_7 (c : Dev nD) (i : grid0.Coords) (arg2 : Memref sig .tc .vmem S1x1x512x512 .f32) (harg2 : arg2.IsWhole) (arg3 : Memref sig .tc .vmem S3x1x512x512 .i32) (harg3 : arg3.IsWhole) (arg4 : Memref sig .tc .vmem S3x1x512x512 .f32) (harg4 : arg4.IsWhole) (arg5 : Memref sig .tc .vmem S1x1x512x512 .f32) (harg5 : arg5.IsWhole) (arg6 : Memref sig .tc .vmem S1x1x512x512 .f32) (harg6 : arg6.IsWhole) (arg7 : Memref sig .tc .vmem S1x1x512x512 .f32) (harg7 : arg7.IsWhole) (arg8 : Memref sig .tc .vmem S1x1x512x512 .f32) (harg8 : arg8.IsWhole) (arg9 : Memref sig .tc .vmem S1x512x512 .i32) (harg9 : arg9.IsWhole) (arg10 : Memref sig .tc .vmem S1x512x512 .i32) (harg10 : arg10.IsWhole) (arg11 : Memref sig .tc .vmem S1x512x512 .i32) (harg11 : arg11.IsWhole) (hc0 : cond0_0 i) (x0 : Vec F S1x1x512x512 .f32) (x1 : Vec F S3x1x512x512 .i32) (x2 : Vec F S3x1x512x512 .f32) (y : S1x512x512.Idx) :
    ∃ pc ∈ (kernelRun0_A c i arg2 harg2 arg3 harg3 arg4 harg4 arg5 harg5 arg6 harg6 arg7 harg7 arg8 harg8 arg9 harg9 arg10 harg10 arg11 harg11 hc0 x0 x1 x2).2.2.2.2.1, y ∈ pc.1.set :=
  View.cover_of_tiledL (kernelRun0_A c i arg2 harg2 arg3 harg3 arg4 harg4 arg5 harg5 arg6 harg6 arg7 harg7 arg8 harg8 arg9 harg9 arg10 harg10 arg11 harg11 hc0 x0 x1 x2).2.2.2.2.1 S1x512x512.size (by sl_kernel_rfl) y
def out0_A_7 (c : Dev nD) (i : grid0.Coords) (arg2 : Memref sig .tc .vmem S1x1x512x512 .f32) (harg2 : arg2.IsWhole) (arg3 : Memref sig .tc .vmem S3x1x512x512 .i32) (harg3 : arg3.IsWhole) (arg4 : Memref sig .tc .vmem S3x1x512x512 .f32) (harg4 : arg4.IsWhole) (arg5 : Memref sig .tc .vmem S1x1x512x512 .f32) (harg5 : arg5.IsWhole) (arg6 : Memref sig .tc .vmem S1x1x512x512 .f32) (harg6 : arg6.IsWhole) (arg7 : Memref sig .tc .vmem S1x1x512x512 .f32) (harg7 : arg7.IsWhole) (arg8 : Memref sig .tc .vmem S1x1x512x512 .f32) (harg8 : arg8.IsWhole) (arg9 : Memref sig .tc .vmem S1x512x512 .i32) (harg9 : arg9.IsWhole) (arg10 : Memref sig .tc .vmem S1x512x512 .i32) (harg10 : arg10.IsWhole) (arg11 : Memref sig .tc .vmem S1x512x512 .i32) (harg11 : arg11.IsWhole) (hc0 : cond0_0 i) (x0 : Vec F S1x1x512x512 .f32) (x1 : Vec F S3x1x512x512 .i32) (x2 : Vec F S3x1x512x512 .f32) : Vec F S1x512x512 .i32 :=
  VO0_7.read (Elt F) (VO0_7.writes (Elt F) VO0_7.junk (kernelRun0_A c i arg2 harg2 arg3 harg3 arg4 harg4 arg5 harg5 arg6 harg6 arg7 harg7 arg8 harg8 arg9 harg9 arg10 harg10 arg11 harg11 hc0 x0 x1 x2).2.2.2.2.1)
theorem cover0_A_8 (c : Dev nD) (i : grid0.Coords) (arg2 : Memref sig .tc .vmem S1x1x512x512 .f32) (harg2 : arg2.IsWhole) (arg3 : Memref sig .tc .vmem S3x1x512x512 .i32) (harg3 : arg3.IsWhole) (arg4 : Memref sig .tc .vmem S3x1x512x512 .f32) (harg4 : arg4.IsWhole) (arg5 : Memref sig .tc .vmem S1x1x512x512 .f32) (harg5 : arg5.IsWhole) (arg6 : Memref sig .tc .vmem S1x1x512x512 .f32) (harg6 : arg6.IsWhole) (arg7 : Memref sig .tc .vmem S1x1x512x512 .f32) (harg7 : arg7.IsWhole) (arg8 : Memref sig .tc .vmem S1x1x512x512 .f32) (harg8 : arg8.IsWhole) (arg9 : Memref sig .tc .vmem S1x512x512 .i32) (harg9 : arg9.IsWhole) (arg10 : Memref sig .tc .vmem S1x512x512 .i32) (harg10 : arg10.IsWhole) (arg11 : Memref sig .tc .vmem S1x512x512 .i32) (harg11 : arg11.IsWhole) (hc0 : cond0_0 i) (x0 : Vec F S1x1x512x512 .f32) (x1 : Vec F S3x1x512x512 .i32) (x2 : Vec F S3x1x512x512 .f32) (y : S1x512x512.Idx) :
    ∃ pc ∈ (kernelRun0_A c i arg2 harg2 arg3 harg3 arg4 harg4 arg5 harg5 arg6 harg6 arg7 harg7 arg8 harg8 arg9 harg9 arg10 harg10 arg11 harg11 hc0 x0 x1 x2).2.2.2.2.2.1, y ∈ pc.1.set :=
  View.cover_of_tiledL (kernelRun0_A c i arg2 harg2 arg3 harg3 arg4 harg4 arg5 harg5 arg6 harg6 arg7 harg7 arg8 harg8 arg9 harg9 arg10 harg10 arg11 harg11 hc0 x0 x1 x2).2.2.2.2.2.1 S1x512x512.size (by sl_kernel_rfl) y
def out0_A_8 (c : Dev nD) (i : grid0.Coords) (arg2 : Memref sig .tc .vmem S1x1x512x512 .f32) (harg2 : arg2.IsWhole) (arg3 : Memref sig .tc .vmem S3x1x512x512 .i32) (harg3 : arg3.IsWhole) (arg4 : Memref sig .tc .vmem S3x1x512x512 .f32) (harg4 : arg4.IsWhole) (arg5 : Memref sig .tc .vmem S1x1x512x512 .f32) (harg5 : arg5.IsWhole) (arg6 : Memref sig .tc .vmem S1x1x512x512 .f32) (harg6 : arg6.IsWhole) (arg7 : Memref sig .tc .vmem S1x1x512x512 .f32) (harg7 : arg7.IsWhole) (arg8 : Memref sig .tc .vmem S1x1x512x512 .f32) (harg8 : arg8.IsWhole) (arg9 : Memref sig .tc .vmem S1x512x512 .i32) (harg9 : arg9.IsWhole) (arg10 : Memref sig .tc .vmem S1x512x512 .i32) (harg10 : arg10.IsWhole) (arg11 : Memref sig .tc .vmem S1x512x512 .i32) (harg11 : arg11.IsWhole) (hc0 : cond0_0 i) (x0 : Vec F S1x1x512x512 .f32) (x1 : Vec F S3x1x512x512 .i32) (x2 : Vec F S3x1x512x512 .f32) : Vec F S1x512x512 .i32 :=
  VO0_8.read (Elt F) (VO0_8.writes (Elt F) VO0_8.junk (kernelRun0_A c i arg2 harg2 arg3 harg3 arg4 harg4 arg5 harg5 arg6 harg6 arg7 harg7 arg8 harg8 arg9 harg9 arg10 harg10 arg11 harg11 hc0 x0 x1 x2).2.2.2.2.2.1)
theorem cover0_A_9 (c : Dev nD) (i : grid0.Coords) (arg2 : Memref sig .tc .vmem S1x1x512x512 .f32) (harg2 : arg2.IsWhole) (arg3 : Memref sig .tc .vmem S3x1x512x512 .i32) (harg3 : arg3.IsWhole) (arg4 : Memref sig .tc .vmem S3x1x512x512 .f32) (harg4 : arg4.IsWhole) (arg5 : Memref sig .tc .vmem S1x1x512x512 .f32) (harg5 : arg5.IsWhole) (arg6 : Memref sig .tc .vmem S1x1x512x512 .f32) (harg6 : arg6.IsWhole) (arg7 : Memref sig .tc .vmem S1x1x512x512 .f32) (harg7 : arg7.IsWhole) (arg8 : Memref sig .tc .vmem S1x1x512x512 .f32) (harg8 : arg8.IsWhole) (arg9 : Memref sig .tc .vmem S1x512x512 .i32) (harg9 : arg9.IsWhole) (arg10 : Memref sig .tc .vmem S1x512x512 .i32) (harg10 : arg10.IsWhole) (arg11 : Memref sig .tc .vmem S1x512x512 .i32) (harg11 : arg11.IsWhole) (hc0 : cond0_0 i) (x0 : Vec F S1x1x512x512 .f32) (x1 : Vec F S3x1x512x512 .i32) (x2 : Vec F S3x1x512x512 .f32) (y : S1x512x512.Idx) :
    ∃ pc ∈ (kernelRun0_A c i arg2 harg2 arg3 harg3 arg4 harg4 arg5 harg5 arg6 harg6 arg7 harg7 arg8 harg8 arg9 harg9 arg10 harg10 arg11 harg11 hc0 x0 x1 x2).2.2.2.2.2.2.1, y ∈ pc.1.set :=
  View.cover_of_tiledL (kernelRun0_A c i arg2 harg2 arg3 harg3 arg4 harg4 arg5 harg5 arg6 harg6 arg7 harg7 arg8 harg8 arg9 harg9 arg10 harg10 arg11 harg11 hc0 x0 x1 x2).2.2.2.2.2.2.1 S1x512x512.size (by sl_kernel_rfl) y
def out0_A_9 (c : Dev nD) (i : grid0.Coords) (arg2 : Memref sig .tc .vmem S1x1x512x512 .f32) (harg2 : arg2.IsWhole) (arg3 : Memref sig .tc .vmem S3x1x512x512 .i32) (harg3 : arg3.IsWhole) (arg4 : Memref sig .tc .vmem S3x1x512x512 .f32) (harg4 : arg4.IsWhole) (arg5 : Memref sig .tc .vmem S1x1x512x512 .f32) (harg5 : arg5.IsWhole) (arg6 : Memref sig .tc .vmem S1x1x512x512 .f32) (harg6 : arg6.IsWhole) (arg7 : Memref sig .tc .vmem S1x1x512x512 .f32) (harg7 : arg7.IsWhole) (arg8 : Memref sig .tc .vmem S1x1x512x512 .f32) (harg8 : arg8.IsWhole) (arg9 : Memref sig .tc .vmem S1x512x512 .i32) (harg9 : arg9.IsWhole) (arg10 : Memref sig .tc .vmem S1x512x512 .i32) (harg10 : arg10.IsWhole) (arg11 : Memref sig .tc .vmem S1x512x512 .i32) (harg11 : arg11.IsWhole) (hc0 : cond0_0 i) (x0 : Vec F S1x1x512x512 .f32) (x1 : Vec F S3x1x512x512 .i32) (x2 : Vec F S3x1x512x512 .f32) : Vec F S1x512x512 .i32 :=
  VO0_9.read (Elt F) (VO0_9.writes (Elt F) VO0_9.junk (kernelRun0_A c i arg2 harg2 arg3 harg3 arg4 harg4 arg5 harg5 arg6 harg6 arg7 harg7 arg8 harg8 arg9 harg9 arg10 harg10 arg11 harg11 hc0 x0 x1 x2).2.2.2.2.2.2.1)
theorem cover0_B_3 (c : Dev nD) (i : grid0.Coords) (arg2 : Memref sig .tc .vmem S1x1x512x512 .f32) (harg2 : arg2.IsWhole) (arg3 : Memref sig .tc .vmem S3x1x512x512 .i32) (harg3 : arg3.IsWhole) (arg4 : Memref sig .tc .vmem S3x1x512x512 .f32) (harg4 : arg4.IsWhole) (arg5 : Memref sig .tc .vmem S1x1x512x512 .f32) (harg5 : arg5.IsWhole) (arg6 : Memref sig .tc .vmem S1x1x512x512 .f32) (harg6 : arg6.IsWhole) (arg7 : Memref sig .tc .vmem S1x1x512x512 .f32) (harg7 : arg7.IsWhole) (arg8 : Memref sig .tc .vmem S1x1x512x512 .f32) (harg8 : arg8.IsWhole) (arg9 : Memref sig .tc .vmem S1x512x512 .i32) (harg9 : arg9.IsWhole) (arg10 : Memref sig .tc .vmem S1x512x512 .i32) (harg10 : arg10.IsWhole) (arg11 : Memref sig .tc .vmem S1x512x512 .i32) (harg11 : arg11.IsWhole) (hc0 : ¬cond0_0 i) (x0 : Vec F S1x1x512x512 .f32) (x1 : Vec F S3x1x512x512 .i32) (x2 : Vec F S3x1x512x512 .f32) (y : S1x1x512x512.Idx) :
    ∃ pc ∈ (kernelRun0_B c i arg2 harg2 arg3 harg3 arg4 harg4 arg5 harg5 arg6 harg6 arg7 harg7 arg8 harg8 arg9 harg9 arg10 harg10 arg11 harg11 hc0 x0 x1 x2).1, y ∈ pc.1.set :=
  View.cover_of_tiledL (kernelRun0_B c i arg2 harg2 arg3 harg3 arg4 harg4 arg5 harg5 arg6 harg6 arg7 harg7 arg8 harg8 arg9 harg9 arg10 harg10 arg11 harg11 hc0 x0 x1 x2).1 S1x1x512x512.size (by sl_kernel_rfl) y
def out0_B_3 (c : Dev nD) (i : grid0.Coords) (arg2 : Memref sig .tc .vmem S1x1x512x512 .f32) (harg2 : arg2.IsWhole) (arg3 : Memref sig .tc .vmem S3x1x512x512 .i32) (harg3 : arg3.IsWhole) (arg4 : Memref sig .tc .vmem S3x1x512x512 .f32) (harg4 : arg4.IsWhole) (arg5 : Memref sig .tc .vmem S1x1x512x512 .f32) (harg5 : arg5.IsWhole) (arg6 : Memref sig .tc .vmem S1x1x512x512 .f32) (harg6 : arg6.IsWhole) (arg7 : Memref sig .tc .vmem S1x1x512x512 .f32) (harg7 : arg7.IsWhole) (arg8 : Memref sig .tc .vmem S1x1x512x512 .f32) (harg8 : arg8.IsWhole) (arg9 : Memref sig .tc .vmem S1x512x512 .i32) (harg9 : arg9.IsWhole) (arg10 : Memref sig .tc .vmem S1x512x512 .i32) (harg10 : arg10.IsWhole) (arg11 : Memref sig .tc .vmem S1x512x512 .i32) (harg11 : arg11.IsWhole) (hc0 : ¬cond0_0 i) (x0 : Vec F S1x1x512x512 .f32) (x1 : Vec F S3x1x512x512 .i32) (x2 : Vec F S3x1x512x512 .f32) : Vec F S1x1x512x512 .f32 :=
  VO0_3.read (Elt F) (VO0_3.writes (Elt F) VO0_3.junk (kernelRun0_B c i arg2 harg2 arg3 harg3 arg4 harg4 arg5 harg5 arg6 harg6 arg7 harg7 arg8 harg8 arg9 harg9 arg10 harg10 arg11 harg11 hc0 x0 x1 x2).1)
theorem cover0_B_4 (c : Dev nD) (i : grid0.Coords) (arg2 : Memref sig .tc .vmem S1x1x512x512 .f32) (harg2 : arg2.IsWhole) (arg3 : Memref sig .tc .vmem S3x1x512x512 .i32) (harg3 : arg3.IsWhole) (arg4 : Memref sig .tc .vmem S3x1x512x512 .f32) (harg4 : arg4.IsWhole) (arg5 : Memref sig .tc .vmem S1x1x512x512 .f32) (harg5 : arg5.IsWhole) (arg6 : Memref sig .tc .vmem S1x1x512x512 .f32) (harg6 : arg6.IsWhole) (arg7 : Memref sig .tc .vmem S1x1x512x512 .f32) (harg7 : arg7.IsWhole) (arg8 : Memref sig .tc .vmem S1x1x512x512 .f32) (harg8 : arg8.IsWhole) (arg9 : Memref sig .tc .vmem S1x512x512 .i32) (harg9 : arg9.IsWhole) (arg10 : Memref sig .tc .vmem S1x512x512 .i32) (harg10 : arg10.IsWhole) (arg11 : Memref sig .tc .vmem S1x512x512 .i32) (harg11 : arg11.IsWhole) (hc0 : ¬cond0_0 i) (x0 : Vec F S1x1x512x512 .f32) (x1 : Vec F S3x1x512x512 .i32) (x2 : Vec F S3x1x512x512 .f32) (y : S1x1x512x512.Idx) :
    ∃ pc ∈ (kernelRun0_B c i arg2 harg2 arg3 harg3 arg4 harg4 arg5 harg5 arg6 harg6 arg7 harg7 arg8 harg8 arg9 harg9 arg10 harg10 arg11 harg11 hc0 x0 x1 x2).2.1, y ∈ pc.1.set :=
  View.cover_of_tiledL (kernelRun0_B c i arg2 harg2 arg3 harg3 arg4 harg4 arg5 harg5 arg6 harg6 arg7 harg7 arg8 harg8 arg9 harg9 arg10 harg10 arg11 harg11 hc0 x0 x1 x2).2.1 S1x1x512x512.size (by sl_kernel_rfl) y
def out0_B_4 (c : Dev nD) (i : grid0.Coords) (arg2 : Memref sig .tc .vmem S1x1x512x512 .f32) (harg2 : arg2.IsWhole) (arg3 : Memref sig .tc .vmem S3x1x512x512 .i32) (harg3 : arg3.IsWhole) (arg4 : Memref sig .tc .vmem S3x1x512x512 .f32) (harg4 : arg4.IsWhole) (arg5 : Memref sig .tc .vmem S1x1x512x512 .f32) (harg5 : arg5.IsWhole) (arg6 : Memref sig .tc .vmem S1x1x512x512 .f32) (harg6 : arg6.IsWhole) (arg7 : Memref sig .tc .vmem S1x1x512x512 .f32) (harg7 : arg7.IsWhole) (arg8 : Memref sig .tc .vmem S1x1x512x512 .f32) (harg8 : arg8.IsWhole) (arg9 : Memref sig .tc .vmem S1x512x512 .i32) (harg9 : arg9.IsWhole) (arg10 : Memref sig .tc .vmem S1x512x512 .i32) (harg10 : arg10.IsWhole) (arg11 : Memref sig .tc .vmem S1x512x512 .i32) (harg11 : arg11.IsWhole) (hc0 : ¬cond0_0 i) (x0 : Vec F S1x1x512x512 .f32) (x1 : Vec F S3x1x512x512 .i32) (x2 : Vec F S3x1x512x512 .f32) : Vec F S1x1x512x512 .f32 :=
  VO0_4.read (Elt F) (VO0_4.writes (Elt F) VO0_4.junk (kernelRun0_B c i arg2 harg2 arg3 harg3 arg4 harg4 arg5 harg5 arg6 harg6 arg7 harg7 arg8 harg8 arg9 harg9 arg10 harg10 arg11 harg11 hc0 x0 x1 x2).2.1)
theorem cover0_B_5 (c : Dev nD) (i : grid0.Coords) (arg2 : Memref sig .tc .vmem S1x1x512x512 .f32) (harg2 : arg2.IsWhole) (arg3 : Memref sig .tc .vmem S3x1x512x512 .i32) (harg3 : arg3.IsWhole) (arg4 : Memref sig .tc .vmem S3x1x512x512 .f32) (harg4 : arg4.IsWhole) (arg5 : Memref sig .tc .vmem S1x1x512x512 .f32) (harg5 : arg5.IsWhole) (arg6 : Memref sig .tc .vmem S1x1x512x512 .f32) (harg6 : arg6.IsWhole) (arg7 : Memref sig .tc .vmem S1x1x512x512 .f32) (harg7 : arg7.IsWhole) (arg8 : Memref sig .tc .vmem S1x1x512x512 .f32) (harg8 : arg8.IsWhole) (arg9 : Memref sig .tc .vmem S1x512x512 .i32) (harg9 : arg9.IsWhole) (arg10 : Memref sig .tc .vmem S1x512x512 .i32) (harg10 : arg10.IsWhole) (arg11 : Memref sig .tc .vmem S1x512x512 .i32) (harg11 : arg11.IsWhole) (hc0 : ¬cond0_0 i) (x0 : Vec F S1x1x512x512 .f32) (x1 : Vec F S3x1x512x512 .i32) (x2 : Vec F S3x1x512x512 .f32) (y : S1x1x512x512.Idx) :
    ∃ pc ∈ (kernelRun0_B c i arg2 harg2 arg3 harg3 arg4 harg4 arg5 harg5 arg6 harg6 arg7 harg7 arg8 harg8 arg9 harg9 arg10 harg10 arg11 harg11 hc0 x0 x1 x2).2.2.1, y ∈ pc.1.set :=
  View.cover_of_tiledL (kernelRun0_B c i arg2 harg2 arg3 harg3 arg4 harg4 arg5 harg5 arg6 harg6 arg7 harg7 arg8 harg8 arg9 harg9 arg10 harg10 arg11 harg11 hc0 x0 x1 x2).2.2.1 S1x1x512x512.size (by sl_kernel_rfl) y
def out0_B_5 (c : Dev nD) (i : grid0.Coords) (arg2 : Memref sig .tc .vmem S1x1x512x512 .f32) (harg2 : arg2.IsWhole) (arg3 : Memref sig .tc .vmem S3x1x512x512 .i32) (harg3 : arg3.IsWhole) (arg4 : Memref sig .tc .vmem S3x1x512x512 .f32) (harg4 : arg4.IsWhole) (arg5 : Memref sig .tc .vmem S1x1x512x512 .f32) (harg5 : arg5.IsWhole) (arg6 : Memref sig .tc .vmem S1x1x512x512 .f32) (harg6 : arg6.IsWhole) (arg7 : Memref sig .tc .vmem S1x1x512x512 .f32) (harg7 : arg7.IsWhole) (arg8 : Memref sig .tc .vmem S1x1x512x512 .f32) (harg8 : arg8.IsWhole) (arg9 : Memref sig .tc .vmem S1x512x512 .i32) (harg9 : arg9.IsWhole) (arg10 : Memref sig .tc .vmem S1x512x512 .i32) (harg10 : arg10.IsWhole) (arg11 : Memref sig .tc .vmem S1x512x512 .i32) (harg11 : arg11.IsWhole) (hc0 : ¬cond0_0 i) (x0 : Vec F S1x1x512x512 .f32) (x1 : Vec F S3x1x512x512 .i32) (x2 : Vec F S3x1x512x512 .f32) : Vec F S1x1x512x512 .f32 :=
  VO0_5.read (Elt F) (VO0_5.writes (Elt F) VO0_5.junk (kernelRun0_B c i arg2 harg2 arg3 harg3 arg4 harg4 arg5 harg5 arg6 harg6 arg7 harg7 arg8 harg8 arg9 harg9 arg10 harg10 arg11 harg11 hc0 x0 x1 x2).2.2.1)
theorem cover0_B_6 (c : Dev nD) (i : grid0.Coords) (arg2 : Memref sig .tc .vmem S1x1x512x512 .f32) (harg2 : arg2.IsWhole) (arg3 : Memref sig .tc .vmem S3x1x512x512 .i32) (harg3 : arg3.IsWhole) (arg4 : Memref sig .tc .vmem S3x1x512x512 .f32) (harg4 : arg4.IsWhole) (arg5 : Memref sig .tc .vmem S1x1x512x512 .f32) (harg5 : arg5.IsWhole) (arg6 : Memref sig .tc .vmem S1x1x512x512 .f32) (harg6 : arg6.IsWhole) (arg7 : Memref sig .tc .vmem S1x1x512x512 .f32) (harg7 : arg7.IsWhole) (arg8 : Memref sig .tc .vmem S1x1x512x512 .f32) (harg8 : arg8.IsWhole) (arg9 : Memref sig .tc .vmem S1x512x512 .i32) (harg9 : arg9.IsWhole) (arg10 : Memref sig .tc .vmem S1x512x512 .i32) (harg10 : arg10.IsWhole) (arg11 : Memref sig .tc .vmem S1x512x512 .i32) (harg11 : arg11.IsWhole) (hc0 : ¬cond0_0 i) (x0 : Vec F S1x1x512x512 .f32) (x1 : Vec F S3x1x512x512 .i32) (x2 : Vec F S3x1x512x512 .f32) (y : S1x1x512x512.Idx) :
    ∃ pc ∈ (kernelRun0_B c i arg2 harg2 arg3 harg3 arg4 harg4 arg5 harg5 arg6 harg6 arg7 harg7 arg8 harg8 arg9 harg9 arg10 harg10 arg11 harg11 hc0 x0 x1 x2).2.2.2.1, y ∈ pc.1.set :=
  View.cover_of_tiledL (kernelRun0_B c i arg2 harg2 arg3 harg3 arg4 harg4 arg5 harg5 arg6 harg6 arg7 harg7 arg8 harg8 arg9 harg9 arg10 harg10 arg11 harg11 hc0 x0 x1 x2).2.2.2.1 S1x1x512x512.size (by sl_kernel_rfl) y
def out0_B_6 (c : Dev nD) (i : grid0.Coords) (arg2 : Memref sig .tc .vmem S1x1x512x512 .f32) (harg2 : arg2.IsWhole) (arg3 : Memref sig .tc .vmem S3x1x512x512 .i32) (harg3 : arg3.IsWhole) (arg4 : Memref sig .tc .vmem S3x1x512x512 .f32) (harg4 : arg4.IsWhole) (arg5 : Memref sig .tc .vmem S1x1x512x512 .f32) (harg5 : arg5.IsWhole) (arg6 : Memref sig .tc .vmem S1x1x512x512 .f32) (harg6 : arg6.IsWhole) (arg7 : Memref sig .tc .vmem S1x1x512x512 .f32) (harg7 : arg7.IsWhole) (arg8 : Memref sig .tc .vmem S1x1x512x512 .f32) (harg8 : arg8.IsWhole) (arg9 : Memref sig .tc .vmem S1x512x512 .i32) (harg9 : arg9.IsWhole) (arg10 : Memref sig .tc .vmem S1x512x512 .i32) (harg10 : arg10.IsWhole) (arg11 : Memref sig .tc .vmem S1x512x512 .i32) (harg11 : arg11.IsWhole) (hc0 : ¬cond0_0 i) (x0 : Vec F S1x1x512x512 .f32) (x1 : Vec F S3x1x512x512 .i32) (x2 : Vec F S3x1x512x512 .f32) : Vec F S1x1x512x512 .f32 :=
  VO0_6.read (Elt F) (VO0_6.writes (Elt F) VO0_6.junk (kernelRun0_B c i arg2 harg2 arg3 harg3 arg4 harg4 arg5 harg5 arg6 harg6 arg7 harg7 arg8 harg8 arg9 harg9 arg10 harg10 arg11 harg11 hc0 x0 x1 x2).2.2.2.1)

/-! ## The first point of a point's group of eight

The index buffers are stored at the first point of each group (batch index zero) and written back at its last
point; in between they are left alone. What they hold throughout the group is what the first point stored. -/

def base (t : Fin cfg0.N) : Fin cfg0.N := ⟨t.val - t.val % 8, lt_of_le_of_lt (Nat.sub_le _ _) t.isLt⟩
theorem base_mod (t : Fin cfg0.N) : (base t).val % 8 = 0 := by unfold base; simp only; omega
theorem base_eq (t : Fin cfg0.N) (h : t.val % 8 = 0) : base t = t := Fin.ext (by unfold base; simp only; omega)
theorem base_pred (t : Fin cfg0.N) (h : t.val % 8 ≠ 0) : base ⟨t.val - 1, Nat.lt_of_le_of_lt (Nat.sub_le _ _) t.isLt⟩ = base t :=
  Fin.ext (by unfold base; simp only; omega)

def aft0_3 (c : Dev nD) (t : Fin cfg0.N) : Vec F S1x1x512x512 .f32 :=
  if h : t.val % 8 = 0 then out0_A_3 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) ((hcond0_0 t).mpr h) (iblk m c 0 t) (iblk m c 1 t) (iblk m c 2 t)
  else out0_B_3 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (fun hc => h ((hcond0_0 t).mp hc)) (iblk m c 0 t) (iblk m c 1 t) (iblk m c 2 t)
def aft0_4 (c : Dev nD) (t : Fin cfg0.N) : Vec F S1x1x512x512 .f32 :=
  if h : t.val % 8 = 0 then out0_A_4 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) ((hcond0_0 t).mpr h) (iblk m c 0 t) (iblk m c 1 t) (iblk m c 2 t)
  else out0_B_4 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (fun hc => h ((hcond0_0 t).mp hc)) (iblk m c 0 t) (iblk m c 1 t) (iblk m c 2 t)
def aft0_5 (c : Dev nD) (t : Fin cfg0.N) : Vec F S1x1x512x512 .f32 :=
  if h : t.val % 8 = 0 then out0_A_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) ((hcond0_0 t).mpr h) (iblk m c 0 t) (iblk m c 1 t) (iblk m c 2 t)
  else out0_B_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (fun hc => h ((hcond0_0 t).mp hc)) (iblk m c 0 t) (iblk m c 1 t) (iblk m c 2 t)
def aft0_6 (c : Dev nD) (t : Fin cfg0.N) : Vec F S1x1x512x512 .f32 :=
  if h : t.val % 8 = 0 then out0_A_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) ((hcond0_0 t).mpr h) (iblk m c 0 t) (iblk m c 1 t) (iblk m c 2 t)
  else out0_B_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (fun hc => h ((hcond0_0 t).mp hc)) (iblk m c 0 t) (iblk m c 1 t) (iblk m c 2 t)
/-- What a storing point (batch index zero) leaves in index buffer 0. -/
def aftAt0_7 (c : Dev nD) (s : Fin cfg0.N) (hs : s.val % 8 = 0) : Vec F S1x512x512 .i32 :=
  out0_A_7 c (grid0.coords s) (ms0_0 s) (hs0_0 s) (ms0_1 s) (hs0_1 s) (ms0_2 s) (hs0_2 s) (ms0_3 s) (hs0_3 s) (ms0_4 s) (hs0_4 s) (ms0_5 s) (hs0_5 s) (ms0_6 s) (hs0_6 s) (ms0_7 s) (hs0_7 s) (ms0_8 s) (hs0_8 s) (ms0_9 s) (hs0_9 s) ((hcond0_0 s).mpr hs) (iblk m c 0 s) (iblk m c 1 s) (iblk m c 2 s)
theorem aftAt0_7_congr (c : Dev nD) (s s' : Fin cfg0.N) (hs : s.val % 8 = 0) (hs' : s'.val % 8 = 0) (h : s = s') :
    aftAt0_7 m c s hs = aftAt0_7 m c s' hs' := by subst h; rfl
def aft0_7 (c : Dev nD) (t : Fin cfg0.N) : Vec F S1x512x512 .i32 := aftAt0_7 m c (base t) (base_mod t)
/-- What a storing point (batch index zero) leaves in index buffer 1. -/
def aftAt0_8 (c : Dev nD) (s : Fin cfg0.N) (hs : s.val % 8 = 0) : Vec F S1x512x512 .i32 :=
  out0_A_8 c (grid0.coords s) (ms0_0 s) (hs0_0 s) (ms0_1 s) (hs0_1 s) (ms0_2 s) (hs0_2 s) (ms0_3 s) (hs0_3 s) (ms0_4 s) (hs0_4 s) (ms0_5 s) (hs0_5 s) (ms0_6 s) (hs0_6 s) (ms0_7 s) (hs0_7 s) (ms0_8 s) (hs0_8 s) (ms0_9 s) (hs0_9 s) ((hcond0_0 s).mpr hs) (iblk m c 0 s) (iblk m c 1 s) (iblk m c 2 s)
theorem aftAt0_8_congr (c : Dev nD) (s s' : Fin cfg0.N) (hs : s.val % 8 = 0) (hs' : s'.val % 8 = 0) (h : s = s') :
    aftAt0_8 m c s hs = aftAt0_8 m c s' hs' := by subst h; rfl
def aft0_8 (c : Dev nD) (t : Fin cfg0.N) : Vec F S1x512x512 .i32 := aftAt0_8 m c (base t) (base_mod t)
/-- What a storing point (batch index zero) leaves in index buffer 2. -/
def aftAt0_9 (c : Dev nD) (s : Fin cfg0.N) (hs : s.val % 8 = 0) : Vec F S1x512x512 .i32 :=
  out0_A_9 c (grid0.coords s) (ms0_0 s) (hs0_0 s) (ms0_1 s) (hs0_1 s) (ms0_2 s) (hs0_2 s) (ms0_3 s) (hs0_3 s) (ms0_4 s) (hs0_4 s) (ms0_5 s) (hs0_5 s) (ms0_6 s) (hs0_6 s) (ms0_7 s) (hs0_7 s) (ms0_8 s) (hs0_8 s) (ms0_9 s) (hs0_9 s) ((hcond0_0 s).mpr hs) (iblk m c 0 s) (iblk m c 1 s) (iblk m c 2 s)
theorem aftAt0_9_congr (c : Dev nD) (s s' : Fin cfg0.N) (hs : s.val % 8 = 0) (hs' : s'.val % 8 = 0) (h : s = s') :
    aftAt0_9 m c s hs = aftAt0_9 m c s' hs' := by subst h; rfl
def aft0_9 (c : Dev nD) (t : Fin cfg0.N) : Vec F S1x512x512 .i32 := aftAt0_9 m c (base t) (base_mod t)

/-! ## The proof data -/

/-- The arrays as the region finds them; after the body each input's buffer at its block, the mask and the three
    weighted outputs at what the point's case stored, the three index outputs at what the group's first point
    stored; the invariant is the same at every point (the core's resources outside the windows, held at some contents);
    nothing is owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => aft0_3 m c t
    | ⟨4, _⟩ => aft0_4 m c t
    | ⟨5, _⟩ => aft0_5 m c t
    | ⟨6, _⟩ => aft0_6 m c t
    | ⟨7, _⟩ => aft0_7 m c t
    | ⟨8, _⟩ => aft0_8 m c t
    | ⟨9, _⟩ => aft0_9 m c t
    | ⟨n + 10, h⟩ => absurd h (Nat.not_lt.2 (Nat.le_add_left _ _))
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = aft0_3 m c t := by dsimp only [dats]
theorem after0_4 (c : Dev nD) (t : Fin cfg0.N) : (dats m 0 c).after 4 t = aft0_4 m c t := by dsimp only [dats]
theorem after0_5 (c : Dev nD) (t : Fin cfg0.N) : (dats m 0 c).after 5 t = aft0_5 m c t := by dsimp only [dats]
theorem after0_6 (c : Dev nD) (t : Fin cfg0.N) : (dats m 0 c).after 6 t = aft0_6 m c t := by dsimp only [dats]
theorem after0_7 (c : Dev nD) (t : Fin cfg0.N) : (dats m 0 c).after 7 t = aft0_7 m c t := by dsimp only [dats]
theorem after0_8 (c : Dev nD) (t : Fin cfg0.N) : (dats m 0 c).after 8 t = aft0_8 m c t := by dsimp only [dats]
theorem after0_9 (c : Dev nD) (t : Fin cfg0.N) : (dats m 0 c).after 9 t = aft0_9 m c t := by dsimp only [dats]
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

/-- Away from the storing point of its group, index buffer 0 still holds what that point stored: nothing
    writes it back or refills it in between. -/
theorem before_idle0_7 (c : Dev nD) : ∀ (n : ℕ) (t : Fin cfg0.N), t.val = n → t.val % 8 ≠ 0 → ∀ d, (dats m 0 c).before 7 t d = (dats m 0 c).after 7 t := by
  intro n
  induction n using Nat.strong_induction_on with
  | _ n ih =>
    intro t htn h8 d
    have ht0 : t.val ≠ 0 := fun h => h8 (by rw [h])
    have hfl : (cfg0.win 7).flush ⟨t.val - 1, Nat.lt_of_le_of_lt (Nat.sub_le _ _) t.isLt⟩ = false := by
      rw [Bool.eq_false_iff]; intro hf
      have := (flush0_7 ⟨t.val - 1, Nat.lt_of_le_of_lt (Nat.sub_le _ _) t.isLt⟩).mp hf
      simp only at this; omega
    rw [(dats m 0 c).before_of_pos 7 t ht0 ((cfg0.win 7).fetch_out rfl t) d, hfl, if_neg Bool.false_ne_true]
    unfold Dat.left
    have hb : base ⟨t.val - 1, Nat.lt_of_le_of_lt (Nat.sub_le _ _) t.isLt⟩ = base t := base_pred t h8
    by_cases hp : (t.val - 1) % 8 = 0
    · rw [liveAt0_7_A ⟨t.val - 1, Nat.lt_of_le_of_lt (Nat.sub_le _ _) t.isLt⟩ ((hcond0_0 _).mpr hp)]
      dsimp only
      unfold Dat.kept
      rw [Pipeline.fill_of_clip_none 7 _ (fun _ => rfl) d ((dats m 0 c).after 7 ⟨t.val - 1, Nat.lt_of_le_of_lt (Nat.sub_le _ _) t.isLt⟩), Window.fill_cut]
      rw [after0_7, after0_7]; unfold aft0_7; exact aftAt0_7_congr m c _ _ _ _ hb
    · rw [idleAt0_7_B ⟨t.val - 1, Nat.lt_of_le_of_lt (Nat.sub_le _ _) t.isLt⟩ (fun hc => hp ((hcond0_0 _).mp hc))]
      dsimp only
      rw [ih (t.val - 1) (by omega) ⟨t.val - 1, Nat.lt_of_le_of_lt (Nat.sub_le _ _) t.isLt⟩ rfl hp d]
      rw [after0_7, after0_7]; unfold aft0_7; exact aftAt0_7_congr m c _ _ _ _ hb

/-- Away from the storing point of its group, index buffer 1 still holds what that point stored: nothing
    writes it back or refills it in between. -/
theorem before_idle0_8 (c : Dev nD) : ∀ (n : ℕ) (t : Fin cfg0.N), t.val = n → t.val % 8 ≠ 0 → ∀ d, (dats m 0 c).before 8 t d = (dats m 0 c).after 8 t := by
  intro n
  induction n using Nat.strong_induction_on with
  | _ n ih =>
    intro t htn h8 d
    have ht0 : t.val ≠ 0 := fun h => h8 (by rw [h])
    have hfl : (cfg0.win 8).flush ⟨t.val - 1, Nat.lt_of_le_of_lt (Nat.sub_le _ _) t.isLt⟩ = false := by
      rw [Bool.eq_false_iff]; intro hf
      have := (flush0_8 ⟨t.val - 1, Nat.lt_of_le_of_lt (Nat.sub_le _ _) t.isLt⟩).mp hf
      simp only at this; omega
    rw [(dats m 0 c).before_of_pos 8 t ht0 ((cfg0.win 8).fetch_out rfl t) d, hfl, if_neg Bool.false_ne_true]
    unfold Dat.left
    have hb : base ⟨t.val - 1, Nat.lt_of_le_of_lt (Nat.sub_le _ _) t.isLt⟩ = base t := base_pred t h8
    by_cases hp : (t.val - 1) % 8 = 0
    · rw [liveAt0_8_A ⟨t.val - 1, Nat.lt_of_le_of_lt (Nat.sub_le _ _) t.isLt⟩ ((hcond0_0 _).mpr hp)]
      dsimp only
      unfold Dat.kept
      rw [Pipeline.fill_of_clip_none 8 _ (fun _ => rfl) d ((dats m 0 c).after 8 ⟨t.val - 1, Nat.lt_of_le_of_lt (Nat.sub_le _ _) t.isLt⟩), Window.fill_cut]
      rw [after0_8, after0_8]; unfold aft0_8; exact aftAt0_8_congr m c _ _ _ _ hb
    · rw [idleAt0_8_B ⟨t.val - 1, Nat.lt_of_le_of_lt (Nat.sub_le _ _) t.isLt⟩ (fun hc => hp ((hcond0_0 _).mp hc))]
      dsimp only
      rw [ih (t.val - 1) (by omega) ⟨t.val - 1, Nat.lt_of_le_of_lt (Nat.sub_le _ _) t.isLt⟩ rfl hp d]
      rw [after0_8, after0_8]; unfold aft0_8; exact aftAt0_8_congr m c _ _ _ _ hb

/-- Away from the storing point of its group, index buffer 2 still holds what that point stored: nothing
    writes it back or refills it in between. -/
theorem before_idle0_9 (c : Dev nD) : ∀ (n : ℕ) (t : Fin cfg0.N), t.val = n → t.val % 8 ≠ 0 → ∀ d, (dats m 0 c).before 9 t d = (dats m 0 c).after 9 t := by
  intro n
  induction n using Nat.strong_induction_on with
  | _ n ih =>
    intro t htn h8 d
    have ht0 : t.val ≠ 0 := fun h => h8 (by rw [h])
    have hfl : (cfg0.win 9).flush ⟨t.val - 1, Nat.lt_of_le_of_lt (Nat.sub_le _ _) t.isLt⟩ = false := by
      rw [Bool.eq_false_iff]; intro hf
      have := (flush0_9 ⟨t.val - 1, Nat.lt_of_le_of_lt (Nat.sub_le _ _) t.isLt⟩).mp hf
      simp only at this; omega
    rw [(dats m 0 c).before_of_pos 9 t ht0 ((cfg0.win 9).fetch_out rfl t) d, hfl, if_neg Bool.false_ne_true]
    unfold Dat.left
    have hb : base ⟨t.val - 1, Nat.lt_of_le_of_lt (Nat.sub_le _ _) t.isLt⟩ = base t := base_pred t h8
    by_cases hp : (t.val - 1) % 8 = 0
    · rw [liveAt0_9_A ⟨t.val - 1, Nat.lt_of_le_of_lt (Nat.sub_le _ _) t.isLt⟩ ((hcond0_0 _).mpr hp)]
      dsimp only
      unfold Dat.kept
      rw [Pipeline.fill_of_clip_none 9 _ (fun _ => rfl) d ((dats m 0 c).after 9 ⟨t.val - 1, Nat.lt_of_le_of_lt (Nat.sub_le _ _) t.isLt⟩), Window.fill_cut]
      rw [after0_9, after0_9]; unfold aft0_9; exact aftAt0_9_congr m c _ _ _ _ hb
    · rw [idleAt0_9_B ⟨t.val - 1, Nat.lt_of_le_of_lt (Nat.sub_le _ _) t.isLt⟩ (fun hc => hp ((hcond0_0 _).mp hc))]
      dsimp only
      rw [ih (t.val - 1) (by omega) ⟨t.val - 1, Nat.lt_of_le_of_lt (Nat.sub_le _ _) t.isLt⟩ rfl hp d]
      rw [after0_9, after0_9]; unfold aft0_9; exact aftAt0_9_congr m c _ _ _ _ hb

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t)

set_option maxHeartbeats 16000000 in
/-- The body at any point: the inputs' buffers hold their blocks; at the first point of a group every output is
    stored; elsewhere the four float outputs are stored and the index buffers are handed back as found, which at the
    group's last point — where they are written back — is what the first point stored. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).owesAt () t.succ = (dats m 0 c).owesAt () t.castSucc from rfl]
  rw [show (dats m 0 c).Φ t.succ = (dats m 0 c).Φ t.castSucc from rfl]
  have hN : t.val < 32 := lt_of_lt_of_eq t.isLt (show cfg0.N = 32 from N_0)
  rw [show (dats m 0 c).leavesExact 0 t = owns (c : Thread nD τ) (ms0_0 t) fullShare ((dats m 0 c).after 0 t) from by
    unfold Dat.leavesExact; rw [liveAt0_0 t], after0_0]
  rw [show (dats m 0 c).leavesExact 1 t = owns (c : Thread nD τ) (ms0_1 t) fullShare ((dats m 0 c).after 1 t) from by
    unfold Dat.leavesExact; rw [liveAt0_1 t], after0_1]
  rw [show (dats m 0 c).leavesExact 2 t = owns (c : Thread nD τ) (ms0_2 t) fullShare ((dats m 0 c).after 2 t) from by
    unfold Dat.leavesExact; rw [liveAt0_2 t], after0_2]
  rw [show (dats m 0 c).leavesExact 3 t = owns (c : Thread nD τ) (ms0_3 t) fullShare ((dats m 0 c).after 3 t) from by
    unfold Dat.leavesExact; rw [liveAt0_3 t], after0_3]
  rw [show (dats m 0 c).leavesExact 4 t = owns (c : Thread nD τ) (ms0_4 t) fullShare ((dats m 0 c).after 4 t) from by
    unfold Dat.leavesExact; rw [liveAt0_4 t], after0_4]
  rw [show (dats m 0 c).leavesExact 5 t = owns (c : Thread nD τ) (ms0_5 t) fullShare ((dats m 0 c).after 5 t) from by
    unfold Dat.leavesExact; rw [liveAt0_5 t], after0_5]
  rw [show (dats m 0 c).leavesExact 6 t = owns (c : Thread nD τ) (ms0_6 t) fullShare ((dats m 0 c).after 6 t) from by
    unfold Dat.leavesExact; rw [liveAt0_6 t], after0_6]
  by_cases h0 : t.val % 8 = 0
  · have hc : cond0_0 (grid0.coords t) := (hcond0_0 t).mpr h0
    rw [show (dats m 0 c).leavesExact 7 t = owns (c : Thread nD τ) (ms0_7 t) fullShare ((dats m 0 c).after 7 t) from by
      unfold Dat.leavesExact; rw [liveAt0_7_A t hc], after0_7]
    rw [show (dats m 0 c).leavesExact 8 t = owns (c : Thread nD τ) (ms0_8 t) fullShare ((dats m 0 c).after 8 t) from by
      unfold Dat.leavesExact; rw [liveAt0_8_A t hc], after0_8]
    rw [show (dats m 0 c).leavesExact 9 t = owns (c : Thread nD τ) (ms0_9 t) fullShare ((dats m 0 c).after 9 t) from by
      unfold Dat.leavesExact; rw [liveAt0_9_A t hc], after0_9]
    rw [show aft0_7 m c t = aftAt0_7 m c t h0 from aftAt0_7_congr m c _ _ _ _ (base_eq t h0),
      show aft0_8 m c t = aftAt0_8 m c t h0 from aftAt0_8_congr m c _ _ _ _ (base_eq t h0),
      show aft0_9 m c t = aftAt0_9 m c t h0 from aftAt0_9_congr m c _ _ _ _ (base_eq t h0)]
    unfold aft0_3 aft0_4 aft0_5 aft0_6 aftAt0_7 aftAt0_8 aftAt0_9
    rw [dif_pos h0, dif_pos h0, dif_pos h0, dif_pos h0]
    unfold out0_A_3 out0_A_4 out0_A_5 out0_A_6 out0_A_7 out0_A_8 out0_A_9
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
    iapply ((kernelRun0_A c (grid0.coords t) _ _ _ _ _ _ _ _ _ _ _ _ _ _ _ _ _ _ _ _ hc (iblk m c 0 t) (iblk m c 1 t) (iblk m c 2 t)).2.2.2.2.2.2.2 Set.univ _)
    isplitl [H0]; · iexact H0
    isplitl [H1]; · iexact H1
    isplitl [H2]; · iexact H2
    isplitl [H3]; · iexists _; iexact H3
    isplitl [H4]; · iexists _; iexact H4
    isplitl [H5]; · iexists _; iexact H5
    isplitl [H6]; · iexists _; iexact H6
    isplitl [H7]; · iexists _; iexact H7
    isplitl [H8]; · iexists _; iexact H8
    isplitl [H9]; · iexists _; iexact H9
    iintro ⟨H0, H1, H2, ⟨%e3, H3⟩, ⟨%e4, H4⟩, ⟨%e5, H5⟩, ⟨%e6, H6⟩, ⟨%e7, H7⟩, ⟨%e8, H8⟩, ⟨%e9, H9⟩⟩
    isplitl [HΦ]; · iexact HΦ
    isplitl [Ho]; · iexact Ho
    isplitl [H0]; · iexact H0
    isplitl [H1]; · iexact H1
    isplitl [H2]; · iexact H2
    isplitl [H3]
    · unfold owns; iexists _; isplitr
      swap; · iexact H3
      ipureintro; exact View.read_writes_of_cover _ _ _ _ _ (cover0_A_3 c _ _ _ _ _ _ _ _ _ _ _ _ _ _ _ _ _ _ _ _ _ _ _ _ _)
    isplitl [H4]
    · unfold owns; iexists _; isplitr
      swap; · iexact H4
      ipureintro; exact View.read_writes_of_cover _ _ _ _ _ (cover0_A_4 c _ _ _ _ _ _ _ _ _ _ _ _ _ _ _ _ _ _ _ _ _ _ _ _ _)
    isplitl [H5]
    · unfold owns; iexists _; isplitr
      swap; · iexact H5
      ipureintro; exact View.read_writes_of_cover _ _ _ _ _ (cover0_A_5 c _ _ _ _ _ _ _ _ _ _ _ _ _ _ _ _ _ _ _ _ _ _ _ _ _)
    isplitl [H6]
    · unfold owns; iexists _; isplitr
      swap; · iexact H6
      ipureintro; exact View.read_writes_of_cover _ _ _ _ _ (cover0_A_6 c _ _ _ _ _ _ _ _ _ _ _ _ _ _ _ _ _ _ _ _ _ _ _ _ _)
    isplitl [H7]
    · unfold owns; iexists _; isplitr
      swap; · iexact H7
      ipureintro; exact View.read_writes_of_cover _ _ _ _ _ (cover0_A_7 c _ _ _ _ _ _ _ _ _ _ _ _ _ _ _ _ _ _ _ _ _ _ _ _ _)
    isplitl [H8]
    · unfold owns; iexists _; isplitr
      swap; · iexact H8
      ipureintro; exact View.read_writes_of_cover _ _ _ _ _ (cover0_A_8 c _ _ _ _ _ _ _ _ _ _ _ _ _ _ _ _ _ _ _ _ _ _ _ _ _)
    unfold owns; iexists _; isplitr
    swap; · iexact H9
    ipureintro; exact View.read_writes_of_cover _ _ _ _ _ (cover0_A_9 c _ _ _ _ _ _ _ _ _ _ _ _ _ _ _ _ _ _ _ _ _ _ _ _ _)
  · have hc : ¬cond0_0 (grid0.coords t) := fun hc => h0 ((hcond0_0 t).mp hc)
    unfold aft0_3 aft0_4 aft0_5 aft0_6
    rw [dif_neg h0, dif_neg h0, dif_neg h0, dif_neg h0]
    unfold out0_B_3 out0_B_4 out0_B_5 out0_B_6
    by_cases h7 : t.val % 8 = 7
    · have hf7 : (cfg0.win 7).flush t = true := (flush0_7 t).mpr h7
      have hf8 : (cfg0.win 8).flush t = true := (flush0_8 t).mpr h7
      have hf9 : (cfg0.win 9).flush t = true := (flush0_9 t).mpr h7
      rw [show (dats m 0 c).leavesExact 7 t = owns (c : Thread nD τ) (ms0_7 t) fullShare ((dats m 0 c).after 7 t) from by
        unfold Dat.leavesExact; rw [idleAt0_7_B t hc, hf7]]
      rw [show (dats m 0 c).leavesExact 8 t = owns (c : Thread nD τ) (ms0_8 t) fullShare ((dats m 0 c).after 8 t) from by
        unfold Dat.leavesExact; rw [idleAt0_8_B t hc, hf8]]
      rw [show (dats m 0 c).leavesExact 9 t = owns (c : Thread nD τ) (ms0_9 t) fullShare ((dats m 0 c).after 9 t) from by
        unfold Dat.leavesExact; rw [idleAt0_9_B t hc, hf9]]
      iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
      rw [before_idle0_7 m c t.val t rfl h0 d7, before_idle0_8 m c t.val t rfl h0 d8, before_idle0_9 m c t.val t rfl h0 d9]
      iapply ((kernelRun0_B c (grid0.coords t) _ _ _ _ _ _ _ _ _ _ _ _ _ _ _ _ _ _ _ _ hc (iblk m c 0 t) (iblk m c 1 t) (iblk m c 2 t)).2.2.2.2 _ _ _ Set.univ _)
      isplitl [H0]; · iexact H0
      isplitl [H1]; · iexact H1
      isplitl [H2]; · iexact H2
      isplitl [H3]; · iexists _; iexact H3
      isplitl [H4]; · iexists _; iexact H4
      isplitl [H5]; · iexists _; iexact H5
      isplitl [H6]; · iexists _; iexact H6
      isplitl [H7]; · iexact H7
      isplitl [H8]; · iexact H8
      isplitl [H9]; · iexact H9
      iintro ⟨H0, H1, H2, ⟨%e3, H3⟩, ⟨%e4, H4⟩, ⟨%e5, H5⟩, ⟨%e6, H6⟩, H7, H8, H9⟩
      isplitl [HΦ]; · iexact HΦ
      isplitl [Ho]; · iexact Ho
      isplitl [H0]; · iexact H0
      isplitl [H1]; · iexact H1
      isplitl [H2]; · iexact H2
      isplitl [H3]
      · unfold owns; iexists _; isplitr
        swap; · iexact H3
        ipureintro; exact View.read_writes_of_cover _ _ _ _ _ (cover0_B_3 c _ _ _ _ _ _ _ _ _ _ _ _ _ _ _ _ _ _ _ _ _ _ _ _ _)
      isplitl [H4]
      · unfold owns; iexists _; isplitr
        swap; · iexact H4
        ipureintro; exact View.read_writes_of_cover _ _ _ _ _ (cover0_B_4 c _ _ _ _ _ _ _ _ _ _ _ _ _ _ _ _ _ _ _ _ _ _ _ _ _)
      isplitl [H5]
      · unfold owns; iexists _; isplitr
        swap; · iexact H5
        ipureintro; exact View.read_writes_of_cover _ _ _ _ _ (cover0_B_5 c _ _ _ _ _ _ _ _ _ _ _ _ _ _ _ _ _ _ _ _ _ _ _ _ _)
      isplitl [H6]
      · unfold owns; iexists _; isplitr
        swap; · iexact H6
        ipureintro; exact View.read_writes_of_cover _ _ _ _ _ (cover0_B_6 c _ _ _ _ _ _ _ _ _ _ _ _ _ _ _ _ _ _ _ _ _ _ _ _ _)
      isplitl [H7]; · iexact H7
      isplitl [H8]; · iexact H8
      iexact H9
    · have hf7 : (cfg0.win 7).flush t = false := by rw [Bool.eq_false_iff]; exact fun hf => h7 ((flush0_7 t).mp hf)
      have hf8 : (cfg0.win 8).flush t = false := by rw [Bool.eq_false_iff]; exact fun hf => h7 ((flush0_8 t).mp hf)
      have hf9 : (cfg0.win 9).flush t = false := by rw [Bool.eq_false_iff]; exact fun hf => h7 ((flush0_9 t).mp hf)
      rw [Dat.leavesExact_idle (dats m 0 c) 7 t (idleAt0_7_B t hc) hf7, Dat.leavesExact_idle (dats m 0 c) 8 t (idleAt0_8_B t hc) hf8,
        Dat.leavesExact_idle (dats m 0 c) 9 t (idleAt0_9_B t hc) hf9]
      iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
      iapply ((kernelRun0_B c (grid0.coords t) _ _ _ _ _ _ _ _ _ _ _ _ _ _ _ _ _ _ _ _ hc (iblk m c 0 t) (iblk m c 1 t) (iblk m c 2 t)).2.2.2.2 _ _ _ Set.univ _)
      isplitl [H0]; · iexact H0
      isplitl [H1]; · iexact H1
      isplitl [H2]; · iexact H2
      isplitl [H3]; · iexists _; iexact H3
      isplitl [H4]; · iexists _; iexact H4
      isplitl [H5]; · iexists _; iexact H5
      isplitl [H6]; · iexists _; iexact H6
      isplitl [H7]; · iexact H7
      isplitl [H8]; · iexact H8
      isplitl [H9]; · iexact H9
      iintro ⟨H0, H1, H2, ⟨%e3, H3⟩, ⟨%e4, H4⟩, ⟨%e5, H5⟩, ⟨%e6, H6⟩, H7, H8, H9⟩
      isplitl [HΦ]; · iexact HΦ
      isplitl [Ho]; · iexact Ho
      isplitl [H0]; · iexact H0
      isplitl [H1]; · iexact H1
      isplitl [H2]; · iexact H2
      isplitl [H3]
      · unfold owns; iexists _; isplitr
        swap; · iexact H3
        ipureintro; exact View.read_writes_of_cover _ _ _ _ _ (cover0_B_3 c _ _ _ _ _ _ _ _ _ _ _ _ _ _ _ _ _ _ _ _ _ _ _ _ _)
      isplitl [H4]
      · unfold owns; iexists _; isplitr
        swap; · iexact H4
        ipureintro; exact View.read_writes_of_cover _ _ _ _ _ (cover0_B_4 c _ _ _ _ _ _ _ _ _ _ _ _ _ _ _ _ _ _ _ _ _ _ _ _ _)
      isplitl [H5]
      · unfold owns; iexists _; isplitr
        swap; · iexact H5
        ipureintro; exact View.read_writes_of_cover _ _ _ _ _ (cover0_B_5 c _ _ _ _ _ _ _ _ _ _ _ _ _ _ _ _ _ _ _ _ _ _ _ _ _)
      isplitl [H6]
      · unfold owns; iexists _; isplitr
        swap; · iexact H6
        ipureintro; exact View.read_writes_of_cover _ _ _ _ _ (cover0_B_6 c _ _ _ _ _ _ _ _ _ _ _ _ _ _ _ _ _ _ _ _ _ _ _ _ _)
      isplitl [H7]; · iexists _; iexact H7
      isplitl [H8]; · iexists _; iexact H8
      iexists _; iexact H9

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- Every weakly fair execution of the entry function terminates without a fault; every array of the pipeline ends at
    what the library computes from the proof data, every other unscoped buffer as the later host lines leave it. -/
theorem run_main : θ_run defs (onTc (τ := τ) (main (F := F))) (s₀ m ρ) (Pipeline.FramePost cfgs (dats m) 0 (Pipeline.afterTail₀ cfgs (dats m) 0 (V0 m) tailOps)) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := tailOps) (hsub := sfx_sub) (hfresh := sfx_fresh) (hkeep := sfx_keeps)
    (hmain := hmain m Variants.none) (hA := A_eq m) (hΦ := fun _ _ => rfl)

/-- The three argument arrays end as launched: the first is a staged input, which no write-back touches; the other
    two are staged by no window and written by no host line. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨((h c).1 0).trans (((dats m 0 c).arrAt_in 0 rfl _).trans ((A_eq m c 0).trans (V_main_arg0 m c))),
    ((h c).2 main_arg1 (Pipeline.mem_restRefs_of main_arg1 (by decide) (by decide))).trans (W_main_arg1 m (dats m) c),
    ((h c).2 main_arg2 (Pipeline.mem_restRefs_of main_arg2 (by decide) (by decide))).trans (W_main_arg2 m (dats m) c)⟩) (run_main m ρ)

end Cert.KernelIdeal.Hand

end
-- ==== Proof.RefRun.lean ====
import proofs.«153110_j51737176048098_1_alg».proof.Proof.Gen.ReferenceIdeal
import Idealize.ShloMosaic.Lib.StableHlo.Run

/-!
# The reference program's run

The reference's @main is a straight line of 71 host operations (a called function's operations standing in its
call's place). Every weakly fair execution of it terminates, and at the end each buffer holds the fold of the
operations' results, in order, over the launch contents; the three arguments are written by no operation and keep
their contents. The result buffer's contents are left as that fold: what it computes is read off stage by stage
elsewhere, never as one composed term.
-/

noncomputable section

namespace Cert.ReferenceIdeal.RefValue

open Cert.ReferenceIdeal Cert.ReferenceIdeal.Gen Idealize.ShloMosaic Idealize.ShloMosaic.TcCoe Idealize.SL.Sem Idealize.ShloMosaic.StableHlo

variable {F : FTy → Type} [FloatOps F]

/-- @main's 71 operations, in order. -/
abbrev ops : List (HloOp τ sig (Elt F)) :=
  [ nullary main_c (constantI S_ 32 0#32),
    unary main_c main_v0 (broadcastInDim S4x512x512x3 ![] bcast_S_S4x512x512x3 : (⟨S_, .i32⟩ : BufTy).Contents (Elt F) → (⟨S4x512x512x3, .i32⟩ : BufTy).Contents (Elt F)),
    binary main_arg1 main_v0 main_v1 (cmpi .sge : (⟨S4x512x512x3, .i32⟩ : BufTy).Contents (Elt F) → (⟨S4x512x512x3, .i32⟩ : BufTy).Contents (Elt F) → (⟨S4x512x512x3, .i1⟩ : BufTy).Contents (Elt F)),
    nullary main_c_0 (constantI S_ 32 6890#32),
    unary main_c_0 main_v2 (broadcastInDim S4x512x512x3 ![] bcast_S_S4x512x512x3 : (⟨S_, .i32⟩ : BufTy).Contents (Elt F) → (⟨S4x512x512x3, .i32⟩ : BufTy).Contents (Elt F)),
    binary main_arg1 main_v2 main_v3 (cmpi .slt : (⟨S4x512x512x3, .i32⟩ : BufTy).Contents (Elt F) → (⟨S4x512x512x3, .i32⟩ : BufTy).Contents (Elt F) → (⟨S4x512x512x3, .i1⟩ : BufTy).Contents (Elt F)),
    binary main_v1 main_v3 main_v4 (andi : (⟨S4x512x512x3, .i1⟩ : BufTy).Contents (Elt F) → (⟨S4x512x512x3, .i1⟩ : BufTy).Contents (Elt F) → (⟨S4x512x512x3, .i1⟩ : BufTy).Contents (Elt F)),
    nullary main_c_1 (constantI S_ 1 1#1),
    binary main_v4 main_c_1 main_v5 ((fun x v => Host.reduce IntOp.andi x v reducesTo_S4x512x512x3_S4x512x512_d3 h_S_) : (⟨S4x512x512x3, .i1⟩ : BufTy).Contents (Elt F) → (⟨S_, .i1⟩ : BufTy).Contents (Elt F) → (⟨S4x512x512, .i1⟩ : BufTy).Contents (Elt F)),
    nullary main_cst (constant S_ .f32 0x3E99999A#32),
    unary main_cst main_v6 (broadcastInDim S8x4x512x512 ![] bcast_S_S8x4x512x512 : (⟨S_, .f32⟩ : BufTy).Contents (Elt F) → (⟨S8x4x512x512, .f32⟩ : BufTy).Contents (Elt F)),
    binary main_arg0 main_v6 main_v7 (cmpf .ogt : (⟨S8x4x512x512, .f32⟩ : BufTy).Contents (Elt F) → (⟨S8x4x512x512, .f32⟩ : BufTy).Contents (Elt F) → (⟨S8x4x512x512, .i1⟩ : BufTy).Contents (Elt F)),
    unary main_v5 main_v8 (broadcastInDim S1x4x512x512 ![1, 2, 3] bcast_S4x512x512_S1x4x512x512_1_2_3 : (⟨S4x512x512, .i1⟩ : BufTy).Contents (Elt F) → (⟨S1x4x512x512, .i1⟩ : BufTy).Contents (Elt F)),
    unary main_v8 main_v9 (broadcastInDim S8x4x512x512 ![0, 1, 2, 3] bcast_S1x4x512x512_S8x4x512x512_0_1_2_3 : (⟨S1x4x512x512, .i1⟩ : BufTy).Contents (Elt F) → (⟨S8x4x512x512, .i1⟩ : BufTy).Contents (Elt F)),
    binary main_v7 main_v9 main_v10 (andi : (⟨S8x4x512x512, .i1⟩ : BufTy).Contents (Elt F) → (⟨S8x4x512x512, .i1⟩ : BufTy).Contents (Elt F) → (⟨S8x4x512x512, .i1⟩ : BufTy).Contents (Elt F)),
    unary main_v10 main_v11 (uitofp .f32 : (⟨S8x4x512x512, .i1⟩ : BufTy).Contents (Elt F) → (⟨S8x4x512x512, .f32⟩ : BufTy).Contents (Elt F)),
    unary main_arg2 main_v12 (broadcastInDim S1x4x512x512x3 ![1, 2, 3, 4] bcast_S4x512x512x3_S1x4x512x512x3_1_2_3_4 : (⟨S4x512x512x3, .f32⟩ : BufTy).Contents (Elt F) → (⟨S1x4x512x512x3, .f32⟩ : BufTy).Contents (Elt F)),
    unary main_v11 main_v13 (broadcastInDim S8x4x512x512x1 ![0, 1, 2, 3] bcast_S8x4x512x512_S8x4x512x512x1_0_1_2_3 : (⟨S8x4x512x512, .f32⟩ : BufTy).Contents (Elt F) → (⟨S8x4x512x512x1, .f32⟩ : BufTy).Contents (Elt F)),
    unary main_v12 main_v14 (broadcastInDim S8x4x512x512x3 ![0, 1, 2, 3, 4] bcast_S1x4x512x512x3_S8x4x512x512x3_0_1_2_3_4 : (⟨S1x4x512x512x3, .f32⟩ : BufTy).Contents (Elt F) → (⟨S8x4x512x512x3, .f32⟩ : BufTy).Contents (Elt F)),
    unary main_v13 main_v15 (broadcastInDim S8x4x512x512x3 ![0, 1, 2, 3, 4] bcast_S8x4x512x512x1_S8x4x512x512x3_0_1_2_3_4 : (⟨S8x4x512x512x1, .f32⟩ : BufTy).Contents (Elt F) → (⟨S8x4x512x512x3, .f32⟩ : BufTy).Contents (Elt F)),
    binary main_v14 main_v15 main_v16 (mulf : (⟨S8x4x512x512x3, .f32⟩ : BufTy).Contents (Elt F) → (⟨S8x4x512x512x3, .f32⟩ : BufTy).Contents (Elt F) → (⟨S8x4x512x512x3, .f32⟩ : BufTy).Contents (Elt F)),
    unary main_v11 main_v17 (broadcastInDim S8x4x512x512x1 ![0, 1, 2, 3] bcast_S8x4x512x512_S8x4x512x512x1_0_1_2_3 : (⟨S8x4x512x512, .f32⟩ : BufTy).Contents (Elt F) → (⟨S8x4x512x512x1, .f32⟩ : BufTy).Contents (Elt F)),
    unary main_v17 main_v18 (broadcastInDim S8x4x512x512x3 ![0, 1, 2, 3, 4] bcast_S8x4x512x512x1_S8x4x512x512x3_0_1_2_3_4 : (⟨S8x4x512x512x1, .f32⟩ : BufTy).Contents (Elt F) → (⟨S8x4x512x512x3, .f32⟩ : BufTy).Contents (Elt F)),
    unary main_v5 main_v19 (broadcastInDim S4x512x512x1 ![0, 1, 2] bcast_S4x512x512_S4x512x512x1_0_1_2 : (⟨S4x512x512, .i1⟩ : BufTy).Contents (Elt F) → (⟨S4x512x512x1, .i1⟩ : BufTy).Contents (Elt F)),
    nullary main_c_2 (constantI S_ 32 0#32),
    TRef.unary (TRef.of (T := ⟨S_, .i32⟩) main_c_2) (TRef.of (T := ⟨S_, .i32⟩) main_call0_v0) id,
    TRef.unary (TRef.of (T := ⟨S4x512x512x1, .i1⟩) main_v19) (TRef.of (T := ⟨S4x512x512x3, .i1⟩) main_call0_v1) (broadcastInDim S4x512x512x3 ![0, 1, 2, 3] bcast_S4x512x512x1_S4x512x512x3_0_1_2_3),
    TRef.unary (TRef.of (T := ⟨S_, .i32⟩) main_call0_v0) (TRef.of (T := ⟨S4x512x512x3, .i32⟩) main_call0_v2) (broadcastInDim S4x512x512x3 ![] bcast_S_S4x512x512x3),
    TRef.ternary (TRef.of (T := ⟨S4x512x512x3, .i1⟩) main_call0_v1) (TRef.of (T := ⟨S4x512x512x3, .i32⟩) main_arg1) (TRef.of (T := ⟨S4x512x512x3, .i32⟩) main_call0_v2) (TRef.of (T := ⟨S4x512x512x3, .i32⟩) main_v20) select,
    reshape main_v20 main_v21 rfl shapeCasts_S4x512x512x3_S3145728,
    reshape main_v16 main_v22 rfl shapeCasts_S8x4x512x512x3_S8x3145728,
    reshape main_v18 main_v23 rfl shapeCasts_S8x4x512x512x3_S8x3145728,
    nullary main_cst_3 (constant S_ .f32 0x00000000#32),
    unary main_cst_3 main_v24 (broadcastInDim S6890 ![] bcast_S_S6890 : (⟨S_, .f32⟩ : BufTy).Contents (Elt F) → (⟨S6890, .f32⟩ : BufTy).Contents (Elt F)),
    nullary main_c_4 (constantI S_ 32 0#32),
    unary main_c_4 main_v25 (broadcastInDim S3145728 ![] bcast_S_S3145728 : (⟨S_, .i32⟩ : BufTy).Contents (Elt F) → (⟨S3145728, .i32⟩ : BufTy).Contents (Elt F)),
    binary main_v21 main_v25 main_v26 (cmpi .slt : (⟨S3145728, .i32⟩ : BufTy).Contents (Elt F) → (⟨S3145728, .i32⟩ : BufTy).Contents (Elt F) → (⟨S3145728, .i1⟩ : BufTy).Contents (Elt F)),
    nullary main_c_5 (constantI S_ 32 6890#32),
    unary main_c_5 main_v27 (broadcastInDim S3145728 ![] bcast_S_S3145728 : (⟨S_, .i32⟩ : BufTy).Contents (Elt F) → (⟨S3145728, .i32⟩ : BufTy).Contents (Elt F)),
    binary main_v21 main_v27 main_v28 (addi : (⟨S3145728, .i32⟩ : BufTy).Contents (Elt F) → (⟨S3145728, .i32⟩ : BufTy).Contents (Elt F) → (⟨S3145728, .i32⟩ : BufTy).Contents (Elt F)),
    ternary main_v26 main_v28 main_v21 main_v29 (select : (⟨S3145728, .i1⟩ : BufTy).Contents (Elt F) → (⟨S3145728, .i32⟩ : BufTy).Contents (Elt F) → (⟨S3145728, .i32⟩ : BufTy).Contents (Elt F) → (⟨S3145728, .i32⟩ : BufTy).Contents (Elt F)),
    unary main_v29 main_v30 (broadcastInDim S3145728x1 ![0] bcast_S3145728_S3145728x1_0 : (⟨S3145728, .i32⟩ : BufTy).Contents (Elt F) → (⟨S3145728x1, .i32⟩ : BufTy).Contents (Elt F)),
    unary main_v24 main_v31 (broadcastInDim S8x6890 ![1] bcast_S6890_S8x6890_1 : (⟨S6890, .f32⟩ : BufTy).Contents (Elt F) → (⟨S8x6890, .f32⟩ : BufTy).Contents (Elt F)),
    ternary main_v31 main_v30 main_v22 main_v32 ((fun x i u => Host.scatterAdd scatter_S8x6890_S3145728x1_S8x3145728_0_1_1_1 x i u) : (⟨S8x6890, .f32⟩ : BufTy).Contents (Elt F) → (⟨S3145728x1, .i32⟩ : BufTy).Contents (Elt F) → (⟨S8x3145728, .f32⟩ : BufTy).Contents (Elt F) → (⟨S8x6890, .f32⟩ : BufTy).Contents (Elt F)),
    nullary main_cst_6 (constant S_ .f32 0x00000000#32),
    unary main_cst_6 main_v33 (broadcastInDim S6890 ![] bcast_S_S6890 : (⟨S_, .f32⟩ : BufTy).Contents (Elt F) → (⟨S6890, .f32⟩ : BufTy).Contents (Elt F)),
    nullary main_c_7 (constantI S_ 32 0#32),
    unary main_c_7 main_v34 (broadcastInDim S3145728 ![] bcast_S_S3145728 : (⟨S_, .i32⟩ : BufTy).Contents (Elt F) → (⟨S3145728, .i32⟩ : BufTy).Contents (Elt F)),
    binary main_v21 main_v34 main_v35 (cmpi .slt : (⟨S3145728, .i32⟩ : BufTy).Contents (Elt F) → (⟨S3145728, .i32⟩ : BufTy).Contents (Elt F) → (⟨S3145728, .i1⟩ : BufTy).Contents (Elt F)),
    nullary main_c_8 (constantI S_ 32 6890#32),
    unary main_c_8 main_v36 (broadcastInDim S3145728 ![] bcast_S_S3145728 : (⟨S_, .i32⟩ : BufTy).Contents (Elt F) → (⟨S3145728, .i32⟩ : BufTy).Contents (Elt F)),
    binary main_v21 main_v36 main_v37 (addi : (⟨S3145728, .i32⟩ : BufTy).Contents (Elt F) → (⟨S3145728, .i32⟩ : BufTy).Contents (Elt F) → (⟨S3145728, .i32⟩ : BufTy).Contents (Elt F)),
    ternary main_v35 main_v37 main_v21 main_v38 (select : (⟨S3145728, .i1⟩ : BufTy).Contents (Elt F) → (⟨S3145728, .i32⟩ : BufTy).Contents (Elt F) → (⟨S3145728, .i32⟩ : BufTy).Contents (Elt F) → (⟨S3145728, .i32⟩ : BufTy).Contents (Elt F)),
    unary main_v38 main_v39 (broadcastInDim S3145728x1 ![0] bcast_S3145728_S3145728x1_0 : (⟨S3145728, .i32⟩ : BufTy).Contents (Elt F) → (⟨S3145728x1, .i32⟩ : BufTy).Contents (Elt F)),
    unary main_v33 main_v40 (broadcastInDim S8x6890 ![1] bcast_S6890_S8x6890_1 : (⟨S6890, .f32⟩ : BufTy).Contents (Elt F) → (⟨S8x6890, .f32⟩ : BufTy).Contents (Elt F)),
    ternary main_v40 main_v39 main_v23 main_v41 ((fun x i u => Host.scatterAdd scatter_S8x6890_S3145728x1_S8x3145728_0_1_1_1 x i u) : (⟨S8x6890, .f32⟩ : BufTy).Contents (Elt F) → (⟨S3145728x1, .i32⟩ : BufTy).Contents (Elt F) → (⟨S8x3145728, .f32⟩ : BufTy).Contents (Elt F) → (⟨S8x6890, .f32⟩ : BufTy).Contents (Elt F)),
    nullary main_cst_9 (constant S_ .f32 0x00000000#32),
    unary main_cst_9 main_v42 (broadcastInDim S8x6890 ![] bcast_S_S8x6890 : (⟨S_, .f32⟩ : BufTy).Contents (Elt F) → (⟨S8x6890, .f32⟩ : BufTy).Contents (Elt F)),
    binary main_v41 main_v42 main_v43 (cmpf .ogt : (⟨S8x6890, .f32⟩ : BufTy).Contents (Elt F) → (⟨S8x6890, .f32⟩ : BufTy).Contents (Elt F) → (⟨S8x6890, .i1⟩ : BufTy).Contents (Elt F)),
    nullary main_cst_10 (constant S_ .f32 0x3F800000#32),
    TRef.unary (TRef.of (T := ⟨S_, .f32⟩) main_cst_10) (TRef.of (T := ⟨S8x6890, .f32⟩) main_call1_v0) (broadcastInDim S8x6890 ![] bcast_S_S8x6890),
    TRef.ternary (TRef.of (T := ⟨S8x6890, .i1⟩) main_v43) (TRef.of (T := ⟨S8x6890, .f32⟩) main_v41) (TRef.of (T := ⟨S8x6890, .f32⟩) main_call1_v0) (TRef.of (T := ⟨S8x6890, .f32⟩) main_v44) select,
    nullary main_cst_11 (constant S_ .f32 0x00000000#32),
    unary main_cst_11 main_v45 (broadcastInDim S8x6890 ![] bcast_S_S8x6890 : (⟨S_, .f32⟩ : BufTy).Contents (Elt F) → (⟨S8x6890, .f32⟩ : BufTy).Contents (Elt F)),
    binary main_v41 main_v45 main_v46 (cmpf .ogt : (⟨S8x6890, .f32⟩ : BufTy).Contents (Elt F) → (⟨S8x6890, .f32⟩ : BufTy).Contents (Elt F) → (⟨S8x6890, .i1⟩ : BufTy).Contents (Elt F)),
    binary main_v32 main_v44 main_v47 (Host.divf : (⟨S8x6890, .f32⟩ : BufTy).Contents (Elt F) → (⟨S8x6890, .f32⟩ : BufTy).Contents (Elt F) → (⟨S8x6890, .f32⟩ : BufTy).Contents (Elt F)),
    TRef.ternary (TRef.of (T := ⟨S8x6890, .i1⟩) main_v46) (TRef.of (T := ⟨S8x6890, .f32⟩) main_v47) (TRef.of (T := ⟨S8x6890, .f32⟩) main_v32) (TRef.of (T := ⟨S8x6890, .f32⟩) main_v48) select,
    nullary main_cst_12 (constant S_ .f32 0x3E99999A#32),
    unary main_cst_12 main_v49 (broadcastInDim S8x6890 ![] bcast_S_S8x6890 : (⟨S_, .f32⟩ : BufTy).Contents (Elt F) → (⟨S8x6890, .f32⟩ : BufTy).Contents (Elt F)),
    binary main_v48 main_v49 main_v50 (cmpf .ogt : (⟨S8x6890, .f32⟩ : BufTy).Contents (Elt F) → (⟨S8x6890, .f32⟩ : BufTy).Contents (Elt F) → (⟨S8x6890, .i1⟩ : BufTy).Contents (Elt F)),
    unary main_v50 main_v51 (uitofp .f32 : (⟨S8x6890, .i1⟩ : BufTy).Contents (Elt F) → (⟨S8x6890, .f32⟩ : BufTy).Contents (Elt F)) ]

set_option maxRecDepth 8192 in
set_option maxHeartbeats 4000000 in
/-- @main is the sequence of its operations. -/
theorem main_eq (c : Dev nD) : main (F := F) c = seq ops := rfl
/-- No buffer of the signature is scoped. -/
theorem scopedRefs_eq : (Finset.univ.filter fun b : Ref sig .tc => b.isScoped) = ∅ := by decide
/-- No semaphore of the signature is scoped. -/
theorem scopedSems_eq : (Finset.univ.filter fun sm : SemLoc sig => sm.isScoped .tc) = ∅ := by decide
set_option maxRecDepth 8192 in
/-- Every operation touches TensorCore buffers only. -/
theorem ops_sub : (ops : List (HloOp τ sig (Elt F))).Forall fun op => op.bufs ⊆ tcRefs τ sig :=
  ⟨nullary_bufs_sub .., unary_bufs_sub .., binary_bufs_sub .., nullary_bufs_sub .., unary_bufs_sub .., binary_bufs_sub .., binary_bufs_sub .., nullary_bufs_sub .., binary_bufs_sub .., nullary_bufs_sub .., unary_bufs_sub .., binary_bufs_sub .., unary_bufs_sub .., unary_bufs_sub .., binary_bufs_sub .., unary_bufs_sub .., unary_bufs_sub .., unary_bufs_sub .., unary_bufs_sub .., unary_bufs_sub .., binary_bufs_sub .., unary_bufs_sub .., unary_bufs_sub .., unary_bufs_sub .., nullary_bufs_sub .., unary_bufs_sub .., unary_bufs_sub .., unary_bufs_sub .., ternary_bufs_sub .., reshape_bufs_sub .., reshape_bufs_sub .., reshape_bufs_sub .., nullary_bufs_sub .., unary_bufs_sub .., nullary_bufs_sub .., unary_bufs_sub .., binary_bufs_sub .., nullary_bufs_sub .., unary_bufs_sub .., binary_bufs_sub .., ternary_bufs_sub .., unary_bufs_sub .., unary_bufs_sub .., ternary_bufs_sub .., nullary_bufs_sub .., unary_bufs_sub .., nullary_bufs_sub .., unary_bufs_sub .., binary_bufs_sub .., nullary_bufs_sub .., unary_bufs_sub .., binary_bufs_sub .., ternary_bufs_sub .., unary_bufs_sub .., unary_bufs_sub .., ternary_bufs_sub .., nullary_bufs_sub .., unary_bufs_sub .., binary_bufs_sub .., nullary_bufs_sub .., unary_bufs_sub .., ternary_bufs_sub .., nullary_bufs_sub .., unary_bufs_sub .., binary_bufs_sub .., binary_bufs_sub .., ternary_bufs_sub .., nullary_bufs_sub .., unary_bufs_sub .., binary_bufs_sub .., unary_bufs_sub ..⟩

set_option maxRecDepth 8192 in
set_option maxHeartbeats 28400000 in
/-- On every device, for any float values, from any memory with zero counters: every weakly fair execution of
    @main terminates with the result buffer at the operations' fold over the launch contents and the arguments
    unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v51) = after ops (launchContents m c) (Proc.devRef .tc main_v51)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨h c main_v51,
      (h c main_arg0).trans (by after_results_simp <;> rfl),
      (h c main_arg1).trans (by after_results_simp <;> rfl),
      (h c main_arg2).trans (by after_results_simp <;> rfl)⟩)
    (run_seq scopedRefs_eq scopedSems_eq defs main (fun _ => ops) main_eq (fun _ => ops_sub) m ρ)

end Cert.ReferenceIdeal.RefValue

end
-- ==== Proof.Spec.lean ====
import Idealize.ShloMosaic.PureOps.Ideal
import Idealize.ShloMosaic.Lib.ValueIdx

/-!
# What both programs compute, before the scatter and after it

The inputs are a stack of segmentation maps `x0 : [8, 4, 512, 512]`, for every pixel of the four views the three
vertex ids of the mesh triangle it shows, `x1 : [4, 512, 512, 3]` (signed words; `-1` marks background), and the
three barycentric weights of the pixel in that triangle, `x2 : [4, 512, 512, 3]`. A pixel is `p : Fin 1048576`, the
row-major position of `(v, h, w)` in the `[4, 512, 512]` grid: `p = (v * 512 + h) * 512 + w`. A coordinate of the
triangle is `k : Fin 3`.

A pixel is *valid* when each of its three ids `j` has `0 ≤ j < 6890` (signed). Its *effective mask* for batch `b` is
`1` when the segmentation value is above the threshold and the pixel is valid, else `0`. Every pixel then adds, for
each coordinate `k`, the amount `mask * weight k` to the vertex with id `k` (and `mask` to that vertex's count); an
invalid pixel's ids are replaced by `0` (where it adds `0`), and a negative index is wrapped by `+ 6890`.
`specIdx`, `specW`, `specE` are the index array and the two update arrays of that scatter for coordinate `k`, over
pixels; `tail` is what both programs do with the two scattered sums afterwards.

Everything is stated with the operations the programs use (comparisons and conjunctions of one-bit words, the
conversion of a bit to a float), so that no arithmetic is needed to recognise it in either program.
-/

noncomputable section

namespace Cert.Spec

open Idealize.ShloMosaic Idealize.ShloMosaic.ValueIdx

/-! ## Pixels -/

/-- Entry `(v, h, w, k)` of a `[4, 512, 512, 3]` array, for the pixel `p = (v * 512 + h) * 512 + w`. -/
abbrev pix (p : Fin 1048576) (k : Fin 3) : (⟨4, ![4, 512, 512, 3]⟩ : Shape).Idx :=
  ix4 (⟨p.val / 262144, by have := p.isLt; omega⟩ : Fin 4) (⟨p.val / 512 % 512, by omega⟩ : Fin 512)
    (⟨p.val % 512, by omega⟩ : Fin 512) k

/-- Entry `(b, v, h, w)` of an `[8, 4, 512, 512]` array, for the pixel `p = (v * 512 + h) * 512 + w`. -/
abbrev pixB (b : Fin 8) (p : Fin 1048576) : (⟨4, ![8, 4, 512, 512]⟩ : Shape).Idx :=
  ix4 b (⟨p.val / 262144, by have := p.isLt; omega⟩ : Fin 4) (⟨p.val / 512 % 512, by omega⟩ : Fin 512)
    (⟨p.val % 512, by omega⟩ : Fin 512)

/-! ## One-bit words -/

/-- Two one-bit words are equal when each is `1` exactly when the other is. -/
theorem bit_ext {a b : BitVec 1} (h : a = 1#1 ↔ b = 1#1) : a = b := by
  revert a b; decide

/-- A conjunction of bits is `1` exactly when both are. -/
theorem andi_eq_one {c d : BitVec 1} : IntOp.andi c d = 1#1 ↔ c = 1#1 ∧ d = 1#1 := by
  revert c d; decide

/-- A bit widened to a word and converted as a signed integer is the bit converted as an unsigned one: both are
    the real number `0` or `1`. -/
theorem sitofp_setWidth_eq_uitofp (c : BitVec 1) :
    FloatOps.sitofp (F := Ideal) .f32 (c.setWidth 32) = FloatOps.uitofp (F := Ideal) .f32 c := by
  rcases BitVec.eq_zero_or_eq_one c with h | h <;> subst h <;>
    show ((((_ : BitVec 32).toInt : ℝ)) : EReal) = ((((_ : BitVec 1).toNat : ℝ)) : EReal) <;> norm_num

/-! ## Validity and the effective mask -/

/-- One vertex id is in range: `0 ≤ j` and `j < 6890`, both signed. -/
def inRange (j : BitVec 32) : BitVec 1 :=
  IntOp.andi (IntOp.cmpi .sge j 0#32) (IntOp.cmpi .slt j 6890#32)

/-- The pixel is valid: its three vertex ids are in range. -/
def valid (x1 : IVec ⟨4, ![4, 512, 512, 3]⟩ 32) (p : Fin 1048576) : BitVec 1 :=
  IntOp.andi (IntOp.andi (inRange (x1 (pix p 0))) (inRange (x1 (pix p 1)))) (inRange (x1 (pix p 2)))

/-- A pixel is valid exactly when each of its three ids is in range. -/
theorem valid_eq_one_iff (x1 : IVec ⟨4, ![4, 512, 512, 3]⟩ 32) (p : Fin 1048576) :
    valid x1 p = 1#1 ↔ ∀ k : Fin 3, inRange (x1 (pix p k)) = 1#1 := by
  unfold valid
  rw [andi_eq_one, andi_eq_one]
  constructor
  · rintro ⟨⟨h0, h1⟩, h2⟩ k
    match k with
    | ⟨0, _⟩ => exact h0
    | ⟨1, _⟩ => exact h1
    | ⟨2, _⟩ => exact h2
  · intro h
    exact ⟨⟨h 0, h 1⟩, h 2⟩

/-- The same six tests conjoined one after the other from the left, the order in which a program may write them. -/
theorem valid_eq_chain (x1 : IVec ⟨4, ![4, 512, 512, 3]⟩ 32) (p : Fin 1048576) :
    IntOp.andi (IntOp.andi (IntOp.andi (IntOp.andi (IntOp.andi
      (IntOp.cmpi .sge (x1 (pix p 0)) 0#32) (IntOp.cmpi .slt (x1 (pix p 0)) 6890#32))
      (IntOp.cmpi .sge (x1 (pix p 1)) 0#32)) (IntOp.cmpi .slt (x1 (pix p 1)) 6890#32))
      (IntOp.cmpi .sge (x1 (pix p 2)) 0#32)) (IntOp.cmpi .slt (x1 (pix p 2)) 6890#32) = valid x1 p := by
  unfold valid inRange
  generalize IntOp.cmpi .sge (x1 (pix p 0)) 0#32 = a0
  generalize IntOp.cmpi .slt (x1 (pix p 0)) 6890#32 = b0
  generalize IntOp.cmpi .sge (x1 (pix p 1)) 0#32 = a1
  generalize IntOp.cmpi .slt (x1 (pix p 1)) 6890#32 = b1
  generalize IntOp.cmpi .sge (x1 (pix p 2)) 0#32 = a2
  generalize IntOp.cmpi .slt (x1 (pix p 2)) 6890#32 = b2
  revert a0 b0 a1 b1 a2 b2; decide

/-- The threshold both programs compare the segmentation value with: the binary32 word nearest to `0.3`. -/
abbrev thr : EReal := Ideal.ofBits .f32 0x3E99999A#32

/-- The effective mask of pixel `p` for batch `b`, as a bit: the segmentation value is above the threshold and the
    pixel is valid. -/
def effBit (x0 : FVec Ideal ⟨4, ![8, 4, 512, 512]⟩ .f32) (x1 : IVec ⟨4, ![4, 512, 512, 3]⟩ 32) (b : Fin 8)
    (p : Fin 1048576) : BitVec 1 :=
  IntOp.andi (FloatOps.cmpf (F := Ideal) .ogt (x0 (pixB b p)) thr) (valid x1 p)

/-- The effective mask as a number: the bit converted (unsigned) to a float, `0` or `1`. -/
def eff (x0 : FVec Ideal ⟨4, ![8, 4, 512, 512]⟩ .f32) (x1 : IVec ⟨4, ![4, 512, 512, 3]⟩ 32) (b : Fin 8)
    (p : Fin 1048576) : EReal :=
  FloatOps.uitofp (F := Ideal) .f32 (effBit x0 x1 b p)

/-- The same number reached by widening the bit to a word and converting the word as a signed integer. -/
theorem eff_eq_sitofp (x0 : FVec Ideal ⟨4, ![8, 4, 512, 512]⟩ .f32) (x1 : IVec ⟨4, ![4, 512, 512, 3]⟩ 32) (b : Fin 8)
    (p : Fin 1048576) :
    FloatOps.sitofp (F := Ideal) .f32 ((effBit x0 x1 b p).setWidth 32) = eff x0 x1 b p :=
  sitofp_setWidth_eq_uitofp _

/-! ## The scatter's three operands, for coordinate `k`, over pixels -/

/-- The vertex index pixel `p` scatters to for coordinate `k`: its id if the pixel is valid, else `0`; then a
    negative index is wrapped by adding `6890`. -/
def idxAt (x1 : IVec ⟨4, ![4, 512, 512, 3]⟩ 32) (k : Fin 3) (p : Fin 1048576) : BitVec 32 :=
  Scalar.select (IntOp.cmpi .slt (Scalar.select (valid x1 p) (x1 (pix p k)) 0#32) 0#32)
    (IntOp.addi (Scalar.select (valid x1 p) (x1 (pix p k)) 0#32) 6890#32)
    (Scalar.select (valid x1 p) (x1 (pix p k)) 0#32)

/-- The index array: one index vector of length one per pixel. -/
def specIdx (x1 : IVec ⟨4, ![4, 512, 512, 3]⟩ 32) (k : Fin 3) : IVec ⟨2, ![1048576, 1]⟩ 32 :=
  fun i => idxAt x1 k (i 0)

/-- The weighted updates: mask times weight (in this order), per batch and pixel. -/
def specW (x0 : FVec Ideal ⟨4, ![8, 4, 512, 512]⟩ .f32) (x1 : IVec ⟨4, ![4, 512, 512, 3]⟩ 32)
    (x2 : FVec Ideal ⟨4, ![4, 512, 512, 3]⟩ .f32) (k : Fin 3) : FVec Ideal ⟨2, ![8, 1048576]⟩ .f32 :=
  fun i => eff x0 x1 (i 0) (i 1) * x2 (pix (i 1) k)

/-- The count updates: the mask, per batch and pixel. -/
def specE (x0 : FVec Ideal ⟨4, ![8, 4, 512, 512]⟩ .f32) (x1 : IVec ⟨4, ![4, 512, 512, 3]⟩ 32) :
    FVec Ideal ⟨2, ![8, 1048576]⟩ .f32 :=
  fun i => eff x0 x1 (i 0) (i 1)

theorem specIdx_apply (x1 : IVec ⟨4, ![4, 512, 512, 3]⟩ 32) (k : Fin 3) (p : Fin 1048576) (z : Fin 1) :
    specIdx x1 k (ix2 p z) = idxAt x1 k p := rfl

theorem specW_apply (x0 : FVec Ideal ⟨4, ![8, 4, 512, 512]⟩ .f32) (x1 : IVec ⟨4, ![4, 512, 512, 3]⟩ 32)
    (x2 : FVec Ideal ⟨4, ![4, 512, 512, 3]⟩ .f32) (k : Fin 3) (b : Fin 8) (p : Fin 1048576) :
    specW x0 x1 x2 k (ix2 b p) = eff x0 x1 b p * x2 (pix p k) := rfl

theorem specE_apply (x0 : FVec Ideal ⟨4, ![8, 4, 512, 512]⟩ .f32) (x1 : IVec ⟨4, ![4, 512, 512, 3]⟩ 32) (b : Fin 8)
    (p : Fin 1048576) : specE x0 x1 (ix2 b p) = eff x0 x1 b p := rfl

/-! ## After the scatter -/

/-- The `[8, 6890]` array that holds the float with word `w` everywhere, as a broadcast scalar constant. -/
abbrev splat (w : BitVec 32) : FVec Ideal ⟨2, ![8, 6890]⟩ .f32 :=
  broadcastInDim (⟨2, ![8, 6890]⟩ : Shape) ![] (by decide : (⟨0, ![]⟩ : Shape).BroadcastsInDim ⟨2, ![8, 6890]⟩ ![])
    (constant (F := Ideal) ⟨0, ![]⟩ .f32 w)

/-- What both programs do with the scattered weight sums `pred` and counts `count`: where the count is positive the
    sum is divided by it (elsewhere it is divided by `1` and then discarded for the sum itself), and the result is
    `1` where that quotient is above the threshold, else `0`. -/
def tail (pred count : FVec Ideal ⟨2, ![8, 6890]⟩ .f32) : FVec Ideal ⟨2, ![8, 6890]⟩ .f32 :=
  uitofp .f32 (cmpf .ogt
    (select (cmpf .ogt count (splat 0x00000000#32))
      (Host.divf pred (select (cmpf .ogt count (splat 0x00000000#32)) count (splat 0x3F800000#32)))
      pred)
    (splat 0x3E99999A#32))

/-- `tail` at an index, from the two entries at that index. -/
theorem tail_apply (pred count : FVec Ideal ⟨2, ![8, 6890]⟩ .f32) (i : (⟨2, ![8, 6890]⟩ : Shape).Idx) :
    tail pred count i =
      FloatOps.uitofp (F := Ideal) .f32 (FloatOps.cmpf (F := Ideal) .ogt
        (Scalar.select (FloatOps.cmpf (F := Ideal) .ogt (count i) (Ideal.ofBits .f32 0x00000000#32))
          (Ideal.div (pred i) (Scalar.select (FloatOps.cmpf (F := Ideal) .ogt (count i) (Ideal.ofBits .f32 0x00000000#32))
            (count i) (Ideal.ofBits .f32 0x3F800000#32)))
          (pred i))
        (Ideal.ofBits .f32 0x3E99999A#32)) := rfl

end Cert.Spec

end
-- ==== Proof.Result.lean ====
import proofs.«153110_j51737176048098_1_alg».proof.Proof.Gen.KernelIdeal
import proofs.«153110_j51737176048098_1_alg».proof.Proof.Spec

noncomputable section

namespace Cert.Proof.Bridge

open Idealize.ShloMosaic Idealize.ShloMosaic.ValueIdx
open Cert.Spec

/-! ## One result for both programs

From the three argument arrays: for each coordinate the index column, the weighted updates and the mask updates over
pixels; the weighted sums and the counts are three accumulating scatters each, one per coordinate, into zeros; the
result is their guarded quotient thresholded. -/

/-- The dimension numbers of a scatter of 8 rows of pixel updates into 8 rows of vertices. -/
abbrev dK := Cert.KernelIdeal.scatter_S8x6890_S1048576x1_S8x1048576_0_1_1_1

/-- The array of zeros the sums start from. -/
abbrev zeros : FVec Ideal ⟨2, ![8, 6890]⟩ .f32 := fun _ => Ideal.ofBits .f32 0x00000000#32

/-- Three accumulating scatters into zeros, one per coordinate, with the given updates. -/
def sum3 (x1 : IVec ⟨4, ![4, 512, 512, 3]⟩ 32) (u : Fin 3 → FVec Ideal ⟨2, ![8, 1048576]⟩ .f32) : FVec Ideal ⟨2, ![8, 6890]⟩ .f32 :=
  Ideal.hostScatterAdd dK (Ideal.hostScatterAdd dK (Ideal.hostScatterAdd dK zeros
    (specIdx x1 0) (u 0)) (specIdx x1 1) (u 1)) (specIdx x1 2) (u 2)

/-- The array both programs end with. -/
def result (x0 : FVec Ideal ⟨4, ![8, 4, 512, 512]⟩ .f32) (x1 : IVec ⟨4, ![4, 512, 512, 3]⟩ 32)
    (x2 : FVec Ideal ⟨4, ![4, 512, 512, 3]⟩ .f32) : FVec Ideal ⟨2, ![8, 6890]⟩ .f32 :=
  Cert.Spec.tail (sum3 x1 fun k => specW x0 x1 x2 k) (sum3 x1 fun _ => specE x0 x1)

end Cert.Proof.Bridge

end
-- ==== Proof.KernelIdealTailDefs.lean ====
import proofs.«153110_j51737176048098_1_alg».proof.Proof.Gen.KernelIdeal
import Idealize.ShloMosaic.Lib.StableHlo.Run
import Idealize.ShloMosaic.PureOps.Ideal
import Idealize.ShloMosaic.Lib.Pipeline.Value

set_option maxRecDepth 65536

noncomputable section

namespace Cert.KernelIdeal.HandTail

open Idealize.ShloMosaic Idealize.ShloMosaic.TcCoe Idealize.SL.Sem Idealize.ShloMosaic.StableHlo
open Cert.KernelIdeal Cert.KernelIdeal.Gen

/-! ## The host lines after the region, as one function of the seven arrays the region wrote

Each clamped index array is flattened to a vector of 4·512·512 entries, a negative entry is moved up by the number
of vertices (the host's reading of a negative position), and the vector is written as a column; each float array is
flattened to 8 rows of 4·512·512 entries. The weighted sum per vertex is three accumulating scatters into zeros, one
per coordinate, and so is the count, with the mask as the update all three times. -/

/-- A clamped index array as the column of positions a scatter reads. -/
def wrapIdx (a : IVec S4x512x512 32) : IVec S1048576x1 32 :=
  broadcastInDim S1048576x1 ![0] bcast_S1048576_S1048576x1_0
    (select (cmpi .slt (fun i => shapeCast S1048576 a shapeCasts_S4x512x512_S1048576 i) (broadcastInDim S1048576 ![] bcast_S_S1048576 (constantI S_ 32 0#32)))
      (addi (fun i => shapeCast S1048576 a shapeCasts_S4x512x512_S1048576 i) (broadcastInDim S1048576 ![] bcast_S_S1048576 (constantI S_ 32 6890#32)))
      (fun i => shapeCast S1048576 a shapeCasts_S4x512x512_S1048576 i))

/-- A float output array as 8 rows of updates. -/
def flat (u : FVec Ideal S8x4x512x512 .f32) : FVec Ideal S8x1048576 .f32 :=
  fun i => shapeCast S8x1048576 u shapeCasts_S8x4x512x512_S8x1048576 i

/-- The operand the first scatter adds into. -/
def zero : FVec Ideal S8x6890 .f32 := broadcastInDim S8x6890 ![] bcast_S_S8x6890 (constant (F := Ideal) S_ .f32 0x00000000#32)

/-- Three accumulating scatters, one per coordinate. -/
def scat3 (i0 i1 i2 : IVec S4x512x512 32) (u0 u1 u2 : FVec Ideal S8x4x512x512 .f32) : FVec Ideal S8x6890 .f32 :=
  Host.scatterAdd scatter_S8x6890_S1048576x1_S8x1048576_0_1_1_1
    (Host.scatterAdd scatter_S8x6890_S1048576x1_S8x1048576_0_1_1_1
      (Host.scatterAdd scatter_S8x6890_S1048576x1_S8x1048576_0_1_1_1 zero (wrapIdx i0) (flat u0)) (wrapIdx i1) (flat u1))
    (wrapIdx i2) (flat u2)

end Cert.KernelIdeal.HandTail

end
-- ==== Proof.KernelIdealTail.lean ====
import proofs.«153110_j51737176048098_1_alg».proof.Proof.KernelIdealFrame
import proofs.«153110_j51737176048098_1_alg».proof.Proof.KernelIdealTailDefs
import proofs.«153110_j51737176048098_1_alg».proof.Proof.Spec
import Idealize.ShloMosaic.Lib.StableHlo.Run
import Idealize.ShloMosaic.Lib.Pipeline.Value

set_option maxRecDepth 65536

noncomputable section

namespace Cert.KernelIdeal.HandTail

open Idealize.ShloMosaic Idealize.ShloMosaic.TcCoe Idealize.SL.Sem Idealize.ShloMosaic.StableHlo
open Idealize.ShloMosaic.Pipeline (Dat Cfg)
open Cert.KernelIdeal Cert.KernelIdeal.Gen Cert.KernelIdeal.Hand

/-! ## The result buffer after the host lines that follow the region

The first and longest stretch ends with the two triple scatters; the remaining eleven lines form the guarded
quotient and the threshold from them. -/

/-- Running two stretches one after the other is running their concatenation. -/
theorem after_append {Val : EltTy → Type} (l₁ l₂ : List (HloOp τ sig Val)) (V : Valuation τ sig Val) :
    StableHlo.after (l₁ ++ l₂) V = StableHlo.after l₂ (StableHlo.after l₁ V) := by
  induction l₁ generalizing V with
  | nil => rfl
  | cons op l ih => simp only [List.cons_append, StableHlo.after_cons, ih]

/-- The weighted sums, read off the arrays a valuation holds at the region's seven result buffers. -/
abbrev predOf (W : Valuation τ sig (Elt Ideal)) : FVec Ideal S8x6890 .f32 :=
  scat3 (W (Proc.devRef .tc main_v2_4)) (W (Proc.devRef .tc main_v2_5)) (W (Proc.devRef .tc main_v2_6))
    (W (Proc.devRef .tc main_v2_1)) (W (Proc.devRef .tc main_v2_2)) (W (Proc.devRef .tc main_v2_3))
/-- The counts. -/
abbrev countOf (W : Valuation τ sig (Elt Ideal)) : FVec Ideal S8x6890 .f32 :=
  scat3 (W (Proc.devRef .tc main_v2_4)) (W (Proc.devRef .tc main_v2_5)) (W (Proc.devRef .tc main_v2_6))
    (W (Proc.devRef .tc main_v2_0)) (W (Proc.devRef .tc main_v2_0)) (W (Proc.devRef .tc main_v2_0))

set_option maxHeartbeats 8000000 in
theorem stretch1_pred (W : Valuation τ sig (Elt Ideal)) :
    StableHlo.after hostOps1 W (Proc.devRef .tc main_v31) = predOf W := by
  simp only [hostOps1]
  after_results_simp
  rfl

set_option maxHeartbeats 8000000 in
theorem stretch1_count (W : Valuation τ sig (Elt Ideal)) :
    StableHlo.after hostOps1 W (Proc.devRef .tc main_v52) = countOf W := by
  simp only [hostOps1]
  after_results_simp
  rfl

set_option maxHeartbeats 8000000 in
/-- The stretch also leaves the test "count positive" and the constant one for the lines that follow. -/
theorem stretch1_pos (W : Valuation τ sig (Elt Ideal)) :
    StableHlo.after hostOps1 W (Proc.devRef .tc main_v54) = cmpf .ogt (countOf W) (Cert.Spec.splat 0x00000000#32) := by
  simp only [hostOps1]
  after_results_simp
  rfl

set_option maxHeartbeats 8000000 in
theorem stretch1_one (W : Valuation τ sig (Elt Ideal)) :
    StableHlo.after hostOps1 W (Proc.devRef .tc main_cst_12) = constant (F := Ideal) S_ .f32 0x3F800000#32 := by
  simp only [hostOps1]
  after_results_simp

set_option maxHeartbeats 8000000 in
/-- The last eleven lines, from any contents of the four buffers they read. -/
theorem rest_open (V1 : Valuation τ sig (Elt Ideal)) :
    StableHlo.after (hostOps1_1 ++ (hostOps1_2 ++ (hostOps1_3 ++ hostOps1_4))) V1 (Proc.devRef .tc main_v62)
      = (uitofp (F := Ideal) .f32 (cmpf (F := Ideal) .ogt
          (select (cmpf (F := Ideal) .ogt (V1 (Proc.devRef .tc main_v52)) (Cert.Spec.splat 0x00000000#32))
            (Host.divf (V1 (Proc.devRef .tc main_v31))
              (select (V1 (Proc.devRef .tc main_v54)) (V1 (Proc.devRef .tc main_v52))
                (broadcastInDim S8x6890 ![] bcast_S_S8x6890 (V1 (Proc.devRef .tc main_cst_12)))))
            (V1 (Proc.devRef .tc main_v31)))
          (Cert.Spec.splat 0x3E99999A#32)) : FVec Ideal S8x6890 .f32) := by
  simp only [hostOps1_1, hostOps1_2, hostOps1_3, hostOps1_4, List.cons_append, List.nil_append, List.append_nil]
  after_results_simp
  rfl

variable (m : (ℓ : Loc nD τ sig) → Buf (Elt Ideal) ℓ)

/-- What the later host lines find at a buffer: the region's arrays where it wrote, the entry contents elsewhere. -/
abbrev WV (c : Dev nD) : Valuation τ sig (Elt Ideal) :=
  Pipeline.withArrays (cfgs 0).spec c (V0 m c) (fun w => (dats m 0 c).arrAt w (cfgs 0).N)

/-- The result buffer after the whole program: the guarded quotient and threshold of the two triple scatters. -/
theorem res_open (c : Dev nD) : Pipeline.afterTail₀ cfgs (dats m) 0 (V0 m) tailOps c main_v62
    = Cert.Spec.tail (predOf (WV m c)) (countOf (WV m c)) := by
  unfold Pipeline.afterTail₀
  show StableHlo.after (List.flatten tailOps) (WV m c) (Proc.devRef .tc main_v62) = _
  simp only [tailOps, List.flatten_cons, List.flatten_nil, List.append_nil]
  rw [after_append, rest_open, stretch1_pred, stretch1_count, stretch1_pos, stretch1_one]
  rfl

end Cert.KernelIdeal.HandTail

end
-- ==== Proof.KernelIdealValuePieces.lean ====
/-
  WHAT EACH CASE OF THE BODY LEAVES IN EACH OUTPUT BUFFER, AS A PAYLOAD OF THE POINT'S INPUT BLOCKS.

  The body of the region loads the point's segmentation block x0 : [1, 1, 512, 512], the three slabs of its index
  block x1 : [3, 1, 512, 512] and of its weight block x2 : [3, 1, 512, 512], and stores, with one store covering each
  output buffer: the effective mask (buffer 3), the mask times each weight slab (buffers 4, 5, 6) and, only where the
  batch index is zero (case A), each index slab clamped to zero at invalid pixels (buffers 7, 8, 9). Each buffer read
  back over anything is that store's payload: the pieces the two case runs found are one covering store each.
  Stated for every float instance.
-/
import proofs.«153110_j51737176048098_1_alg».proof.Proof.KernelIdealFrame
import Idealize.ShloMosaic.Lib.Pipeline.Value
import Idealize.ShloMosaic.Lib.ValueIdx
import Idealize.ShloMosaic.Lib.Tactic

set_option maxRecDepth 16384

noncomputable section

namespace Cert.KernelIdeal.HandValue

open Idealize.ShloMosaic Idealize.ShloMosaic.TcCoe Idealize.ShloMosaic.Tactic
open Idealize.SL Idealize.SL.Sem
open Idealize.ShloMosaic.Pipeline (Dat)
open Idealize.ShloMosaic.ValueIdx
open Cert.KernelIdeal Cert.KernelIdeal.Gen Cert.KernelIdeal.Hand

variable {F : FTy → Type} [FloatOps F]

/-! ## The three slabs of a staged block of three

The index block and the weight block of a point are [3, 1, 512, 512]: the body loads the three [1, 1, 512, 512]
slabs at first coordinate 0, 1, 2 one by one. -/

theorem hz4 : (![0, 0, 0, 0] : Fin 4 → Nat) = fun _ => 0 := funext fun a => by fin_cases a <;> rfl
theorem hz3 : (![0, 0, 0] : Fin 3 → Nat) = fun _ => 0 := funext fun a => by fin_cases a <;> rfl

/-- The slab at first coordinate 0 of a block of three. -/
abbrev slab0 {e : EltTy} (x : Vec F S3x1x512x512 e) : Vec F S1x1x512x512 e :=
  View.ld (Val := Elt F) x (Rect.unit (s := S3x1x512x512) ![0, 0, 0, 0] S1x1x512x512.size inb_S3x1x512x512_S1x1x512x512_0_0_0_0)
/-- The slab at first coordinate 1 of a block of three. -/
abbrev slab1 {e : EltTy} (x : Vec F S3x1x512x512 e) : Vec F S1x1x512x512 e :=
  View.ld (Val := Elt F) x (Rect.unit (s := S3x1x512x512) ![1, 0, 0, 0] S1x1x512x512.size inb_S3x1x512x512_S1x1x512x512_1_0_0_0)
/-- The slab at first coordinate 2 of a block of three. -/
abbrev slab2 {e : EltTy} (x : Vec F S3x1x512x512 e) : Vec F S1x1x512x512 e :=
  View.ld (Val := Elt F) x (Rect.unit (s := S3x1x512x512) ![2, 0, 0, 0] S1x1x512x512.size inb_S3x1x512x512_S1x1x512x512_2_0_0_0)

/-- What case A leaves in output buffer 3, as the payload of its one covering store. -/
theorem out_A_3 (c : Dev nD) (i : grid0.Coords) (arg2 : Memref sig .tc .vmem S1x1x512x512 .f32) (harg2 : arg2.IsWhole) (arg3 : Memref sig .tc .vmem S3x1x512x512 .i32) (harg3 : arg3.IsWhole) (arg4 : Memref sig .tc .vmem S3x1x512x512 .f32) (harg4 : arg4.IsWhole) (arg5 : Memref sig .tc .vmem S1x1x512x512 .f32) (harg5 : arg5.IsWhole) (arg6 : Memref sig .tc .vmem S1x1x512x512 .f32) (harg6 : arg6.IsWhole) (arg7 : Memref sig .tc .vmem S1x1x512x512 .f32) (harg7 : arg7.IsWhole) (arg8 : Memref sig .tc .vmem S1x1x512x512 .f32) (harg8 : arg8.IsWhole) (arg9 : Memref sig .tc .vmem S1x512x512 .i32) (harg9 : arg9.IsWhole) (arg10 : Memref sig .tc .vmem S1x512x512 .i32) (harg10 : arg10.IsWhole) (arg11 : Memref sig .tc .vmem S1x512x512 .i32) (harg11 : arg11.IsWhole) (hc0 : cond0_0 i) (x0 : Vec F S1x1x512x512 .f32) (x1 : Vec F S3x1x512x512 .i32) (x2 : Vec F S3x1x512x512 .f32) :
    out0_A_3 c i arg2 harg2 arg3 harg3 arg4 harg4 arg5 harg5 arg6 harg6 arg7 harg7 arg8 harg8 arg9 harg9 arg10 harg10 arg11 harg11 hc0 x0 x1 x2 = k0_pay1 (k0_pay12 (slab0 x1) (slab1 x1) (slab2 x1) x0) := by
  unfold out0_A_3
  rw [View.read_writes_eq_canon _ _ _ (cover0_A_3 c i arg2 harg2 arg3 harg3 arg4 harg4 arg5 harg5 arg6 harg6 arg7 harg7 arg8 harg8 arg9 harg9 arg10 harg10 arg11 harg11 hc0 x0 x1 x2)]
  unfold kernelRun0_A
  dsimp only
  sl_unfold_words
  rw [View.canon_unit_zero hz4]
  simp only [View.readAt_eq_ld, harg2.read_unread, harg3.read_unread, harg4.read_unread, View.ld_unit_zero (S := S1x1x512x512) hz4]

/-- What case A leaves in output buffer 4, as the payload of its one covering store. -/
theorem out_A_4 (c : Dev nD) (i : grid0.Coords) (arg2 : Memref sig .tc .vmem S1x1x512x512 .f32) (harg2 : arg2.IsWhole) (arg3 : Memref sig .tc .vmem S3x1x512x512 .i32) (harg3 : arg3.IsWhole) (arg4 : Memref sig .tc .vmem S3x1x512x512 .f32) (harg4 : arg4.IsWhole) (arg5 : Memref sig .tc .vmem S1x1x512x512 .f32) (harg5 : arg5.IsWhole) (arg6 : Memref sig .tc .vmem S1x1x512x512 .f32) (harg6 : arg6.IsWhole) (arg7 : Memref sig .tc .vmem S1x1x512x512 .f32) (harg7 : arg7.IsWhole) (arg8 : Memref sig .tc .vmem S1x1x512x512 .f32) (harg8 : arg8.IsWhole) (arg9 : Memref sig .tc .vmem S1x512x512 .i32) (harg9 : arg9.IsWhole) (arg10 : Memref sig .tc .vmem S1x512x512 .i32) (harg10 : arg10.IsWhole) (arg11 : Memref sig .tc .vmem S1x512x512 .i32) (harg11 : arg11.IsWhole) (hc0 : cond0_0 i) (x0 : Vec F S1x1x512x512 .f32) (x1 : Vec F S3x1x512x512 .i32) (x2 : Vec F S3x1x512x512 .f32) :
    out0_A_4 c i arg2 harg2 arg3 harg3 arg4 harg4 arg5 harg5 arg6 harg6 arg7 harg7 arg8 harg8 arg9 harg9 arg10 harg10 arg11 harg11 hc0 x0 x1 x2 = k0_pay2 (k0_pay12 (slab0 x1) (slab1 x1) (slab2 x1) x0) (slab0 x2) := by
  unfold out0_A_4
  rw [View.read_writes_eq_canon _ _ _ (cover0_A_4 c i arg2 harg2 arg3 harg3 arg4 harg4 arg5 harg5 arg6 harg6 arg7 harg7 arg8 harg8 arg9 harg9 arg10 harg10 arg11 harg11 hc0 x0 x1 x2)]
  unfold kernelRun0_A
  dsimp only
  sl_unfold_words
  rw [View.canon_unit_zero hz4]
  simp only [View.readAt_eq_ld, harg2.read_unread, harg3.read_unread, harg4.read_unread, View.ld_unit_zero (S := S1x1x512x512) hz4]

/-- What case A leaves in output buffer 5, as the payload of its one covering store. -/
theorem out_A_5 (c : Dev nD) (i : grid0.Coords) (arg2 : Memref sig .tc .vmem S1x1x512x512 .f32) (harg2 : arg2.IsWhole) (arg3 : Memref sig .tc .vmem S3x1x512x512 .i32) (harg3 : arg3.IsWhole) (arg4 : Memref sig .tc .vmem S3x1x512x512 .f32) (harg4 : arg4.IsWhole) (arg5 : Memref sig .tc .vmem S1x1x512x512 .f32) (harg5 : arg5.IsWhole) (arg6 : Memref sig .tc .vmem S1x1x512x512 .f32) (harg6 : arg6.IsWhole) (arg7 : Memref sig .tc .vmem S1x1x512x512 .f32) (harg7 : arg7.IsWhole) (arg8 : Memref sig .tc .vmem S1x1x512x512 .f32) (harg8 : arg8.IsWhole) (arg9 : Memref sig .tc .vmem S1x512x512 .i32) (harg9 : arg9.IsWhole) (arg10 : Memref sig .tc .vmem S1x512x512 .i32) (harg10 : arg10.IsWhole) (arg11 : Memref sig .tc .vmem S1x512x512 .i32) (harg11 : arg11.IsWhole) (hc0 : cond0_0 i) (x0 : Vec F S1x1x512x512 .f32) (x1 : Vec F S3x1x512x512 .i32) (x2 : Vec F S3x1x512x512 .f32) :
    out0_A_5 c i arg2 harg2 arg3 harg3 arg4 harg4 arg5 harg5 arg6 harg6 arg7 harg7 arg8 harg8 arg9 harg9 arg10 harg10 arg11 harg11 hc0 x0 x1 x2 = k0_pay3 (k0_pay12 (slab0 x1) (slab1 x1) (slab2 x1) x0) (slab1 x2) := by
  unfold out0_A_5
  rw [View.read_writes_eq_canon _ _ _ (cover0_A_5 c i arg2 harg2 arg3 harg3 arg4 harg4 arg5 harg5 arg6 harg6 arg7 harg7 arg8 harg8 arg9 harg9 arg10 harg10 arg11 harg11 hc0 x0 x1 x2)]
  unfold kernelRun0_A
  dsimp only
  sl_unfold_words
  rw [View.canon_unit_zero hz4]
  simp only [View.readAt_eq_ld, harg2.read_unread, harg3.read_unread, harg4.read_unread, View.ld_unit_zero (S := S1x1x512x512) hz4]

/-- What case A leaves in output buffer 6, as the payload of its one covering store. -/
theorem out_A_6 (c : Dev nD) (i : grid0.Coords) (arg2 : Memref sig .tc .vmem S1x1x512x512 .f32) (harg2 : arg2.IsWhole) (arg3 : Memref sig .tc .vmem S3x1x512x512 .i32) (harg3 : arg3.IsWhole) (arg4 : Memref sig .tc .vmem S3x1x512x512 .f32) (harg4 : arg4.IsWhole) (arg5 : Memref sig .tc .vmem S1x1x512x512 .f32) (harg5 : arg5.IsWhole) (arg6 : Memref sig .tc .vmem S1x1x512x512 .f32) (harg6 : arg6.IsWhole) (arg7 : Memref sig .tc .vmem S1x1x512x512 .f32) (harg7 : arg7.IsWhole) (arg8 : Memref sig .tc .vmem S1x1x512x512 .f32) (harg8 : arg8.IsWhole) (arg9 : Memref sig .tc .vmem S1x512x512 .i32) (harg9 : arg9.IsWhole) (arg10 : Memref sig .tc .vmem S1x512x512 .i32) (harg10 : arg10.IsWhole) (arg11 : Memref sig .tc .vmem S1x512x512 .i32) (harg11 : arg11.IsWhole) (hc0 : cond0_0 i) (x0 : Vec F S1x1x512x512 .f32) (x1 : Vec F S3x1x512x512 .i32) (x2 : Vec F S3x1x512x512 .f32) :
    out0_A_6 c i arg2 harg2 arg3 harg3 arg4 harg4 arg5 harg5 arg6 harg6 arg7 harg7 arg8 harg8 arg9 harg9 arg10 harg10 arg11 harg11 hc0 x0 x1 x2 = k0_pay4 (k0_pay12 (slab0 x1) (slab1 x1) (slab2 x1) x0) (slab2 x2) := by
  unfold out0_A_6
  rw [View.read_writes_eq_canon _ _ _ (cover0_A_6 c i arg2 harg2 arg3 harg3 arg4 harg4 arg5 harg5 arg6 harg6 arg7 harg7 arg8 harg8 arg9 harg9 arg10 harg10 arg11 harg11 hc0 x0 x1 x2)]
  unfold kernelRun0_A
  dsimp only
  sl_unfold_words
  rw [View.canon_unit_zero hz4]
  simp only [View.readAt_eq_ld, harg2.read_unread, harg3.read_unread, harg4.read_unread, View.ld_unit_zero (S := S1x1x512x512) hz4]

/-- What case B leaves in output buffer 3, as the payload of its one covering store. -/
theorem out_B_3 (c : Dev nD) (i : grid0.Coords) (arg2 : Memref sig .tc .vmem S1x1x512x512 .f32) (harg2 : arg2.IsWhole) (arg3 : Memref sig .tc .vmem S3x1x512x512 .i32) (harg3 : arg3.IsWhole) (arg4 : Memref sig .tc .vmem S3x1x512x512 .f32) (harg4 : arg4.IsWhole) (arg5 : Memref sig .tc .vmem S1x1x512x512 .f32) (harg5 : arg5.IsWhole) (arg6 : Memref sig .tc .vmem S1x1x512x512 .f32) (harg6 : arg6.IsWhole) (arg7 : Memref sig .tc .vmem S1x1x512x512 .f32) (harg7 : arg7.IsWhole) (arg8 : Memref sig .tc .vmem S1x1x512x512 .f32) (harg8 : arg8.IsWhole) (arg9 : Memref sig .tc .vmem S1x512x512 .i32) (harg9 : arg9.IsWhole) (arg10 : Memref sig .tc .vmem S1x512x512 .i32) (harg10 : arg10.IsWhole) (arg11 : Memref sig .tc .vmem S1x512x512 .i32) (harg11 : arg11.IsWhole) (hc0 : ¬cond0_0 i) (x0 : Vec F S1x1x512x512 .f32) (x1 : Vec F S3x1x512x512 .i32) (x2 : Vec F S3x1x512x512 .f32) :
    out0_B_3 c i arg2 harg2 arg3 harg3 arg4 harg4 arg5 harg5 arg6 harg6 arg7 harg7 arg8 harg8 arg9 harg9 arg10 harg10 arg11 harg11 hc0 x0 x1 x2 = k0_pay1 (k0_pay12 (slab0 x1) (slab1 x1) (slab2 x1) x0) := by
  unfold out0_B_3
  rw [View.read_writes_eq_canon _ _ _ (cover0_B_3 c i arg2 harg2 arg3 harg3 arg4 harg4 arg5 harg5 arg6 harg6 arg7 harg7 arg8 harg8 arg9 harg9 arg10 harg10 arg11 harg11 hc0 x0 x1 x2)]
  unfold kernelRun0_B
  dsimp only
  sl_unfold_words
  rw [View.canon_unit_zero hz4]
  simp only [View.readAt_eq_ld, harg2.read_unread, harg3.read_unread, harg4.read_unread, View.ld_unit_zero (S := S1x1x512x512) hz4]

/-- What case B leaves in output buffer 4, as the payload of its one covering store. -/
theorem out_B_4 (c : Dev nD) (i : grid0.Coords) (arg2 : Memref sig .tc .vmem S1x1x512x512 .f32) (harg2 : arg2.IsWhole) (arg3 : Memref sig .tc .vmem S3x1x512x512 .i32) (harg3 : arg3.IsWhole) (arg4 : Memref sig .tc .vmem S3x1x512x512 .f32) (harg4 : arg4.IsWhole) (arg5 : Memref sig .tc .vmem S1x1x512x512 .f32) (harg5 : arg5.IsWhole) (arg6 : Memref sig .tc .vmem S1x1x512x512 .f32) (harg6 : arg6.IsWhole) (arg7 : Memref sig .tc .vmem S1x1x512x512 .f32) (harg7 : arg7.IsWhole) (arg8 : Memref sig .tc .vmem S1x1x512x512 .f32) (harg8 : arg8.IsWhole) (arg9 : Memref sig .tc .vmem S1x512x512 .i32) (harg9 : arg9.IsWhole) (arg10 : Memref sig .tc .vmem S1x512x512 .i32) (harg10 : arg10.IsWhole) (arg11 : Memref sig .tc .vmem S1x512x512 .i32) (harg11 : arg11.IsWhole) (hc0 : ¬cond0_0 i) (x0 : Vec F S1x1x512x512 .f32) (x1 : Vec F S3x1x512x512 .i32) (x2 : Vec F S3x1x512x512 .f32) :
    out0_B_4 c i arg2 harg2 arg3 harg3 arg4 harg4 arg5 harg5 arg6 harg6 arg7 harg7 arg8 harg8 arg9 harg9 arg10 harg10 arg11 harg11 hc0 x0 x1 x2 = k0_pay2 (k0_pay12 (slab0 x1) (slab1 x1) (slab2 x1) x0) (slab0 x2) := by
  unfold out0_B_4
  rw [View.read_writes_eq_canon _ _ _ (cover0_B_4 c i arg2 harg2 arg3 harg3 arg4 harg4 arg5 harg5 arg6 harg6 arg7 harg7 arg8 harg8 arg9 harg9 arg10 harg10 arg11 harg11 hc0 x0 x1 x2)]
  unfold kernelRun0_B
  dsimp only
  sl_unfold_words
  rw [View.canon_unit_zero hz4]
  simp only [View.readAt_eq_ld, harg2.read_unread, harg3.read_unread, harg4.read_unread, View.ld_unit_zero (S := S1x1x512x512) hz4]

/-- What case B leaves in output buffer 5, as the payload of its one covering store. -/
theorem out_B_5 (c : Dev nD) (i : grid0.Coords) (arg2 : Memref sig .tc .vmem S1x1x512x512 .f32) (harg2 : arg2.IsWhole) (arg3 : Memref sig .tc .vmem S3x1x512x512 .i32) (harg3 : arg3.IsWhole) (arg4 : Memref sig .tc .vmem S3x1x512x512 .f32) (harg4 : arg4.IsWhole) (arg5 : Memref sig .tc .vmem S1x1x512x512 .f32) (harg5 : arg5.IsWhole) (arg6 : Memref sig .tc .vmem S1x1x512x512 .f32) (harg6 : arg6.IsWhole) (arg7 : Memref sig .tc .vmem S1x1x512x512 .f32) (harg7 : arg7.IsWhole) (arg8 : Memref sig .tc .vmem S1x1x512x512 .f32) (harg8 : arg8.IsWhole) (arg9 : Memref sig .tc .vmem S1x512x512 .i32) (harg9 : arg9.IsWhole) (arg10 : Memref sig .tc .vmem S1x512x512 .i32) (harg10 : arg10.IsWhole) (arg11 : Memref sig .tc .vmem S1x512x512 .i32) (harg11 : arg11.IsWhole) (hc0 : ¬cond0_0 i) (x0 : Vec F S1x1x512x512 .f32) (x1 : Vec F S3x1x512x512 .i32) (x2 : Vec F S3x1x512x512 .f32) :
    out0_B_5 c i arg2 harg2 arg3 harg3 arg4 harg4 arg5 harg5 arg6 harg6 arg7 harg7 arg8 harg8 arg9 harg9 arg10 harg10 arg11 harg11 hc0 x0 x1 x2 = k0_pay3 (k0_pay12 (slab0 x1) (slab1 x1) (slab2 x1) x0) (slab1 x2) := by
  unfold out0_B_5
  rw [View.read_writes_eq_canon _ _ _ (cover0_B_5 c i arg2 harg2 arg3 harg3 arg4 harg4 arg5 harg5 arg6 harg6 arg7 harg7 arg8 harg8 arg9 harg9 arg10 harg10 arg11 harg11 hc0 x0 x1 x2)]
  unfold kernelRun0_B
  dsimp only
  sl_unfold_words
  rw [View.canon_unit_zero hz4]
  simp only [View.readAt_eq_ld, harg2.read_unread, harg3.read_unread, harg4.read_unread, View.ld_unit_zero (S := S1x1x512x512) hz4]

/-- What case B leaves in output buffer 6, as the payload of its one covering store. -/
theorem out_B_6 (c : Dev nD) (i : grid0.Coords) (arg2 : Memref sig .tc .vmem S1x1x512x512 .f32) (harg2 : arg2.IsWhole) (arg3 : Memref sig .tc .vmem S3x1x512x512 .i32) (harg3 : arg3.IsWhole) (arg4 : Memref sig .tc .vmem S3x1x512x512 .f32) (harg4 : arg4.IsWhole) (arg5 : Memref sig .tc .vmem S1x1x512x512 .f32) (harg5 : arg5.IsWhole) (arg6 : Memref sig .tc .vmem S1x1x512x512 .f32) (harg6 : arg6.IsWhole) (arg7 : Memref sig .tc .vmem S1x1x512x512 .f32) (harg7 : arg7.IsWhole) (arg8 : Memref sig .tc .vmem S1x1x512x512 .f32) (harg8 : arg8.IsWhole) (arg9 : Memref sig .tc .vmem S1x512x512 .i32) (harg9 : arg9.IsWhole) (arg10 : Memref sig .tc .vmem S1x512x512 .i32) (harg10 : arg10.IsWhole) (arg11 : Memref sig .tc .vmem S1x512x512 .i32) (harg11 : arg11.IsWhole) (hc0 : ¬cond0_0 i) (x0 : Vec F S1x1x512x512 .f32) (x1 : Vec F S3x1x512x512 .i32) (x2 : Vec F S3x1x512x512 .f32) :
    out0_B_6 c i arg2 harg2 arg3 harg3 arg4 harg4 arg5 harg5 arg6 harg6 arg7 harg7 arg8 harg8 arg9 harg9 arg10 harg10 arg11 harg11 hc0 x0 x1 x2 = k0_pay4 (k0_pay12 (slab0 x1) (slab1 x1) (slab2 x1) x0) (slab2 x2) := by
  unfold out0_B_6
  rw [View.read_writes_eq_canon _ _ _ (cover0_B_6 c i arg2 harg2 arg3 harg3 arg4 harg4 arg5 harg5 arg6 harg6 arg7 harg7 arg8 harg8 arg9 harg9 arg10 harg10 arg11 harg11 hc0 x0 x1 x2)]
  unfold kernelRun0_B
  dsimp only
  sl_unfold_words
  rw [View.canon_unit_zero hz4]
  simp only [View.readAt_eq_ld, harg2.read_unread, harg3.read_unread, harg4.read_unread, View.ld_unit_zero (S := S1x1x512x512) hz4]

/-- What case A leaves in output buffer 7, as the payload of its one covering store. -/
theorem out_A_7 (c : Dev nD) (i : grid0.Coords) (arg2 : Memref sig .tc .vmem S1x1x512x512 .f32) (harg2 : arg2.IsWhole) (arg3 : Memref sig .tc .vmem S3x1x512x512 .i32) (harg3 : arg3.IsWhole) (arg4 : Memref sig .tc .vmem S3x1x512x512 .f32) (harg4 : arg4.IsWhole) (arg5 : Memref sig .tc .vmem S1x1x512x512 .f32) (harg5 : arg5.IsWhole) (arg6 : Memref sig .tc .vmem S1x1x512x512 .f32) (harg6 : arg6.IsWhole) (arg7 : Memref sig .tc .vmem S1x1x512x512 .f32) (harg7 : arg7.IsWhole) (arg8 : Memref sig .tc .vmem S1x1x512x512 .f32) (harg8 : arg8.IsWhole) (arg9 : Memref sig .tc .vmem S1x512x512 .i32) (harg9 : arg9.IsWhole) (arg10 : Memref sig .tc .vmem S1x512x512 .i32) (harg10 : arg10.IsWhole) (arg11 : Memref sig .tc .vmem S1x512x512 .i32) (harg11 : arg11.IsWhole) (hc0 : cond0_0 i) (x0 : Vec F S1x1x512x512 .f32) (x1 : Vec F S3x1x512x512 .i32) (x2 : Vec F S3x1x512x512 .f32) :
    out0_A_7 c i arg2 harg2 arg3 harg3 arg4 harg4 arg5 harg5 arg6 harg6 arg7 harg7 arg8 harg8 arg9 harg9 arg10 harg10 arg11 harg11 hc0 x0 x1 x2 = k0_pay5 (k0_pay8 (F := F) (slab0 x1)) (k0_pay11 (F := F) (slab0 x1) (slab1 x1) (slab2 x1)) := by
  unfold out0_A_7
  rw [View.read_writes_eq_canon _ _ _ (cover0_A_7 c i arg2 harg2 arg3 harg3 arg4 harg4 arg5 harg5 arg6 harg6 arg7 harg7 arg8 harg8 arg9 harg9 arg10 harg10 arg11 harg11 hc0 x0 x1 x2)]
  unfold kernelRun0_A
  dsimp only
  sl_unfold_words
  rw [View.canon_unit_zero hz3]
  simp only [View.readAt_eq_ld, harg2.read_unread, harg3.read_unread, harg4.read_unread, View.ld_unit_zero (S := S1x512x512) hz3]

/-- What case A leaves in output buffer 8, as the payload of its one covering store. -/
theorem out_A_8 (c : Dev nD) (i : grid0.Coords) (arg2 : Memref sig .tc .vmem S1x1x512x512 .f32) (harg2 : arg2.IsWhole) (arg3 : Memref sig .tc .vmem S3x1x512x512 .i32) (harg3 : arg3.IsWhole) (arg4 : Memref sig .tc .vmem S3x1x512x512 .f32) (harg4 : arg4.IsWhole) (arg5 : Memref sig .tc .vmem S1x1x512x512 .f32) (harg5 : arg5.IsWhole) (arg6 : Memref sig .tc .vmem S1x1x512x512 .f32) (harg6 : arg6.IsWhole) (arg7 : Memref sig .tc .vmem S1x1x512x512 .f32) (harg7 : arg7.IsWhole) (arg8 : Memref sig .tc .vmem S1x1x512x512 .f32) (harg8 : arg8.IsWhole) (arg9 : Memref sig .tc .vmem S1x512x512 .i32) (harg9 : arg9.IsWhole) (arg10 : Memref sig .tc .vmem S1x512x512 .i32) (harg10 : arg10.IsWhole) (arg11 : Memref sig .tc .vmem S1x512x512 .i32) (harg11 : arg11.IsWhole) (hc0 : cond0_0 i) (x0 : Vec F S1x1x512x512 .f32) (x1 : Vec F S3x1x512x512 .i32) (x2 : Vec F S3x1x512x512 .f32) :
    out0_A_8 c i arg2 harg2 arg3 harg3 arg4 harg4 arg5 harg5 arg6 harg6 arg7 harg7 arg8 harg8 arg9 harg9 arg10 harg10 arg11 harg11 hc0 x0 x1 x2 = k0_pay6 (k0_pay9 (F := F) (slab1 x1)) (k0_pay11 (F := F) (slab0 x1) (slab1 x1) (slab2 x1)) := by
  unfold out0_A_8
  rw [View.read_writes_eq_canon _ _ _ (cover0_A_8 c i arg2 harg2 arg3 harg3 arg4 harg4 arg5 harg5 arg6 harg6 arg7 harg7 arg8 harg8 arg9 harg9 arg10 harg10 arg11 harg11 hc0 x0 x1 x2)]
  unfold kernelRun0_A
  dsimp only
  sl_unfold_words
  rw [View.canon_unit_zero hz3]
  simp only [View.readAt_eq_ld, harg2.read_unread, harg3.read_unread, harg4.read_unread, View.ld_unit_zero (S := S1x512x512) hz3]

/-- What case A leaves in output buffer 9, as the payload of its one covering store. -/
theorem out_A_9 (c : Dev nD) (i : grid0.Coords) (arg2 : Memref sig .tc .vmem S1x1x512x512 .f32) (harg2 : arg2.IsWhole) (arg3 : Memref sig .tc .vmem S3x1x512x512 .i32) (harg3 : arg3.IsWhole) (arg4 : Memref sig .tc .vmem S3x1x512x512 .f32) (harg4 : arg4.IsWhole) (arg5 : Memref sig .tc .vmem S1x1x512x512 .f32) (harg5 : arg5.IsWhole) (arg6 : Memref sig .tc .vmem S1x1x512x512 .f32) (harg6 : arg6.IsWhole) (arg7 : Memref sig .tc .vmem S1x1x512x512 .f32) (harg7 : arg7.IsWhole) (arg8 : Memref sig .tc .vmem S1x1x512x512 .f32) (harg8 : arg8.IsWhole) (arg9 : Memref sig .tc .vmem S1x512x512 .i32) (harg9 : arg9.IsWhole) (arg10 : Memref sig .tc .vmem S1x512x512 .i32) (harg10 : arg10.IsWhole) (arg11 : Memref sig .tc .vmem S1x512x512 .i32) (harg11 : arg11.IsWhole) (hc0 : cond0_0 i) (x0 : Vec F S1x1x512x512 .f32) (x1 : Vec F S3x1x512x512 .i32) (x2 : Vec F S3x1x512x512 .f32) :
    out0_A_9 c i arg2 harg2 arg3 harg3 arg4 harg4 arg5 harg5 arg6 harg6 arg7 harg7 arg8 harg8 arg9 harg9 arg10 harg10 arg11 harg11 hc0 x0 x1 x2 = k0_pay7 (k0_pay10 (F := F) (slab2 x1)) (k0_pay11 (F := F) (slab0 x1) (slab1 x1) (slab2 x1)) := by
  unfold out0_A_9
  rw [View.read_writes_eq_canon _ _ _ (cover0_A_9 c i arg2 harg2 arg3 harg3 arg4 harg4 arg5 harg5 arg6 harg6 arg7 harg7 arg8 harg8 arg9 harg9 arg10 harg10 arg11 harg11 hc0 x0 x1 x2)]
  unfold kernelRun0_A
  dsimp only
  sl_unfold_words
  rw [View.canon_unit_zero hz3]
  simp only [View.readAt_eq_ld, harg2.read_unread, harg3.read_unread, harg4.read_unread, View.ld_unit_zero (S := S1x512x512) hz3]

end Cert.KernelIdeal.HandValue
-- ==== Proof.KernelIdealValuePay.lean ====
/-
  THE BODY'S STORED BLOCKS READ AT AN INDEX, AT THE IDEAL INSTANCE, AS POINTWISE FUNCTIONS OF THE LOADED SLABS.

  For a pixel (h, w) of the point's 512 x 512 tile, with segmentation value a, vertex ids i0, i1, i2 and weights y:
  the pixel is valid when 0 ≤ j < 6890 (signed) for each of its three ids (validBit); its effective mask is the
  conjunction of "a is above the threshold" and validity, as the number 0 or 1 (maskE); the three weighted outputs
  are the mask times each weight (wgtE); the three index outputs are each id where the pixel is valid, else zero
  (idxSel). The payload definitions of the body are these functions of the loaded [1, 1, 512, 512] slabs, read
  through the layout changes between [512, 512] and its forms with leading unit axes.
-/
import proofs.«153110_j51737176048098_1_alg».proof.Proof.Gen.KernelIdeal.Skeleton
import Idealize.ShloMosaic.Lib.Pipeline.Value
import Idealize.ShloMosaic.Lib.ValueIdx

set_option maxRecDepth 16384

noncomputable section

namespace Cert.KernelIdeal.HandValue

open Idealize.ShloMosaic Idealize.ShloMosaic.ValueIdx
open Cert.KernelIdeal Cert.KernelIdeal.Gen

/-! ## The pointwise functions, over scalars -/

/-- The three vertex ids of a pixel are all in range: the six signed tests 0 ≤ j and j < 6890, conjoined from the
    left in the order id 0, id 1, id 2. -/
def validBit (i0 i1 i2 : BitVec 32) : BitVec 1 :=
  IntOp.andi (IntOp.andi (IntOp.andi (IntOp.andi (IntOp.andi
    (IntOp.cmpi .sge i0 0#32) (IntOp.cmpi .slt i0 6890#32))
    (IntOp.cmpi .sge i1 0#32)) (IntOp.cmpi .slt i1 6890#32))
    (IntOp.cmpi .sge i2 0#32)) (IntOp.cmpi .slt i2 6890#32)

/-- The effective mask of a pixel as a number: the bit (segmentation value above the threshold, and the pixel
    valid) widened to a word and converted as a signed integer. -/
def maskE (a : EReal) (i0 i1 i2 : BitVec 32) : EReal :=
  FloatOps.sitofp (F := Ideal) .f32
    ((IntOp.andi (FloatOps.cmpf (F := Ideal) .ogt a (Ideal.ofBits .f32 0x3E99999A#32)) (validBit i0 i1 i2)).setWidth 32)

/-- The weighted update of a pixel: its effective mask times a weight, in this order. -/
def wgtE (a : EReal) (i0 i1 i2 : BitVec 32) (y : EReal) : EReal := maskE a i0 i1 i2 * y

/-- The index a pixel scatters to for one coordinate: that coordinate's id where the pixel is valid, else zero. -/
def idxSel (i0 i1 i2 ik : BitVec 32) : BitVec 32 := Scalar.select (validBit i0 i1 i2) ik 0#32

/-! ## The layout changes between [512, 512] and its forms with leading unit axes, read at an index -/

/-- A [1, 1, 512, 512] array viewed as [512, 512] reads (h, w) at (0, 0, h, w). -/
theorem sc_drop4 {α : Type} (v : S1x1x512x512.Idx → α) (hc : S1x1x512x512.ShapeCasts S512x512) (h w : Fin 512) :
    shapeCast S512x512 v hc (ix2 h w) = v (ix4 (0 : Fin 1) (0 : Fin 1) h w) :=
  shapeCast_apply v hc _ _ (by
    rw [Shape.rowMajor_val_four, Shape.rowMajor_val_two]
    show ((0 * 1 + 0) * 512 + h.val) * 512 + w.val = h.val * 512 + w.val
    omega)

/-- A [512, 512] array viewed as [1, 1, 512, 512] reads (a, b, h, w) at (h, w). -/
theorem sc_add4 {α : Type} (v : S512x512.Idx → α) (hc : S512x512.ShapeCasts S1x1x512x512) (a b : Fin 1) (h w : Fin 512) :
    shapeCast S1x1x512x512 v hc (ix4 a b h w) = v (ix2 h w) :=
  shapeCast_apply v hc _ _ (by
    rw [Shape.rowMajor_val_four, Shape.rowMajor_val_two]
    show h.val * 512 + w.val = ((a.val * 1 + b.val) * 512 + h.val) * 512 + w.val
    omega)

/-- A [512, 512] array viewed as [1, 512, 512] reads (a, h, w) at (h, w). -/
theorem sc_add3 {α : Type} (v : S512x512.Idx → α) (hc : S512x512.ShapeCasts S1x512x512) (a : Fin 1) (h w : Fin 512) :
    shapeCast S1x512x512 v hc (ix3 a h w) = v (ix2 h w) :=
  shapeCast_apply v hc _ _ (by
    rw [Shape.rowMajor_val_three, Shape.rowMajor_val_two]
    show h.val * 512 + w.val = (a.val * 512 + h.val) * 512 + w.val
    omega)

/-! ## The body's payloads read at an index, at the ideal instance -/

/-- The validity bit of the body at pixel (h, w) is validBit of the three ids there. -/
theorem pay11_apply (v0 v2 v4 : Vec Ideal S1x1x512x512 .i32) (h w : Fin 512) :
    k0_pay11 (F := Ideal) v0 v2 v4 (ix2 h w)
      = validBit (v0 (ix4 (0 : Fin 1) (0 : Fin 1) h w)) (v2 (ix4 (0 : Fin 1) (0 : Fin 1) h w))
          (v4 (ix4 (0 : Fin 1) (0 : Fin 1) h w)) := by
  have e0 := sc_drop4 v0 shapeCasts_S1x1x512x512_S512x512 h w
  have e2 := sc_drop4 v2 shapeCasts_S1x1x512x512_S512x512 h w
  have e4 := sc_drop4 v4 shapeCasts_S1x1x512x512_S512x512 h w
  unfold validBit
  rw [← e0, ← e2, ← e4]
  rfl

/-- The effective mask of the body at pixel (h, w) is maskE of the segmentation value and the three ids there. -/
theorem pay12_apply (v0 v2 v4 : Vec Ideal S1x1x512x512 .i32) (v23 : Vec Ideal S1x1x512x512 .f32) (h w : Fin 512) :
    k0_pay12 (F := Ideal) v0 v2 v4 v23 (ix2 h w)
      = maskE (v23 (ix4 (0 : Fin 1) (0 : Fin 1) h w)) (v0 (ix4 (0 : Fin 1) (0 : Fin 1) h w))
          (v2 (ix4 (0 : Fin 1) (0 : Fin 1) h w)) (v4 (ix4 (0 : Fin 1) (0 : Fin 1) h w)) := by
  have e := sc_drop4 v23 shapeCasts_S1x1x512x512_S512x512 h w
  have e11 := pay11_apply v0 v2 v4 h w
  unfold maskE
  rw [← e, ← e11]
  rfl

/-- The mask store's payload at (a, b, h, w) is the mask at pixel (h, w). -/
theorem pay1_apply (v29 : FVec Ideal S512x512 .f32) (a b : Fin 1) (h w : Fin 512) :
    k0_pay1 (F := Ideal) v29 (ix4 a b h w) = v29 (ix2 h w) :=
  sc_add4 v29 shapeCasts_S512x512_S1x1x512x512 a b h w

/-- The first weighted store's payload at (a, b, h, w): the mask at pixel (h, w) times the weight slab there. -/
theorem pay2_apply (v29 : FVec Ideal S512x512 .f32) (v30 : Vec Ideal S1x1x512x512 .f32) (a b : Fin 1) (h w : Fin 512) :
    k0_pay2 (F := Ideal) v29 v30 (ix4 a b h w) = v29 (ix2 h w) * v30 (ix4 (0 : Fin 1) (0 : Fin 1) h w) := by
  have e := sc_drop4 v30 shapeCasts_S1x1x512x512_S512x512 h w
  rw [← e]
  exact sc_add4 (mulf v29 (shapeCast S512x512 v30 shapeCasts_S1x1x512x512_S512x512)) shapeCasts_S512x512_S1x1x512x512 a b h w

/-- The second weighted store's payload at (a, b, h, w). -/
theorem pay3_apply (v29 : FVec Ideal S512x512 .f32) (v32 : Vec Ideal S1x1x512x512 .f32) (a b : Fin 1) (h w : Fin 512) :
    k0_pay3 (F := Ideal) v29 v32 (ix4 a b h w) = v29 (ix2 h w) * v32 (ix4 (0 : Fin 1) (0 : Fin 1) h w) := by
  have e := sc_drop4 v32 shapeCasts_S1x1x512x512_S512x512 h w
  rw [← e]
  exact sc_add4 (mulf v29 (shapeCast S512x512 v32 shapeCasts_S1x1x512x512_S512x512)) shapeCasts_S512x512_S1x1x512x512 a b h w

/-- The third weighted store's payload at (a, b, h, w). -/
theorem pay4_apply (v29 : FVec Ideal S512x512 .f32) (v34 : Vec Ideal S1x1x512x512 .f32) (a b : Fin 1) (h w : Fin 512) :
    k0_pay4 (F := Ideal) v29 v34 (ix4 a b h w) = v29 (ix2 h w) * v34 (ix4 (0 : Fin 1) (0 : Fin 1) h w) := by
  have e := sc_drop4 v34 shapeCasts_S1x1x512x512_S512x512 h w
  rw [← e]
  exact sc_add4 (mulf v29 (shapeCast S512x512 v34 shapeCasts_S1x1x512x512_S512x512)) shapeCasts_S512x512_S1x1x512x512 a b h w

/-- The first index store's payload at (a, h, w): the id where the validity bit is set, else zero. -/
theorem pay5_apply (v1 : IVec S512x512 32) (v22 : IVec S512x512 1) (a : Fin 1) (h w : Fin 512) :
    k0_pay5 v1 v22 (ix3 a h w) = Scalar.select (v22 (ix2 h w)) (v1 (ix2 h w)) 0#32 :=
  sc_add3 (select v22 v1 (broadcast S512x512 0#32)) shapeCasts_S512x512_S1x512x512 a h w

/-- The second index store's payload at (a, h, w). -/
theorem pay6_apply (v3 : IVec S512x512 32) (v22 : IVec S512x512 1) (a : Fin 1) (h w : Fin 512) :
    k0_pay6 v3 v22 (ix3 a h w) = Scalar.select (v22 (ix2 h w)) (v3 (ix2 h w)) 0#32 :=
  sc_add3 (select v22 v3 (broadcast S512x512 0#32)) shapeCasts_S512x512_S1x512x512 a h w

/-- The third index store's payload at (a, h, w). -/
theorem pay7_apply (v5 : IVec S512x512 32) (v22 : IVec S512x512 1) (a : Fin 1) (h w : Fin 512) :
    k0_pay7 v5 v22 (ix3 a h w) = Scalar.select (v22 (ix2 h w)) (v5 (ix2 h w)) 0#32 :=
  sc_add3 (select v22 v5 (broadcast S512x512 0#32)) shapeCasts_S512x512_S1x512x512 a h w

/-- An index slab viewed as [512, 512] reads (h, w) at (0, 0, h, w). -/
theorem pay8_apply (v0 : Vec Ideal S1x1x512x512 .i32) (h w : Fin 512) :
    k0_pay8 (F := Ideal) v0 (ix2 h w) = v0 (ix4 (0 : Fin 1) (0 : Fin 1) h w) :=
  sc_drop4 v0 shapeCasts_S1x1x512x512_S512x512 h w
/-- The same for the second index slab. -/
theorem pay9_apply (v2 : Vec Ideal S1x1x512x512 .i32) (h w : Fin 512) :
    k0_pay9 (F := Ideal) v2 (ix2 h w) = v2 (ix4 (0 : Fin 1) (0 : Fin 1) h w) :=
  sc_drop4 v2 shapeCasts_S1x1x512x512_S512x512 h w
/-- The same for the third index slab. -/
theorem pay10_apply (v4 : Vec Ideal S1x1x512x512 .i32) (h w : Fin 512) :
    k0_pay10 (F := Ideal) v4 (ix2 h w) = v4 (ix4 (0 : Fin 1) (0 : Fin 1) h w) :=
  sc_drop4 v4 shapeCasts_S1x1x512x512_S512x512 h w

/-! ## The stored blocks at an index of the block, as the pointwise functions of the loaded slabs -/

/-- Every index of a [1, 1, 512, 512] block is (a, b, h, w). -/
theorem exists_ix4_block (y : S1x1x512x512.Idx) : ∃ (a b : Fin 1) (h w : Fin 512), y = ix4 a b h w :=
  ⟨y 0, y 1, y 2, y 3, eq_ix4 y⟩
/-- Every index of a [1, 512, 512] block is (a, h, w). -/
theorem exists_ix3_block (y : S1x512x512.Idx) : ∃ (a : Fin 1) (h w : Fin 512), y = ix3 a h w :=
  ⟨y 0, y 1, y 2, eq_ix3 y⟩

/-- The mask block at an index: maskE of the segmentation value and the three ids of its pixel. -/
theorem mask_at (v0 v2 v4 : Vec Ideal S1x1x512x512 .i32) (v23 : Vec Ideal S1x1x512x512 .f32) (y : S1x1x512x512.Idx) :
    k0_pay1 (F := Ideal) (k0_pay12 (F := Ideal) v0 v2 v4 v23) y
      = maskE (v23 (ix4 (0 : Fin 1) (0 : Fin 1) (y 2) (y 3))) (v0 (ix4 (0 : Fin 1) (0 : Fin 1) (y 2) (y 3)))
          (v2 (ix4 (0 : Fin 1) (0 : Fin 1) (y 2) (y 3))) (v4 (ix4 (0 : Fin 1) (0 : Fin 1) (y 2) (y 3))) := by
  obtain ⟨a, b, h, w, rfl⟩ := exists_ix4_block y
  exact (pay1_apply _ a b h w).trans (pay12_apply v0 v2 v4 v23 h w)

/-- The first weighted block at an index: wgtE of the same and the weight of its pixel. -/
theorem wgt0_at (v0 v2 v4 : Vec Ideal S1x1x512x512 .i32) (v23 v30 : Vec Ideal S1x1x512x512 .f32) (y : S1x1x512x512.Idx) :
    k0_pay2 (F := Ideal) (k0_pay12 (F := Ideal) v0 v2 v4 v23) v30 y
      = wgtE (v23 (ix4 (0 : Fin 1) (0 : Fin 1) (y 2) (y 3))) (v0 (ix4 (0 : Fin 1) (0 : Fin 1) (y 2) (y 3)))
          (v2 (ix4 (0 : Fin 1) (0 : Fin 1) (y 2) (y 3))) (v4 (ix4 (0 : Fin 1) (0 : Fin 1) (y 2) (y 3)))
          (v30 (ix4 (0 : Fin 1) (0 : Fin 1) (y 2) (y 3))) := by
  obtain ⟨a, b, h, w, rfl⟩ := exists_ix4_block y
  exact (pay2_apply _ v30 a b h w).trans
    (congrArg (· * v30 (ix4 (0 : Fin 1) (0 : Fin 1) h w)) (pay12_apply v0 v2 v4 v23 h w))

/-- The second weighted block at an index. -/
theorem wgt1_at (v0 v2 v4 : Vec Ideal S1x1x512x512 .i32) (v23 v32 : Vec Ideal S1x1x512x512 .f32) (y : S1x1x512x512.Idx) :
    k0_pay3 (F := Ideal) (k0_pay12 (F := Ideal) v0 v2 v4 v23) v32 y
      = wgtE (v23 (ix4 (0 : Fin 1) (0 : Fin 1) (y 2) (y 3))) (v0 (ix4 (0 : Fin 1) (0 : Fin 1) (y 2) (y 3)))
          (v2 (ix4 (0 : Fin 1) (0 : Fin 1) (y 2) (y 3))) (v4 (ix4 (0 : Fin 1) (0 : Fin 1) (y 2) (y 3)))
          (v32 (ix4 (0 : Fin 1) (0 : Fin 1) (y 2) (y 3))) := by
  obtain ⟨a, b, h, w, rfl⟩ := exists_ix4_block y
  exact (pay3_apply _ v32 a b h w).trans
    (congrArg (· * v32 (ix4 (0 : Fin 1) (0 : Fin 1) h w)) (pay12_apply v0 v2 v4 v23 h w))

/-- The third weighted block at an index. -/
theorem wgt2_at (v0 v2 v4 : Vec Ideal S1x1x512x512 .i32) (v23 v34 : Vec Ideal S1x1x512x512 .f32) (y : S1x1x512x512.Idx) :
    k0_pay4 (F := Ideal) (k0_pay12 (F := Ideal) v0 v2 v4 v23) v34 y
      = wgtE (v23 (ix4 (0 : Fin 1) (0 : Fin 1) (y 2) (y 3))) (v0 (ix4 (0 : Fin 1) (0 : Fin 1) (y 2) (y 3)))
          (v2 (ix4 (0 : Fin 1) (0 : Fin 1) (y 2) (y 3))) (v4 (ix4 (0 : Fin 1) (0 : Fin 1) (y 2) (y 3)))
          (v34 (ix4 (0 : Fin 1) (0 : Fin 1) (y 2) (y 3))) := by
  obtain ⟨a, b, h, w, rfl⟩ := exists_ix4_block y
  exact (pay4_apply _ v34 a b h w).trans
    (congrArg (· * v34 (ix4 (0 : Fin 1) (0 : Fin 1) h w)) (pay12_apply v0 v2 v4 v23 h w))

/-- The first index block at an index: idxSel of the three ids of its pixel and the first of them. -/
theorem idx0_at (v0 v2 v4 : Vec Ideal S1x1x512x512 .i32) (y : S1x512x512.Idx) :
    k0_pay5 (k0_pay8 (F := Ideal) v0) (k0_pay11 (F := Ideal) v0 v2 v4) y
      = idxSel (v0 (ix4 (0 : Fin 1) (0 : Fin 1) (y 1) (y 2))) (v2 (ix4 (0 : Fin 1) (0 : Fin 1) (y 1) (y 2)))
          (v4 (ix4 (0 : Fin 1) (0 : Fin 1) (y 1) (y 2))) (v0 (ix4 (0 : Fin 1) (0 : Fin 1) (y 1) (y 2))) := by
  obtain ⟨a, h, w, rfl⟩ := exists_ix3_block y
  refine (pay5_apply _ _ a h w).trans ?_
  rw [pay11_apply v0 v2 v4 h w, pay8_apply v0 h w]
  rfl

/-- The second index block at an index. -/
theorem idx1_at (v0 v2 v4 : Vec Ideal S1x1x512x512 .i32) (y : S1x512x512.Idx) :
    k0_pay6 (k0_pay9 (F := Ideal) v2) (k0_pay11 (F := Ideal) v0 v2 v4) y
      = idxSel (v0 (ix4 (0 : Fin 1) (0 : Fin 1) (y 1) (y 2))) (v2 (ix4 (0 : Fin 1) (0 : Fin 1) (y 1) (y 2)))
          (v4 (ix4 (0 : Fin 1) (0 : Fin 1) (y 1) (y 2))) (v2 (ix4 (0 : Fin 1) (0 : Fin 1) (y 1) (y 2))) := by
  obtain ⟨a, h, w, rfl⟩ := exists_ix3_block y
  refine (pay6_apply _ _ a h w).trans ?_
  rw [pay11_apply v0 v2 v4 h w, pay9_apply v2 h w]
  rfl

/-- The third index block at an index. -/
theorem idx2_at (v0 v2 v4 : Vec Ideal S1x1x512x512 .i32) (y : S1x512x512.Idx) :
    k0_pay7 (k0_pay10 (F := Ideal) v4) (k0_pay11 (F := Ideal) v0 v2 v4) y
      = idxSel (v0 (ix4 (0 : Fin 1) (0 : Fin 1) (y 1) (y 2))) (v2 (ix4 (0 : Fin 1) (0 : Fin 1) (y 1) (y 2)))
          (v4 (ix4 (0 : Fin 1) (0 : Fin 1) (y 1) (y 2))) (v4 (ix4 (0 : Fin 1) (0 : Fin 1) (y 1) (y 2))) := by
  obtain ⟨a, h, w, rfl⟩ := exists_ix3_block y
  refine (pay7_apply _ _ a h w).trans ?_
  rw [pay11_apply v0 v2 v4 h w, pay10_apply v4 h w]
  rfl

end Cert.KernelIdeal.HandValue

end
-- ==== Proof.KernelIdealValueCore.lean ====
/-
  THE OUTPUT ARRAYS OF THE REGION AS WHOLE-ARRAY FUNCTIONS OF THE THREE STAGED ARRAYS, AT THE IDEAL INSTANCE.

  G3 is the effective mask of every (batch, view, row, column); GW k the mask times the weight of coordinate k;
  GI k the vertex id of coordinate k where the pixel is valid, else zero. Also the three slabs of a block of
  three read at an index.
-/
import proofs.«153110_j51737176048098_1_alg».proof.Proof.KernelIdealValuePieces
import proofs.«153110_j51737176048098_1_alg».proof.Proof.KernelIdealValuePay

set_option maxRecDepth 16384

noncomputable section

namespace Cert.KernelIdeal.HandValue

open Idealize.ShloMosaic Idealize.ShloMosaic.TcCoe Idealize.ShloMosaic.Tactic
open Idealize.SL Idealize.SL.Sem
open Idealize.ShloMosaic.Pipeline (Dat)
open Idealize.ShloMosaic.ValueIdx
open Cert.KernelIdeal Cert.KernelIdeal.Gen Cert.KernelIdeal.Hand

variable {F : FTy → Type} [FloatOps F]

/-! ## The slabs of a block of three, read at an index -/

theorem slab0_apply {e : EltTy} (x : Vec Ideal S3x1x512x512 e) (a b : Fin 1) (h w : Fin 512) :
    slab0 x (ix4 a b h w) = x (ix4 (0 : Fin 3) b h w) := by
  show x _ = x _
  congr 1
  funext d; refine Fin.ext ?_
  match d with
  | ⟨0, _⟩ => show 0 + 1 * a.val = 0; omega
  | ⟨1, _⟩ => show 0 + 1 * b.val = b.val; omega
  | ⟨2, _⟩ => show 0 + 1 * h.val = h.val; omega
  | ⟨3, _⟩ => show 0 + 1 * w.val = w.val; omega
theorem slab1_apply {e : EltTy} (x : Vec Ideal S3x1x512x512 e) (a b : Fin 1) (h w : Fin 512) :
    slab1 x (ix4 a b h w) = x (ix4 (1 : Fin 3) b h w) := by
  show x _ = x _
  congr 1
  funext d; refine Fin.ext ?_
  match d with
  | ⟨0, _⟩ => show 1 + 1 * a.val = 1; omega
  | ⟨1, _⟩ => show 0 + 1 * b.val = b.val; omega
  | ⟨2, _⟩ => show 0 + 1 * h.val = h.val; omega
  | ⟨3, _⟩ => show 0 + 1 * w.val = w.val; omega
theorem slab2_apply {e : EltTy} (x : Vec Ideal S3x1x512x512 e) (a b : Fin 1) (h w : Fin 512) :
    slab2 x (ix4 a b h w) = x (ix4 (2 : Fin 3) b h w) := by
  show x _ = x _
  congr 1
  funext d; refine Fin.ext ?_
  match d with
  | ⟨0, _⟩ => show 2 + 1 * a.val = 2; omega
  | ⟨1, _⟩ => show 0 + 1 * b.val = b.val; omega
  | ⟨2, _⟩ => show 0 + 1 * h.val = h.val; omega
  | ⟨3, _⟩ => show 0 + 1 * w.val = w.val; omega

/-! ## The whole-array functions

The three staged arrays are the segmentation maps A0 : [8, 4, 512, 512], the vertex ids Ai : [3, 4, 512, 512] and the
weights Ab : [3, 4, 512, 512] (the coordinate axis of extent three leading). Each output array is one pointwise
function of them, index by index. -/

/-- The mask array: the effective mask of every (batch, view, row, column). -/
def G3 (A0 : S8x4x512x512.Idx → EReal) (Ai : S3x4x512x512.Idx → BitVec 32) : S8x4x512x512.Idx → EReal := fun j =>
  maskE (A0 j) (Ai (ix4 (n0 := 3) (n1 := 4) (n2 := 512) (n3 := 512) 0 (j 1) (j 2) (j 3))) (Ai (ix4 (n0 := 3) (n1 := 4) (n2 := 512) (n3 := 512) 1 (j 1) (j 2) (j 3))) (Ai (ix4 (n0 := 3) (n1 := 4) (n2 := 512) (n3 := 512) 2 (j 1) (j 2) (j 3)))

/-- The weighted array of coordinate k: the effective mask times the weight of coordinate k. -/
def GW (k : Fin 3) (A0 : S8x4x512x512.Idx → EReal) (Ai : S3x4x512x512.Idx → BitVec 32) (Ab : S3x4x512x512.Idx → EReal) :
    S8x4x512x512.Idx → EReal := fun j =>
  wgtE (A0 j) (Ai (ix4 (n0 := 3) (n1 := 4) (n2 := 512) (n3 := 512) 0 (j 1) (j 2) (j 3))) (Ai (ix4 (n0 := 3) (n1 := 4) (n2 := 512) (n3 := 512) 1 (j 1) (j 2) (j 3))) (Ai (ix4 (n0 := 3) (n1 := 4) (n2 := 512) (n3 := 512) 2 (j 1) (j 2) (j 3)))
    (Ab (ix4 (n0 := 3) (n1 := 4) (n2 := 512) (n3 := 512) k (j 1) (j 2) (j 3)))

/-- The index array of coordinate k: the id of coordinate k where the pixel is valid, else zero. -/
def GI (k : Fin 3) (Ai : S3x4x512x512.Idx → BitVec 32) : S4x512x512.Idx → BitVec 32 := fun j =>
  idxSel (Ai (ix4 (n0 := 3) (n1 := 4) (n2 := 512) (n3 := 512) 0 (j 0) (j 1) (j 2))) (Ai (ix4 (n0 := 3) (n1 := 4) (n2 := 512) (n3 := 512) 1 (j 0) (j 1) (j 2))) (Ai (ix4 (n0 := 3) (n1 := 4) (n2 := 512) (n3 := 512) 2 (j 0) (j 1) (j 2)))
    (Ai (ix4 (n0 := 3) (n1 := 4) (n2 := 512) (n3 := 512) k (j 0) (j 1) (j 2)))

/-- The mask array at (b, v, h, w). -/
theorem G3_apply (A0 : S8x4x512x512.Idx → EReal) (Ai : S3x4x512x512.Idx → BitVec 32) (b : Fin 8) (v : Fin 4) (h w : Fin 512) :
    G3 A0 Ai (ix4 b v h w)
      = maskE (A0 (ix4 b v h w)) (Ai (ix4 (0 : Fin 3) v h w)) (Ai (ix4 (1 : Fin 3) v h w)) (Ai (ix4 (2 : Fin 3) v h w)) := rfl

/-- The weighted array of coordinate k at (b, v, h, w). -/
theorem GW_apply (k : Fin 3) (A0 : S8x4x512x512.Idx → EReal) (Ai : S3x4x512x512.Idx → BitVec 32) (Ab : S3x4x512x512.Idx → EReal)
    (b : Fin 8) (v : Fin 4) (h w : Fin 512) :
    GW k A0 Ai Ab (ix4 b v h w)
      = wgtE (A0 (ix4 b v h w)) (Ai (ix4 (0 : Fin 3) v h w)) (Ai (ix4 (1 : Fin 3) v h w)) (Ai (ix4 (2 : Fin 3) v h w))
          (Ab (ix4 k v h w)) := rfl

/-- The index array of coordinate k at (v, h, w). -/
theorem GI_apply (k : Fin 3) (Ai : S3x4x512x512.Idx → BitVec 32) (v : Fin 4) (h w : Fin 512) :
    GI k Ai (ix3 v h w)
      = idxSel (Ai (ix4 (0 : Fin 3) v h w)) (Ai (ix4 (1 : Fin 3) v h w)) (Ai (ix4 (2 : Fin 3) v h w)) (Ai (ix4 k v h w)) := rfl

end Cert.KernelIdeal.HandValue

end
-- ==== Proof.KernelIdealArrays.lean ====
import proofs.«153110_j51737176048098_1_alg».proof.Proof.KernelIdealTailDefs
import proofs.«153110_j51737176048098_1_alg».proof.Proof.KernelIdealHost
import proofs.«153110_j51737176048098_1_alg».proof.Proof.KernelIdealValueCore
import proofs.«153110_j51737176048098_1_alg».proof.Proof.Spec
import Idealize.ShloMosaic.Lib.StableHlo.Run
import Idealize.ShloMosaic.Lib.Pipeline.Value
import Idealize.ShloMosaic.Lib.ValueIdx

set_option maxRecDepth 16384

noncomputable section

namespace Cert.KernelIdeal.HandTail

open Idealize.ShloMosaic Idealize.ShloMosaic.TcCoe Idealize.SL.Sem Idealize.ShloMosaic.StableHlo Idealize.ShloMosaic.ValueIdx
open Cert.KernelIdeal Cert.KernelIdeal.Gen Cert.KernelIdeal.Hand Cert.KernelIdeal.HandValue

variable (m : (ℓ : Loc nD τ sig) → Buf (Elt Ideal) ℓ)

/-! ## The arrays the region wrote, flattened, are the scatter's operands over pixels

The two maps reach the region transposed, coordinate axis first: entry (k, v, h, w) of the transposed map is entry
(v, h, w, k) of the argument. Flattening (v, h, w) to the pixel p = (v·512 + h)·512 + w turns the clamped index
arrays into the index column of coordinate k, the weighted arrays into the weighted updates of coordinate k, and the
mask array into the count updates. -/

theorem V_main_v0 (c : Dev nD) : (V m c main_v0 : S3x4x512x512.Idx → BitVec 32)
    = transpose S3x4x512x512 [3, 0, 1, 2] (m ((c.tc : Thread nD τ).loc main_arg1)) transposes_S4x512x512x3_S3x4x512x512_3_0_1_2 := by
  dsimp only [V, V0]
  simp only [hostOps0, List.flatten_cons, List.flatten_nil, List.append_nil, List.cons_append, List.nil_append]
  after_results

theorem V_main_v1 (c : Dev nD) : (V m c main_v1 : S3x4x512x512.Idx → EReal)
    = transpose S3x4x512x512 [3, 0, 1, 2] (m ((c.tc : Thread nD τ).loc main_arg2)) transposes_S4x512x512x3_S3x4x512x512_3_0_1_2 := by
  dsimp only [V, V0]
  simp only [hostOps0, List.flatten_cons, List.flatten_nil, List.append_nil, List.cons_append, List.nil_append]
  after_results

theorem V_main_v0_apply (c : Dev nD) (k : Fin 3) (v : Fin 4) (h w : Fin 512) :
    (V m c main_v0 : S3x4x512x512.Idx → BitVec 32) (ix4 k v h w) = (m ((c.tc : Thread nD τ).loc main_arg1) : S4x512x512x3.Idx → BitVec 32) (ix4 v h w k) := by
  rw [V_main_v0]
  exact transpose_apply _ _ _ (ix4 k v h w) (ix4 v h w k) (fun b => by
    match b with
    | ⟨0, _⟩ => rfl
    | ⟨1, _⟩ => rfl
    | ⟨2, _⟩ => rfl
    | ⟨3, _⟩ => rfl)

theorem V_main_v1_apply (c : Dev nD) (k : Fin 3) (v : Fin 4) (h w : Fin 512) :
    (V m c main_v1 : S3x4x512x512.Idx → EReal) (ix4 k v h w) = (m ((c.tc : Thread nD τ).loc main_arg2) : S4x512x512x3.Idx → EReal) (ix4 v h w k) := by
  rw [V_main_v1]
  exact transpose_apply _ _ _ (ix4 k v h w) (ix4 v h w k) (fun b => by
    match b with
    | ⟨0, _⟩ => rfl
    | ⟨1, _⟩ => rfl
    | ⟨2, _⟩ => rfl
    | ⟨3, _⟩ => rfl)

/-- The (view, row, column) of a pixel. -/
abbrev pix3 (p : Fin 1048576) : S4x512x512.Idx :=
  ix3 (⟨p.val / 262144, by have := p.isLt; omega⟩ : Fin 4) (⟨p.val / 512 % 512, by omega⟩ : Fin 512) (⟨p.val % 512, by omega⟩ : Fin 512)

theorem flatIdx_apply (a : IVec S4x512x512 32) (p : Fin 1048576) :
    shapeCast S1048576 a shapeCasts_S4x512x512_S1048576 (ix1 p) = a (pix3 p) :=
  shapeCast_apply a _ (ix1 p) (pix3 p) (by
    rw [Shape.rowMajor_val_three, Shape.rowMajor_val_one]
    show ((p.val / 262144) * 512 + p.val / 512 % 512) * 512 + p.val % 512 = p.val
    omega)

theorem flat_apply (u : FVec Ideal S8x4x512x512 .f32) (b : Fin 8) (p : Fin 1048576) :
    flat u (ix2 b p) = u (Cert.Spec.pixB b p) :=
  shapeCast_apply u _ (ix2 b p) (Cert.Spec.pixB b p) (by
    rw [Shape.rowMajor_val_four, Shape.rowMajor_val_two]
    show (((b.val * 4 + p.val / 262144) * 512 + p.val / 512 % 512) * 512 + p.val % 512 : ℕ) = b.val * 1048576 + p.val
    omega)

theorem wrapIdx_apply (a : IVec S4x512x512 32) (p : Fin 1048576) (z : Fin 1) :
    wrapIdx a (ix2 p z) = Scalar.select (IntOp.cmpi .slt (a (pix3 p)) 0#32) (IntOp.addi (a (pix3 p)) 6890#32) (a (pix3 p)) := by
  unfold wrapIdx
  rw [broadcastInDim_apply (![0] : Fin 1 → Fin 2) bcast_S1048576_S1048576x1_0 _ (ix2 p z) (ix1 p) (fun a => by
    match a with
    | ⟨0, _⟩ => rfl)]
  show Scalar.select (IntOp.cmpi .slt (shapeCast S1048576 a shapeCasts_S4x512x512_S1048576 (ix1 p)) 0#32)
    (IntOp.addi (shapeCast S1048576 a shapeCasts_S4x512x512_S1048576 (ix1 p)) 6890#32)
    (shapeCast S1048576 a shapeCasts_S4x512x512_S1048576 (ix1 p)) = _
  rw [flatIdx_apply]

/-- The clamped index array of coordinate k, as the column a scatter reads, is the specification's. -/
theorem wrapIdx_GI (c : Dev nD) (k : Fin 3) :
    wrapIdx (GI k (V m c main_v0)) = Cert.Spec.specIdx (m ((c.tc : Thread nD τ).loc main_arg1)) k := by
  funext i
  obtain ⟨p, z, rfl⟩ : ∃ (p : Fin 1048576) (z : Fin 1), i = ix2 p z := ⟨i 0, i 1, eq_ix2 i⟩
  rw [Cert.Spec.specIdx_apply, wrapIdx_apply, GI_apply, V_main_v0_apply, V_main_v0_apply, V_main_v0_apply, V_main_v0_apply]
  unfold idxSel validBit Cert.Spec.idxAt
  rw [Cert.Spec.valid_eq_chain]

/-- The weighted array of coordinate k, flattened, is the specification's weighted updates. -/
theorem flat_GW (c : Dev nD) (k : Fin 3) :
    flat (GW k (V m c main_arg0) (V m c main_v0) (V m c main_v1))
      = Cert.Spec.specW (m ((c.tc : Thread nD τ).loc main_arg0)) (m ((c.tc : Thread nD τ).loc main_arg1)) (m ((c.tc : Thread nD τ).loc main_arg2)) k := by
  funext i
  obtain ⟨b, p, rfl⟩ : ∃ (b : Fin 8) (p : Fin 1048576), i = ix2 b p := ⟨i 0, i 1, eq_ix2 i⟩
  rw [Cert.Spec.specW_apply, flat_apply, GW_apply, V_main_v0_apply, V_main_v0_apply, V_main_v0_apply, V_main_v1_apply, V_main_arg0]
  unfold wgtE maskE validBit
  rw [Cert.Spec.valid_eq_chain, ← Cert.Spec.eff_eq_sitofp]
  rfl

/-- The mask array, flattened, is the specification's count updates. -/
theorem flat_G3 (c : Dev nD) :
    flat (G3 (V m c main_arg0) (V m c main_v0))
      = Cert.Spec.specE (m ((c.tc : Thread nD τ).loc main_arg0)) (m ((c.tc : Thread nD τ).loc main_arg1)) := by
  funext i
  obtain ⟨b, p, rfl⟩ : ∃ (b : Fin 8) (p : Fin 1048576), i = ix2 b p := ⟨i 0, i 1, eq_ix2 i⟩
  rw [Cert.Spec.specE_apply, flat_apply, G3_apply, V_main_v0_apply, V_main_v0_apply, V_main_v0_apply, V_main_arg0]
  unfold maskE validBit
  rw [Cert.Spec.valid_eq_chain, ← Cert.Spec.eff_eq_sitofp]
  rfl

end Cert.KernelIdeal.HandTail

end
-- ==== Proof.KernelIdealValueMask.lean ====
/-
  THE MASK ARRAY AFTER THE REGION: THE EFFECTIVE MASK OF EVERY (BATCH, VIEW, ROW, COLUMN).

  Both cases of the body leave the same function of the point's input blocks in the mask buffer; every point writes
  its block back, the point t = 8 v + b to block (b, v); these blocks tile the array, which therefore ends holding G3
  of the three staged arrays, index by index.
-/
import proofs.«153110_j51737176048098_1_alg».proof.Proof.KernelIdealValueCore

set_option maxRecDepth 16384

noncomputable section

namespace Cert.KernelIdeal.HandValue

open Idealize.ShloMosaic Idealize.ShloMosaic.TcCoe Idealize.ShloMosaic.Tactic
open Idealize.SL Idealize.SL.Sem
open Idealize.ShloMosaic.Pipeline (Dat)
open Idealize.ShloMosaic.ValueIdx
open Cert.KernelIdeal Cert.KernelIdeal.Gen Cert.KernelIdeal.Hand

variable {F : FTy → Type} [FloatOps F]

variable (m : (ℓ : Loc nD τ sig) → Buf (Elt Ideal) ℓ)

/-- The printed index maps, decided once over the grid: the point t = 8 v + b reads block (b, v) of the segmentation
    maps and block v of the ids, and writes block (b, v) of the mask array. -/
theorem idx_facts3 : ∀ t : Fin cfg0.N,
    win0_0.index t (0 : Fin 4) = t.val % 8 ∧ win0_0.index t (1 : Fin 4) = t.val / 8 ∧ win0_0.index t (2 : Fin 4) = 0 ∧ win0_0.index t (3 : Fin 4) = 0
    ∧ win0_1.index t (0 : Fin 4) = 0 ∧ win0_1.index t (1 : Fin 4) = t.val / 8 ∧ win0_1.index t (2 : Fin 4) = 0 ∧ win0_1.index t (3 : Fin 4) = 0
    ∧ win0_3.index t (0 : Fin 4) = t.val % 8 ∧ win0_3.index t (1 : Fin 4) = t.val / 8 ∧ win0_3.index t (2 : Fin 4) = 0 ∧ win0_3.index t (3 : Fin 4) = 0 :=
  (by decide +kernel : ∀ t : Fin grid0.N, _)

/-- What either case leaves in the mask buffer at point t: one function of the point's input blocks. -/
theorem aft3_eq (c : Dev nD) (t : Fin cfg0.N) :
    aft0_3 m c t = k0_pay1 (F := Ideal) (k0_pay12 (F := Ideal) (slab0 (iblk m c 1 t)) (slab1 (iblk m c 1 t)) (slab2 (iblk m c 1 t)) (iblk m c 0 t)) := by
  unfold aft0_3
  by_cases h : t.val % 8 = 0
  · rw [dif_pos h]
    exact out_A_3 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) ((hcond0_0 t).mpr h) (iblk m c 0 t) (iblk m c 1 t) (iblk m c 2 t)
  · rw [dif_neg h]
    exact out_B_3 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (fun hc => h ((hcond0_0 t).mp hc)) (iblk m c 0 t) (iblk m c 1 t) (iblk m c 2 t)

set_option maxHeartbeats 4000000 in
/-- What point t writes back is block t of the mask array's function of the staged arrays. -/
theorem flushed3_eq (c : Dev nD) (t : Fin cfg0.N) :
    (dats m 0 c).flushed 3 t = ((cfg0.win 3).blk t).view.read (Elt Ideal) (G3 (V m c main_arg0) (V m c main_v0)) := by
  show (cfg0.win 3).cut (grid0.coords t) ((dats m 0 c).after 3 t) = _
  rw [after0_3, aft3_eq]
  funext j
  show k0_pay1 (F := Ideal) (k0_pay12 (F := Ideal) (slab0 (iblk m c 1 t)) (slab1 (iblk m c 1 t)) (slab2 (iblk m c 1 t)) (iblk m c 0 t)) j
    = G3 (V m c main_arg0) (V m c main_v0) (((cfg0.win 3).blk t).view.emb j)
  refine (mask_at (slab0 (iblk m c 1 t)) (slab1 (iblk m c 1 t)) (slab2 (iblk m c 1 t)) (iblk m c 0 t) j).trans ?_
  show maskE _ _ _ _ = maskE _ _ _ _
  obtain ⟨f00, f01, f02, f03, f10, f11, f12, f13, fo0, fo1, fo2, fo3⟩ := idx_facts3 t
  have hj0 : (j 0).val < 1 := (j 0).isLt
  have hj1 : (j 1).val < 1 := (j 1).isLt
  congr 1
  · show V m c main_arg0 _ = V m c main_arg0 _
    congr 1
    funext a; refine Fin.ext ?_
    match a with
    | ⟨0, _⟩ => show win0_0.index t (0 : Fin 4) * 1 + 1 * 0 = win0_3.index t (0 : Fin 4) * 1 + 1 * (j 0).val; omega
    | ⟨1, _⟩ => show win0_0.index t (1 : Fin 4) * 1 + 1 * 0 = win0_3.index t (1 : Fin 4) * 1 + 1 * (j 1).val; omega
    | ⟨2, _⟩ => show win0_0.index t (2 : Fin 4) * 512 + 1 * (j 2).val = win0_3.index t (2 : Fin 4) * 512 + 1 * (j 2).val; omega
    | ⟨3, _⟩ => show win0_0.index t (3 : Fin 4) * 512 + 1 * (j 3).val = win0_3.index t (3 : Fin 4) * 512 + 1 * (j 3).val; omega
  · show V m c main_v0 _ = V m c main_v0 _
    congr 1
    funext a; refine Fin.ext ?_
    match a with
    | ⟨0, _⟩ => show win0_1.index t (0 : Fin 4) * 3 + 1 * (0 + 1 * 0) = 0; omega
    | ⟨1, _⟩ => show win0_1.index t (1 : Fin 4) * 1 + 1 * (0 + 1 * 0) = win0_3.index t (1 : Fin 4) * 1 + 1 * (j 1).val; omega
    | ⟨2, _⟩ => show win0_1.index t (2 : Fin 4) * 512 + 1 * (0 + 1 * (j 2).val) = win0_3.index t (2 : Fin 4) * 512 + 1 * (j 2).val; omega
    | ⟨3, _⟩ => show win0_1.index t (3 : Fin 4) * 512 + 1 * (0 + 1 * (j 3).val) = win0_3.index t (3 : Fin 4) * 512 + 1 * (j 3).val; omega
  · show V m c main_v0 _ = V m c main_v0 _
    congr 1
    funext a; refine Fin.ext ?_
    match a with
    | ⟨0, _⟩ => show win0_1.index t (0 : Fin 4) * 3 + 1 * (1 + 1 * 0) = 1; omega
    | ⟨1, _⟩ => show win0_1.index t (1 : Fin 4) * 1 + 1 * (0 + 1 * 0) = win0_3.index t (1 : Fin 4) * 1 + 1 * (j 1).val; omega
    | ⟨2, _⟩ => show win0_1.index t (2 : Fin 4) * 512 + 1 * (0 + 1 * (j 2).val) = win0_3.index t (2 : Fin 4) * 512 + 1 * (j 2).val; omega
    | ⟨3, _⟩ => show win0_1.index t (3 : Fin 4) * 512 + 1 * (0 + 1 * (j 3).val) = win0_3.index t (3 : Fin 4) * 512 + 1 * (j 3).val; omega
  · show V m c main_v0 _ = V m c main_v0 _
    congr 1
    funext a; refine Fin.ext ?_
    match a with
    | ⟨0, _⟩ => show win0_1.index t (0 : Fin 4) * 3 + 1 * (2 + 1 * 0) = 2; omega
    | ⟨1, _⟩ => show win0_1.index t (1 : Fin 4) * 1 + 1 * (0 + 1 * 0) = win0_3.index t (1 : Fin 4) * 1 + 1 * (j 1).val; omega
    | ⟨2, _⟩ => show win0_1.index t (2 : Fin 4) * 512 + 1 * (0 + 1 * (j 2).val) = win0_3.index t (2 : Fin 4) * 512 + 1 * (j 2).val; omega
    | ⟨3, _⟩ => show win0_1.index t (3 : Fin 4) * 512 + 1 * (0 + 1 * (j 3).val) = win0_3.index t (3 : Fin 4) * 512 + 1 * (j 3).val; omega

/-- An index of the mask array is in point t's block iff each coordinate is in the block's range on its axis. -/
theorem mem_blk3 (t : Fin cfg0.N) (i : S8x4x512x512.Idx) :
    i ∈ ((cfg0.win 3).blk t).view.set ↔ ∀ a : Fin 4, win0_3.index t a * S1x1x512x512.size a ≤ (i a).val ∧ (i a).val < win0_3.index t a * S1x1x512x512.size a + S1x1x512x512.size a := by
  show i ∈ ((View.whole main_v2_0).slice (win0_3.rect t)).set ↔ _
  rw [View.set_slice_whole, Rect.mem_set_unit]
  exact Iff.rfl

/-- Every (batch, view, row, column) is in the block of the point with that view and batch. -/
theorem cover3 (i : S8x4x512x512.Idx) :
    ∃ t : Fin cfg0.N, (cfg0.win 3).flush t = true ∧ i ∈ ((cfg0.win 3).blk t).view.set := by
  have h0 : (i 0).val < 8 := (i 0).isLt
  have h1 : (i 1).val < 4 := (i 1).isLt
  have h2 : (i 2).val < 512 := (i 2).isLt
  have h3 : (i 3).val < 512 := (i 3).isLt
  have hN : cfg0.N = 32 := N_0
  refine ⟨⟨8 * (i 1).val + (i 0).val, by omega⟩, flush0_3 _, ?_⟩
  rw [mem_blk3]
  obtain ⟨-, -, -, -, -, -, -, -, fo0, fo1, fo2, fo3⟩ := idx_facts3 ⟨8 * (i 1).val + (i 0).val, by omega⟩
  intro a
  match a with
  | ⟨0, _⟩ => show win0_3.index _ (0 : Fin 4) * 1 ≤ (i 0).val ∧ (i 0).val < win0_3.index _ (0 : Fin 4) * 1 + 1; rw [fo0]; dsimp only; omega
  | ⟨1, _⟩ => show win0_3.index _ (1 : Fin 4) * 1 ≤ (i 1).val ∧ (i 1).val < win0_3.index _ (1 : Fin 4) * 1 + 1; rw [fo1]; dsimp only; omega
  | ⟨2, _⟩ => show win0_3.index _ (2 : Fin 4) * 512 ≤ (i 2).val ∧ (i 2).val < win0_3.index _ (2 : Fin 4) * 512 + 512; rw [fo2]; omega
  | ⟨3, _⟩ => show win0_3.index _ (3 : Fin 4) * 512 ≤ (i 3).val ∧ (i 3).val < win0_3.index _ (3 : Fin 4) * 512 + 512; rw [fo3]; omega

/-- The mask array after the run, as one function of the three staged arrays. -/
theorem final_3 (c : Dev nD) : (dats m 0 c).arrAt 3 cfg0.N = G3 (V m c main_arg0) (V m c main_v0) :=
  (dats m 0 c).arrAt_eq_of_cover 3 (G3 (V m c main_arg0) (V m c main_v0)) (fun t _ => flushed3_eq m c t) cover3

end Cert.KernelIdeal.HandValue

end
-- ==== Proof.KernelIdealValueWgt0.lean ====
/-
  THE WEIGHTED ARRAY OF COORDINATE 0 AFTER THE REGION: THE EFFECTIVE MASK TIMES THE WEIGHT OF COORDINATE 0.

  Both cases of the body leave the same function of the point's input blocks in the buffer; every point writes its
  block back, the point t = 8 v + b to block (b, v); these blocks tile the array, which therefore ends holding GW 0
  of the three staged arrays, index by index.
-/
import proofs.«153110_j51737176048098_1_alg».proof.Proof.KernelIdealValueCore

set_option maxRecDepth 16384

noncomputable section

namespace Cert.KernelIdeal.HandValue

open Idealize.ShloMosaic Idealize.ShloMosaic.TcCoe Idealize.ShloMosaic.Tactic
open Idealize.SL Idealize.SL.Sem
open Idealize.ShloMosaic.Pipeline (Dat)
open Idealize.ShloMosaic.ValueIdx
open Cert.KernelIdeal Cert.KernelIdeal.Gen Cert.KernelIdeal.Hand

variable {F : FTy → Type} [FloatOps F]

variable (m : (ℓ : Loc nD τ sig) → Buf (Elt Ideal) ℓ)

/-- The printed index maps, decided once over the grid: the point t = 8 v + b reads block (b, v) of the segmentation
    maps and block v of the ids and of the weights, and writes block (b, v) of the weighted (coordinate 0) array. -/
theorem idx_facts4 : ∀ t : Fin cfg0.N,
    win0_0.index t (0 : Fin 4) = t.val % 8 ∧ win0_0.index t (1 : Fin 4) = t.val / 8 ∧ win0_0.index t (2 : Fin 4) = 0 ∧ win0_0.index t (3 : Fin 4) = 0
    ∧ win0_1.index t (0 : Fin 4) = 0 ∧ win0_1.index t (1 : Fin 4) = t.val / 8 ∧ win0_1.index t (2 : Fin 4) = 0 ∧ win0_1.index t (3 : Fin 4) = 0
    ∧ win0_2.index t (0 : Fin 4) = 0 ∧ win0_2.index t (1 : Fin 4) = t.val / 8 ∧ win0_2.index t (2 : Fin 4) = 0 ∧ win0_2.index t (3 : Fin 4) = 0
    ∧ win0_4.index t (0 : Fin 4) = t.val % 8 ∧ win0_4.index t (1 : Fin 4) = t.val / 8 ∧ win0_4.index t (2 : Fin 4) = 0 ∧ win0_4.index t (3 : Fin 4) = 0 :=
  (by decide +kernel : ∀ t : Fin grid0.N, _)

/-- What either case leaves in the weighted (coordinate 0) buffer at point t: one function of the point's input blocks. -/
theorem aft4_eq (c : Dev nD) (t : Fin cfg0.N) :
    aft0_4 m c t = k0_pay2 (F := Ideal) (k0_pay12 (F := Ideal) (slab0 (iblk m c 1 t)) (slab1 (iblk m c 1 t)) (slab2 (iblk m c 1 t)) (iblk m c 0 t)) (slab0 (iblk m c 2 t)) := by
  unfold aft0_4
  by_cases h : t.val % 8 = 0
  · rw [dif_pos h]
    exact out_A_4 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) ((hcond0_0 t).mpr h) (iblk m c 0 t) (iblk m c 1 t) (iblk m c 2 t)
  · rw [dif_neg h]
    exact out_B_4 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (fun hc => h ((hcond0_0 t).mp hc)) (iblk m c 0 t) (iblk m c 1 t) (iblk m c 2 t)

set_option maxHeartbeats 4000000 in
/-- What point t writes back is block t of the weighted (coordinate 0) array's function of the staged arrays. -/
theorem flushed4_eq (c : Dev nD) (t : Fin cfg0.N) :
    (dats m 0 c).flushed 4 t = ((cfg0.win 4).blk t).view.read (Elt Ideal) (GW 0 (V m c main_arg0) (V m c main_v0) (V m c main_v1)) := by
  show (cfg0.win 4).cut (grid0.coords t) ((dats m 0 c).after 4 t) = _
  rw [after0_4, aft4_eq]
  funext j
  show k0_pay2 (F := Ideal) (k0_pay12 (F := Ideal) (slab0 (iblk m c 1 t)) (slab1 (iblk m c 1 t)) (slab2 (iblk m c 1 t)) (iblk m c 0 t)) (slab0 (iblk m c 2 t)) j
    = GW 0 (V m c main_arg0) (V m c main_v0) (V m c main_v1) (((cfg0.win 4).blk t).view.emb j)
  refine (wgt0_at (slab0 (iblk m c 1 t)) (slab1 (iblk m c 1 t)) (slab2 (iblk m c 1 t)) (iblk m c 0 t) (slab0 (iblk m c 2 t)) j).trans ?_
  show wgtE _ _ _ _ _ = wgtE _ _ _ _ _
  obtain ⟨f00, f01, f02, f03, f10, f11, f12, f13, f20, f21, f22, f23, fo0, fo1, fo2, fo3⟩ := idx_facts4 t
  have hj0 : (j 0).val < 1 := (j 0).isLt
  have hj1 : (j 1).val < 1 := (j 1).isLt
  congr 1
  · show V m c main_arg0 _ = V m c main_arg0 _
    congr 1
    funext a; refine Fin.ext ?_
    match a with
    | ⟨0, _⟩ => show win0_0.index t (0 : Fin 4) * 1 + 1 * 0 = win0_4.index t (0 : Fin 4) * 1 + 1 * (j 0).val; omega
    | ⟨1, _⟩ => show win0_0.index t (1 : Fin 4) * 1 + 1 * 0 = win0_4.index t (1 : Fin 4) * 1 + 1 * (j 1).val; omega
    | ⟨2, _⟩ => show win0_0.index t (2 : Fin 4) * 512 + 1 * (j 2).val = win0_4.index t (2 : Fin 4) * 512 + 1 * (j 2).val; omega
    | ⟨3, _⟩ => show win0_0.index t (3 : Fin 4) * 512 + 1 * (j 3).val = win0_4.index t (3 : Fin 4) * 512 + 1 * (j 3).val; omega
  · show V m c main_v0 _ = V m c main_v0 _
    congr 1
    funext a; refine Fin.ext ?_
    match a with
    | ⟨0, _⟩ => show win0_1.index t (0 : Fin 4) * 3 + 1 * (0 + 1 * 0) = 0; omega
    | ⟨1, _⟩ => show win0_1.index t (1 : Fin 4) * 1 + 1 * (0 + 1 * 0) = win0_4.index t (1 : Fin 4) * 1 + 1 * (j 1).val; omega
    | ⟨2, _⟩ => show win0_1.index t (2 : Fin 4) * 512 + 1 * (0 + 1 * (j 2).val) = win0_4.index t (2 : Fin 4) * 512 + 1 * (j 2).val; omega
    | ⟨3, _⟩ => show win0_1.index t (3 : Fin 4) * 512 + 1 * (0 + 1 * (j 3).val) = win0_4.index t (3 : Fin 4) * 512 + 1 * (j 3).val; omega
  · show V m c main_v0 _ = V m c main_v0 _
    congr 1
    funext a; refine Fin.ext ?_
    match a with
    | ⟨0, _⟩ => show win0_1.index t (0 : Fin 4) * 3 + 1 * (1 + 1 * 0) = 1; omega
    | ⟨1, _⟩ => show win0_1.index t (1 : Fin 4) * 1 + 1 * (0 + 1 * 0) = win0_4.index t (1 : Fin 4) * 1 + 1 * (j 1).val; omega
    | ⟨2, _⟩ => show win0_1.index t (2 : Fin 4) * 512 + 1 * (0 + 1 * (j 2).val) = win0_4.index t (2 : Fin 4) * 512 + 1 * (j 2).val; omega
    | ⟨3, _⟩ => show win0_1.index t (3 : Fin 4) * 512 + 1 * (0 + 1 * (j 3).val) = win0_4.index t (3 : Fin 4) * 512 + 1 * (j 3).val; omega
  · show V m c main_v0 _ = V m c main_v0 _
    congr 1
    funext a; refine Fin.ext ?_
    match a with
    | ⟨0, _⟩ => show win0_1.index t (0 : Fin 4) * 3 + 1 * (2 + 1 * 0) = 2; omega
    | ⟨1, _⟩ => show win0_1.index t (1 : Fin 4) * 1 + 1 * (0 + 1 * 0) = win0_4.index t (1 : Fin 4) * 1 + 1 * (j 1).val; omega
    | ⟨2, _⟩ => show win0_1.index t (2 : Fin 4) * 512 + 1 * (0 + 1 * (j 2).val) = win0_4.index t (2 : Fin 4) * 512 + 1 * (j 2).val; omega
    | ⟨3, _⟩ => show win0_1.index t (3 : Fin 4) * 512 + 1 * (0 + 1 * (j 3).val) = win0_4.index t (3 : Fin 4) * 512 + 1 * (j 3).val; omega
  · show V m c main_v1 _ = V m c main_v1 _
    congr 1
    funext a; refine Fin.ext ?_
    match a with
    | ⟨0, _⟩ => show win0_2.index t (0 : Fin 4) * 3 + 1 * (0 + 1 * 0) = 0; omega
    | ⟨1, _⟩ => show win0_2.index t (1 : Fin 4) * 1 + 1 * (0 + 1 * 0) = win0_4.index t (1 : Fin 4) * 1 + 1 * (j 1).val; omega
    | ⟨2, _⟩ => show win0_2.index t (2 : Fin 4) * 512 + 1 * (0 + 1 * (j 2).val) = win0_4.index t (2 : Fin 4) * 512 + 1 * (j 2).val; omega
    | ⟨3, _⟩ => show win0_2.index t (3 : Fin 4) * 512 + 1 * (0 + 1 * (j 3).val) = win0_4.index t (3 : Fin 4) * 512 + 1 * (j 3).val; omega

/-- An index of the weighted (coordinate 0) array is in point t's block iff each coordinate is in the block's range on its axis. -/
theorem mem_blk4 (t : Fin cfg0.N) (i : S8x4x512x512.Idx) :
    i ∈ ((cfg0.win 4).blk t).view.set ↔ ∀ a : Fin 4, win0_4.index t a * S1x1x512x512.size a ≤ (i a).val ∧ (i a).val < win0_4.index t a * S1x1x512x512.size a + S1x1x512x512.size a := by
  show i ∈ ((View.whole main_v2_1).slice (win0_4.rect t)).set ↔ _
  rw [View.set_slice_whole, Rect.mem_set_unit]
  exact Iff.rfl

/-- Every (batch, view, row, column) is in the block of the point with that view and batch. -/
theorem cover4 (i : S8x4x512x512.Idx) :
    ∃ t : Fin cfg0.N, (cfg0.win 4).flush t = true ∧ i ∈ ((cfg0.win 4).blk t).view.set := by
  have h0 : (i 0).val < 8 := (i 0).isLt
  have h1 : (i 1).val < 4 := (i 1).isLt
  have h2 : (i 2).val < 512 := (i 2).isLt
  have h3 : (i 3).val < 512 := (i 3).isLt
  have hN : cfg0.N = 32 := N_0
  refine ⟨⟨8 * (i 1).val + (i 0).val, by omega⟩, flush0_4 _, ?_⟩
  rw [mem_blk4]
  obtain ⟨-, -, -, -, -, -, -, -, -, -, -, -, fo0, fo1, fo2, fo3⟩ := idx_facts4 ⟨8 * (i 1).val + (i 0).val, by omega⟩
  intro a
  match a with
  | ⟨0, _⟩ => show win0_4.index _ (0 : Fin 4) * 1 ≤ (i 0).val ∧ (i 0).val < win0_4.index _ (0 : Fin 4) * 1 + 1; rw [fo0]; dsimp only; omega
  | ⟨1, _⟩ => show win0_4.index _ (1 : Fin 4) * 1 ≤ (i 1).val ∧ (i 1).val < win0_4.index _ (1 : Fin 4) * 1 + 1; rw [fo1]; dsimp only; omega
  | ⟨2, _⟩ => show win0_4.index _ (2 : Fin 4) * 512 ≤ (i 2).val ∧ (i 2).val < win0_4.index _ (2 : Fin 4) * 512 + 512; rw [fo2]; omega
  | ⟨3, _⟩ => show win0_4.index _ (3 : Fin 4) * 512 ≤ (i 3).val ∧ (i 3).val < win0_4.index _ (3 : Fin 4) * 512 + 512; rw [fo3]; omega

/-- The weighted (coordinate 0) array after the run, as one function of the three staged arrays. -/
theorem final_4 (c : Dev nD) : (dats m 0 c).arrAt 4 cfg0.N = GW 0 (V m c main_arg0) (V m c main_v0) (V m c main_v1) :=
  (dats m 0 c).arrAt_eq_of_cover 4 (GW 0 (V m c main_arg0) (V m c main_v0) (V m c main_v1)) (fun t _ => flushed4_eq m c t) cover4

end Cert.KernelIdeal.HandValue

end
-- ==== Proof.KernelIdealValueWgt1.lean ====
/-
  THE WEIGHTED ARRAY OF COORDINATE 1 AFTER THE REGION: THE EFFECTIVE MASK TIMES THE WEIGHT OF COORDINATE 1.

  Both cases of the body leave the same function of the point's input blocks in the buffer; every point writes its
  block back, the point t = 8 v + b to block (b, v); these blocks tile the array, which therefore ends holding GW 1
  of the three staged arrays, index by index.
-/
import proofs.«153110_j51737176048098_1_alg».proof.Proof.KernelIdealValueCore

set_option maxRecDepth 16384

noncomputable section

namespace Cert.KernelIdeal.HandValue

open Idealize.ShloMosaic Idealize.ShloMosaic.TcCoe Idealize.ShloMosaic.Tactic
open Idealize.SL Idealize.SL.Sem
open Idealize.ShloMosaic.Pipeline (Dat)
open Idealize.ShloMosaic.ValueIdx
open Cert.KernelIdeal Cert.KernelIdeal.Gen Cert.KernelIdeal.Hand

variable {F : FTy → Type} [FloatOps F]

variable (m : (ℓ : Loc nD τ sig) → Buf (Elt Ideal) ℓ)

/-- The printed index maps, decided once over the grid: the point t = 8 v + b reads block (b, v) of the segmentation
    maps and block v of the ids and of the weights, and writes block (b, v) of the weighted (coordinate 1) array. -/
theorem idx_facts5 : ∀ t : Fin cfg0.N,
    win0_0.index t (0 : Fin 4) = t.val % 8 ∧ win0_0.index t (1 : Fin 4) = t.val / 8 ∧ win0_0.index t (2 : Fin 4) = 0 ∧ win0_0.index t (3 : Fin 4) = 0
    ∧ win0_1.index t (0 : Fin 4) = 0 ∧ win0_1.index t (1 : Fin 4) = t.val / 8 ∧ win0_1.index t (2 : Fin 4) = 0 ∧ win0_1.index t (3 : Fin 4) = 0
    ∧ win0_2.index t (0 : Fin 4) = 0 ∧ win0_2.index t (1 : Fin 4) = t.val / 8 ∧ win0_2.index t (2 : Fin 4) = 0 ∧ win0_2.index t (3 : Fin 4) = 0
    ∧ win0_5.index t (0 : Fin 4) = t.val % 8 ∧ win0_5.index t (1 : Fin 4) = t.val / 8 ∧ win0_5.index t (2 : Fin 4) = 0 ∧ win0_5.index t (3 : Fin 4) = 0 :=
  (by decide +kernel : ∀ t : Fin grid0.N, _)

/-- What either case leaves in the weighted (coordinate 1) buffer at point t: one function of the point's input blocks. -/
theorem aft5_eq (c : Dev nD) (t : Fin cfg0.N) :
    aft0_5 m c t = k0_pay3 (F := Ideal) (k0_pay12 (F := Ideal) (slab0 (iblk m c 1 t)) (slab1 (iblk m c 1 t)) (slab2 (iblk m c 1 t)) (iblk m c 0 t)) (slab1 (iblk m c 2 t)) := by
  unfold aft0_5
  by_cases h : t.val % 8 = 0
  · rw [dif_pos h]
    exact out_A_5 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) ((hcond0_0 t).mpr h) (iblk m c 0 t) (iblk m c 1 t) (iblk m c 2 t)
  · rw [dif_neg h]
    exact out_B_5 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (fun hc => h ((hcond0_0 t).mp hc)) (iblk m c 0 t) (iblk m c 1 t) (iblk m c 2 t)

set_option maxHeartbeats 4000000 in
/-- What point t writes back is block t of the weighted (coordinate 1) array's function of the staged arrays. -/
theorem flushed5_eq (c : Dev nD) (t : Fin cfg0.N) :
    (dats m 0 c).flushed 5 t = ((cfg0.win 5).blk t).view.read (Elt Ideal) (GW 1 (V m c main_arg0) (V m c main_v0) (V m c main_v1)) := by
  show (cfg0.win 5).cut (grid0.coords t) ((dats m 0 c).after 5 t) = _
  rw [after0_5, aft5_eq]
  funext j
  show k0_pay3 (F := Ideal) (k0_pay12 (F := Ideal) (slab0 (iblk m c 1 t)) (slab1 (iblk m c 1 t)) (slab2 (iblk m c 1 t)) (iblk m c 0 t)) (slab1 (iblk m c 2 t)) j
    = GW 1 (V m c main_arg0) (V m c main_v0) (V m c main_v1) (((cfg0.win 5).blk t).view.emb j)
  refine (wgt1_at (slab0 (iblk m c 1 t)) (slab1 (iblk m c 1 t)) (slab2 (iblk m c 1 t)) (iblk m c 0 t) (slab1 (iblk m c 2 t)) j).trans ?_
  show wgtE _ _ _ _ _ = wgtE _ _ _ _ _
  obtain ⟨f00, f01, f02, f03, f10, f11, f12, f13, f20, f21, f22, f23, fo0, fo1, fo2, fo3⟩ := idx_facts5 t
  have hj0 : (j 0).val < 1 := (j 0).isLt
  have hj1 : (j 1).val < 1 := (j 1).isLt
  congr 1
  · show V m c main_arg0 _ = V m c main_arg0 _
    congr 1
    funext a; refine Fin.ext ?_
    match a with
    | ⟨0, _⟩ => show win0_0.index t (0 : Fin 4) * 1 + 1 * 0 = win0_5.index t (0 : Fin 4) * 1 + 1 * (j 0).val; omega
    | ⟨1, _⟩ => show win0_0.index t (1 : Fin 4) * 1 + 1 * 0 = win0_5.index t (1 : Fin 4) * 1 + 1 * (j 1).val; omega
    | ⟨2, _⟩ => show win0_0.index t (2 : Fin 4) * 512 + 1 * (j 2).val = win0_5.index t (2 : Fin 4) * 512 + 1 * (j 2).val; omega
    | ⟨3, _⟩ => show win0_0.index t (3 : Fin 4) * 512 + 1 * (j 3).val = win0_5.index t (3 : Fin 4) * 512 + 1 * (j 3).val; omega
  · show V m c main_v0 _ = V m c main_v0 _
    congr 1
    funext a; refine Fin.ext ?_
    match a with
    | ⟨0, _⟩ => show win0_1.index t (0 : Fin 4) * 3 + 1 * (0 + 1 * 0) = 0; omega
    | ⟨1, _⟩ => show win0_1.index t (1 : Fin 4) * 1 + 1 * (0 + 1 * 0) = win0_5.index t (1 : Fin 4) * 1 + 1 * (j 1).val; omega
    | ⟨2, _⟩ => show win0_1.index t (2 : Fin 4) * 512 + 1 * (0 + 1 * (j 2).val) = win0_5.index t (2 : Fin 4) * 512 + 1 * (j 2).val; omega
    | ⟨3, _⟩ => show win0_1.index t (3 : Fin 4) * 512 + 1 * (0 + 1 * (j 3).val) = win0_5.index t (3 : Fin 4) * 512 + 1 * (j 3).val; omega
  · show V m c main_v0 _ = V m c main_v0 _
    congr 1
    funext a; refine Fin.ext ?_
    match a with
    | ⟨0, _⟩ => show win0_1.index t (0 : Fin 4) * 3 + 1 * (1 + 1 * 0) = 1; omega
    | ⟨1, _⟩ => show win0_1.index t (1 : Fin 4) * 1 + 1 * (0 + 1 * 0) = win0_5.index t (1 : Fin 4) * 1 + 1 * (j 1).val; omega
    | ⟨2, _⟩ => show win0_1.index t (2 : Fin 4) * 512 + 1 * (0 + 1 * (j 2).val) = win0_5.index t (2 : Fin 4) * 512 + 1 * (j 2).val; omega
    | ⟨3, _⟩ => show win0_1.index t (3 : Fin 4) * 512 + 1 * (0 + 1 * (j 3).val) = win0_5.index t (3 : Fin 4) * 512 + 1 * (j 3).val; omega
  · show V m c main_v0 _ = V m c main_v0 _
    congr 1
    funext a; refine Fin.ext ?_
    match a with
    | ⟨0, _⟩ => show win0_1.index t (0 : Fin 4) * 3 + 1 * (2 + 1 * 0) = 2; omega
    | ⟨1, _⟩ => show win0_1.index t (1 : Fin 4) * 1 + 1 * (0 + 1 * 0) = win0_5.index t (1 : Fin 4) * 1 + 1 * (j 1).val; omega
    | ⟨2, _⟩ => show win0_1.index t (2 : Fin 4) * 512 + 1 * (0 + 1 * (j 2).val) = win0_5.index t (2 : Fin 4) * 512 + 1 * (j 2).val; omega
    | ⟨3, _⟩ => show win0_1.index t (3 : Fin 4) * 512 + 1 * (0 + 1 * (j 3).val) = win0_5.index t (3 : Fin 4) * 512 + 1 * (j 3).val; omega
  · show V m c main_v1 _ = V m c main_v1 _
    congr 1
    funext a; refine Fin.ext ?_
    match a with
    | ⟨0, _⟩ => show win0_2.index t (0 : Fin 4) * 3 + 1 * (1 + 1 * 0) = 1; omega
    | ⟨1, _⟩ => show win0_2.index t (1 : Fin 4) * 1 + 1 * (0 + 1 * 0) = win0_5.index t (1 : Fin 4) * 1 + 1 * (j 1).val; omega
    | ⟨2, _⟩ => show win0_2.index t (2 : Fin 4) * 512 + 1 * (0 + 1 * (j 2).val) = win0_5.index t (2 : Fin 4) * 512 + 1 * (j 2).val; omega
    | ⟨3, _⟩ => show win0_2.index t (3 : Fin 4) * 512 + 1 * (0 + 1 * (j 3).val) = win0_5.index t (3 : Fin 4) * 512 + 1 * (j 3).val; omega

/-- An index of the weighted (coordinate 1) array is in point t's block iff each coordinate is in the block's range on its axis. -/
theorem mem_blk5 (t : Fin cfg0.N) (i : S8x4x512x512.Idx) :
    i ∈ ((cfg0.win 5).blk t).view.set ↔ ∀ a : Fin 4, win0_5.index t a * S1x1x512x512.size a ≤ (i a).val ∧ (i a).val < win0_5.index t a * S1x1x512x512.size a + S1x1x512x512.size a := by
  show i ∈ ((View.whole main_v2_2).slice (win0_5.rect t)).set ↔ _
  rw [View.set_slice_whole, Rect.mem_set_unit]
  exact Iff.rfl

/-- Every (batch, view, row, column) is in the block of the point with that view and batch. -/
theorem cover5 (i : S8x4x512x512.Idx) :
    ∃ t : Fin cfg0.N, (cfg0.win 5).flush t = true ∧ i ∈ ((cfg0.win 5).blk t).view.set := by
  have h0 : (i 0).val < 8 := (i 0).isLt
  have h1 : (i 1).val < 4 := (i 1).isLt
  have h2 : (i 2).val < 512 := (i 2).isLt
  have h3 : (i 3).val < 512 := (i 3).isLt
  have hN : cfg0.N = 32 := N_0
  refine ⟨⟨8 * (i 1).val + (i 0).val, by omega⟩, flush0_5 _, ?_⟩
  rw [mem_blk5]
  obtain ⟨-, -, -, -, -, -, -, -, -, -, -, -, fo0, fo1, fo2, fo3⟩ := idx_facts5 ⟨8 * (i 1).val + (i 0).val, by omega⟩
  intro a
  match a with
  | ⟨0, _⟩ => show win0_5.index _ (0 : Fin 4) * 1 ≤ (i 0).val ∧ (i 0).val < win0_5.index _ (0 : Fin 4) * 1 + 1; rw [fo0]; dsimp only; omega
  | ⟨1, _⟩ => show win0_5.index _ (1 : Fin 4) * 1 ≤ (i 1).val ∧ (i 1).val < win0_5.index _ (1 : Fin 4) * 1 + 1; rw [fo1]; dsimp only; omega
  | ⟨2, _⟩ => show win0_5.index _ (2 : Fin 4) * 512 ≤ (i 2).val ∧ (i 2).val < win0_5.index _ (2 : Fin 4) * 512 + 512; rw [fo2]; omega
  | ⟨3, _⟩ => show win0_5.index _ (3 : Fin 4) * 512 ≤ (i 3).val ∧ (i 3).val < win0_5.index _ (3 : Fin 4) * 512 + 512; rw [fo3]; omega

/-- The weighted (coordinate 1) array after the run, as one function of the three staged arrays. -/
theorem final_5 (c : Dev nD) : (dats m 0 c).arrAt 5 cfg0.N = GW 1 (V m c main_arg0) (V m c main_v0) (V m c main_v1) :=
  (dats m 0 c).arrAt_eq_of_cover 5 (GW 1 (V m c main_arg0) (V m c main_v0) (V m c main_v1)) (fun t _ => flushed5_eq m c t) cover5

end Cert.KernelIdeal.HandValue

end
-- ==== Proof.KernelIdealValueWgt2.lean ====
/-
  THE WEIGHTED ARRAY OF COORDINATE 2 AFTER THE REGION: THE EFFECTIVE MASK TIMES THE WEIGHT OF COORDINATE 2.

  Both cases of the body leave the same function of the point's input blocks in the buffer; every point writes its
  block back, the point t = 8 v + b to block (b, v); these blocks tile the array, which therefore ends holding GW 2
  of the three staged arrays, index by index.
-/
import proofs.«153110_j51737176048098_1_alg».proof.Proof.KernelIdealValueCore

set_option maxRecDepth 16384

noncomputable section

namespace Cert.KernelIdeal.HandValue

open Idealize.ShloMosaic Idealize.ShloMosaic.TcCoe Idealize.ShloMosaic.Tactic
open Idealize.SL Idealize.SL.Sem
open Idealize.ShloMosaic.Pipeline (Dat)
open Idealize.ShloMosaic.ValueIdx
open Cert.KernelIdeal Cert.KernelIdeal.Gen Cert.KernelIdeal.Hand

variable {F : FTy → Type} [FloatOps F]

variable (m : (ℓ : Loc nD τ sig) → Buf (Elt Ideal) ℓ)

/-- The printed index maps, decided once over the grid: the point t = 8 v + b reads block (b, v) of the segmentation
    maps and block v of the ids and of the weights, and writes block (b, v) of the weighted (coordinate 2) array. -/
theorem idx_facts6 : ∀ t : Fin cfg0.N,
    win0_0.index t (0 : Fin 4) = t.val % 8 ∧ win0_0.index t (1 : Fin 4) = t.val / 8 ∧ win0_0.index t (2 : Fin 4) = 0 ∧ win0_0.index t (3 : Fin 4) = 0
    ∧ win0_1.index t (0 : Fin 4) = 0 ∧ win0_1.index t (1 : Fin 4) = t.val / 8 ∧ win0_1.index t (2 : Fin 4) = 0 ∧ win0_1.index t (3 : Fin 4) = 0
    ∧ win0_2.index t (0 : Fin 4) = 0 ∧ win0_2.index t (1 : Fin 4) = t.val / 8 ∧ win0_2.index t (2 : Fin 4) = 0 ∧ win0_2.index t (3 : Fin 4) = 0
    ∧ win0_6.index t (0 : Fin 4) = t.val % 8 ∧ win0_6.index t (1 : Fin 4) = t.val / 8 ∧ win0_6.index t (2 : Fin 4) = 0 ∧ win0_6.index t (3 : Fin 4) = 0 :=
  (by decide +kernel : ∀ t : Fin grid0.N, _)

/-- What either case leaves in the weighted (coordinate 2) buffer at point t: one function of the point's input blocks. -/
theorem aft6_eq (c : Dev nD) (t : Fin cfg0.N) :
    aft0_6 m c t = k0_pay4 (F := Ideal) (k0_pay12 (F := Ideal) (slab0 (iblk m c 1 t)) (slab1 (iblk m c 1 t)) (slab2 (iblk m c 1 t)) (iblk m c 0 t)) (slab2 (iblk m c 2 t)) := by
  unfold aft0_6
  by_cases h : t.val % 8 = 0
  · rw [dif_pos h]
    exact out_A_6 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) ((hcond0_0 t).mpr h) (iblk m c 0 t) (iblk m c 1 t) (iblk m c 2 t)
  · rw [dif_neg h]
    exact out_B_6 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (fun hc => h ((hcond0_0 t).mp hc)) (iblk m c 0 t) (iblk m c 1 t) (iblk m c 2 t)

set_option maxHeartbeats 4000000 in
/-- What point t writes back is block t of the weighted (coordinate 2) array's function of the staged arrays. -/
theorem flushed6_eq (c : Dev nD) (t : Fin cfg0.N) :
    (dats m 0 c).flushed 6 t = ((cfg0.win 6).blk t).view.read (Elt Ideal) (GW 2 (V m c main_arg0) (V m c main_v0) (V m c main_v1)) := by
  show (cfg0.win 6).cut (grid0.coords t) ((dats m 0 c).after 6 t) = _
  rw [after0_6, aft6_eq]
  funext j
  show k0_pay4 (F := Ideal) (k0_pay12 (F := Ideal) (slab0 (iblk m c 1 t)) (slab1 (iblk m c 1 t)) (slab2 (iblk m c 1 t)) (iblk m c 0 t)) (slab2 (iblk m c 2 t)) j
    = GW 2 (V m c main_arg0) (V m c main_v0) (V m c main_v1) (((cfg0.win 6).blk t).view.emb j)
  refine (wgt2_at (slab0 (iblk m c 1 t)) (slab1 (iblk m c 1 t)) (slab2 (iblk m c 1 t)) (iblk m c 0 t) (slab2 (iblk m c 2 t)) j).trans ?_
  show wgtE _ _ _ _ _ = wgtE _ _ _ _ _
  obtain ⟨f00, f01, f02, f03, f10, f11, f12, f13, f20, f21, f22, f23, fo0, fo1, fo2, fo3⟩ := idx_facts6 t
  have hj0 : (j 0).val < 1 := (j 0).isLt
  have hj1 : (j 1).val < 1 := (j 1).isLt
  congr 1
  · show V m c main_arg0 _ = V m c main_arg0 _
    congr 1
    funext a; refine Fin.ext ?_
    match a with
    | ⟨0, _⟩ => show win0_0.index t (0 : Fin 4) * 1 + 1 * 0 = win0_6.index t (0 : Fin 4) * 1 + 1 * (j 0).val; omega
    | ⟨1, _⟩ => show win0_0.index t (1 : Fin 4) * 1 + 1 * 0 = win0_6.index t (1 : Fin 4) * 1 + 1 * (j 1).val; omega
    | ⟨2, _⟩ => show win0_0.index t (2 : Fin 4) * 512 + 1 * (j 2).val = win0_6.index t (2 : Fin 4) * 512 + 1 * (j 2).val; omega
    | ⟨3, _⟩ => show win0_0.index t (3 : Fin 4) * 512 + 1 * (j 3).val = win0_6.index t (3 : Fin 4) * 512 + 1 * (j 3).val; omega
  · show V m c main_v0 _ = V m c main_v0 _
    congr 1
    funext a; refine Fin.ext ?_
    match a with
    | ⟨0, _⟩ => show win0_1.index t (0 : Fin 4) * 3 + 1 * (0 + 1 * 0) = 0; omega
    | ⟨1, _⟩ => show win0_1.index t (1 : Fin 4) * 1 + 1 * (0 + 1 * 0) = win0_6.index t (1 : Fin 4) * 1 + 1 * (j 1).val; omega
    | ⟨2, _⟩ => show win0_1.index t (2 : Fin 4) * 512 + 1 * (0 + 1 * (j 2).val) = win0_6.index t (2 : Fin 4) * 512 + 1 * (j 2).val; omega
    | ⟨3, _⟩ => show win0_1.index t (3 : Fin 4) * 512 + 1 * (0 + 1 * (j 3).val) = win0_6.index t (3 : Fin 4) * 512 + 1 * (j 3).val; omega
  · show V m c main_v0 _ = V m c main_v0 _
    congr 1
    funext a; refine Fin.ext ?_
    match a with
    | ⟨0, _⟩ => show win0_1.index t (0 : Fin 4) * 3 + 1 * (1 + 1 * 0) = 1; omega
    | ⟨1, _⟩ => show win0_1.index t (1 : Fin 4) * 1 + 1 * (0 + 1 * 0) = win0_6.index t (1 : Fin 4) * 1 + 1 * (j 1).val; omega
    | ⟨2, _⟩ => show win0_1.index t (2 : Fin 4) * 512 + 1 * (0 + 1 * (j 2).val) = win0_6.index t (2 : Fin 4) * 512 + 1 * (j 2).val; omega
    | ⟨3, _⟩ => show win0_1.index t (3 : Fin 4) * 512 + 1 * (0 + 1 * (j 3).val) = win0_6.index t (3 : Fin 4) * 512 + 1 * (j 3).val; omega
  · show V m c main_v0 _ = V m c main_v0 _
    congr 1
    funext a; refine Fin.ext ?_
    match a with
    | ⟨0, _⟩ => show win0_1.index t (0 : Fin 4) * 3 + 1 * (2 + 1 * 0) = 2; omega
    | ⟨1, _⟩ => show win0_1.index t (1 : Fin 4) * 1 + 1 * (0 + 1 * 0) = win0_6.index t (1 : Fin 4) * 1 + 1 * (j 1).val; omega
    | ⟨2, _⟩ => show win0_1.index t (2 : Fin 4) * 512 + 1 * (0 + 1 * (j 2).val) = win0_6.index t (2 : Fin 4) * 512 + 1 * (j 2).val; omega
    | ⟨3, _⟩ => show win0_1.index t (3 : Fin 4) * 512 + 1 * (0 + 1 * (j 3).val) = win0_6.index t (3 : Fin 4) * 512 + 1 * (j 3).val; omega
  · show V m c main_v1 _ = V m c main_v1 _
    congr 1
    funext a; refine Fin.ext ?_
    match a with
    | ⟨0, _⟩ => show win0_2.index t (0 : Fin 4) * 3 + 1 * (2 + 1 * 0) = 2; omega
    | ⟨1, _⟩ => show win0_2.index t (1 : Fin 4) * 1 + 1 * (0 + 1 * 0) = win0_6.index t (1 : Fin 4) * 1 + 1 * (j 1).val; omega
    | ⟨2, _⟩ => show win0_2.index t (2 : Fin 4) * 512 + 1 * (0 + 1 * (j 2).val) = win0_6.index t (2 : Fin 4) * 512 + 1 * (j 2).val; omega
    | ⟨3, _⟩ => show win0_2.index t (3 : Fin 4) * 512 + 1 * (0 + 1 * (j 3).val) = win0_6.index t (3 : Fin 4) * 512 + 1 * (j 3).val; omega

/-- An index of the weighted (coordinate 2) array is in point t's block iff each coordinate is in the block's range on its axis. -/
theorem mem_blk6 (t : Fin cfg0.N) (i : S8x4x512x512.Idx) :
    i ∈ ((cfg0.win 6).blk t).view.set ↔ ∀ a : Fin 4, win0_6.index t a * S1x1x512x512.size a ≤ (i a).val ∧ (i a).val < win0_6.index t a * S1x1x512x512.size a + S1x1x512x512.size a := by
  show i ∈ ((View.whole main_v2_3).slice (win0_6.rect t)).set ↔ _
  rw [View.set_slice_whole, Rect.mem_set_unit]
  exact Iff.rfl

/-- Every (batch, view, row, column) is in the block of the point with that view and batch. -/
theorem cover6 (i : S8x4x512x512.Idx) :
    ∃ t : Fin cfg0.N, (cfg0.win 6).flush t = true ∧ i ∈ ((cfg0.win 6).blk t).view.set := by
  have h0 : (i 0).val < 8 := (i 0).isLt
  have h1 : (i 1).val < 4 := (i 1).isLt
  have h2 : (i 2).val < 512 := (i 2).isLt
  have h3 : (i 3).val < 512 := (i 3).isLt
  have hN : cfg0.N = 32 := N_0
  refine ⟨⟨8 * (i 1).val + (i 0).val, by omega⟩, flush0_6 _, ?_⟩
  rw [mem_blk6]
  obtain ⟨-, -, -, -, -, -, -, -, -, -, -, -, fo0, fo1, fo2, fo3⟩ := idx_facts6 ⟨8 * (i 1).val + (i 0).val, by omega⟩
  intro a
  match a with
  | ⟨0, _⟩ => show win0_6.index _ (0 : Fin 4) * 1 ≤ (i 0).val ∧ (i 0).val < win0_6.index _ (0 : Fin 4) * 1 + 1; rw [fo0]; dsimp only; omega
  | ⟨1, _⟩ => show win0_6.index _ (1 : Fin 4) * 1 ≤ (i 1).val ∧ (i 1).val < win0_6.index _ (1 : Fin 4) * 1 + 1; rw [fo1]; dsimp only; omega
  | ⟨2, _⟩ => show win0_6.index _ (2 : Fin 4) * 512 ≤ (i 2).val ∧ (i 2).val < win0_6.index _ (2 : Fin 4) * 512 + 512; rw [fo2]; omega
  | ⟨3, _⟩ => show win0_6.index _ (3 : Fin 4) * 512 ≤ (i 3).val ∧ (i 3).val < win0_6.index _ (3 : Fin 4) * 512 + 512; rw [fo3]; omega

/-- The weighted (coordinate 2) array after the run, as one function of the three staged arrays. -/
theorem final_6 (c : Dev nD) : (dats m 0 c).arrAt 6 cfg0.N = GW 2 (V m c main_arg0) (V m c main_v0) (V m c main_v1) :=
  (dats m 0 c).arrAt_eq_of_cover 6 (GW 2 (V m c main_arg0) (V m c main_v0) (V m c main_v1)) (fun t _ => flushed6_eq m c t) cover6

end Cert.KernelIdeal.HandValue

end
-- ==== Proof.KernelIdealValueIdx0.lean ====
/-
  THE INDEX ARRAY OF COORDINATE 0 AFTER THE REGION: THE VERTEX ID OF COORDINATE 0 WHERE THE PIXEL IS VALID, ELSE ZERO.

  The buffer is stored at the first point of each group of eight (batch index zero) and written back at the group's
  last point; what it holds then is what the first point stored, a function of the id block of the group's view. The
  four written blocks tile the array, which therefore ends holding GI 0 of the staged ids, index by index.
-/
import proofs.«153110_j51737176048098_1_alg».proof.Proof.KernelIdealValueCore

set_option maxRecDepth 16384

noncomputable section

namespace Cert.KernelIdeal.HandValue

open Idealize.ShloMosaic Idealize.ShloMosaic.TcCoe Idealize.ShloMosaic.Tactic
open Idealize.SL Idealize.SL.Sem
open Idealize.ShloMosaic.Pipeline (Dat)
open Idealize.ShloMosaic.ValueIdx
open Cert.KernelIdeal Cert.KernelIdeal.Gen Cert.KernelIdeal.Hand

variable {F : FTy → Type} [FloatOps F]

variable (m : (ℓ : Loc nD τ sig) → Buf (Elt Ideal) ℓ)

/-- The printed index map of the id blocks, decided once over the grid: every point of the group of view v reads
    block v of the ids. -/
theorem idx_factsI7 : ∀ t : Fin cfg0.N,
    win0_1.index t (0 : Fin 4) = 0 ∧ win0_1.index t (1 : Fin 4) = t.val / 8 ∧ win0_1.index t (2 : Fin 4) = 0 ∧ win0_1.index t (3 : Fin 4) = 0 :=
  (by decide +kernel : ∀ t : Fin grid0.N, _)

/-- The first point of a point's group of eight, as a number. -/
theorem base_val7 (t : Fin cfg0.N) : (base t).val = t.val - t.val % 8 := rfl

/-- The printed index map of index array 0, decided once over the grid: the points of the group of view v write
    block v. -/
theorem idx_facts7 : ∀ t : Fin cfg0.N,
    win0_7.index t (0 : Fin 3) = t.val / 8 ∧ win0_7.index t (1 : Fin 3) = 0 ∧ win0_7.index t (2 : Fin 3) = 0 :=
  (by decide +kernel : ∀ t : Fin grid0.N, _)

/-- What index buffer 0 holds throughout a group: what the group's first point stored, a function of that
    point's id block. -/
theorem aft7_eq (c : Dev nD) (t : Fin cfg0.N) :
    aft0_7 m c t = k0_pay5 (k0_pay8 (F := Ideal) (slab0 (iblk m c 1 (base t)))) (k0_pay11 (F := Ideal) (slab0 (iblk m c 1 (base t))) (slab1 (iblk m c 1 (base t))) (slab2 (iblk m c 1 (base t)))) := by
  unfold aft0_7 aftAt0_7
  exact out_A_7 (F := Ideal) c (grid0.coords (base t)) (ms0_0 (base t)) (hs0_0 (base t)) (ms0_1 (base t)) (hs0_1 (base t)) (ms0_2 (base t)) (hs0_2 (base t)) (ms0_3 (base t)) (hs0_3 (base t)) (ms0_4 (base t)) (hs0_4 (base t)) (ms0_5 (base t)) (hs0_5 (base t)) (ms0_6 (base t)) (hs0_6 (base t)) (ms0_7 (base t)) (hs0_7 (base t)) (ms0_8 (base t)) (hs0_8 (base t)) (ms0_9 (base t)) (hs0_9 (base t)) ((hcond0_0 (base t)).mpr (base_mod t)) (iblk m c 0 (base t)) (iblk m c 1 (base t)) (iblk m c 2 (base t))

set_option maxHeartbeats 4000000 in
/-- What a point writes back is its block of index array 0's function of the staged ids. -/
theorem flushed7_eq (c : Dev nD) (t : Fin cfg0.N) :
    (dats m 0 c).flushed 7 t = ((cfg0.win 7).blk t).view.read (Elt Ideal) (GI 0 (V m c main_v0)) := by
  show (cfg0.win 7).cut (grid0.coords t) ((dats m 0 c).after 7 t) = _
  rw [after0_7, aft7_eq]
  funext j
  show k0_pay5 (k0_pay8 (F := Ideal) (slab0 (iblk m c 1 (base t)))) (k0_pay11 (F := Ideal) (slab0 (iblk m c 1 (base t))) (slab1 (iblk m c 1 (base t))) (slab2 (iblk m c 1 (base t)))) j
    = GI 0 (V m c main_v0) (((cfg0.win 7).blk t).view.emb j)
  refine (idx0_at (slab0 (iblk m c 1 (base t))) (slab1 (iblk m c 1 (base t))) (slab2 (iblk m c 1 (base t))) j).trans ?_
  show idxSel _ _ _ _ = idxSel _ _ _ _
  obtain ⟨f10, f11, f12, f13⟩ := idx_factsI7 (base t)
  obtain ⟨fo0, fo1, fo2⟩ := idx_facts7 t
  have hb := base_val7 t
  have hj0 : (j 0).val < 1 := (j 0).isLt
  congr 1
  · show V m c main_v0 _ = V m c main_v0 _
    congr 1
    funext a; refine Fin.ext ?_
    match a with
    | ⟨0, _⟩ => show win0_1.index (base t) (0 : Fin 4) * 3 + 1 * (0 + 1 * 0) = 0; omega
    | ⟨1, _⟩ => show win0_1.index (base t) (1 : Fin 4) * 1 + 1 * (0 + 1 * 0) = win0_7.index t (0 : Fin 3) * 1 + 1 * (j 0).val; omega
    | ⟨2, _⟩ => show win0_1.index (base t) (2 : Fin 4) * 512 + 1 * (0 + 1 * (j 1).val) = win0_7.index t (1 : Fin 3) * 512 + 1 * (j 1).val; omega
    | ⟨3, _⟩ => show win0_1.index (base t) (3 : Fin 4) * 512 + 1 * (0 + 1 * (j 2).val) = win0_7.index t (2 : Fin 3) * 512 + 1 * (j 2).val; omega
  · show V m c main_v0 _ = V m c main_v0 _
    congr 1
    funext a; refine Fin.ext ?_
    match a with
    | ⟨0, _⟩ => show win0_1.index (base t) (0 : Fin 4) * 3 + 1 * (1 + 1 * 0) = 1; omega
    | ⟨1, _⟩ => show win0_1.index (base t) (1 : Fin 4) * 1 + 1 * (0 + 1 * 0) = win0_7.index t (0 : Fin 3) * 1 + 1 * (j 0).val; omega
    | ⟨2, _⟩ => show win0_1.index (base t) (2 : Fin 4) * 512 + 1 * (0 + 1 * (j 1).val) = win0_7.index t (1 : Fin 3) * 512 + 1 * (j 1).val; omega
    | ⟨3, _⟩ => show win0_1.index (base t) (3 : Fin 4) * 512 + 1 * (0 + 1 * (j 2).val) = win0_7.index t (2 : Fin 3) * 512 + 1 * (j 2).val; omega
  · show V m c main_v0 _ = V m c main_v0 _
    congr 1
    funext a; refine Fin.ext ?_
    match a with
    | ⟨0, _⟩ => show win0_1.index (base t) (0 : Fin 4) * 3 + 1 * (2 + 1 * 0) = 2; omega
    | ⟨1, _⟩ => show win0_1.index (base t) (1 : Fin 4) * 1 + 1 * (0 + 1 * 0) = win0_7.index t (0 : Fin 3) * 1 + 1 * (j 0).val; omega
    | ⟨2, _⟩ => show win0_1.index (base t) (2 : Fin 4) * 512 + 1 * (0 + 1 * (j 1).val) = win0_7.index t (1 : Fin 3) * 512 + 1 * (j 1).val; omega
    | ⟨3, _⟩ => show win0_1.index (base t) (3 : Fin 4) * 512 + 1 * (0 + 1 * (j 2).val) = win0_7.index t (2 : Fin 3) * 512 + 1 * (j 2).val; omega
  · show V m c main_v0 _ = V m c main_v0 _
    congr 1
    funext a; refine Fin.ext ?_
    match a with
    | ⟨0, _⟩ => show win0_1.index (base t) (0 : Fin 4) * 3 + 1 * (0 + 1 * 0) = 0; omega
    | ⟨1, _⟩ => show win0_1.index (base t) (1 : Fin 4) * 1 + 1 * (0 + 1 * 0) = win0_7.index t (0 : Fin 3) * 1 + 1 * (j 0).val; omega
    | ⟨2, _⟩ => show win0_1.index (base t) (2 : Fin 4) * 512 + 1 * (0 + 1 * (j 1).val) = win0_7.index t (1 : Fin 3) * 512 + 1 * (j 1).val; omega
    | ⟨3, _⟩ => show win0_1.index (base t) (3 : Fin 4) * 512 + 1 * (0 + 1 * (j 2).val) = win0_7.index t (2 : Fin 3) * 512 + 1 * (j 2).val; omega

/-- An index of index array 0 is in point t's block iff each coordinate is in the block's range on its axis. -/
theorem mem_blk7 (t : Fin cfg0.N) (i : S4x512x512.Idx) :
    i ∈ ((cfg0.win 7).blk t).view.set ↔ ∀ a : Fin 3, win0_7.index t a * S1x512x512.size a ≤ (i a).val ∧ (i a).val < win0_7.index t a * S1x512x512.size a + S1x512x512.size a := by
  show i ∈ ((View.whole main_v2_4).slice (win0_7.rect t)).set ↔ _
  rw [View.set_slice_whole, Rect.mem_set_unit]
  exact Iff.rfl

/-- Every (view, row, column) is in the block the last point of that view's group writes back. -/
theorem cover7 (i : S4x512x512.Idx) :
    ∃ t : Fin cfg0.N, (cfg0.win 7).flush t = true ∧ i ∈ ((cfg0.win 7).blk t).view.set := by
  have h0 : (i 0).val < 4 := (i 0).isLt
  have h1 : (i 1).val < 512 := (i 1).isLt
  have h2 : (i 2).val < 512 := (i 2).isLt
  have hN : cfg0.N = 32 := N_0
  refine ⟨⟨8 * (i 0).val + 7, by omega⟩, (flush0_7 _).mpr (by show (8 * (i 0).val + 7) % 8 = 7; omega), ?_⟩
  rw [mem_blk7]
  obtain ⟨fo0, fo1, fo2⟩ := idx_facts7 ⟨8 * (i 0).val + 7, by omega⟩
  intro a
  match a with
  | ⟨0, _⟩ => show win0_7.index _ (0 : Fin 3) * 1 ≤ (i 0).val ∧ (i 0).val < win0_7.index _ (0 : Fin 3) * 1 + 1; rw [fo0]; dsimp only; omega
  | ⟨1, _⟩ => show win0_7.index _ (1 : Fin 3) * 512 ≤ (i 1).val ∧ (i 1).val < win0_7.index _ (1 : Fin 3) * 512 + 512; rw [fo1]; omega
  | ⟨2, _⟩ => show win0_7.index _ (2 : Fin 3) * 512 ≤ (i 2).val ∧ (i 2).val < win0_7.index _ (2 : Fin 3) * 512 + 512; rw [fo2]; omega

/-- Index array 0 after the run, as one function of the staged ids. -/
theorem final_7 (c : Dev nD) : (dats m 0 c).arrAt 7 cfg0.N = GI 0 (V m c main_v0) :=
  (dats m 0 c).arrAt_eq_of_cover 7 (GI 0 (V m c main_v0)) (fun t _ => flushed7_eq m c t) cover7

end Cert.KernelIdeal.HandValue

end
-- ==== Proof.KernelIdealValueIdx1.lean ====
/-
  THE INDEX ARRAY OF COORDINATE 1 AFTER THE REGION: THE VERTEX ID OF COORDINATE 1 WHERE THE PIXEL IS VALID, ELSE ZERO.

  The buffer is stored at the first point of each group of eight (batch index zero) and written back at the group's
  last point; what it holds then is what the first point stored, a function of the id block of the group's view. The
  four written blocks tile the array, which therefore ends holding GI 1 of the staged ids, index by index.
-/
import proofs.«153110_j51737176048098_1_alg».proof.Proof.KernelIdealValueCore

set_option maxRecDepth 16384

noncomputable section

namespace Cert.KernelIdeal.HandValue

open Idealize.ShloMosaic Idealize.ShloMosaic.TcCoe Idealize.ShloMosaic.Tactic
open Idealize.SL Idealize.SL.Sem
open Idealize.ShloMosaic.Pipeline (Dat)
open Idealize.ShloMosaic.ValueIdx
open Cert.KernelIdeal Cert.KernelIdeal.Gen Cert.KernelIdeal.Hand

variable {F : FTy → Type} [FloatOps F]

variable (m : (ℓ : Loc nD τ sig) → Buf (Elt Ideal) ℓ)

/-- The printed index map of the id blocks, decided once over the grid: every point of the group of view v reads
    block v of the ids. -/
theorem idx_factsI8 : ∀ t : Fin cfg0.N,
    win0_1.index t (0 : Fin 4) = 0 ∧ win0_1.index t (1 : Fin 4) = t.val / 8 ∧ win0_1.index t (2 : Fin 4) = 0 ∧ win0_1.index t (3 : Fin 4) = 0 :=
  (by decide +kernel : ∀ t : Fin grid0.N, _)

/-- The first point of a point's group of eight, as a number. -/
theorem base_val8 (t : Fin cfg0.N) : (base t).val = t.val - t.val % 8 := rfl

/-- The printed index map of index array 1, decided once over the grid: the points of the group of view v write
    block v. -/
theorem idx_facts8 : ∀ t : Fin cfg0.N,
    win0_8.index t (0 : Fin 3) = t.val / 8 ∧ win0_8.index t (1 : Fin 3) = 0 ∧ win0_8.index t (2 : Fin 3) = 0 :=
  (by decide +kernel : ∀ t : Fin grid0.N, _)

/-- What index buffer 1 holds throughout a group: what the group's first point stored, a function of that
    point's id block. -/
theorem aft8_eq (c : Dev nD) (t : Fin cfg0.N) :
    aft0_8 m c t = k0_pay6 (k0_pay9 (F := Ideal) (slab1 (iblk m c 1 (base t)))) (k0_pay11 (F := Ideal) (slab0 (iblk m c 1 (base t))) (slab1 (iblk m c 1 (base t))) (slab2 (iblk m c 1 (base t)))) := by
  unfold aft0_8 aftAt0_8
  exact out_A_8 (F := Ideal) c (grid0.coords (base t)) (ms0_0 (base t)) (hs0_0 (base t)) (ms0_1 (base t)) (hs0_1 (base t)) (ms0_2 (base t)) (hs0_2 (base t)) (ms0_3 (base t)) (hs0_3 (base t)) (ms0_4 (base t)) (hs0_4 (base t)) (ms0_5 (base t)) (hs0_5 (base t)) (ms0_6 (base t)) (hs0_6 (base t)) (ms0_7 (base t)) (hs0_7 (base t)) (ms0_8 (base t)) (hs0_8 (base t)) (ms0_9 (base t)) (hs0_9 (base t)) ((hcond0_0 (base t)).mpr (base_mod t)) (iblk m c 0 (base t)) (iblk m c 1 (base t)) (iblk m c 2 (base t))

set_option maxHeartbeats 4000000 in
/-- What a point writes back is its block of index array 1's function of the staged ids. -/
theorem flushed8_eq (c : Dev nD) (t : Fin cfg0.N) :
    (dats m 0 c).flushed 8 t = ((cfg0.win 8).blk t).view.read (Elt Ideal) (GI 1 (V m c main_v0)) := by
  show (cfg0.win 8).cut (grid0.coords t) ((dats m 0 c).after 8 t) = _
  rw [after0_8, aft8_eq]
  funext j
  show k0_pay6 (k0_pay9 (F := Ideal) (slab1 (iblk m c 1 (base t)))) (k0_pay11 (F := Ideal) (slab0 (iblk m c 1 (base t))) (slab1 (iblk m c 1 (base t))) (slab2 (iblk m c 1 (base t)))) j
    = GI 1 (V m c main_v0) (((cfg0.win 8).blk t).view.emb j)
  refine (idx1_at (slab0 (iblk m c 1 (base t))) (slab1 (iblk m c 1 (base t))) (slab2 (iblk m c 1 (base t))) j).trans ?_
  show idxSel _ _ _ _ = idxSel _ _ _ _
  obtain ⟨f10, f11, f12, f13⟩ := idx_factsI8 (base t)
  obtain ⟨fo0, fo1, fo2⟩ := idx_facts8 t
  have hb := base_val8 t
  have hj0 : (j 0).val < 1 := (j 0).isLt
  congr 1
  · show V m c main_v0 _ = V m c main_v0 _
    congr 1
    funext a; refine Fin.ext ?_
    match a with
    | ⟨0, _⟩ => show win0_1.index (base t) (0 : Fin 4) * 3 + 1 * (0 + 1 * 0) = 0; omega
    | ⟨1, _⟩ => show win0_1.index (base t) (1 : Fin 4) * 1 + 1 * (0 + 1 * 0) = win0_8.index t (0 : Fin 3) * 1 + 1 * (j 0).val; omega
    | ⟨2, _⟩ => show win0_1.index (base t) (2 : Fin 4) * 512 + 1 * (0 + 1 * (j 1).val) = win0_8.index t (1 : Fin 3) * 512 + 1 * (j 1).val; omega
    | ⟨3, _⟩ => show win0_1.index (base t) (3 : Fin 4) * 512 + 1 * (0 + 1 * (j 2).val) = win0_8.index t (2 : Fin 3) * 512 + 1 * (j 2).val; omega
  · show V m c main_v0 _ = V m c main_v0 _
    congr 1
    funext a; refine Fin.ext ?_
    match a with
    | ⟨0, _⟩ => show win0_1.index (base t) (0 : Fin 4) * 3 + 1 * (1 + 1 * 0) = 1; omega
    | ⟨1, _⟩ => show win0_1.index (base t) (1 : Fin 4) * 1 + 1 * (0 + 1 * 0) = win0_8.index t (0 : Fin 3) * 1 + 1 * (j 0).val; omega
    | ⟨2, _⟩ => show win0_1.index (base t) (2 : Fin 4) * 512 + 1 * (0 + 1 * (j 1).val) = win0_8.index t (1 : Fin 3) * 512 + 1 * (j 1).val; omega
    | ⟨3, _⟩ => show win0_1.index (base t) (3 : Fin 4) * 512 + 1 * (0 + 1 * (j 2).val) = win0_8.index t (2 : Fin 3) * 512 + 1 * (j 2).val; omega
  · show V m c main_v0 _ = V m c main_v0 _
    congr 1
    funext a; refine Fin.ext ?_
    match a with
    | ⟨0, _⟩ => show win0_1.index (base t) (0 : Fin 4) * 3 + 1 * (2 + 1 * 0) = 2; omega
    | ⟨1, _⟩ => show win0_1.index (base t) (1 : Fin 4) * 1 + 1 * (0 + 1 * 0) = win0_8.index t (0 : Fin 3) * 1 + 1 * (j 0).val; omega
    | ⟨2, _⟩ => show win0_1.index (base t) (2 : Fin 4) * 512 + 1 * (0 + 1 * (j 1).val) = win0_8.index t (1 : Fin 3) * 512 + 1 * (j 1).val; omega
    | ⟨3, _⟩ => show win0_1.index (base t) (3 : Fin 4) * 512 + 1 * (0 + 1 * (j 2).val) = win0_8.index t (2 : Fin 3) * 512 + 1 * (j 2).val; omega
  · show V m c main_v0 _ = V m c main_v0 _
    congr 1
    funext a; refine Fin.ext ?_
    match a with
    | ⟨0, _⟩ => show win0_1.index (base t) (0 : Fin 4) * 3 + 1 * (1 + 1 * 0) = 1; omega
    | ⟨1, _⟩ => show win0_1.index (base t) (1 : Fin 4) * 1 + 1 * (0 + 1 * 0) = win0_8.index t (0 : Fin 3) * 1 + 1 * (j 0).val; omega
    | ⟨2, _⟩ => show win0_1.index (base t) (2 : Fin 4) * 512 + 1 * (0 + 1 * (j 1).val) = win0_8.index t (1 : Fin 3) * 512 + 1 * (j 1).val; omega
    | ⟨3, _⟩ => show win0_1.index (base t) (3 : Fin 4) * 512 + 1 * (0 + 1 * (j 2).val) = win0_8.index t (2 : Fin 3) * 512 + 1 * (j 2).val; omega

/-- An index of index array 1 is in point t's block iff each coordinate is in the block's range on its axis. -/
theorem mem_blk8 (t : Fin cfg0.N) (i : S4x512x512.Idx) :
    i ∈ ((cfg0.win 8).blk t).view.set ↔ ∀ a : Fin 3, win0_8.index t a * S1x512x512.size a ≤ (i a).val ∧ (i a).val < win0_8.index t a * S1x512x512.size a + S1x512x512.size a := by
  show i ∈ ((View.whole main_v2_5).slice (win0_8.rect t)).set ↔ _
  rw [View.set_slice_whole, Rect.mem_set_unit]
  exact Iff.rfl

/-- Every (view, row, column) is in the block the last point of that view's group writes back. -/
theorem cover8 (i : S4x512x512.Idx) :
    ∃ t : Fin cfg0.N, (cfg0.win 8).flush t = true ∧ i ∈ ((cfg0.win 8).blk t).view.set := by
  have h0 : (i 0).val < 4 := (i 0).isLt
  have h1 : (i 1).val < 512 := (i 1).isLt
  have h2 : (i 2).val < 512 := (i 2).isLt
  have hN : cfg0.N = 32 := N_0
  refine ⟨⟨8 * (i 0).val + 7, by omega⟩, (flush0_8 _).mpr (by show (8 * (i 0).val + 7) % 8 = 7; omega), ?_⟩
  rw [mem_blk8]
  obtain ⟨fo0, fo1, fo2⟩ := idx_facts8 ⟨8 * (i 0).val + 7, by omega⟩
  intro a
  match a with
  | ⟨0, _⟩ => show win0_8.index _ (0 : Fin 3) * 1 ≤ (i 0).val ∧ (i 0).val < win0_8.index _ (0 : Fin 3) * 1 + 1; rw [fo0]; dsimp only; omega
  | ⟨1, _⟩ => show win0_8.index _ (1 : Fin 3) * 512 ≤ (i 1).val ∧ (i 1).val < win0_8.index _ (1 : Fin 3) * 512 + 512; rw [fo1]; omega
  | ⟨2, _⟩ => show win0_8.index _ (2 : Fin 3) * 512 ≤ (i 2).val ∧ (i 2).val < win0_8.index _ (2 : Fin 3) * 512 + 512; rw [fo2]; omega

/-- Index array 1 after the run, as one function of the staged ids. -/
theorem final_8 (c : Dev nD) : (dats m 0 c).arrAt 8 cfg0.N = GI 1 (V m c main_v0) :=
  (dats m 0 c).arrAt_eq_of_cover 8 (GI 1 (V m c main_v0)) (fun t _ => flushed8_eq m c t) cover8

end Cert.KernelIdeal.HandValue

end
-- ==== Proof.KernelIdealValueIdx2.lean ====
/-
  THE INDEX ARRAY OF COORDINATE 2 AFTER THE REGION: THE VERTEX ID OF COORDINATE 2 WHERE THE PIXEL IS VALID, ELSE ZERO.

  The buffer is stored at the first point of each group of eight (batch index zero) and written back at the group's
  last point; what it holds then is what the first point stored, a function of the id block of the group's view. The
  four written blocks tile the array, which therefore ends holding GI 2 of the staged ids, index by index.
-/
import proofs.«153110_j51737176048098_1_alg».proof.Proof.KernelIdealValueCore

set_option maxRecDepth 16384

noncomputable section

namespace Cert.KernelIdeal.HandValue

open Idealize.ShloMosaic Idealize.ShloMosaic.TcCoe Idealize.ShloMosaic.Tactic
open Idealize.SL Idealize.SL.Sem
open Idealize.ShloMosaic.Pipeline (Dat)
open Idealize.ShloMosaic.ValueIdx
open Cert.KernelIdeal Cert.KernelIdeal.Gen Cert.KernelIdeal.Hand

variable {F : FTy → Type} [FloatOps F]

variable (m : (ℓ : Loc nD τ sig) → Buf (Elt Ideal) ℓ)

/-- The printed index map of the id blocks, decided once over the grid: every point of the group of view v reads
    block v of the ids. -/
theorem idx_factsI9 : ∀ t : Fin cfg0.N,
    win0_1.index t (0 : Fin 4) = 0 ∧ win0_1.index t (1 : Fin 4) = t.val / 8 ∧ win0_1.index t (2 : Fin 4) = 0 ∧ win0_1.index t (3 : Fin 4) = 0 :=
  (by decide +kernel : ∀ t : Fin grid0.N, _)

/-- The first point of a point's group of eight, as a number. -/
theorem base_val9 (t : Fin cfg0.N) : (base t).val = t.val - t.val % 8 := rfl

/-- The printed index map of index array 2, decided once over the grid: the points of the group of view v write
    block v. -/
theorem idx_facts9 : ∀ t : Fin cfg0.N,
    win0_9.index t (0 : Fin 3) = t.val / 8 ∧ win0_9.index t (1 : Fin 3) = 0 ∧ win0_9.index t (2 : Fin 3) = 0 :=
  (by decide +kernel : ∀ t : Fin grid0.N, _)

/-- What index buffer 2 holds throughout a group: what the group's first point stored, a function of that
    point's id block. -/
theorem aft9_eq (c : Dev nD) (t : Fin cfg0.N) :
    aft0_9 m c t = k0_pay7 (k0_pay10 (F := Ideal) (slab2 (iblk m c 1 (base t)))) (k0_pay11 (F := Ideal) (slab0 (iblk m c 1 (base t))) (slab1 (iblk m c 1 (base t))) (slab2 (iblk m c 1 (base t)))) := by
  unfold aft0_9 aftAt0_9
  exact out_A_9 (F := Ideal) c (grid0.coords (base t)) (ms0_0 (base t)) (hs0_0 (base t)) (ms0_1 (base t)) (hs0_1 (base t)) (ms0_2 (base t)) (hs0_2 (base t)) (ms0_3 (base t)) (hs0_3 (base t)) (ms0_4 (base t)) (hs0_4 (base t)) (ms0_5 (base t)) (hs0_5 (base t)) (ms0_6 (base t)) (hs0_6 (base t)) (ms0_7 (base t)) (hs0_7 (base t)) (ms0_8 (base t)) (hs0_8 (base t)) (ms0_9 (base t)) (hs0_9 (base t)) ((hcond0_0 (base t)).mpr (base_mod t)) (iblk m c 0 (base t)) (iblk m c 1 (base t)) (iblk m c 2 (base t))

set_option maxHeartbeats 4000000 in
/-- What a point writes back is its block of index array 2's function of the staged ids. -/
theorem flushed9_eq (c : Dev nD) (t : Fin cfg0.N) :
    (dats m 0 c).flushed 9 t = ((cfg0.win 9).blk t).view.read (Elt Ideal) (GI 2 (V m c main_v0)) := by
  show (cfg0.win 9).cut (grid0.coords t) ((dats m 0 c).after 9 t) = _
  rw [after0_9, aft9_eq]
  funext j
  show k0_pay7 (k0_pay10 (F := Ideal) (slab2 (iblk m c 1 (base t)))) (k0_pay11 (F := Ideal) (slab0 (iblk m c 1 (base t))) (slab1 (iblk m c 1 (base t))) (slab2 (iblk m c 1 (base t)))) j
    = GI 2 (V m c main_v0) (((cfg0.win 9).blk t).view.emb j)
  refine (idx2_at (slab0 (iblk m c 1 (base t))) (slab1 (iblk m c 1 (base t))) (slab2 (iblk m c 1 (base t))) j).trans ?_
  show idxSel _ _ _ _ = idxSel _ _ _ _
  obtain ⟨f10, f11, f12, f13⟩ := idx_factsI9 (base t)
  obtain ⟨fo0, fo1, fo2⟩ := idx_facts9 t
  have hb := base_val9 t
  have hj0 : (j 0).val < 1 := (j 0).isLt
  congr 1
  · show V m c main_v0 _ = V m c main_v0 _
    congr 1
    funext a; refine Fin.ext ?_
    match a with
    | ⟨0, _⟩ => show win0_1.index (base t) (0 : Fin 4) * 3 + 1 * (0 + 1 * 0) = 0; omega
    | ⟨1, _⟩ => show win0_1.index (base t) (1 : Fin 4) * 1 + 1 * (0 + 1 * 0) = win0_9.index t (0 : Fin 3) * 1 + 1 * (j 0).val; omega
    | ⟨2, _⟩ => show win0_1.index (base t) (2 : Fin 4) * 512 + 1 * (0 + 1 * (j 1).val) = win0_9.index t (1 : Fin 3) * 512 + 1 * (j 1).val; omega
    | ⟨3, _⟩ => show win0_1.index (base t) (3 : Fin 4) * 512 + 1 * (0 + 1 * (j 2).val) = win0_9.index t (2 : Fin 3) * 512 + 1 * (j 2).val; omega
  · show V m c main_v0 _ = V m c main_v0 _
    congr 1
    funext a; refine Fin.ext ?_
    match a with
    | ⟨0, _⟩ => show win0_1.index (base t) (0 : Fin 4) * 3 + 1 * (1 + 1 * 0) = 1; omega
    | ⟨1, _⟩ => show win0_1.index (base t) (1 : Fin 4) * 1 + 1 * (0 + 1 * 0) = win0_9.index t (0 : Fin 3) * 1 + 1 * (j 0).val; omega
    | ⟨2, _⟩ => show win0_1.index (base t) (2 : Fin 4) * 512 + 1 * (0 + 1 * (j 1).val) = win0_9.index t (1 : Fin 3) * 512 + 1 * (j 1).val; omega
    | ⟨3, _⟩ => show win0_1.index (base t) (3 : Fin 4) * 512 + 1 * (0 + 1 * (j 2).val) = win0_9.index t (2 : Fin 3) * 512 + 1 * (j 2).val; omega
  · show V m c main_v0 _ = V m c main_v0 _
    congr 1
    funext a; refine Fin.ext ?_
    match a with
    | ⟨0, _⟩ => show win0_1.index (base t) (0 : Fin 4) * 3 + 1 * (2 + 1 * 0) = 2; omega
    | ⟨1, _⟩ => show win0_1.index (base t) (1 : Fin 4) * 1 + 1 * (0 + 1 * 0) = win0_9.index t (0 : Fin 3) * 1 + 1 * (j 0).val; omega
    | ⟨2, _⟩ => show win0_1.index (base t) (2 : Fin 4) * 512 + 1 * (0 + 1 * (j 1).val) = win0_9.index t (1 : Fin 3) * 512 + 1 * (j 1).val; omega
    | ⟨3, _⟩ => show win0_1.index (base t) (3 : Fin 4) * 512 + 1 * (0 + 1 * (j 2).val) = win0_9.index t (2 : Fin 3) * 512 + 1 * (j 2).val; omega
  · show V m c main_v0 _ = V m c main_v0 _
    congr 1
    funext a; refine Fin.ext ?_
    match a with
    | ⟨0, _⟩ => show win0_1.index (base t) (0 : Fin 4) * 3 + 1 * (2 + 1 * 0) = 2; omega
    | ⟨1, _⟩ => show win0_1.index (base t) (1 : Fin 4) * 1 + 1 * (0 + 1 * 0) = win0_9.index t (0 : Fin 3) * 1 + 1 * (j 0).val; omega
    | ⟨2, _⟩ => show win0_1.index (base t) (2 : Fin 4) * 512 + 1 * (0 + 1 * (j 1).val) = win0_9.index t (1 : Fin 3) * 512 + 1 * (j 1).val; omega
    | ⟨3, _⟩ => show win0_1.index (base t) (3 : Fin 4) * 512 + 1 * (0 + 1 * (j 2).val) = win0_9.index t (2 : Fin 3) * 512 + 1 * (j 2).val; omega

/-- An index of index array 2 is in point t's block iff each coordinate is in the block's range on its axis. -/
theorem mem_blk9 (t : Fin cfg0.N) (i : S4x512x512.Idx) :
    i ∈ ((cfg0.win 9).blk t).view.set ↔ ∀ a : Fin 3, win0_9.index t a * S1x512x512.size a ≤ (i a).val ∧ (i a).val < win0_9.index t a * S1x512x512.size a + S1x512x512.size a := by
  show i ∈ ((View.whole main_v2_6).slice (win0_9.rect t)).set ↔ _
  rw [View.set_slice_whole, Rect.mem_set_unit]
  exact Iff.rfl

/-- Every (view, row, column) is in the block the last point of that view's group writes back. -/
theorem cover9 (i : S4x512x512.Idx) :
    ∃ t : Fin cfg0.N, (cfg0.win 9).flush t = true ∧ i ∈ ((cfg0.win 9).blk t).view.set := by
  have h0 : (i 0).val < 4 := (i 0).isLt
  have h1 : (i 1).val < 512 := (i 1).isLt
  have h2 : (i 2).val < 512 := (i 2).isLt
  have hN : cfg0.N = 32 := N_0
  refine ⟨⟨8 * (i 0).val + 7, by omega⟩, (flush0_9 _).mpr (by show (8 * (i 0).val + 7) % 8 = 7; omega), ?_⟩
  rw [mem_blk9]
  obtain ⟨fo0, fo1, fo2⟩ := idx_facts9 ⟨8 * (i 0).val + 7, by omega⟩
  intro a
  match a with
  | ⟨0, _⟩ => show win0_9.index _ (0 : Fin 3) * 1 ≤ (i 0).val ∧ (i 0).val < win0_9.index _ (0 : Fin 3) * 1 + 1; rw [fo0]; dsimp only; omega
  | ⟨1, _⟩ => show win0_9.index _ (1 : Fin 3) * 512 ≤ (i 1).val ∧ (i 1).val < win0_9.index _ (1 : Fin 3) * 512 + 512; rw [fo1]; omega
  | ⟨2, _⟩ => show win0_9.index _ (2 : Fin 3) * 512 ≤ (i 2).val ∧ (i 2).val < win0_9.index _ (2 : Fin 3) * 512 + 512; rw [fo2]; omega

/-- Index array 2 after the run, as one function of the staged ids. -/
theorem final_9 (c : Dev nD) : (dats m 0 c).arrAt 9 cfg0.N = GI 2 (V m c main_v0) :=
  (dats m 0 c).arrAt_eq_of_cover 9 (GI 2 (V m c main_v0)) (fun t _ => flushed9_eq m c t) cover9

end Cert.KernelIdeal.HandValue

end
-- ==== Proof.KernelIdealValue.lean ====
/-
  THE VALUE LEG OF THE IDEALIZED KERNEL'S REGION: every output array as one function of the three staged arrays.

  final_3 (the mask), final_4, final_5, final_6 (the three weighted arrays), final_7, final_8, final_9 (the three
  index arrays): each array of the region's proof data ends holding its whole-array function G3, GW k, GI k of the
  segmentation maps, the ids and the weights as the region finds them.
-/
import proofs.«153110_j51737176048098_1_alg».proof.Proof.KernelIdealValueMask
import proofs.«153110_j51737176048098_1_alg».proof.Proof.KernelIdealValueWgt0
import proofs.«153110_j51737176048098_1_alg».proof.Proof.KernelIdealValueWgt1
import proofs.«153110_j51737176048098_1_alg».proof.Proof.KernelIdealValueWgt2
import proofs.«153110_j51737176048098_1_alg».proof.Proof.KernelIdealValueIdx0
import proofs.«153110_j51737176048098_1_alg».proof.Proof.KernelIdealValueIdx1
import proofs.«153110_j51737176048098_1_alg».proof.Proof.KernelIdealValueIdx2
-- ==== Proof.BridgeKernel.lean ====
import proofs.«153110_j51737176048098_1_alg».proof.Proof.Result
import proofs.«153110_j51737176048098_1_alg».proof.Proof.KernelIdealTail
import proofs.«153110_j51737176048098_1_alg».proof.Proof.KernelIdealArrays
import proofs.«153110_j51737176048098_1_alg».proof.Proof.KernelIdealValue

set_option maxRecDepth 16384

noncomputable section

namespace Cert.Proof.Bridge

open Idealize.ShloMosaic Idealize.ShloMosaic.TcCoe Idealize.SL.Sem Idealize.ShloMosaic.ValueIdx
open Cert.Spec
open Cert.KernelIdeal Cert.KernelIdeal.Gen Cert.KernelIdeal.Hand Cert.KernelIdeal.HandTail Cert.KernelIdeal.HandValue

/-! ## The kernel's program ends with the common result

The region's seven arrays, flattened over pixels, are the scatters' operands; the program's zero operand is the
array of zeros; and the host's accumulating scatter is, on extended reals, the exact sum. -/

theorem zero_eq : HandTail.zero = zeros := by
  funext i
  unfold HandTail.zero
  rw [broadcastInDim_apply (![] : Fin 0 → Fin 2) bcast_S_S8x6890 _ i ix0 (fun a => a.elim0)]
  rfl

/-- On extended reals the host's accumulating scatter is the exact sum (stated over any shapes, so that it is never
    opened at the program's extents). -/
theorem scatterAdd_ideal {s si su : Shape} {w : Nat} (d : ScatterDims s si su) (x : FVec Ideal s .f32) (i : IVec si w)
    (u : FVec Ideal su .f32) : Host.scatterAdd d x i u = Ideal.hostScatterAdd d x i u := rfl

/-- The program's triple scatter of flattened arrays, with the specification's operands in place. -/
theorem scat3_spec (x1 : IVec ⟨4, ![4, 512, 512, 3]⟩ 32) (u : Fin 3 → FVec Ideal ⟨2, ![8, 1048576]⟩ .f32)
    (i0 i1 i2 : IVec S4x512x512 32) (u0 u1 u2 : FVec Ideal S8x4x512x512 .f32)
    (hi0 : wrapIdx i0 = specIdx x1 0) (hi1 : wrapIdx i1 = specIdx x1 1) (hi2 : wrapIdx i2 = specIdx x1 2)
    (hu0 : flat u0 = u 0) (hu1 : flat u1 = u 1) (hu2 : flat u2 = u 2) (hz : HandTail.zero = zeros) :
    scat3 i0 i1 i2 u0 u1 u2 = sum3 x1 u := by
  unfold scat3 sum3
  rw [hi0, hi1, hi2, hu0, hu1, hu2, hz]
  rw [scatterAdd_ideal, scatterAdd_ideal, scatterAdd_ideal]

variable (m : (ℓ : Loc nD τ sig) → Buf (Elt Ideal) ℓ)

theorem kernel_result (c : Dev nD) :
    Pipeline.afterTail₀ cfgs (dats m) 0 (V0 m) tailOps c main_v62
      = result (m ((c.tc : Thread nD τ).loc main_arg0)) (m ((c.tc : Thread nD τ).loc main_arg1)) (m ((c.tc : Thread nD τ).loc main_arg2)) := by
  have e0 : WV m c (Proc.devRef .tc main_v2_0) = G3 (V m c main_arg0) (V m c main_v0) :=
    (Pipeline.withArrays_arr spec0 launch0.win.arr_inj c _ _ 3).trans (final_3 m c)
  have e1 : WV m c (Proc.devRef .tc main_v2_1) = GW 0 (V m c main_arg0) (V m c main_v0) (V m c main_v1) :=
    (Pipeline.withArrays_arr spec0 launch0.win.arr_inj c _ _ 4).trans (final_4 m c)
  have e2 : WV m c (Proc.devRef .tc main_v2_2) = GW 1 (V m c main_arg0) (V m c main_v0) (V m c main_v1) :=
    (Pipeline.withArrays_arr spec0 launch0.win.arr_inj c _ _ 5).trans (final_5 m c)
  have e3 : WV m c (Proc.devRef .tc main_v2_3) = GW 2 (V m c main_arg0) (V m c main_v0) (V m c main_v1) :=
    (Pipeline.withArrays_arr spec0 launch0.win.arr_inj c _ _ 6).trans (final_6 m c)
  have e4 : WV m c (Proc.devRef .tc main_v2_4) = GI 0 (V m c main_v0) :=
    (Pipeline.withArrays_arr spec0 launch0.win.arr_inj c _ _ 7).trans (final_7 m c)
  have e5 : WV m c (Proc.devRef .tc main_v2_5) = GI 1 (V m c main_v0) :=
    (Pipeline.withArrays_arr spec0 launch0.win.arr_inj c _ _ 8).trans (final_8 m c)
  have e6 : WV m c (Proc.devRef .tc main_v2_6) = GI 2 (V m c main_v0) :=
    (Pipeline.withArrays_arr spec0 launch0.win.arr_inj c _ _ 9).trans (final_9 m c)
  have hp : predOf (WV m c) = sum3 (m ((c.tc : Thread nD τ).loc main_arg1)) (fun k => specW (m ((c.tc : Thread nD τ).loc main_arg0)) (m ((c.tc : Thread nD τ).loc main_arg1)) (m ((c.tc : Thread nD τ).loc main_arg2)) k) :=
    scat3_spec _ _ _ _ _ _ _ _ (by rw [e4]; exact wrapIdx_GI m c 0) (by rw [e5]; exact wrapIdx_GI m c 1) (by rw [e6]; exact wrapIdx_GI m c 2)
      (by rw [e1]; exact flat_GW m c 0) (by rw [e2]; exact flat_GW m c 1) (by rw [e3]; exact flat_GW m c 2) zero_eq
  have hc : countOf (WV m c) = sum3 (m ((c.tc : Thread nD τ).loc main_arg1)) (fun _ => specE (m ((c.tc : Thread nD τ).loc main_arg0)) (m ((c.tc : Thread nD τ).loc main_arg1))) :=
    scat3_spec _ _ _ _ _ _ _ _ (by rw [e4]; exact wrapIdx_GI m c 0) (by rw [e5]; exact wrapIdx_GI m c 1) (by rw [e6]; exact wrapIdx_GI m c 2)
      (by rw [e0]; exact flat_G3 m c) (by rw [e0]; exact flat_G3 m c) (by rw [e0]; exact flat_G3 m c) zero_eq
  rw [res_open, hp, hc]
  rfl

end Cert.Proof.Bridge

end
-- ==== Proof.LibScatterSplit.lean ====
/-
  ONE ACCUMULATING SCATTER OF THREE INTERLEAVED ARRAYS IS THREE SCATTERS IN TURN (at the ideal instance).

  An accumulating scatter along rows adds, to element (b, v) of a [B, V] operand, every update element (b, q) of a
  [B, N] update array whose index entry q of an [N, 1] index array, read as a signed integer, is v; an entry outside
  [0, V) lands nowhere. At the ideal instance the elements are extended reals and the result is the operand's element
  plus the sum of the updates landing on it.

  If a long axis of extent 3N interleaves three arrays of extent N (position 3p + k holds entry p of the k-th), the
  sum over the long axis splits, by the bijection (p, k) to 3p + k, into the three sums over p; addition of extended
  reals is commutative and associative, so the one scatter over the long axis equals the three scatters applied one
  after the other, whatever the values and whatever the indices (colliding, negative or out of range included).

  The statements: the coordinate reading of the landing condition (resultIdx?_eq_some_iff for any dimension numbers,
  resultIdx?_rows for a scatter along rows), the scatter read at one element (hostScatterAdd_rows_apply), the
  bijection (interleave3), the split of the row sum (rowSum_interleave3) and the theorem in four forms: general
  extents or the extents 8, 6890, 1048576, 3145728; the three arrays as a family over k or named one by one.
-/
import Idealize.ShloMosaic.Lib.ValueIdx

noncomputable section

open scoped BigOperators

namespace Cert.Lib.ScatterSplit

open Idealize.ShloMosaic Idealize.ShloMosaic.ValueIdx

/-- An update index lands on a result index exactly when, on every operand axis, the result coordinate is the
    start plus the window coordinate. -/
theorem resultIdx?_eq_some_iff {s si u : Shape} (d : ScatterDims s si u) {w : Nat} (j : u.Idx) (idx : IVec si w)
    (i : s.Idx) :
    d.resultIdx? j idx = some i ↔ ∀ a, ((i a).val : Int) = d.start j idx a + d.window j a := by
  unfold ScatterDims.resultIdx?
  split_ifs with h
  · constructor
    · intro heq a
      have := Option.some.inj heq
      subst this
      show ((d.start j idx a + d.window j a).toNat : Int) = _
      exact Int.toNat_of_nonneg (h a).1
    · intro heq
      congr 1
      funext a
      refine Fin.ext ?_
      show (d.start j idx a + d.window j a).toNat = (i a).val
      have := heq a
      omega
  · constructor
    · intro heq
      exact absurd heq (by simp)
    · intro heq
      exfalso
      apply h
      intro a
      have := heq a
      have := (i a).isLt
      omega

/-- A scatter along rows (update window axis 0, inserted operand axis 1, the one start component going to operand
    axis 1, the index vector on axis 1 of an [N, 1] index array): update position (b, q) lands on result element
    (b', v) exactly when b' = b and v is entry q of the index array read as a signed integer. -/
theorem resultIdx?_rows {B V N w : Nat}
    (d : ScatterDims ⟨2, ![B, V]⟩ ⟨2, ![N, 1]⟩ ⟨2, ![B, N]⟩)
    (hu : d.updateWindowDims = [0]) (hi : d.insertedWindowDims = [1])
    (hs : d.scatterDimsToOperandDims = [1]) (hv : d.indexVectorDim = 1)
    (idx : IVec ⟨2, ![N, 1]⟩ w) (j : (⟨2, ![B, N]⟩ : Shape).Idx) (i : (⟨2, ![B, V]⟩ : Shape).Idx) :
    d.resultIdx? j idx = some i ↔
      (i 0).val = (j 0).val ∧ ((i 1).val : Int) = (idx (ix2 (j 1) 0)).toInt := by
  obtain ⟨uw, iw, sd, iv, wf⟩ := d
  simp only at hu hi hs hv
  subst hu hi hs hv
  rw [resultIdx?_eq_some_iff]
  have hs0 : (⟨[0], [1], [1], 1, wf⟩ : ScatterDims ⟨2, ![B, V]⟩ ⟨2, ![N, 1]⟩ ⟨2, ![B, N]⟩).start j idx 0 = 0 := by
    unfold ScatterDims.start
    rw [dif_neg (show (0 : Fin 2) ∉ [1] by decide)]
  have hs1 : (⟨[0], [1], [1], 1, wf⟩ : ScatterDims ⟨2, ![B, V]⟩ ⟨2, ![N, 1]⟩ ⟨2, ![B, N]⟩).start j idx 1
      = (idx (ix2 (j 1) 0)).toInt := by
    unfold ScatterDims.start
    rw [dif_pos (show (1 : Fin 2) ∈ [1] from List.mem_singleton.mpr rfl)]
    congr 2
    funext b; refine Fin.ext ?_
    match b with
    | ⟨0, _⟩ => rfl
    | ⟨1, _⟩ => rfl
  have hw0 : (⟨[0], [1], [1], 1, wf⟩ : ScatterDims ⟨2, ![B, V]⟩ ⟨2, ![N, 1]⟩ ⟨2, ![B, N]⟩).window j 0 = (j 0).val := by
    have hp : (0 : Fin 2) ∈ (⟨[0], [1], [1], 1, wf⟩ : ScatterDims ⟨2, ![B, V]⟩ ⟨2, ![N, 1]⟩ ⟨2, ![B, N]⟩).sKept := by
      show (0 : Fin 2) ∈ (List.finRange 2).filter (· ∉ [(1 : Fin 2)])
      decide
    unfold ScatterDims.window
    rw [dif_pos hp]
    rfl
  have hw1 : (⟨[0], [1], [1], 1, wf⟩ : ScatterDims ⟨2, ![B, V]⟩ ⟨2, ![N, 1]⟩ ⟨2, ![B, N]⟩).window j 1 = 0 := by
    have hn : (1 : Fin 2) ∉ (⟨[0], [1], [1], 1, wf⟩ : ScatterDims ⟨2, ![B, V]⟩ ⟨2, ![N, 1]⟩ ⟨2, ![B, N]⟩).sKept := by
      show (1 : Fin 2) ∉ (List.finRange 2).filter (· ∉ [(1 : Fin 2)])
      decide
    unfold ScatterDims.window
    rw [dif_neg hn]
  constructor
  · intro h
    have h0 := h 0
    have h1 := h 1
    rw [hs0, hw0] at h0
    rw [hs1, hw1] at h1
    refine ⟨by omega, by omega⟩
  · rintro ⟨h0, h1⟩
    have k0 : ((i 0).val : Int) = (⟨[0], [1], [1], 1, wf⟩ : ScatterDims ⟨2, ![B, V]⟩ ⟨2, ![N, 1]⟩ ⟨2, ![B, N]⟩).start j idx 0
        + (⟨[0], [1], [1], 1, wf⟩ : ScatterDims ⟨2, ![B, V]⟩ ⟨2, ![N, 1]⟩ ⟨2, ![B, N]⟩).window j 0 := by
      rw [hs0, hw0]; omega
    have k1 : ((i 1).val : Int) = (⟨[0], [1], [1], 1, wf⟩ : ScatterDims ⟨2, ![B, V]⟩ ⟨2, ![N, 1]⟩ ⟨2, ![B, N]⟩).start j idx 1
        + (⟨[0], [1], [1], 1, wf⟩ : ScatterDims ⟨2, ![B, V]⟩ ⟨2, ![N, 1]⟩ ⟨2, ![B, N]⟩).window j 1 := by
      rw [hs1, hw1]; omega
    intro a
    match a with
    | ⟨0, _⟩ => exact k0
    | ⟨1, _⟩ => exact k1

/-- The amount a scatter along rows adds to result element i: the sum, over the update positions (b, q), of the
    updates whose row b is i's row and whose index entry q, read as a signed integer, is i's column. -/
def rowSum {B V N w : Nat} (idx : IVec ⟨2, ![N, 1]⟩ w) (upd : (⟨2, ![B, N]⟩ : Shape).Idx → EReal)
    (i : (⟨2, ![B, V]⟩ : Shape).Idx) : EReal :=
  ∑ b : Fin B, ∑ q : Fin N,
    if (i 0).val = b.val ∧ ((i 1).val : Int) = (idx (ix2 q 0)).toInt then upd (ix2 b q) else 0

/-- An accumulating scatter along rows, read at one result element: the operand's element plus rowSum. -/
theorem hostScatterAdd_rows_apply {B V N w : Nat}
    (d : ScatterDims ⟨2, ![B, V]⟩ ⟨2, ![N, 1]⟩ ⟨2, ![B, N]⟩)
    (hu : d.updateWindowDims = [0]) (hi : d.insertedWindowDims = [1])
    (hs : d.scatterDimsToOperandDims = [1]) (hv : d.indexVectorDim = 1)
    (x : (⟨2, ![B, V]⟩ : Shape).Idx → EReal) (idx : IVec ⟨2, ![N, 1]⟩ w)
    (upd : (⟨2, ![B, N]⟩ : Shape).Idx → EReal) (i : (⟨2, ![B, V]⟩ : Shape).Idx) :
    Ideal.hostScatterAdd d x idx upd i = x i + rowSum idx upd i := by
  show x i + _ = x i + _
  congr 1
  unfold rowSum
  rw [Finset.sum_filter, sum_idx2]
  refine Finset.sum_congr rfl fun b _ => Finset.sum_congr rfl fun q _ => ?_
  exact if_congr (resultIdx?_rows d hu hi hs hv idx (ix2 b q) i) rfl rfl

/-- The long axis of extent 3N as N groups of three: (p, k) goes to 3p + k. -/
def interleave3 {N N3 : Nat} (h3 : N3 = 3 * N) : Fin N × Fin 3 ≃ Fin N3 where
  toFun x := ⟨3 * x.1.val + x.2.val, by omega⟩
  invFun q := (⟨q.val / 3, by omega⟩, ⟨q.val % 3, by omega⟩)
  left_inv x := by
    obtain ⟨p, k⟩ := x
    refine Prod.ext (Fin.ext ?_) (Fin.ext ?_)
    · show (3 * p.val + k.val) / 3 = p.val
      omega
    · show (3 * p.val + k.val) % 3 = k.val
      omega
  right_inv q := by
    refine Fin.ext ?_
    show 3 * (q.val / 3) + q.val % 3 = q.val
    omega

/-- The row sum of three interleaved index and update arrays is the sum of the three row sums. -/
theorem rowSum_interleave3 {B V N N3 w : Nat} (h3 : N3 = 3 * N)
    (I : IVec ⟨2, ![N3, 1]⟩ w) (U : (⟨2, ![B, N3]⟩ : Shape).Idx → EReal)
    (Ik : Fin 3 → IVec ⟨2, ![N, 1]⟩ w) (Uk : Fin 3 → (⟨2, ![B, N]⟩ : Shape).Idx → EReal)
    (hI : ∀ (p : Fin N) (k : Fin 3), I (ix2 (⟨3 * p.val + k.val, by omega⟩ : Fin N3) 0) = Ik k (ix2 p 0))
    (hU : ∀ (b : Fin B) (p : Fin N) (k : Fin 3),
      U (ix2 b (⟨3 * p.val + k.val, by omega⟩ : Fin N3)) = Uk k (ix2 b p))
    (i : (⟨2, ![B, V]⟩ : Shape).Idx) :
    rowSum I U i = rowSum (Ik 0) (Uk 0) i + rowSum (Ik 1) (Uk 1) i + rowSum (Ik 2) (Uk 2) i := by
  unfold rowSum
  simp only [← Finset.sum_add_distrib]
  refine Finset.sum_congr rfl fun b _ => ?_
  rw [← Equiv.sum_comp (interleave3 h3), Fintype.sum_prod_type]
  refine Finset.sum_congr rfl fun p _ => ?_
  rw [Fin.sum_univ_three]
  have hI' : ∀ k : Fin 3, I (ix2 (interleave3 h3 (p, k)) 0) = Ik k (ix2 p 0) := fun k => hI p k
  have hU' : ∀ k : Fin 3, U (ix2 b (interleave3 h3 (p, k))) = Uk k (ix2 b p) := fun k => hU b p k
  rw [hI' 0, hI' 1, hI' 2, hU' 0, hU' 1, hU' 2]

/-- ONE accumulating scatter along rows of three interleaved index and update arrays is the three scatters one after
    the other: position 3p + k of the long axis holds entry p of the k-th index array and column p of the k-th update
    array. Extended-real addition is commutative and associative, so nothing is asked of the values. -/
theorem hostScatterAdd_interleave3 {B V N N3 w : Nat} (h3 : N3 = 3 * N)
    (d1 : ScatterDims ⟨2, ![B, V]⟩ ⟨2, ![N, 1]⟩ ⟨2, ![B, N]⟩)
    (d3 : ScatterDims ⟨2, ![B, V]⟩ ⟨2, ![N3, 1]⟩ ⟨2, ![B, N3]⟩)
    (hd1u : d1.updateWindowDims = [0]) (hd1i : d1.insertedWindowDims = [1])
    (hd1s : d1.scatterDimsToOperandDims = [1]) (hd1v : d1.indexVectorDim = 1)
    (hd3u : d3.updateWindowDims = [0]) (hd3i : d3.insertedWindowDims = [1])
    (hd3s : d3.scatterDimsToOperandDims = [1]) (hd3v : d3.indexVectorDim = 1)
    (I : IVec ⟨2, ![N3, 1]⟩ w) (U : (⟨2, ![B, N3]⟩ : Shape).Idx → EReal)
    (Ik : Fin 3 → IVec ⟨2, ![N, 1]⟩ w) (Uk : Fin 3 → (⟨2, ![B, N]⟩ : Shape).Idx → EReal)
    (hI : ∀ (p : Fin N) (k : Fin 3), I (ix2 (⟨3 * p.val + k.val, by omega⟩ : Fin N3) 0) = Ik k (ix2 p 0))
    (hU : ∀ (b : Fin B) (p : Fin N) (k : Fin 3),
      U (ix2 b (⟨3 * p.val + k.val, by omega⟩ : Fin N3)) = Uk k (ix2 b p))
    (z : (⟨2, ![B, V]⟩ : Shape).Idx → EReal) :
    Ideal.hostScatterAdd d3 z I U =
      Ideal.hostScatterAdd d1 (Ideal.hostScatterAdd d1 (Ideal.hostScatterAdd d1 z (Ik 0) (Uk 0)) (Ik 1) (Uk 1))
        (Ik 2) (Uk 2) := by
  funext i
  rw [hostScatterAdd_rows_apply d3 hd3u hd3i hd3s hd3v, hostScatterAdd_rows_apply d1 hd1u hd1i hd1s hd1v,
    hostScatterAdd_rows_apply d1 hd1u hd1i hd1s hd1v, hostScatterAdd_rows_apply d1 hd1u hd1i hd1s hd1v,
    rowSum_interleave3 h3 I U Ik Uk hI hU i]
  simp only [add_assoc]

/-- The same with the three index arrays and the three update arrays named one by one: positions 3p, 3p + 1 and
    3p + 2 of the long axis hold entry p (column p) of the first, the second and the third. -/
theorem hostScatterAdd_interleave3_each {B V N N3 w : Nat} (h3 : N3 = 3 * N)
    (d1 : ScatterDims ⟨2, ![B, V]⟩ ⟨2, ![N, 1]⟩ ⟨2, ![B, N]⟩)
    (d3 : ScatterDims ⟨2, ![B, V]⟩ ⟨2, ![N3, 1]⟩ ⟨2, ![B, N3]⟩)
    (hd1u : d1.updateWindowDims = [0]) (hd1i : d1.insertedWindowDims = [1])
    (hd1s : d1.scatterDimsToOperandDims = [1]) (hd1v : d1.indexVectorDim = 1)
    (hd3u : d3.updateWindowDims = [0]) (hd3i : d3.insertedWindowDims = [1])
    (hd3s : d3.scatterDimsToOperandDims = [1]) (hd3v : d3.indexVectorDim = 1)
    (I : IVec ⟨2, ![N3, 1]⟩ w) (U : (⟨2, ![B, N3]⟩ : Shape).Idx → EReal)
    (I0 I1 I2 : IVec ⟨2, ![N, 1]⟩ w) (U0 U1 U2 : (⟨2, ![B, N]⟩ : Shape).Idx → EReal)
    (hI0 : ∀ p : Fin N, I (ix2 (⟨3 * p.val, by omega⟩ : Fin N3) 0) = I0 (ix2 p 0))
    (hI1 : ∀ p : Fin N, I (ix2 (⟨3 * p.val + 1, by omega⟩ : Fin N3) 0) = I1 (ix2 p 0))
    (hI2 : ∀ p : Fin N, I (ix2 (⟨3 * p.val + 2, by omega⟩ : Fin N3) 0) = I2 (ix2 p 0))
    (hU0 : ∀ (b : Fin B) (p : Fin N), U (ix2 b (⟨3 * p.val, by omega⟩ : Fin N3)) = U0 (ix2 b p))
    (hU1 : ∀ (b : Fin B) (p : Fin N), U (ix2 b (⟨3 * p.val + 1, by omega⟩ : Fin N3)) = U1 (ix2 b p))
    (hU2 : ∀ (b : Fin B) (p : Fin N), U (ix2 b (⟨3 * p.val + 2, by omega⟩ : Fin N3)) = U2 (ix2 b p))
    (z : (⟨2, ![B, V]⟩ : Shape).Idx → EReal) :
    Ideal.hostScatterAdd d3 z I U =
      Ideal.hostScatterAdd d1 (Ideal.hostScatterAdd d1 (Ideal.hostScatterAdd d1 z I0 U0) I1 U1) I2 U2 :=
  hostScatterAdd_interleave3 h3 d1 d3 hd1u hd1i hd1s hd1v hd3u hd3i hd3s hd3v I U ![I0, I1, I2] ![U0, U1, U2]
    (fun p k => match k with
      | ⟨0, _⟩ => hI0 p
      | ⟨1, _⟩ => hI1 p
      | ⟨2, _⟩ => hI2 p)
    (fun b p k => match k with
      | ⟨0, _⟩ => hU0 b p
      | ⟨1, _⟩ => hU1 b p
      | ⟨2, _⟩ => hU2 b p) z

/-- The interleaving theorem at the extents 8, 6890, 1048576 and 3145728 = 3 · 1048576, the three index arrays and
    the three update arrays given as families over k. -/
theorem hostScatterAdd_interleave3_lit {w : Nat}
    (d1 : ScatterDims ⟨2, ![8, 6890]⟩ ⟨2, ![1048576, 1]⟩ ⟨2, ![8, 1048576]⟩)
    (d3 : ScatterDims ⟨2, ![8, 6890]⟩ ⟨2, ![3145728, 1]⟩ ⟨2, ![8, 3145728]⟩)
    (hd1u : d1.updateWindowDims = [0]) (hd1i : d1.insertedWindowDims = [1])
    (hd1s : d1.scatterDimsToOperandDims = [1]) (hd1v : d1.indexVectorDim = 1)
    (hd3u : d3.updateWindowDims = [0]) (hd3i : d3.insertedWindowDims = [1])
    (hd3s : d3.scatterDimsToOperandDims = [1]) (hd3v : d3.indexVectorDim = 1)
    (I : IVec ⟨2, ![3145728, 1]⟩ w) (U : (⟨2, ![8, 3145728]⟩ : Shape).Idx → EReal)
    (Ik : Fin 3 → IVec ⟨2, ![1048576, 1]⟩ w) (Uk : Fin 3 → (⟨2, ![8, 1048576]⟩ : Shape).Idx → EReal)
    (hI : ∀ (p : Fin 1048576) (k : Fin 3),
      I (ix2 (⟨3 * p.val + k.val, by omega⟩ : Fin 3145728) 0) = Ik k (ix2 p 0))
    (hU : ∀ (b : Fin 8) (p : Fin 1048576) (k : Fin 3),
      U (ix2 b (⟨3 * p.val + k.val, by omega⟩ : Fin 3145728)) = Uk k (ix2 b p))
    (z : (⟨2, ![8, 6890]⟩ : Shape).Idx → EReal) :
    Ideal.hostScatterAdd d3 z I U =
      Ideal.hostScatterAdd d1 (Ideal.hostScatterAdd d1 (Ideal.hostScatterAdd d1 z (Ik 0) (Uk 0)) (Ik 1) (Uk 1))
        (Ik 2) (Uk 2) :=
  hostScatterAdd_interleave3 (by norm_num) d1 d3 hd1u hd1i hd1s hd1v hd3u hd3i hd3s hd3v I U Ik Uk hI hU z

/-- The interleaving theorem at the extents 8, 6890, 1048576 and 3145728 = 3 · 1048576, the three index arrays and
    the three update arrays named one by one. -/
theorem hostScatterAdd_interleave3_each_lit {w : Nat}
    (d1 : ScatterDims ⟨2, ![8, 6890]⟩ ⟨2, ![1048576, 1]⟩ ⟨2, ![8, 1048576]⟩)
    (d3 : ScatterDims ⟨2, ![8, 6890]⟩ ⟨2, ![3145728, 1]⟩ ⟨2, ![8, 3145728]⟩)
    (hd1u : d1.updateWindowDims = [0]) (hd1i : d1.insertedWindowDims = [1])
    (hd1s : d1.scatterDimsToOperandDims = [1]) (hd1v : d1.indexVectorDim = 1)
    (hd3u : d3.updateWindowDims = [0]) (hd3i : d3.insertedWindowDims = [1])
    (hd3s : d3.scatterDimsToOperandDims = [1]) (hd3v : d3.indexVectorDim = 1)
    (I : IVec ⟨2, ![3145728, 1]⟩ w) (U : (⟨2, ![8, 3145728]⟩ : Shape).Idx → EReal)
    (I0 I1 I2 : IVec ⟨2, ![1048576, 1]⟩ w) (U0 U1 U2 : (⟨2, ![8, 1048576]⟩ : Shape).Idx → EReal)
    (hI0 : ∀ p : Fin 1048576, I (ix2 (⟨3 * p.val, by omega⟩ : Fin 3145728) 0) = I0 (ix2 p 0))
    (hI1 : ∀ p : Fin 1048576, I (ix2 (⟨3 * p.val + 1, by omega⟩ : Fin 3145728) 0) = I1 (ix2 p 0))
    (hI2 : ∀ p : Fin 1048576, I (ix2 (⟨3 * p.val + 2, by omega⟩ : Fin 3145728) 0) = I2 (ix2 p 0))
    (hU0 : ∀ (b : Fin 8) (p : Fin 1048576), U (ix2 b (⟨3 * p.val, by omega⟩ : Fin 3145728)) = U0 (ix2 b p))
    (hU1 : ∀ (b : Fin 8) (p : Fin 1048576), U (ix2 b (⟨3 * p.val + 1, by omega⟩ : Fin 3145728)) = U1 (ix2 b p))
    (hU2 : ∀ (b : Fin 8) (p : Fin 1048576), U (ix2 b (⟨3 * p.val + 2, by omega⟩ : Fin 3145728)) = U2 (ix2 b p))
    (z : (⟨2, ![8, 6890]⟩ : Shape).Idx → EReal) :
    Ideal.hostScatterAdd d3 z I U =
      Ideal.hostScatterAdd d1 (Ideal.hostScatterAdd d1 (Ideal.hostScatterAdd d1 z I0 U0) I1 U1) I2 U2 :=
  hostScatterAdd_interleave3_each (by norm_num) d1 d3 hd1u hd1i hd1s hd1v hd3u hd3i hd3s hd3v I U I0 I1 I2 U0 U1 U2
    hI0 hI1 hI2 hU0 hU1 hU2 z

end Cert.Lib.ScatterSplit
-- ==== Proof.RefStages.lean ====
import proofs.«153110_j51737176048098_1_alg».proof.Proof.RefReadP
import proofs.«153110_j51737176048098_1_alg».proof.Proof.Spec
import Idealize.ShloMosaic.PureOps.Reduce
import Idealize.ShloMosaic.Lib.ValueIdx

/-!
# The reference's scatter operands, against the specification

The reference flattens the `[4, 512, 512, 3]` ids and the `[8, 4, 512, 512, 3]` products and masks, so that position
`3 * p + k` of a flat array belongs to coordinate `k` of pixel `p`. Read there, its index array is the
specification's index for `(p, k)`, its weighted updates are weight times mask (the specification's mask times
weight: multiplication of extended reals commutes), its count updates are the mask, and both scatters start from
zero. The validity bit is an and-reduce over the coordinate axis from `true`: a conjunction over a set, which is `1`
exactly when every member is, so it is the specification's conjunction of the three range tests. The flat index
arithmetic is division and remainder by the literal extents. The last stage is the common tail of the two scattered
sums.
-/

noncomputable section

namespace Cert.ReferenceIdeal.RefValue

open Cert.ReferenceIdeal Cert.ReferenceIdeal.Gen Cert.ReferenceIdeal.ReadP Idealize.ShloMosaic Idealize.ShloMosaic.TcCoe
  Idealize.SL.Sem Idealize.ShloMosaic.StableHlo Idealize.ShloMosaic.ValueIdx

/-! ## A conjunction over a finite set -/

/-- A conjunction of bits over a finite set, started from `init`, is `1` exactly when `init` and every member are. -/
theorem fold_andi_eq_one {ι : Type} [DecidableEq ι] (s : Finset ι) (f : ι → BitVec 1) (init : BitVec 1) :
    s.fold IntOp.andi init f = 1#1 ↔ init = 1#1 ∧ ∀ k ∈ s, f k = 1#1 := by
  refine Finset.induction_on s ?_ ?_
  · simp
  · intro a s ha ih
    rw [Finset.fold_insert ha, Cert.Spec.andi_eq_one, ih]
    constructor
    · rintro ⟨h1, h2, h3⟩
      refine ⟨h2, fun k hk => ?_⟩
      rcases Finset.mem_insert.1 hk with rfl | hk
      · exact h1
      · exact h3 k hk
    · rintro ⟨h1, h2⟩
      exact ⟨h2 a (Finset.mem_insert_self a s), h1, fun k hk => h2 k (Finset.mem_insert_of_mem hk)⟩

/-! ## Pixels and flat positions -/

/-- The `(v, h, w)` entry of a `[4, 512, 512]` array for the pixel `p = (v * 512 + h) * 512 + w`. -/
abbrev pix3 (p : Fin 1048576) : S4x512x512.Idx :=
  ix3 (⟨p.val / 262144, by have := p.isLt; omega⟩ : Fin 4) (⟨p.val / 512 % 512, by omega⟩ : Fin 512)
    (⟨p.val % 512, by omega⟩ : Fin 512)

/-- Position `3 * p + k` of the flattened `[4, 512, 512, 3]` array: coordinate `k` of pixel `p`. -/
abbrev flat (p : Fin 1048576) (k : Fin 3) : Fin 3145728 :=
  ⟨3 * p.val + k.val, by have := p.isLt; have := k.isLt; omega⟩

/-! ## The validity test: a conjunction over the coordinate axis -/

/-- Dropping the last axis of `[4, 512, 512, 3]` leaves `[4, 512, 512]`. -/
theorem red3 : S4x512x512x3.Reduces [3] S4x512x512 := by decide

/-- The index over `(v, h, w)` with `k` inserted on the dropped axis is `(v, h, w, k)`. -/
theorem lift_red3 (v : Fin 4) (h : Fin 512) (w : Fin 512) (k : Fin 3) :
    Shape.Reduces.lift red3 (ix3 v h w) k = ix4 v h w k := by
  funext a
  apply Fin.ext
  match a with
  | ⟨0, _⟩ => rfl
  | ⟨1, _⟩ => rfl
  | ⟨2, _⟩ => rfl
  | ⟨3, _⟩ => rfl

/-- One term of the conjunction: the range test of the id at `(v, h, w, k)`. -/
theorem v4_lift (x1 : (⟨S4x512x512x3, .i32⟩ : BufTy).Contents (Elt Ideal)) (v : Fin 4) (h : Fin 512) (w : Fin 512)
    (k : Fin 3) :
    (val_main_v4 (F := Ideal) x1 ∘ Shape.Reduces.lift red3 (ix3 v h w)) k = Cert.Spec.inRange (x1 (ix4 v h w k)) := by
  show val_main_v4 (F := Ideal) x1 (Shape.Reduces.lift red3 (ix3 v h w) k) = _
  rw [lift_red3]
  rfl

/-- The and-reduce over the coordinate axis is `1` at `(v, h, w)` exactly when the three ids there are in range. -/
theorem v5_eq_one_iff (x1 : (⟨S4x512x512x3, .i32⟩ : BufTy).Contents (Elt Ideal)) (v : Fin 4) (h : Fin 512)
    (w : Fin 512) :
    val_main_v5 (F := Ideal) x1 (ix3 v h w) = 1#1 ↔ ∀ k : Fin 3, Cert.Spec.inRange (x1 (ix4 v h w k)) = 1#1 := by
  unfold val_main_v5
  rw [Host.reduce_eq_fold_single IntOp.andi (val_main_v4 (F := Ideal) x1) (val_main_c_1 (F := Ideal))
    reducesTo_S4x512x512x3_S4x512x512_d3 red3 h_S_ (ix3 v h w), fold_andi_eq_one]
  constructor
  · rintro ⟨_, hk⟩ k
    exact (v4_lift x1 v h w k).symm.trans (hk k (Finset.mem_univ _))
  · intro hk
    exact ⟨rfl, fun k _ => (v4_lift x1 v h w k).trans (hk k)⟩

/-- At a pixel the and-reduce is the pixel's validity bit. -/
theorem v5_pix (x1 : (⟨S4x512x512x3, .i32⟩ : BufTy).Contents (Elt Ideal)) (p : Fin 1048576) :
    val_main_v5 (F := Ideal) x1 (pix3 p) = Cert.Spec.valid x1 p :=
  Cert.Spec.bit_ext ((v5_eq_one_iff x1 _ _ _).trans (Cert.Spec.valid_eq_one_iff x1 p).symm)

/-! ## Where the layout operations read -/

/-- The reshape `[4, 512, 512, 3] → [3145728]` reads position `3 * p + k` at `(v, h, w, k)`. -/
theorem idx_flat (p : Fin 1048576) (k : Fin 3) : idx_main_v21 (ix1 (flat p k)) = Cert.Spec.pix p k := by
  have hp := p.isLt
  have hk := k.isLt
  funext a
  apply Fin.ext
  match a with
  | ⟨0, _⟩ => show (3 * p.val + k.val) / 786432 = p.val / 262144; omega
  | ⟨1, _⟩ => show (3 * p.val + k.val) / 1536 % 512 = p.val / 512 % 512; omega
  | ⟨2, _⟩ => show (3 * p.val + k.val) / 3 % 512 = p.val % 512; omega
  | ⟨3, _⟩ => show (3 * p.val + k.val) % 3 = k.val; omega

/-- The validity array, broadcast along the coordinate axis, reads at `(v, h, w)`. -/
theorem idx_valid_k (p : Fin 1048576) (k : Fin 3) :
    idx_main_v19 (idx_main_call0_v1 (Cert.Spec.pix p k)) = pix3 p := by
  funext a
  apply Fin.ext
  match a with
  | ⟨0, _⟩ => rfl
  | ⟨1, _⟩ => rfl
  | ⟨2, _⟩ => rfl

/-- The validity array, broadcast along the batch axis, reads at `(v, h, w)`. -/
theorem idx_valid_b (b : Fin 8) (p : Fin 1048576) :
    idx_main_v8 (idx_main_v9 (Cert.Spec.pixB b p)) = pix3 p := by
  funext a
  apply Fin.ext
  match a with
  | ⟨0, _⟩ => rfl
  | ⟨1, _⟩ => rfl
  | ⟨2, _⟩ => rfl

/-- In the reshape `[8, 4, 512, 512, 3] → [8, 3145728]` of the products, the weight is read at `(v, h, w, k)` … -/
theorem idx_weight (b : Fin 8) (p : Fin 1048576) (k : Fin 3) :
    idx_main_v12 (idx_main_v14 (idx_main_v22 (ix2 b (flat p k)))) = Cert.Spec.pix p k := by
  have hp := p.isLt
  have hk := k.isLt
  have hb := b.isLt
  funext a
  apply Fin.ext
  match a with
  | ⟨0, _⟩ => show (b.val * 3145728 + (3 * p.val + k.val)) / 786432 % 4 = p.val / 262144; omega
  | ⟨1, _⟩ => show (b.val * 3145728 + (3 * p.val + k.val)) / 1536 % 512 = p.val / 512 % 512; omega
  | ⟨2, _⟩ => show (b.val * 3145728 + (3 * p.val + k.val)) / 3 % 512 = p.val % 512; omega
  | ⟨3, _⟩ => show (b.val * 3145728 + (3 * p.val + k.val)) % 3 = k.val; omega

/-- … and the mask at `(b, v, h, w)`. -/
theorem idx_mask_w (b : Fin 8) (p : Fin 1048576) (k : Fin 3) :
    idx_main_v13 (idx_main_v15 (idx_main_v22 (ix2 b (flat p k)))) = Cert.Spec.pixB b p := by
  have hp := p.isLt
  have hk := k.isLt
  have hb := b.isLt
  funext a
  apply Fin.ext
  match a with
  | ⟨0, _⟩ => show (b.val * 3145728 + (3 * p.val + k.val)) / 3145728 = b.val; omega
  | ⟨1, _⟩ => show (b.val * 3145728 + (3 * p.val + k.val)) / 786432 % 4 = p.val / 262144; omega
  | ⟨2, _⟩ => show (b.val * 3145728 + (3 * p.val + k.val)) / 1536 % 512 = p.val / 512 % 512; omega
  | ⟨3, _⟩ => show (b.val * 3145728 + (3 * p.val + k.val)) / 3 % 512 = p.val % 512; omega

/-- In the reshape of the masks broadcast along the coordinate axis, the mask is read at `(b, v, h, w)`. -/
theorem idx_mask_e (b : Fin 8) (p : Fin 1048576) (k : Fin 3) :
    idx_main_v17 (idx_main_v18 (idx_main_v23 (ix2 b (flat p k)))) = Cert.Spec.pixB b p := by
  have hp := p.isLt
  have hk := k.isLt
  have hb := b.isLt
  funext a
  apply Fin.ext
  match a with
  | ⟨0, _⟩ => show (b.val * 3145728 + (3 * p.val + k.val)) / 3145728 = b.val; omega
  | ⟨1, _⟩ => show (b.val * 3145728 + (3 * p.val + k.val)) / 786432 % 4 = p.val / 262144; omega
  | ⟨2, _⟩ => show (b.val * 3145728 + (3 * p.val + k.val)) / 1536 % 512 = p.val / 512 % 512; omega
  | ⟨3, _⟩ => show (b.val * 3145728 + (3 * p.val + k.val)) / 3 % 512 = p.val % 512; omega

/-! ## The stages at a pixel -/

/-- The converted mask at `(b, v, h, w)` is the effective mask of the pixel. -/
theorem v11_pix (x0 : (⟨S8x4x512x512, .f32⟩ : BufTy).Contents (Elt Ideal))
    (x1 : (⟨S4x512x512x3, .i32⟩ : BufTy).Contents (Elt Ideal)) (b : Fin 8) (p : Fin 1048576) :
    val_main_v11 (F := Ideal) x0 x1 (Cert.Spec.pixB b p) = Cert.Spec.eff x0 x1 b p := by
  rw [val_main_v11_apply, val_main_v10_apply, val_main_v7_apply, val_main_v9_apply, val_main_v8_apply, idx_valid_b,
    v5_pix, val_main_v6_apply, val_main_cst_apply]
  rfl

/-- The flattened ids, invalid pixels' ids replaced by `0`, at position `3 * p + k`. -/
theorem v21_flat (x1 : (⟨S4x512x512x3, .i32⟩ : BufTy).Contents (Elt Ideal)) (p : Fin 1048576) (k : Fin 3) :
    val_main_v21 (F := Ideal) x1 (ix1 (flat p k))
      = Scalar.select (Cert.Spec.valid x1 p) (x1 (Cert.Spec.pix p k)) 0#32 := by
  rw [val_main_v21_apply, idx_flat, val_main_v20_apply, val_main_call0_v1_apply, val_main_v19_apply, idx_valid_k,
    v5_pix]
  rfl

/-- The index array of the weighted scatter, at position `3 * p + k`, is the specification's at pixel `p`. -/
theorem ref_idx (x1 : (⟨S4x512x512x3, .i32⟩ : BufTy).Contents (Elt Ideal)) (p : Fin 1048576) (k : Fin 3) :
    val_main_v30 (F := Ideal) x1 (ix2 (flat p k) (0 : Fin 1)) = Cert.Spec.specIdx x1 k (ix2 p (0 : Fin 1)) := by
  have e : idx_main_v30 (ix2 (flat p k) (0 : Fin 1)) = ix1 (flat p k) :=
    funext fun a => Fin.ext (by match a with | ⟨0, _⟩ => rfl)
  rw [val_main_v30_apply, e, val_main_v29_apply, val_main_v26_apply, val_main_v28_apply, v21_flat]
  rfl

/-- The index array of the count scatter is the same. -/
theorem ref_idx_count (x1 : (⟨S4x512x512x3, .i32⟩ : BufTy).Contents (Elt Ideal)) (p : Fin 1048576) (k : Fin 3) :
    val_main_v39 (F := Ideal) x1 (ix2 (flat p k) (0 : Fin 1)) = Cert.Spec.specIdx x1 k (ix2 p (0 : Fin 1)) := by
  have e : idx_main_v39 (ix2 (flat p k) (0 : Fin 1)) = ix1 (flat p k) :=
    funext fun a => Fin.ext (by match a with | ⟨0, _⟩ => rfl)
  rw [val_main_v39_apply, e, val_main_v38_apply, val_main_v35_apply, val_main_v37_apply, v21_flat]
  rfl

/-- The weighted updates at `(b, 3 * p + k)`: weight times mask there, mask times weight in the specification. -/
theorem ref_w (x0 : (⟨S8x4x512x512, .f32⟩ : BufTy).Contents (Elt Ideal))
    (x1 : (⟨S4x512x512x3, .i32⟩ : BufTy).Contents (Elt Ideal))
    (x2 : (⟨S4x512x512x3, .f32⟩ : BufTy).Contents (Elt Ideal)) (b : Fin 8) (p : Fin 1048576) (k : Fin 3) :
    val_main_v22 (F := Ideal) x0 x1 x2 (ix2 b (flat p k)) = Cert.Spec.specW x0 x1 x2 k (ix2 b p) := by
  rw [val_main_v22_apply, val_main_v16_apply, val_main_v14_apply, val_main_v12_apply, idx_weight, val_main_v15_apply,
    val_main_v13_apply, idx_mask_w, v11_pix]
  show x2 (Cert.Spec.pix p k) * Cert.Spec.eff x0 x1 b p = Cert.Spec.eff x0 x1 b p * x2 (Cert.Spec.pix p k)
  exact mul_comm _ _

/-- The count updates at `(b, 3 * p + k)`: the mask. -/
theorem ref_e (x0 : (⟨S8x4x512x512, .f32⟩ : BufTy).Contents (Elt Ideal))
    (x1 : (⟨S4x512x512x3, .i32⟩ : BufTy).Contents (Elt Ideal)) (b : Fin 8) (p : Fin 1048576) (k : Fin 3) :
    val_main_v23 (F := Ideal) x0 x1 (ix2 b (flat p k)) = Cert.Spec.specE x0 x1 (ix2 b p) := by
  rw [val_main_v23_apply, val_main_v18_apply, val_main_v17_apply, idx_mask_e, v11_pix]
  rfl

/-- Both scatters start from the zero array. -/
theorem ref_zero : val_main_v31 (F := Ideal) = fun _ => Ideal.ofBits .f32 0x00000000#32 := by
  funext i; rfl

theorem ref_zero_count : val_main_v40 (F := Ideal) = fun _ => Ideal.ofBits .f32 0x00000000#32 := by
  funext i; rfl

/-! ## After the scatters -/

/-- The last stage is the common tail applied to the two scattered sums. -/
theorem stage51 (x0 : (⟨S8x4x512x512, .f32⟩ : BufTy).Contents (Elt Ideal))
    (x1 : (⟨S4x512x512x3, .i32⟩ : BufTy).Contents (Elt Ideal))
    (x2 : (⟨S4x512x512x3, .f32⟩ : BufTy).Contents (Elt Ideal)) :
    val_main_v51 (F := Ideal) x0 x1 x2
      = Cert.Spec.tail
          (Host.scatterAdd scatter_S8x6890_S3145728x1_S8x3145728_0_1_1_1 (val_main_v31 (F := Ideal))
            (val_main_v30 (F := Ideal) x1) (val_main_v22 (F := Ideal) x0 x1 x2))
          (Host.scatterAdd scatter_S8x6890_S3145728x1_S8x3145728_0_1_1_1 (val_main_v40 (F := Ideal))
            (val_main_v39 (F := Ideal) x1) (val_main_v23 (F := Ideal) x0 x1)) := rfl

end Cert.ReferenceIdeal.RefValue

end
-- ==== Proof.RefResult.lean ====
import proofs.«153110_j51737176048098_1_alg».proof.Proof.RefRun
import proofs.«153110_j51737176048098_1_alg».proof.Proof.RefReadP
import proofs.«153110_j51737176048098_1_alg».proof.Proof.Spec

/-!
# The reference's result

The result buffer holds the fold of the 71 operations over the launch contents. To read it as the common tail of the
two scattered sums, each a stage of the three arguments, the line is cut into seven stretches: at the stages that
later operations read more than once (the validity bits, the mask, the flattened ids, the two scattered sums) and
before the three reshapes. After each stretch the few buffers the rest of the line reads are known as stages of the
arguments, so that no stretch's term repeats an earlier one and every comparison is between small terms.
-/

noncomputable section

namespace Cert.ReferenceIdeal.RefValue

open Cert.ReferenceIdeal Cert.ReferenceIdeal.Gen Cert.ReferenceIdeal.ReadP Idealize.ShloMosaic Idealize.ShloMosaic.TcCoe
  Idealize.SL.Sem Idealize.ShloMosaic.StableHlo

variable {F : FTy → Type} [FloatOps F]

/-- Operations 1 to 9 of @main. -/
abbrev seg1 : List (HloOp τ sig (Elt F)) :=
  [ nullary main_c (constantI S_ 32 0#32),
    unary main_c main_v0 (broadcastInDim S4x512x512x3 ![] bcast_S_S4x512x512x3 : (⟨S_, .i32⟩ : BufTy).Contents (Elt F) → (⟨S4x512x512x3, .i32⟩ : BufTy).Contents (Elt F)),
    binary main_arg1 main_v0 main_v1 (cmpi .sge : (⟨S4x512x512x3, .i32⟩ : BufTy).Contents (Elt F) → (⟨S4x512x512x3, .i32⟩ : BufTy).Contents (Elt F) → (⟨S4x512x512x3, .i1⟩ : BufTy).Contents (Elt F)),
    nullary main_c_0 (constantI S_ 32 6890#32),
    unary main_c_0 main_v2 (broadcastInDim S4x512x512x3 ![] bcast_S_S4x512x512x3 : (⟨S_, .i32⟩ : BufTy).Contents (Elt F) → (⟨S4x512x512x3, .i32⟩ : BufTy).Contents (Elt F)),
    binary main_arg1 main_v2 main_v3 (cmpi .slt : (⟨S4x512x512x3, .i32⟩ : BufTy).Contents (Elt F) → (⟨S4x512x512x3, .i32⟩ : BufTy).Contents (Elt F) → (⟨S4x512x512x3, .i1⟩ : BufTy).Contents (Elt F)),
    binary main_v1 main_v3 main_v4 (andi : (⟨S4x512x512x3, .i1⟩ : BufTy).Contents (Elt F) → (⟨S4x512x512x3, .i1⟩ : BufTy).Contents (Elt F) → (⟨S4x512x512x3, .i1⟩ : BufTy).Contents (Elt F)),
    nullary main_c_1 (constantI S_ 1 1#1),
    binary main_v4 main_c_1 main_v5 ((fun x v => Host.reduce IntOp.andi x v reducesTo_S4x512x512x3_S4x512x512_d3 h_S_) : (⟨S4x512x512x3, .i1⟩ : BufTy).Contents (Elt F) → (⟨S_, .i1⟩ : BufTy).Contents (Elt F) → (⟨S4x512x512, .i1⟩ : BufTy).Contents (Elt F)) ]

/-- Operations 10 to 16 of @main. -/
abbrev seg2 : List (HloOp τ sig (Elt F)) :=
  [ nullary main_cst (constant S_ .f32 0x3E99999A#32),
    unary main_cst main_v6 (broadcastInDim S8x4x512x512 ![] bcast_S_S8x4x512x512 : (⟨S_, .f32⟩ : BufTy).Contents (Elt F) → (⟨S8x4x512x512, .f32⟩ : BufTy).Contents (Elt F)),
    binary main_arg0 main_v6 main_v7 (cmpf .ogt : (⟨S8x4x512x512, .f32⟩ : BufTy).Contents (Elt F) → (⟨S8x4x512x512, .f32⟩ : BufTy).Contents (Elt F) → (⟨S8x4x512x512, .i1⟩ : BufTy).Contents (Elt F)),
    unary main_v5 main_v8 (broadcastInDim S1x4x512x512 ![1, 2, 3] bcast_S4x512x512_S1x4x512x512_1_2_3 : (⟨S4x512x512, .i1⟩ : BufTy).Contents (Elt F) → (⟨S1x4x512x512, .i1⟩ : BufTy).Contents (Elt F)),
    unary main_v8 main_v9 (broadcastInDim S8x4x512x512 ![0, 1, 2, 3] bcast_S1x4x512x512_S8x4x512x512_0_1_2_3 : (⟨S1x4x512x512, .i1⟩ : BufTy).Contents (Elt F) → (⟨S8x4x512x512, .i1⟩ : BufTy).Contents (Elt F)),
    binary main_v7 main_v9 main_v10 (andi : (⟨S8x4x512x512, .i1⟩ : BufTy).Contents (Elt F) → (⟨S8x4x512x512, .i1⟩ : BufTy).Contents (Elt F) → (⟨S8x4x512x512, .i1⟩ : BufTy).Contents (Elt F)),
    unary main_v10 main_v11 (uitofp .f32 : (⟨S8x4x512x512, .i1⟩ : BufTy).Contents (Elt F) → (⟨S8x4x512x512, .f32⟩ : BufTy).Contents (Elt F)) ]

/-- Operations 17 to 29 of @main. -/
abbrev seg3 : List (HloOp τ sig (Elt F)) :=
  [ unary main_arg2 main_v12 (broadcastInDim S1x4x512x512x3 ![1, 2, 3, 4] bcast_S4x512x512x3_S1x4x512x512x3_1_2_3_4 : (⟨S4x512x512x3, .f32⟩ : BufTy).Contents (Elt F) → (⟨S1x4x512x512x3, .f32⟩ : BufTy).Contents (Elt F)),
    unary main_v11 main_v13 (broadcastInDim S8x4x512x512x1 ![0, 1, 2, 3] bcast_S8x4x512x512_S8x4x512x512x1_0_1_2_3 : (⟨S8x4x512x512, .f32⟩ : BufTy).Contents (Elt F) → (⟨S8x4x512x512x1, .f32⟩ : BufTy).Contents (Elt F)),
    unary main_v12 main_v14 (broadcastInDim S8x4x512x512x3 ![0, 1, 2, 3, 4] bcast_S1x4x512x512x3_S8x4x512x512x3_0_1_2_3_4 : (⟨S1x4x512x512x3, .f32⟩ : BufTy).Contents (Elt F) → (⟨S8x4x512x512x3, .f32⟩ : BufTy).Contents (Elt F)),
    unary main_v13 main_v15 (broadcastInDim S8x4x512x512x3 ![0, 1, 2, 3, 4] bcast_S8x4x512x512x1_S8x4x512x512x3_0_1_2_3_4 : (⟨S8x4x512x512x1, .f32⟩ : BufTy).Contents (Elt F) → (⟨S8x4x512x512x3, .f32⟩ : BufTy).Contents (Elt F)),
    binary main_v14 main_v15 main_v16 (mulf : (⟨S8x4x512x512x3, .f32⟩ : BufTy).Contents (Elt F) → (⟨S8x4x512x512x3, .f32⟩ : BufTy).Contents (Elt F) → (⟨S8x4x512x512x3, .f32⟩ : BufTy).Contents (Elt F)),
    unary main_v11 main_v17 (broadcastInDim S8x4x512x512x1 ![0, 1, 2, 3] bcast_S8x4x512x512_S8x4x512x512x1_0_1_2_3 : (⟨S8x4x512x512, .f32⟩ : BufTy).Contents (Elt F) → (⟨S8x4x512x512x1, .f32⟩ : BufTy).Contents (Elt F)),
    unary main_v17 main_v18 (broadcastInDim S8x4x512x512x3 ![0, 1, 2, 3, 4] bcast_S8x4x512x512x1_S8x4x512x512x3_0_1_2_3_4 : (⟨S8x4x512x512x1, .f32⟩ : BufTy).Contents (Elt F) → (⟨S8x4x512x512x3, .f32⟩ : BufTy).Contents (Elt F)),
    unary main_v5 main_v19 (broadcastInDim S4x512x512x1 ![0, 1, 2] bcast_S4x512x512_S4x512x512x1_0_1_2 : (⟨S4x512x512, .i1⟩ : BufTy).Contents (Elt F) → (⟨S4x512x512x1, .i1⟩ : BufTy).Contents (Elt F)),
    nullary main_c_2 (constantI S_ 32 0#32),
    TRef.unary (TRef.of (T := ⟨S_, .i32⟩) main_c_2) (TRef.of (T := ⟨S_, .i32⟩) main_call0_v0) id,
    TRef.unary (TRef.of (T := ⟨S4x512x512x1, .i1⟩) main_v19) (TRef.of (T := ⟨S4x512x512x3, .i1⟩) main_call0_v1) (broadcastInDim S4x512x512x3 ![0, 1, 2, 3] bcast_S4x512x512x1_S4x512x512x3_0_1_2_3),
    TRef.unary (TRef.of (T := ⟨S_, .i32⟩) main_call0_v0) (TRef.of (T := ⟨S4x512x512x3, .i32⟩) main_call0_v2) (broadcastInDim S4x512x512x3 ![] bcast_S_S4x512x512x3),
    TRef.ternary (TRef.of (T := ⟨S4x512x512x3, .i1⟩) main_call0_v1) (TRef.of (T := ⟨S4x512x512x3, .i32⟩) main_arg1) (TRef.of (T := ⟨S4x512x512x3, .i32⟩) main_call0_v2) (TRef.of (T := ⟨S4x512x512x3, .i32⟩) main_v20) select ]

/-- Operations 30 to 32 of @main. -/
abbrev seg4 : List (HloOp τ sig (Elt F)) :=
  [ reshape main_v20 main_v21 rfl shapeCasts_S4x512x512x3_S3145728,
    reshape main_v16 main_v22 rfl shapeCasts_S8x4x512x512x3_S8x3145728,
    reshape main_v18 main_v23 rfl shapeCasts_S8x4x512x512x3_S8x3145728 ]

/-- Operations 33 to 44 of @main. -/
abbrev seg5 : List (HloOp τ sig (Elt F)) :=
  [ nullary main_cst_3 (constant S_ .f32 0x00000000#32),
    unary main_cst_3 main_v24 (broadcastInDim S6890 ![] bcast_S_S6890 : (⟨S_, .f32⟩ : BufTy).Contents (Elt F) → (⟨S6890, .f32⟩ : BufTy).Contents (Elt F)),
    nullary main_c_4 (constantI S_ 32 0#32),
    unary main_c_4 main_v25 (broadcastInDim S3145728 ![] bcast_S_S3145728 : (⟨S_, .i32⟩ : BufTy).Contents (Elt F) → (⟨S3145728, .i32⟩ : BufTy).Contents (Elt F)),
    binary main_v21 main_v25 main_v26 (cmpi .slt : (⟨S3145728, .i32⟩ : BufTy).Contents (Elt F) → (⟨S3145728, .i32⟩ : BufTy).Contents (Elt F) → (⟨S3145728, .i1⟩ : BufTy).Contents (Elt F)),
    nullary main_c_5 (constantI S_ 32 6890#32),
    unary main_c_5 main_v27 (broadcastInDim S3145728 ![] bcast_S_S3145728 : (⟨S_, .i32⟩ : BufTy).Contents (Elt F) → (⟨S3145728, .i32⟩ : BufTy).Contents (Elt F)),
    binary main_v21 main_v27 main_v28 (addi : (⟨S3145728, .i32⟩ : BufTy).Contents (Elt F) → (⟨S3145728, .i32⟩ : BufTy).Contents (Elt F) → (⟨S3145728, .i32⟩ : BufTy).Contents (Elt F)),
    ternary main_v26 main_v28 main_v21 main_v29 (select : (⟨S3145728, .i1⟩ : BufTy).Contents (Elt F) → (⟨S3145728, .i32⟩ : BufTy).Contents (Elt F) → (⟨S3145728, .i32⟩ : BufTy).Contents (Elt F) → (⟨S3145728, .i32⟩ : BufTy).Contents (Elt F)),
    unary main_v29 main_v30 (broadcastInDim S3145728x1 ![0] bcast_S3145728_S3145728x1_0 : (⟨S3145728, .i32⟩ : BufTy).Contents (Elt F) → (⟨S3145728x1, .i32⟩ : BufTy).Contents (Elt F)),
    unary main_v24 main_v31 (broadcastInDim S8x6890 ![1] bcast_S6890_S8x6890_1 : (⟨S6890, .f32⟩ : BufTy).Contents (Elt F) → (⟨S8x6890, .f32⟩ : BufTy).Contents (Elt F)),
    ternary main_v31 main_v30 main_v22 main_v32 ((fun x i u => Host.scatterAdd scatter_S8x6890_S3145728x1_S8x3145728_0_1_1_1 x i u) : (⟨S8x6890, .f32⟩ : BufTy).Contents (Elt F) → (⟨S3145728x1, .i32⟩ : BufTy).Contents (Elt F) → (⟨S8x3145728, .f32⟩ : BufTy).Contents (Elt F) → (⟨S8x6890, .f32⟩ : BufTy).Contents (Elt F)) ]

/-- Operations 45 to 56 of @main. -/
abbrev seg6 : List (HloOp τ sig (Elt F)) :=
  [ nullary main_cst_6 (constant S_ .f32 0x00000000#32),
    unary main_cst_6 main_v33 (broadcastInDim S6890 ![] bcast_S_S6890 : (⟨S_, .f32⟩ : BufTy).Contents (Elt F) → (⟨S6890, .f32⟩ : BufTy).Contents (Elt F)),
    nullary main_c_7 (constantI S_ 32 0#32),
    unary main_c_7 main_v34 (broadcastInDim S3145728 ![] bcast_S_S3145728 : (⟨S_, .i32⟩ : BufTy).Contents (Elt F) → (⟨S3145728, .i32⟩ : BufTy).Contents (Elt F)),
    binary main_v21 main_v34 main_v35 (cmpi .slt : (⟨S3145728, .i32⟩ : BufTy).Contents (Elt F) → (⟨S3145728, .i32⟩ : BufTy).Contents (Elt F) → (⟨S3145728, .i1⟩ : BufTy).Contents (Elt F)),
    nullary main_c_8 (constantI S_ 32 6890#32),
    unary main_c_8 main_v36 (broadcastInDim S3145728 ![] bcast_S_S3145728 : (⟨S_, .i32⟩ : BufTy).Contents (Elt F) → (⟨S3145728, .i32⟩ : BufTy).Contents (Elt F)),
    binary main_v21 main_v36 main_v37 (addi : (⟨S3145728, .i32⟩ : BufTy).Contents (Elt F) → (⟨S3145728, .i32⟩ : BufTy).Contents (Elt F) → (⟨S3145728, .i32⟩ : BufTy).Contents (Elt F)),
    ternary main_v35 main_v37 main_v21 main_v38 (select : (⟨S3145728, .i1⟩ : BufTy).Contents (Elt F) → (⟨S3145728, .i32⟩ : BufTy).Contents (Elt F) → (⟨S3145728, .i32⟩ : BufTy).Contents (Elt F) → (⟨S3145728, .i32⟩ : BufTy).Contents (Elt F)),
    unary main_v38 main_v39 (broadcastInDim S3145728x1 ![0] bcast_S3145728_S3145728x1_0 : (⟨S3145728, .i32⟩ : BufTy).Contents (Elt F) → (⟨S3145728x1, .i32⟩ : BufTy).Contents (Elt F)),
    unary main_v33 main_v40 (broadcastInDim S8x6890 ![1] bcast_S6890_S8x6890_1 : (⟨S6890, .f32⟩ : BufTy).Contents (Elt F) → (⟨S8x6890, .f32⟩ : BufTy).Contents (Elt F)),
    ternary main_v40 main_v39 main_v23 main_v41 ((fun x i u => Host.scatterAdd scatter_S8x6890_S3145728x1_S8x3145728_0_1_1_1 x i u) : (⟨S8x6890, .f32⟩ : BufTy).Contents (Elt F) → (⟨S3145728x1, .i32⟩ : BufTy).Contents (Elt F) → (⟨S8x3145728, .f32⟩ : BufTy).Contents (Elt F) → (⟨S8x6890, .f32⟩ : BufTy).Contents (Elt F)) ]

/-- Operations 57 to 71 of @main. -/
abbrev seg7 : List (HloOp τ sig (Elt F)) :=
  [ nullary main_cst_9 (constant S_ .f32 0x00000000#32),
    unary main_cst_9 main_v42 (broadcastInDim S8x6890 ![] bcast_S_S8x6890 : (⟨S_, .f32⟩ : BufTy).Contents (Elt F) → (⟨S8x6890, .f32⟩ : BufTy).Contents (Elt F)),
    binary main_v41 main_v42 main_v43 (cmpf .ogt : (⟨S8x6890, .f32⟩ : BufTy).Contents (Elt F) → (⟨S8x6890, .f32⟩ : BufTy).Contents (Elt F) → (⟨S8x6890, .i1⟩ : BufTy).Contents (Elt F)),
    nullary main_cst_10 (constant S_ .f32 0x3F800000#32),
    TRef.unary (TRef.of (T := ⟨S_, .f32⟩) main_cst_10) (TRef.of (T := ⟨S8x6890, .f32⟩) main_call1_v0) (broadcastInDim S8x6890 ![] bcast_S_S8x6890),
    TRef.ternary (TRef.of (T := ⟨S8x6890, .i1⟩) main_v43) (TRef.of (T := ⟨S8x6890, .f32⟩) main_v41) (TRef.of (T := ⟨S8x6890, .f32⟩) main_call1_v0) (TRef.of (T := ⟨S8x6890, .f32⟩) main_v44) select,
    nullary main_cst_11 (constant S_ .f32 0x00000000#32),
    unary main_cst_11 main_v45 (broadcastInDim S8x6890 ![] bcast_S_S8x6890 : (⟨S_, .f32⟩ : BufTy).Contents (Elt F) → (⟨S8x6890, .f32⟩ : BufTy).Contents (Elt F)),
    binary main_v41 main_v45 main_v46 (cmpf .ogt : (⟨S8x6890, .f32⟩ : BufTy).Contents (Elt F) → (⟨S8x6890, .f32⟩ : BufTy).Contents (Elt F) → (⟨S8x6890, .i1⟩ : BufTy).Contents (Elt F)),
    binary main_v32 main_v44 main_v47 (Host.divf : (⟨S8x6890, .f32⟩ : BufTy).Contents (Elt F) → (⟨S8x6890, .f32⟩ : BufTy).Contents (Elt F) → (⟨S8x6890, .f32⟩ : BufTy).Contents (Elt F)),
    TRef.ternary (TRef.of (T := ⟨S8x6890, .i1⟩) main_v46) (TRef.of (T := ⟨S8x6890, .f32⟩) main_v47) (TRef.of (T := ⟨S8x6890, .f32⟩) main_v32) (TRef.of (T := ⟨S8x6890, .f32⟩) main_v48) select,
    nullary main_cst_12 (constant S_ .f32 0x3E99999A#32),
    unary main_cst_12 main_v49 (broadcastInDim S8x6890 ![] bcast_S_S8x6890 : (⟨S_, .f32⟩ : BufTy).Contents (Elt F) → (⟨S8x6890, .f32⟩ : BufTy).Contents (Elt F)),
    binary main_v48 main_v49 main_v50 (cmpf .ogt : (⟨S8x6890, .f32⟩ : BufTy).Contents (Elt F) → (⟨S8x6890, .f32⟩ : BufTy).Contents (Elt F) → (⟨S8x6890, .i1⟩ : BufTy).Contents (Elt F)),
    unary main_v50 main_v51 (uitofp .f32 : (⟨S8x6890, .i1⟩ : BufTy).Contents (Elt F) → (⟨S8x6890, .f32⟩ : BufTy).Contents (Elt F)) ]

/-- Running one stretch of operations and then another is running their concatenation. -/
theorem after_append (l₁ l₂ : List (HloOp τ sig (Elt F))) (V : Valuation τ sig (Elt F)) : after (l₁ ++ l₂) V = after l₂ (after l₁ V) := by
  induction l₁ generalizing V with
  | nil => rfl
  | cons op l ih => simp only [List.cons_append, after_cons, ih]

/-! ### Operations 1–9: the validity bits -/

theorem seg1_v5 (V : Valuation τ sig (Elt F)) (x1 : (⟨S4x512x512x3, .i32⟩ : BufTy).Contents (Elt F)) (h1 : V (Proc.devRef .tc main_arg1) = x1) :
    after seg1 V (Proc.devRef .tc main_v5) = val_main_v5 (F := F) x1 := by
  subst h1
  after_results_simp <;> rfl
theorem seg1_keep_arg0 (V : Valuation τ sig (Elt F)) :
    after seg1 V (Proc.devRef .tc main_arg0) = V (Proc.devRef .tc main_arg0) := by
  after_results_simp <;> rfl
theorem seg1_keep_arg1 (V : Valuation τ sig (Elt F)) :
    after seg1 V (Proc.devRef .tc main_arg1) = V (Proc.devRef .tc main_arg1) := by
  after_results_simp <;> rfl
theorem seg1_keep_arg2 (V : Valuation τ sig (Elt F)) :
    after seg1 V (Proc.devRef .tc main_arg2) = V (Proc.devRef .tc main_arg2) := by
  after_results_simp <;> rfl

/-! ### Operations 10–16: the effective mask -/

theorem seg2_v11 (V : Valuation τ sig (Elt F)) (x0 : (⟨S8x4x512x512, .f32⟩ : BufTy).Contents (Elt F)) (x1 : (⟨S4x512x512x3, .i32⟩ : BufTy).Contents (Elt F)) (h0 : V (Proc.devRef .tc main_arg0) = x0) (h5 : V (Proc.devRef .tc main_v5) = val_main_v5 (F := F) x1) :
    after seg2 V (Proc.devRef .tc main_v11) = val_main_v11 (F := F) x0 x1 := by
  subst h0
  after_results_simp
  rw [h5]
  rfl
theorem seg2_keep_arg1 (V : Valuation τ sig (Elt F)) :
    after seg2 V (Proc.devRef .tc main_arg1) = V (Proc.devRef .tc main_arg1) := by
  after_results_simp <;> rfl
theorem seg2_keep_arg2 (V : Valuation τ sig (Elt F)) :
    after seg2 V (Proc.devRef .tc main_arg2) = V (Proc.devRef .tc main_arg2) := by
  after_results_simp <;> rfl
theorem seg2_keep_v5 (V : Valuation τ sig (Elt F)) :
    after seg2 V (Proc.devRef .tc main_v5) = V (Proc.devRef .tc main_v5) := by
  after_results_simp <;> rfl

/-! ### Operations 17–29: the products, the masks along the coordinate axis, and the ids with invalid pixels' zeroed -/

theorem seg3_v16 (V : Valuation τ sig (Elt F)) (x0 : (⟨S8x4x512x512, .f32⟩ : BufTy).Contents (Elt F)) (x1 : (⟨S4x512x512x3, .i32⟩ : BufTy).Contents (Elt F)) (x2 : (⟨S4x512x512x3, .f32⟩ : BufTy).Contents (Elt F)) (h2 : V (Proc.devRef .tc main_arg2) = x2)
    (h11 : V (Proc.devRef .tc main_v11) = val_main_v11 (F := F) x0 x1) :
    after seg3 V (Proc.devRef .tc main_v16) = val_main_v16 (F := F) x0 x1 x2 := by
  subst h2
  after_results_simp
  rw [h11]
  rfl
theorem seg3_v18 (V : Valuation τ sig (Elt F)) (x0 : (⟨S8x4x512x512, .f32⟩ : BufTy).Contents (Elt F)) (x1 : (⟨S4x512x512x3, .i32⟩ : BufTy).Contents (Elt F)) (h11 : V (Proc.devRef .tc main_v11) = val_main_v11 (F := F) x0 x1) :
    after seg3 V (Proc.devRef .tc main_v18) = val_main_v18 (F := F) x0 x1 := by
  after_results_simp
  rw [h11]
  rfl
/-- A value at a tensor type, moved to a buffer of that type and back, is itself: one fact per buffer the called
    function `_where` reads or writes (the buffer's type is the tensor type by computation). -/
theorem ofBuf_c_2 (v : (⟨S_, .i32⟩ : BufTy).Contents (Elt F)) :
    (TRef.of (T := ⟨S_, .i32⟩) main_c_2).ofBuf (Val := Elt F) v = v := rfl
theorem toBuf_call0_v0 (v : (⟨S_, .i32⟩ : BufTy).Contents (Elt F)) :
    (TRef.of (T := ⟨S_, .i32⟩) main_call0_v0).toBuf (Val := Elt F) v = v := rfl
theorem ofBuf_call0_v0 (v : (⟨S_, .i32⟩ : BufTy).Contents (Elt F)) :
    (TRef.of (T := ⟨S_, .i32⟩) main_call0_v0).ofBuf (Val := Elt F) v = v := rfl
theorem ofBuf_v19 (v : (⟨S4x512x512x1, .i1⟩ : BufTy).Contents (Elt F)) :
    (TRef.of (T := ⟨S4x512x512x1, .i1⟩) main_v19).ofBuf (Val := Elt F) v = v := rfl
theorem toBuf_call0_v1 (v : (⟨S4x512x512x3, .i1⟩ : BufTy).Contents (Elt F)) :
    (TRef.of (T := ⟨S4x512x512x3, .i1⟩) main_call0_v1).toBuf (Val := Elt F) v = v := rfl
theorem ofBuf_call0_v1 (v : (⟨S4x512x512x3, .i1⟩ : BufTy).Contents (Elt F)) :
    (TRef.of (T := ⟨S4x512x512x3, .i1⟩) main_call0_v1).ofBuf (Val := Elt F) v = v := rfl
theorem toBuf_call0_v2 (v : (⟨S4x512x512x3, .i32⟩ : BufTy).Contents (Elt F)) :
    (TRef.of (T := ⟨S4x512x512x3, .i32⟩) main_call0_v2).toBuf (Val := Elt F) v = v := rfl
theorem ofBuf_call0_v2 (v : (⟨S4x512x512x3, .i32⟩ : BufTy).Contents (Elt F)) :
    (TRef.of (T := ⟨S4x512x512x3, .i32⟩) main_call0_v2).ofBuf (Val := Elt F) v = v := rfl
theorem ofBuf_arg1 (v : (⟨S4x512x512x3, .i32⟩ : BufTy).Contents (Elt F)) :
    (TRef.of (T := ⟨S4x512x512x3, .i32⟩) main_arg1).ofBuf (Val := Elt F) v = v := rfl
theorem toBuf_v20 (v : (⟨S4x512x512x3, .i32⟩ : BufTy).Contents (Elt F)) :
    (TRef.of (T := ⟨S4x512x512x3, .i32⟩) main_v20).toBuf (Val := Elt F) v = v := rfl

/-- The ids with invalid pixels' zeroed, one level down: a select on the validity bits broadcast along the coordinate
    axis. -/
theorem stage20 (x1 : (⟨S4x512x512x3, .i32⟩ : BufTy).Contents (Elt F)) :
    val_main_v20 (F := F) x1 = select (broadcastInDim S4x512x512x3 ![0, 1, 2, 3] bcast_S4x512x512x1_S4x512x512x3_0_1_2_3 (broadcastInDim S4x512x512x1 ![0, 1, 2] bcast_S4x512x512_S4x512x512x1_0_1_2 (val_main_v5 (F := F) x1))) x1 (broadcastInDim S4x512x512x3 ![] bcast_S_S4x512x512x3 (id (constantI S_ 32 0#32))) := rfl

theorem seg3_v20 (V : Valuation τ sig (Elt F)) (x1 : (⟨S4x512x512x3, .i32⟩ : BufTy).Contents (Elt F)) (h1 : V (Proc.devRef .tc main_arg1) = x1) (h5 : V (Proc.devRef .tc main_v5) = val_main_v5 (F := F) x1) :
    after seg3 V (Proc.devRef .tc main_v20) = val_main_v20 (F := F) x1 := by
  rw [stage20 x1, ← h5, ← h1]
  after_results_simp
  simp only [ofBuf_c_2, toBuf_call0_v0, ofBuf_call0_v0, ofBuf_v19, toBuf_call0_v1, ofBuf_call0_v1, toBuf_call0_v2, ofBuf_call0_v2, ofBuf_arg1, toBuf_v20]

/-! ### Operations 30–32: the three reshapes to flat positions -/

theorem seg4_v21 (V : Valuation τ sig (Elt F)) (x1 : (⟨S4x512x512x3, .i32⟩ : BufTy).Contents (Elt F)) (h20 : V (Proc.devRef .tc main_v20) = val_main_v20 (F := F) x1) :
    after seg4 V (Proc.devRef .tc main_v21) = val_main_v21 (F := F) x1 := by
  after_results_simp
  rw [h20]
  rfl
theorem seg4_v22 (V : Valuation τ sig (Elt F)) (x0 : (⟨S8x4x512x512, .f32⟩ : BufTy).Contents (Elt F)) (x1 : (⟨S4x512x512x3, .i32⟩ : BufTy).Contents (Elt F)) (x2 : (⟨S4x512x512x3, .f32⟩ : BufTy).Contents (Elt F)) (h16 : V (Proc.devRef .tc main_v16) = val_main_v16 (F := F) x0 x1 x2) :
    after seg4 V (Proc.devRef .tc main_v22) = val_main_v22 (F := F) x0 x1 x2 := by
  after_results_simp
  rw [h16]
  rfl
theorem seg4_v23 (V : Valuation τ sig (Elt F)) (x0 : (⟨S8x4x512x512, .f32⟩ : BufTy).Contents (Elt F)) (x1 : (⟨S4x512x512x3, .i32⟩ : BufTy).Contents (Elt F)) (h18 : V (Proc.devRef .tc main_v18) = val_main_v18 (F := F) x0 x1) :
    after seg4 V (Proc.devRef .tc main_v23) = val_main_v23 (F := F) x0 x1 := by
  after_results_simp
  rw [h18]
  rfl

/-! ### Operations 33–44: the weighted scatter -/

theorem seg5_v32 (V : Valuation τ sig (Elt F)) (x0 : (⟨S8x4x512x512, .f32⟩ : BufTy).Contents (Elt F)) (x1 : (⟨S4x512x512x3, .i32⟩ : BufTy).Contents (Elt F)) (x2 : (⟨S4x512x512x3, .f32⟩ : BufTy).Contents (Elt F)) (h21 : V (Proc.devRef .tc main_v21) = val_main_v21 (F := F) x1)
    (h22 : V (Proc.devRef .tc main_v22) = val_main_v22 (F := F) x0 x1 x2) :
    after seg5 V (Proc.devRef .tc main_v32) = val_main_v32 (F := F) x0 x1 x2 := by
  after_results_simp
  rw [h21, h22]
  rfl
theorem seg5_keep_v21 (V : Valuation τ sig (Elt F)) :
    after seg5 V (Proc.devRef .tc main_v21) = V (Proc.devRef .tc main_v21) := by
  after_results_simp <;> rfl
theorem seg5_keep_v23 (V : Valuation τ sig (Elt F)) :
    after seg5 V (Proc.devRef .tc main_v23) = V (Proc.devRef .tc main_v23) := by
  after_results_simp <;> rfl

/-! ### Operations 45–56: the count scatter -/

theorem seg6_v41 (V : Valuation τ sig (Elt F)) (x0 : (⟨S8x4x512x512, .f32⟩ : BufTy).Contents (Elt F)) (x1 : (⟨S4x512x512x3, .i32⟩ : BufTy).Contents (Elt F)) (h21 : V (Proc.devRef .tc main_v21) = val_main_v21 (F := F) x1)
    (h23 : V (Proc.devRef .tc main_v23) = val_main_v23 (F := F) x0 x1) :
    after seg6 V (Proc.devRef .tc main_v41) = val_main_v41 (F := F) x0 x1 := by
  after_results_simp
  rw [h21, h23]
  rfl
theorem seg6_keep_v32 (V : Valuation τ sig (Elt F)) :
    after seg6 V (Proc.devRef .tc main_v32) = V (Proc.devRef .tc main_v32) := by
  after_results_simp <;> rfl

/-! ### Operations 57–71: the common tail -/

theorem seg7_v51 (V : Valuation τ sig (Elt Ideal)) :
    after (seg7 (F := Ideal)) V (Proc.devRef .tc main_v51) = Cert.Spec.tail (V (Proc.devRef .tc main_v32)) (V (Proc.devRef .tc main_v41)) := by
  after_results_simp <;> rfl

/-! ### The whole line -/

/-- The result buffer after all 71 operations: the common tail of the two scattered sums, each stage a function of
    the three arguments. -/
theorem after_ops (V : Valuation τ sig (Elt Ideal)) :
    after (ops (F := Ideal)) V (Proc.devRef .tc main_v51)
      = Cert.Spec.tail
          (val_main_v32 (F := Ideal) (V (Proc.devRef .tc main_arg0)) (V (Proc.devRef .tc main_arg1)) (V (Proc.devRef .tc main_arg2)))
          (val_main_v41 (F := Ideal) (V (Proc.devRef .tc main_arg0)) (V (Proc.devRef .tc main_arg1))) := by
  have split : (ops (F := Ideal) : List (HloOp τ sig (Elt Ideal)))
      = seg1 ++ (seg2 ++ (seg3 ++ (seg4 ++ (seg5 ++ (seg6 ++ seg7))))) := rfl
  rw [split, after_append, after_append, after_append, after_append, after_append, after_append]
  have k1_0 := seg1_keep_arg0 V
  have k1_1 := seg1_keep_arg1 V
  have k1_2 := seg1_keep_arg2 V
  have s1 := seg1_v5 V _ rfl
  generalize after seg1 V = W1 at k1_0 k1_1 k1_2 s1 ⊢
  have s2 := seg2_v11 W1 _ _ k1_0 s1
  have k2_1 := (seg2_keep_arg1 W1).trans k1_1
  have k2_2 := (seg2_keep_arg2 W1).trans k1_2
  have k2_5 := (seg2_keep_v5 W1).trans s1
  generalize after seg2 W1 = W2 at s2 k2_1 k2_2 k2_5 ⊢
  have s3_16 := seg3_v16 W2 _ _ _ k2_2 s2
  have s3_18 := seg3_v18 W2 _ _ s2
  have s3_20 := seg3_v20 W2 _ k2_1 k2_5
  generalize after seg3 W2 = W3 at s3_16 s3_18 s3_20 ⊢
  have s4_21 := seg4_v21 W3 _ s3_20
  have s4_22 := seg4_v22 W3 _ _ _ s3_16
  have s4_23 := seg4_v23 W3 _ _ s3_18
  generalize after seg4 W3 = W4 at s4_21 s4_22 s4_23 ⊢
  have s5_32 := seg5_v32 W4 _ _ _ s4_21 s4_22
  have k5_21 := (seg5_keep_v21 W4).trans s4_21
  have k5_23 := (seg5_keep_v23 W4).trans s4_23
  generalize after seg5 W4 = W5 at s5_32 k5_21 k5_23 ⊢
  have s6_41 := seg6_v41 W5 _ _ k5_21 k5_23
  have k6_32 := (seg6_keep_v32 W5).trans s5_32
  generalize after seg6 W5 = W6 at s6_41 k6_32 ⊢
  rw [seg7_v51, k6_32, s6_41]

/-- The run's result buffer: the common tail of the weighted scatter and the count scatter, whose operands are the
    stages read above. -/
theorem res_eq (m : (ℓ : Loc nD τ sig) → Buf (Elt Ideal) ℓ) (c : Dev nD) :
    after (ops (F := Ideal)) (launchContents m c) (Proc.devRef .tc main_v51)
      = Cert.Spec.tail
          (Host.scatterAdd scatter_S8x6890_S3145728x1_S8x3145728_0_1_1_1 (val_main_v31 (F := Ideal))
            (val_main_v30 (F := Ideal) (m ((c.tc : Thread nD τ).loc main_arg1)))
            (val_main_v22 (F := Ideal) (m ((c.tc : Thread nD τ).loc main_arg0)) (m ((c.tc : Thread nD τ).loc main_arg1)) (m ((c.tc : Thread nD τ).loc main_arg2))))
          (Host.scatterAdd scatter_S8x6890_S3145728x1_S8x3145728_0_1_1_1 (val_main_v40 (F := Ideal))
            (val_main_v39 (F := Ideal) (m ((c.tc : Thread nD τ).loc main_arg1)))
            (val_main_v23 (F := Ideal) (m ((c.tc : Thread nD τ).loc main_arg0)) (m ((c.tc : Thread nD τ).loc main_arg1)))) := by
  rw [after_ops]
  rfl

end Cert.ReferenceIdeal.RefValue

end
-- ==== Proof.BridgeRef.lean ====
import proofs.«153110_j51737176048098_1_alg».proof.Proof.Result
import proofs.«153110_j51737176048098_1_alg».proof.Proof.LibScatterSplit
import proofs.«153110_j51737176048098_1_alg».proof.Proof.RefStages
import proofs.«153110_j51737176048098_1_alg».proof.Proof.RefResult

set_option maxRecDepth 16384

noncomputable section

namespace Cert.Proof.Bridge

open Idealize.ShloMosaic Idealize.ShloMosaic.TcCoe Idealize.SL.Sem Idealize.ShloMosaic.ValueIdx
open Cert.Spec
open Cert.ReferenceIdeal Cert.ReferenceIdeal.Gen Cert.ReferenceIdeal.RefValue Cert.ReferenceIdeal.ReadP

/-! ## The reference's program ends with the common result

The reference adds, in one accumulating scatter, the updates of all (pixel, coordinate) pairs, pair 3p + k carrying
coordinate k of pixel p. A sum over the pairs landing on a vertex is the sum over k of the sums over the pixels whose
coordinate k lands there, so the one scatter is the three scatters, one per coordinate, done one after the other. -/

abbrev dR := Cert.ReferenceIdeal.scatter_S8x6890_S3145728x1_S8x3145728_0_1_1_1

theorem ref_sum (x0 : FVec Ideal ⟨4, ![8, 4, 512, 512]⟩ .f32) (x1 : IVec ⟨4, ![4, 512, 512, 3]⟩ 32)
    (x2 : FVec Ideal ⟨4, ![4, 512, 512, 3]⟩ .f32) :
    Host.scatterAdd dR (val_main_v31 (F := Ideal)) (val_main_v30 (F := Ideal) x1) (val_main_v22 (F := Ideal) x0 x1 x2)
      = sum3 x1 fun k => specW x0 x1 x2 k := by
  rw [ref_zero]
  show Ideal.hostScatterAdd dR zeros (val_main_v30 (F := Ideal) x1) (val_main_v22 (F := Ideal) x0 x1 x2) = _
  unfold sum3
  exact Cert.Lib.ScatterSplit.hostScatterAdd_interleave3_lit dK dR rfl rfl rfl rfl rfl rfl rfl rfl
    (val_main_v30 (F := Ideal) x1) (val_main_v22 (F := Ideal) x0 x1 x2) (fun k => specIdx x1 k) (fun k => specW x0 x1 x2 k)
    (fun p k => ref_idx x1 p k) (fun b p k => ref_w x0 x1 x2 b p k) zeros

theorem ref_cnt (x0 : FVec Ideal ⟨4, ![8, 4, 512, 512]⟩ .f32) (x1 : IVec ⟨4, ![4, 512, 512, 3]⟩ 32) :
    Host.scatterAdd dR (val_main_v40 (F := Ideal)) (val_main_v39 (F := Ideal) x1) (val_main_v23 (F := Ideal) x0 x1)
      = sum3 x1 fun _ => specE x0 x1 := by
  rw [ref_zero_count]
  show Ideal.hostScatterAdd dR zeros (val_main_v39 (F := Ideal) x1) (val_main_v23 (F := Ideal) x0 x1) = _
  unfold sum3
  exact Cert.Lib.ScatterSplit.hostScatterAdd_interleave3_lit dK dR rfl rfl rfl rfl rfl rfl rfl rfl
    (val_main_v39 (F := Ideal) x1) (val_main_v23 (F := Ideal) x0 x1) (fun k => specIdx x1 k) (fun _ => specE x0 x1)
    (fun p k => ref_idx_count x1 p k) (fun b p k => ref_e x0 x1 b p k) zeros

variable (m : (ℓ : Loc nD τ sig) → Buf (Elt Ideal) ℓ)

theorem reference_result (c : Dev nD) :
    StableHlo.after (ops (F := Ideal)) (StableHlo.launchContents m c) (Proc.devRef .tc main_v51)
      = result (m ((c.tc : Thread nD τ).loc main_arg0)) (m ((c.tc : Thread nD τ).loc main_arg1)) (m ((c.tc : Thread nD τ).loc main_arg2)) := by
  rw [res_eq, ref_sum, ref_cnt]
  rfl

end Cert.Proof.Bridge

end
-- ==== Proof.Bridge.lean ====
import proofs.«153110_j51737176048098_1_alg».proof.Defs
import proofs.«153110_j51737176048098_1_alg».proof.Proof.Gen.Pre_finite_inputs
import proofs.«153110_j51737176048098_1_alg».proof.Proof.BridgeKernel
import proofs.«153110_j51737176048098_1_alg».proof.Proof.BridgeRef

set_option maxRecDepth 16384

noncomputable section

namespace Cert.Proof.Bridge

open Idealize.ShloMosaic Idealize.ShloMosaic.TcCoe Idealize.SL.Sem

/-! ## Equal results from memories that agree on the arguments

The kernel's program, run by the pipeline's frame run, ends with the result buffer at what the later host lines
compute from the region's arrays, which is the common result of its own arguments; the reference's program ends with
the common result of its arguments; and the arguments agree. -/

theorem algebraic : Cert.algebraic_KernelIdeal_ReferenceIdeal := by
  intro m ρ m' ρ' _ hagree
  refine ⟨fun c => result (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)), ?_, ?_⟩
  · refine (θ_run Cert.KernelIdeal.defs _ _).mono (fun _ h c => ?_) (Cert.KernelIdeal.Hand.run_main (F := Ideal) m ρ)
    exact ⟨((h c).2 Cert.KernelIdeal.main_v62 (Pipeline.mem_restRefs_of Cert.KernelIdeal.main_v62 (by decide) (by decide))).trans (kernel_result m c),
      ((h c).1 0).trans (((Cert.KernelIdeal.Hand.dats m 0 c).arrAt_in 0 rfl _).trans ((Cert.KernelIdeal.Hand.A_eq m c 0).trans (Cert.KernelIdeal.Hand.V_main_arg0 m c))),
      ((h c).2 Cert.KernelIdeal.main_arg1 (Pipeline.mem_restRefs_of Cert.KernelIdeal.main_arg1 (by decide) (by decide))).trans (Cert.KernelIdeal.Hand.W_main_arg1 m (Cert.KernelIdeal.Hand.dats m) c),
      ((h c).2 Cert.KernelIdeal.main_arg2 (Pipeline.mem_restRefs_of Cert.KernelIdeal.main_arg2 (by decide) (by decide))).trans (Cert.KernelIdeal.Hand.W_main_arg2 m (Cert.KernelIdeal.Hand.dats m) c)⟩
  · refine (θ_run Cert.ReferenceIdeal.defs _ _).mono (fun _ h c => ⟨?_, (h c).2⟩) (Cert.ReferenceIdeal.RefValue.run (F := Ideal) m' ρ')
    rw [(h c).1, reference_result m' c, (hagree c).1, (hagree c).2.1, (hagree c).2.2]

end Cert.Proof.Bridge

end
-- ==== Proof.lean ====
/- The certificate: the kernel's program and the reference compute the same array of extended reals.

   The kernel masks every pixel of every view (the segmentation value above 0.3 and all three vertex ids in range),
   multiplies the mask by the pixel's three barycentric weights, and replaces the vertex ids of invalid pixels by
   zero; the host then adds, vertex by vertex, the weighted masks (and, separately, the masks) of the pixels whose id
   is that vertex — three accumulating scatters, one per coordinate — divides the first sum by the second where the
   second is positive, and thresholds at 0.3. The reference does the same with ONE accumulating scatter over the
   interleaved (pixel, coordinate) pairs. A sum over the pairs landing on a vertex is the sum over the coordinates of
   the sums over the pixels landing there, and extended-real addition is commutative and associative, so the two
   results agree on all inputs; finiteness of the inputs is not used.

   Each program also runs to its end without a fault and leaves its arguments unchanged: for the kernel (as printed
   and idealized alike) this is the pipeline's frame run with the body run at every grid point, followed by the host
   lines; for the reference it is the host program's run. The ideal pass rewrote nothing, so the idealized kernel is
   the printed one read over extended reals. -/
import proofs.«153110_j51737176048098_1_alg».proof.Defs
import proofs.«153110_j51737176048098_1_alg».proof.Proof.Gen.Kernel
import proofs.«153110_j51737176048098_1_alg».proof.Proof.Gen.KernelIdeal
import proofs.«153110_j51737176048098_1_alg».proof.Proof.Gen.ReferenceIdeal
import proofs.«153110_j51737176048098_1_alg».proof.Proof.Gen.Pre_finite_inputs
import proofs.«153110_j51737176048098_1_alg».proof.Proof.KernelFrame
import proofs.«153110_j51737176048098_1_alg».proof.Proof.KernelIdealFrame
import proofs.«153110_j51737176048098_1_alg».proof.Proof.RefRun
import proofs.«153110_j51737176048098_1_alg».proof.Proof.Bridge
import Idealize.ShloMosaic.Adequacy
import Idealize.ShloMosaic.Init

noncomputable section

namespace Cert.Proof

open Idealize.ShloMosaic Idealize.SL.Sem

theorem frame_kernel : Cert.frame_Kernel := fun m ρ _ => Cert.Kernel.Hand.frame m ρ

theorem frame_kernelIdeal : Cert.frame_KernelIdeal := fun m ρ _ => Cert.KernelIdeal.Hand.frame m ρ

theorem frame_referenceIdeal : Cert.frame_ReferenceIdeal := fun m ρ _ =>
  (θ_run Cert.ReferenceIdeal.defs _ _).mono (fun _ h c => (h c).2) (Cert.ReferenceIdeal.RefValue.run (F := Ideal) m ρ)

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, Cert.Proof.Bridge.algebraic⟩

end Cert.Proof

end
